-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S320000x16 : Shape := ⟨2, ![320000, 16]⟩
abbrev S1x64 : Shape := ⟨2, ![1, 64]⟩
abbrev S10000 : Shape := ⟨1, ![10000]⟩
abbrev S144x64 : Shape := ⟨2, ![144, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S1x64 : S_.BroadcastsInDim S1x64 (![] : Fin 0 → Fin S1x64.rank)
  reducesTo_S1x64_S_d0_1 : S1x64.ReducesTo [0, 1] S_
  bcast_S_S144x64 : S_.BroadcastsInDim S144x64 (![] : Fin 0 → Fin S144x64.rank)
  reducesTo_S144x64_S_d0_1 : S144x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S2x320000 : S_.BroadcastsInDim S2x320000 (![] : Fin 0 → Fin S2x320000.rank)
  reducesTo_S2x320000_S_d0_1 : S2x320000.ReducesTo [0, 1] S_
  bcast_S_S10000 : S_.BroadcastsInDim S10000 (![] : Fin 0 → Fin S10000.rank)
  reducesTo_S10000_S_d0 : S10000.ReducesTo [0] S_

variable [Facts]

def fn_part2 {F : FTy → Type} [FloatOps F] (main_arg1 : IVec S2x320000 32) (main_arg4 : IVec S10000 32) (main_v33 : IVec S_ 1) : IVec S_ 1 :=
  let main_c_12 : IVec S_ 32 := constantI S_ 32 0#32
  let main_v34 : IVec S2x320000 32 := broadcastInDim S2x320000 ![] bcast_S_S2x320000 main_c_12
  let main_v35 : IVec S2x320000 1 := cmpi .sge main_arg1 main_v34
  let main_c_13 : IVec S_ 32 := constantI S_ 32 9999#32
  let main_v36 : IVec S2x320000 32 := broadcastInDim S2x320000 ![] bcast_S_S2x320000 main_c_13
  let main_v37 : IVec S2x320000 1 := cmpi .sle main_arg1 main_v36
  let main_v38 : IVec S2x320000 1 := andi main_v35 main_v37
  let main_c_14 : IVec S_ 1 := constantI S_ 1 1#1
  let main_v39 : IVec S_ 1 := (fun x v => Host.reduce IntOp.andi x v reducesTo_S2x320000_S_d0_1 h_S_) main_v38 main_c_14
  let main_v40 : IVec S_ 1 := andi main_v33 main_v39
  let main_c_15 : IVec S_ 32 := constantI S_ 32 0#32
  let main_v41 : IVec S10000 32 := broadcastInDim S10000 ![] bcast_S_S10000 main_c_15
  let main_v42 : IVec S10000 1 := cmpi .sge main_arg4 main_v41
  let main_c_16 : IVec S_ 32 := constantI S_ 32 0#32
  let main_v43 : IVec S10000 32 := broadcastInDim S10000 ![] bcast_S_S10000 main_c_16
  let main_v44 : IVec S10000 1 := cmpi .sle main_arg4 main_v43
  let main_v45 : IVec S10000 1 := andi main_v42 main_v44
  let main_c_17 : IVec S_ 1 := constantI S_ 1 1#1
  let main_v46 : IVec S_ 1 := (fun x v => Host.reduce IntOp.andi x v reducesTo_S10000_S_d0 h_S_) main_v45 main_c_17
  let main_v47 : IVec S_ 1 := andi main_v40 main_v46
  main_v47

def fn_part1 {F : FTy → Type} [FloatOps F] (main_arg1 : IVec S2x320000 32) (main_arg4 : IVec S10000 32) (main_arg6 : FVec F S64 .f32) (main_arg7 : FVec F S64x128 .f32) (main_arg8 : FVec F S128 .f32) (main_v13 : IVec S_ 1) (main_v16 : IVec S144x64 1) : IVec S_ 1 :=
  let main_c_5 : IVec S_ 1 := constantI S_ 1 1#1
  let main_v17 : IVec S_ 1 := (fun x v => Host.reduce IntOp.andi x v reducesTo_S144x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg4 main_v33

def fn {F : FTy → Type} [FloatOps F] (main_arg0 : FVec F S10000x128 .f32) (main_arg1 : IVec S2x320000 32) (main_arg2 : FVec F S320000x16 .f32) (main_arg3 : FVec F S1x64 .f32) (main_arg4 : IVec S10000 32) (main_arg5 : FVec F S144x64 .f32) (main_arg6 : FVec F S64 .f32) (main_arg7 : FVec F S64x128 .f32) (main_arg8 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x16 .f32 := Host.absf main_arg2
  let main_cst_0 : FVec F S_ .f32 := constant S_ .f32 0x7F800000#32
  let main_v5 : FVec F S320000x16 .f32 := broadcastInDim S320000x16 ![] bcast_S_S320000x16 main_cst_0
  let main_v6 : IVec S320000x16 1 := cmpf .olt main_v4 main_v5
  let main_c_1 : IVec S_ 1 := constantI S_ 1 1#1
  let main_v7 : IVec S_ 1 := (fun x v => Host.reduce IntOp.andi x v reducesTo_S320000x16_S_d0_1 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S144x64 .f32 := Host.absf main_arg5
  let main_cst_4 : FVec F S_ .f32 := constant S_ .f32 0x7F800000#32
  let main_v15 : FVec F S144x64 .f32 := broadcastInDim S144x64 ![] bcast_S_S144x64 main_cst_4
  let main_v16 : IVec S144x64 1 := cmpf .olt main_v14 main_v15
  fn_part1 (F := F) main_arg1 main_arg4 main_arg6 main_arg7 main_arg8 main_v13 main_v16
-- ==== Kernel.lean ====
abbrev S10000x128 : Shape := ⟨2, ![10000, 128]⟩
abbrev S2x320000 : Shape := ⟨2, ![2, 320000]⟩
abbrev S320000x16 : Shape := ⟨2, ![320000, 16]⟩
abbrev S1x64 : Shape := ⟨2, ![1, 64]⟩
abbrev S10000 : Shape := ⟨1, ![10000]⟩
abbrev S144x64 : Shape := ⟨2, ![144, 64]⟩
abbrev S64 : Shape := ⟨1, ![64]⟩
abbrev S64x128 : Shape := ⟨2, ![64, 128]⟩
abbrev S128 : Shape := ⟨1, ![128]⟩
abbrev S16x320000 : Shape := ⟨2, ![16, 320000]⟩
abbrev S2x16x10240 : Shape := ⟨3, ![2, 16, 10240]⟩
abbrev S3200 : Shape := ⟨1, ![3200]⟩
abbrev S2x3200 : Shape := ⟨2, ![2, 3200]⟩
abbrev S2x10112 : Shape := ⟨2, ![2, 10112]⟩
abbrev S10240 : Shape := ⟨1, ![10240]⟩
abbrev S_ : Shape := ⟨0, ![]⟩
abbrev S16 : Shape := ⟨1, ![16]⟩
abbrev S1x3200 : Shape := ⟨2, ![1, 3200]⟩
abbrev S1x16 : Shape := ⟨2, ![1, 16]⟩
abbrev S1x1x10240 : Shape := ⟨3, ![1, 1, 10240]⟩
abbrev S128x64 : Shape := ⟨2, ![128, 64]⟩
abbrev S16x64 : Shape := ⟨2, ![16, 64]⟩
abbrev S1x128 : Shape := ⟨2, ![1, 128]⟩
abbrev S2048x128 : Shape := ⟨2, ![2048, 128]⟩
abbrev S2x16x2048 : Shape := ⟨3, ![2, 16, 2048]⟩
abbrev S1x16x2048 : Shape := ⟨3, ![1, 16, 2048]⟩
abbrev S16x2048 : Shape := ⟨2, ![16, 2048]⟩
abbrev S2048 : Shape := ⟨1, ![2048]⟩
abbrev S1x2048 : Shape := ⟨2, ![1, 2048]⟩
abbrev S2048x64 : Shape := ⟨2, ![2048, 64]⟩

abbrev nBuf : Table → Nat
  | .hbm => 17
  | .local .tc .vmem => 13
  | .local .scVector .vmem => 7
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S320000x16, .f32⟩
  | .hbm, ⟨3, _⟩ => ⟨S1x64, .f32⟩
  | .hbm, ⟨4, _⟩ => ⟨S10000, .i32⟩
  | .hbm, ⟨5, _⟩ => ⟨S144x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S16x320000, .f32⟩
  | .hbm, ⟨10, _⟩ => ⟨S2x16x10240, .f32⟩
  | .hbm, ⟨11, _⟩ => ⟨S2x16x10240, .f32⟩
  | .hbm, ⟨12, _⟩ => ⟨S128x64, .f32⟩
  | .hbm, ⟨13, _⟩ => ⟨S16x64, .f32⟩
  | .hbm, ⟨14, _⟩ => ⟨S1x64, .f32⟩
  | .hbm, ⟨15, _⟩ => ⟨S1x128, .f32⟩
  | .hbm, ⟨16, _⟩ => ⟨S10000x128, .f32⟩
  | .local .tc .vmem, ⟨0, _⟩ => ⟨S2048x128, .f32⟩
  | .local .tc .vmem, ⟨1, _⟩ => ⟨S2048x128, .f32⟩
  | .local .tc .vmem, ⟨2, _⟩ => ⟨S2x16x2048, .f32⟩
  | .local .tc .vmem, ⟨3, _⟩ => ⟨S2x16x2048, .f32⟩
  | .local .tc .vmem, ⟨4, _⟩ => ⟨S2x16x2048, .f32⟩
  | .local .tc .vmem, ⟨5, _⟩ => ⟨S2x16x2048, .f32⟩
  | .local .tc .vmem, ⟨6, _⟩ => ⟨S128x64, .f32⟩
  | .local .tc .vmem, ⟨7, _⟩ => ⟨S16x64, .f32⟩
  | .local .tc .vmem, ⟨8, _⟩ => ⟨S1x64, .f32⟩
  | .local .tc .vmem, ⟨9, _⟩ => ⟨S64x128, .f32⟩
  | .local .tc .vmem, ⟨10, _⟩ => ⟨S1x128, .f32⟩
  | .local .tc .vmem, ⟨11, _⟩ => ⟨S2048x128, .f32⟩
  | .local .tc .vmem, ⟨12, _⟩ => ⟨S2048x128, .f32⟩
  | .local .scVector .vmem, ⟨0, _⟩ => ⟨S3200, .f32⟩
  | .local .scVector .vmem, ⟨1, _⟩ => ⟨S3200, .f32⟩
  | .local .scVector .vmem, ⟨2, _⟩ => ⟨S2x3200, .i32⟩
  | .local .scVector .vmem, ⟨3, _⟩ => ⟨S2x3200, .i32⟩
  | .local .scVector .vmem, ⟨4, _⟩ => ⟨S2x10112, .i32⟩
  | .local .scVector .vmem, ⟨5, _⟩ => ⟨S10240, .f32⟩
  | .local .scVector .vmem, ⟨6, _⟩ => ⟨S10240, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v0_scv : Ref sig .scVector := ⟨.hbm, 9, rfl⟩
abbrev main_arg1_scv : Ref sig .scVector := ⟨.hbm, 1, rfl⟩
abbrev main_v1_0_scv : Ref sig .scVector := ⟨.hbm, 10, rfl⟩
abbrev main_v1_1_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg8_1 : Ref sig .tc := ⟨.vmem, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c640_i32 : BitVec 32 := 640#32
  let v3 : BitVec 32 := Scalar.addi c0_i32_1 c640_i32
  let c1_i32 : BitVec 32 := 1#32
  ⟨c0_i32_1, v3, c1_i32⟩
def k0_off1 (k0_t1 : Fin k0_t1_loop.trips) : Fin 1 → Nat :=
  let c0_i32_1 : BitVec 32 := 0#32
  let c1_i32 : BitVec 32 := 1#32
  let arg17 : BitVec 32 := Scf.iv c0_i32_1 c1_i32 k0_t1
  let c16_i32 : BitVec 32 := 16#32
  let v36 : BitVec 32 := Scalar.muli arg17 c16_i32
  let v37 : Index := Scalar.indexCast v36
  ![v37.toNat]
def k0_off2 (i : grid0.Coords) (c0_i32_3 : BitVec 32) : Fin 2 → Nat :=
  let arg1 : BitVec 32 := BitVec.ofNat 32 (i 1).val
  let arg0 : BitVec 32 := BitVec.ofNat 32 (i 0).val
  let c160000_i32 : BitVec 32 := 160000#32
  let v2 : BitVec 32 := Scalar.muli arg0 c160000_i32
  let v4 : BitVec 32 := Scalar.addi v2 c0_i32_3
  ![arg1.toNat, v4.toNat]
def k0_off3 (i : grid0.Coords) (c0_i32_4 : BitVec 32) : Fin 2 → Nat :=
  let c0_i32_5 : BitVec 32 := 0#32
  let arg0 : BitVec 32 := BitVec.ofNat 32 (i 0).val
  let c160000_i32 : BitVec 32 := 160000#32
  let v2 : BitVec 32 := Scalar.muli arg0 c160000_i32
  let v9 : BitVec 32 := Scalar.addi v2 c0_i32_4
  ![0, v9.toNat]
def k0_off4 (i : grid0.Coords) : Fin 2 → Nat :=
  let c0_i32_22_r0 : BitVec 32 := 0#32
  let c78_i32_10 : BitVec 32 := 78#32
  let arg1 : BitVec 32 := BitVec.ofNat 32 (i 1).val
  let c2_i32 : BitVec 32 := 2#32
  let v20 : BitVec 32 := Scalar.muli arg1 c2_i32
  let arg0 : BitVec 32 := BitVec.ofNat 32 (i 0).val
  let v21 : BitVec 32 := Scalar.addi v20 arg0
  let v25 : BitVec 32 := Scalar.muli c78_i32_10 v21
  let c28_i32_11 : BitVec 32 := 28#32
  let v26 : BitVec 32 := Scalar.subi v21 c28_i32_11
  let c0_i32_12 : BitVec 32 := 0#32
  let v27 : BitVec 32 := Scalar.maxsi v26 c0_i32_12
  let v28 : BitVec 32 := Scalar.addi v25 v27
  let c128_i32 : BitVec 32 := 128#32
  let v29 : BitVec 32 := Scalar.muli v28 c128_i32
  ![0, v29.toNat]
@[reducible] def k0_t2_loop (i : grid0.Coords) : Scf.Loop 32 :=
  let c0_i32_14 : BitVec 32 := 0#32
  let c78_i32 : BitVec 32 := 78#32
  let arg1 : BitVec 32 := BitVec.ofNat 32 (i 1).val
  let c2_i32 : BitVec 32 := 2#32
  let v20 : BitVec 32 := Scalar.muli arg1 c2_i32
  let arg0 : BitVec 32 := BitVec.ofNat 32 (i 0).val
  let v21 : BitVec 32 := Scalar.addi v20 arg0
  let c28_i32 : BitVec 32 := 28#32
  let v22 : BitVec 1 := Scalar.cmpi .sge v21 c28_i32
  let v23 : BitVec 32 := Scalar.extui v22
  let v24 : BitVec 32 := Scalar.addi c78_i32 v23
  let v30 : BitVec 32 := Scalar.subi v24 c0_i32_14
  let c1_i32_15 : BitVec 32 := 1#32
  let v32 : BitVec 32 := Scalar.divsi v30 c1_i32_15
  let v33 : BitVec 32 := Scalar.muli v32 c1_i32_15
  let v34 : BitVec 32 := Scalar.addi c0_i32_14 v33
  let c1_i32_16 : BitVec 32 := 1#32
  ⟨c0_i32_14, v34, c1_i32_16⟩
def k0_off5 (i : grid0.Coords) (k0_t2 : Fin (k0_t2_loop i).trips) (c0_i32_22 : BitVec 32) : Fin 2 → Nat :=
  let c1_i32_23 : BitVec 32 := 1#32
  let v39 : Index := Scalar.indexCast c1_i32_23
  let c0_i32_14 : BitVec 32 := 0#32
  let c1_i32_16 : BitVec 32 := 1#32
  let arg17 : BitVec 32 := Scf.iv c0_i32_14 c1_i32_16 k0_t2
  let c8_i32 : BitVec 32 := 8#32
  let v36 : BitVec 32 := Scalar.muli arg17 c8_i32
  let v37 : BitVec 32 := Scalar.addi v36 c0_i32_22
  let c16_i32 : BitVec 32 := 16#32
  let v38 : BitVec 32 := Scalar.muli v37 c16_i32
  let v40 : Index := Scalar.indexCast v38
  ![1, v40.toNat]

def k0_chk1 (v41 : IVec S16 32) : Prop :=
  (∀ a x, ((![v41] : Fin 1 → IVec S16 32) a x).toNat < S10240.size a)
instance k0_chk1.dec : ∀ (v41 : IVec S16 32), Decidable (k0_chk1 v41) := fun v41 => decidable_of_iff' _ (Iff.of_eq (k0_chk1.eq_1 v41))
theorem k0_idx1_inb : ∀ (v41 : IVec S16 32) (k0_hw1 : k0_chk1 v41), ∀ a x, ((![v41] : Fin 1 → IVec S16 32) a x).toNat < S10240.size a := fun v41 k0_hw1 => k0_hw1

def k0_chk2 (v47 : IVec S16 32) : Prop :=
  (∀ a x, ((![v47] : Fin 1 → IVec S16 32) a x).toNat < S10240.size a)
instance k0_chk2.dec : ∀ (v47 : IVec S16 32), Decidable (k0_chk2 v47) := fun v47 => decidable_of_iff' _ (Iff.of_eq (k0_chk2.eq_1 v47))
theorem k0_idx2_inb : ∀ (v47 : IVec S16 32) (k0_hw2 : k0_chk2 v47), ∀ a x, ((![v47] : Fin 1 → IVec S16 32) a x).toNat < S10240.size a := fun v47 k0_hw2 => k0_hw2

def k0_chk3 (v53 : IVec S16 32) : Prop :=
  (∀ a x, ((![v53] : Fin 1 → IVec S16 32) a x).toNat < S10240.size a)
instance k0_chk3.dec : ∀ (v53 : IVec S16 32), Decidable (k0_chk3 v53) := fun v53 => decidable_of_iff' _ (Iff.of_eq (k0_chk3.eq_1 v53))
theorem k0_idx3_inb : ∀ (v53 : IVec S16 32) (k0_hw3 : k0_chk3 v53), ∀ a x, ((![v53] : Fin 1 → IVec S16 32) a x).toNat < S10240.size a := fun v53 k0_hw3 => k0_hw3

def k0_chk4 (v59 : IVec S16 32) : Prop :=
  (∀ a x, ((![v59] : Fin 1 → IVec S16 32) a x).toNat < S10240.size a)
instance k0_chk4.dec : ∀ (v59 : IVec S16 32), Decidable (k0_chk4 v59) := fun v59 => decidable_of_iff' _ (Iff.of_eq (k0_chk4.eq_1 v59))
theorem k0_idx4_inb : ∀ (v59 : IVec S16 32) (k0_hw4 : k0_chk4 v59), ∀ a x, ((![v59] : Fin 1 → IVec S16 32) a x).toNat < S10240.size a := fun v59 k0_hw4 => k0_hw4

def k0_chk5 (v65 : IVec S16 32) : Prop :=
  (∀ a x, ((![v65] : Fin 1 → IVec S16 32) a x).toNat < S10240.size a)
instance k0_chk5.dec : ∀ (v65 : IVec S16 32), Decidable (k0_chk5 v65) := fun v65 => decidable_of_iff' _ (Iff.of_eq (k0_chk5.eq_1 v65))
theorem k0_idx5_inb : ∀ (v65 : IVec S16 32) (k0_hw5 : k0_chk5 v65), ∀ a x, ((![v65] : Fin 1 → IVec S16 32) a x).toNat < S10240.size a := fun v65 k0_hw5 => k0_hw5

def k0_chk6 (v71 : IVec S16 32) : Prop :=
  (∀ a x, ((![v71] : Fin 1 → IVec S16 32) a x).toNat < S10240.size a)
instance k0_chk6.dec : ∀ (v71 : IVec S16 32), Decidable (k0_chk6 v71) := fun v71 => decidable_of_iff' _ (Iff.of_eq (k0_chk6.eq_1 v71))
theorem k0_idx6_inb : ∀ (v71 : IVec S16 32) (k0_hw6 : k0_chk6 v71), ∀ a x, ((![v71] : Fin 1 → IVec S16 32) a x).toNat < S10240.size a := fun v71 k0_hw6 => k0_hw6

def k0_chk7 (v77 : IVec S16 32) : Prop :=
  (∀ a x, ((![v77] : Fin 1 → IVec S16 32) a x).toNat < S10240.size a)
instance k0_chk7.dec : ∀ (v77 : IVec S16 32), Decidable (k0_chk7 v77) := fun v77 => decidable_of_iff' _ (Iff.of_eq (k0_chk7.eq_1 v77))
theorem k0_idx7_inb : ∀ (v77 : IVec S16 32) (k0_hw7 : k0_chk7 v77), ∀ a x, ((![v77] : Fin 1 → IVec S16 32) a x).toNat < S10240.size a := fun v77 k0_hw7 => k0_hw7

def k0_chk8 (v83 : IVec S16 32) : Prop :=
  (∀ a x, ((![v83] : Fin 1 → IVec S16 32) a x).toNat < S10240.size a)
instance k0_chk8.dec : ∀ (v83 : IVec S16 32), Decidable (k0_chk8 v83) := fun v83 => decidable_of_iff' _ (Iff.of_eq (k0_chk8.eq_1 v83))
theorem k0_idx8_inb : ∀ (v83 : IVec S16 32) (k0_hw8 : k0_chk8 v83), ∀ a x, ((![v83] : Fin 1 → IVec S16 32) a x).toNat < S10240.size a := fun v83 k0_hw8 => k0_hw8
@[reducible] def k0_t3_loop (i : grid0.Coords) : Scf.Loop 32 :=
  let c0_i32_14 : BitVec 32 := 0#32
  let c78_i32 : BitVec 32 := 78#32
  let arg1 : BitVec 32 := BitVec.ofNat 32 (i 1).val
  let c2_i32 : BitVec 32 := 2#32
  let v20 : BitVec 32 := Scalar.muli arg1 c2_i32
  let arg0 : BitVec 32 := BitVec.ofNat 32 (i 0).val
  let v21 : BitVec 32 := Scalar.addi v20 arg0
  let c28_i32 : BitVec 32 := 28#32
  let v22 : BitVec 1 := Scalar.cmpi .sge v21 c28_i32
  let v23 : BitVec 32 := Scalar.extui v22
  let v24 : BitVec 32 := Scalar.addi c78_i32 v23
  let v30 : BitVec 32 := Scalar.subi v24 c0_i32_14
  let c1_i32_15 : BitVec 32 := 1#32
  let v32 : BitVec 32 := Scalar.divsi v30 c1_i32_15
  let v33 : BitVec 32 := Scalar.muli v32 c1_i32_15
  let v34 : BitVec 32 := Scalar.addi c0_i32_14 v33
  let v31 : BitVec 32 := Scalar.addi c0_i32_14 v30
  let c1_i32_17 : BitVec 32 := 1#32
  ⟨v34, v31, c1_i32_17⟩
def k0_off6 (i : grid0.Coords) (k0_t3 : Fin (k0_t3_loop i).trips) (c0_i32_22 : BitVec 32) : Fin 2 → Nat :=
  let c1_i32_23 : BitVec 32 := 1#32
  let v39 : Index := Scalar.indexCast c1_i32_23
  let c0_i32_14 : BitVec 32 := 0#32
  let c78_i32 : BitVec 32 := 78#32
  let arg1 : BitVec 32 := BitVec.ofNat 32 (i 1).val
  let c2_i32 : BitVec 32 := 2#32
  let v20 : BitVec 32 := Scalar.muli arg1 c2_i32
  let arg0 : BitVec 32 := BitVec.ofNat 32 (i 0).val
  let v21 : BitVec 32 := Scalar.addi v20 arg0
  let c28_i32 : BitVec 32 := 28#32
  let v22 : BitVec 1 := Scalar.cmpi .sge v21 c28_i32
  let v23 : BitVec 32 := Scalar.extui v22
  let v24 : BitVec 32 := Scalar.addi c78_i32 v23
  let v30 : BitVec 32 := Scalar.subi v24 c0_i32_14
  let c1_i32_15 : BitVec 32 := 1#32
  let v32 : BitVec 32 := Scalar.divsi v30 c1_i32_15
  let v33 : BitVec 32 := Scalar.muli v32 c1_i32_15
  let v34 : BitVec 32 := Scalar.addi c0_i32_14 v33
  let c1_i32_17 : BitVec 32 := 1#32
  let arg17 : BitVec 32 := Scf.iv v34 c1_i32_17 k0_t3
  let c8_i32 : BitVec 32 := 8#32
  let v36 : BitVec 32 := Scalar.muli arg17 c8_i32
  let v37 : BitVec 32 := Scalar.addi v36 c0_i32_22
  let c16_i32 : BitVec 32 := 16#32
  let v38 : BitVec 32 := Scalar.muli v37 c16_i32
  let v40 : Index := Scalar.indexCast v38
  ![1, v40.toNat]

def k0_chk9 (v41 : IVec S16 32) : Prop :=
  (∀ a x, ((![v41] : Fin 1 → IVec S16 32) a x).toNat < S10240.size a)
instance k0_chk9.dec : ∀ (v41 : IVec S16 32), Decidable (k0_chk9 v41) := fun v41 => decidable_of_iff' _ (Iff.of_eq (k0_chk9.eq_1 v41))
theorem k0_idx9_inb : ∀ (v41 : IVec S16 32) (k0_hw9 : k0_chk9 v41), ∀ a x, ((![v41] : Fin 1 → IVec S16 32) a x).toNat < S10240.size a := fun v41 k0_hw9 => k0_hw9

def k0_chk10 (v47 : IVec S16 32) : Prop :=
  (∀ a x, ((![v47] : Fin 1 → IVec S16 32) a x).toNat < S10240.size a)
instance k0_chk10.dec : ∀ (v47 : IVec S16 32), Decidable (k0_chk10 v47) := fun v47 => decidable_of_iff' _ (Iff.of_eq (k0_chk10.eq_1 v47))
theorem k0_idx10_inb : ∀ (v47 : IVec S16 32) (k0_hw10 : k0_chk10 v47), ∀ a x, ((![v47] : Fin 1 → IVec S16 32) a x).toNat < S10240.size a := fun v47 k0_hw10 => k0_hw10

def k0_chk11 (v53 : IVec S16 32) : Prop :=
  (∀ a x, ((![v53] : Fin 1 → IVec S16 32) a x).toNat < S10240.size a)
instance k0_chk11.dec : ∀ (v53 : IVec S16 32), Decidable (k0_chk11 v53) := fun v53 => decidable_of_iff' _ (Iff.of_eq (k0_chk11.eq_1 v53))
theorem k0_idx11_inb : ∀ (v53 : IVec S16 32) (k0_hw11 : k0_chk11 v53), ∀ a x, ((![v53] : Fin 1 → IVec S16 32) a x).toNat < S10240.size a := fun v53 k0_hw11 => k0_hw11

def k0_chk12 (v59 : IVec S16 32) : Prop :=
  (∀ a x, ((![v59] : Fin 1 → IVec S16 32) a x).toNat < S10240.size a)
instance k0_chk12.dec : ∀ (v59 : IVec S16 32), Decidable (k0_chk12 v59) := fun v59 => decidable_of_iff' _ (Iff.of_eq (k0_chk12.eq_1 v59))
theorem k0_idx12_inb : ∀ (v59 : IVec S16 32) (k0_hw12 : k0_chk12 v59), ∀ a x, ((![v59] : Fin 1 → IVec S16 32) a x).toNat < S10240.size a := fun v59 k0_hw12 => k0_hw12

def k0_chk13 (v65 : IVec S16 32) : Prop :=
  (∀ a x, ((![v65] : Fin 1 → IVec S16 32) a x).toNat < S10240.size a)
instance k0_chk13.dec : ∀ (v65 : IVec S16 32), Decidable (k0_chk13 v65) := fun v65 => decidable_of_iff' _ (Iff.of_eq (k0_chk13.eq_1 v65))
theorem k0_idx13_inb : ∀ (v65 : IVec S16 32) (k0_hw13 : k0_chk13 v65), ∀ a x, ((![v65] : Fin 1 → IVec S16 32) a x).toNat < S10240.size a := fun v65 k0_hw13 => k0_hw13

def k0_chk14 (v71 : IVec S16 32) : Prop :=
  (∀ a x, ((![v71] : Fin 1 → IVec S16 32) a x).toNat < S10240.size a)
instance k0_chk14.dec : ∀ (v71 : IVec S16 32), Decidable (k0_chk14 v71) := fun v71 => decidable_of_iff' _ (Iff.of_eq (k0_chk14.eq_1 v71))
theorem k0_idx14_inb : ∀ (v71 : IVec S16 32) (k0_hw14 : k0_chk14 v71), ∀ a x, ((![v71] : Fin 1 → IVec S16 32) a x).toNat < S10240.size a := fun v71 k0_hw14 => k0_hw14

def k0_chk15 (v77 : IVec S16 32) : Prop :=
  (∀ a x, ((![v77] : Fin 1 → IVec S16 32) a x).toNat < S10240.size a)
instance k0_chk15.dec : ∀ (v77 : IVec S16 32), Decidable (k0_chk15 v77) := fun v77 => decidable_of_iff' _ (Iff.of_eq (k0_chk15.eq_1 v77))
theorem k0_idx15_inb : ∀ (v77 : IVec S16 32) (k0_hw15 : k0_chk15 v77), ∀ a x, ((![v77] : Fin 1 → IVec S16 32) a x).toNat < S10240.size a := fun v77 k0_hw15 => k0_hw15

def k0_chk16 (v83 : IVec S16 32) : Prop :=
  (∀ a x, ((![v83] : Fin 1 → IVec S16 32) a x).toNat < S10240.size a)
instance k0_chk16.dec : ∀ (v83 : IVec S16 32), Decidable (k0_chk16 v83) := fun v83 => decidable_of_iff' _ (Iff.of_eq (k0_chk16.eq_1 v83))
theorem k0_idx16_inb : ∀ (v83 : IVec S16 32) (k0_hw16 : k0_chk16 v83), ∀ a x, ((![v83] : Fin 1 → IVec S16 32) a x).toNat < S10240.size a := fun v83 k0_hw16 => k0_hw16
@[reducible] def k0_t4_loop : Scf.Loop 32 :=
  let c0_i32_19 : BitVec 32 := 0#32
  let c25_i32 : BitVec 32 := 25#32
  let v35 : BitVec 32 := Scalar.addi c0_i32_19 c25_i32
  let c1_i32_20 : BitVec 32 := 1#32
  ⟨c0_i32_19, v35, c1_i32_20⟩
def k0_off7 (i : grid0.Coords) : Fin 2 → Nat :=
  let arg1 : BitVec 32 := BitVec.ofNat 32 (i 1).val
  let c0_i32_24 : BitVec 32 := 0#32
  ![arg1.toNat, 0]
@[reducible] def k0_t5_loop : Scf.Loop 32 :=
  let c0_i32_31 : BitVec 32 := 0#32
  let c25_i32_32 : BitVec 32 := 25#32
  let v44 : BitVec 32 := Scalar.addi c0_i32_31 c25_i32_32
  let c1_i32_33 : BitVec 32 := 1#32
  ⟨c0_i32_31, v44, c1_i32_33⟩
def k0_off8 (k0_t5 : Fin k0_t5_loop.trips) (c0_i32_53 : BitVec 32) : Fin 2 → Nat :=
  let c1_i32_54 : BitVec 32 := 1#32
  let v65 : Index := Scalar.indexCast c1_i32_54
  let c0_i32_31 : BitVec 32 := 0#32
  let c1_i32_33 : BitVec 32 := 1#32
  let arg18 : BitVec 32 := Scf.iv c0_i32_31 c1_i32_33 k0_t5
  let c8_i32 : BitVec 32 := 8#32
  let v62 : BitVec 32 := Scalar.muli arg18 c8_i32
  let v63 : BitVec 32 := Scalar.addi v62 c0_i32_53
  let c16_i32 : BitVec 32 := 16#32
  let v64 : BitVec 32 := Scalar.muli v63 c16_i32
  let v66 : Index := Scalar.indexCast v64
  ![1, v66.toNat]
def k0_off9 (k0_t5 : Fin k0_t5_loop.trips) (c0_i32_79 : BitVec 32) : Fin 1 → Nat :=
  let c0_i32_31 : BitVec 32 := 0#32
  let c1_i32_33 : BitVec 32 := 1#32
  let arg18 : BitVec 32 := Scf.iv c0_i32_31 c1_i32_33 k0_t5
  let c8_i32_78 : BitVec 32 := 8#32
  let v110 : BitVec 32 := Scalar.muli arg18 c8_i32_78
  let v111 : BitVec 32 := Scalar.addi v110 c0_i32_79
  let c16_i32_80 : BitVec 32 := 16#32
  let v112 : BitVec 32 := Scalar.muli v111 c16_i32_80
  let v113 : Index := Scalar.indexCast v112
  ![v113.toNat]

def k0_chk17 (v67 : IVec S16 32) : Prop :=
  (∀ a x, ((![v67] : Fin 1 → IVec S16 32) a x).toNat < S10240.size a)
instance k0_chk17.dec : ∀ (v67 : IVec S16 32), Decidable (k0_chk17 v67) := fun v67 => decidable_of_iff' _ (Iff.of_eq (k0_chk17.eq_1 v67))
theorem k0_idx17_inb : ∀ (v67 : IVec S16 32) (k0_hw17 : k0_chk17 v67), ∀ a x, ((![v67] : Fin 1 → IVec S16 32) a x).toNat < S10240.size a := fun v67 k0_hw17 => k0_hw17

def k0_chk18 (v73 : IVec S16 32) : Prop :=
  (∀ a x, ((![v73] : Fin 1 → IVec S16 32) a x).toNat < S10240.size a)
instance k0_chk18.dec : ∀ (v73 : IVec S16 32), Decidable (k0_chk18 v73) := fun v73 => decidable_of_iff' _ (Iff.of_eq (k0_chk18.eq_1 v73))
theorem k0_idx18_inb : ∀ (v73 : IVec S16 32) (k0_hw18 : k0_chk18 v73), ∀ a x, ((![v73] : Fin 1 → IVec S16 32) a x).toNat < S10240.size a := fun v73 k0_hw18 => k0_hw18

def k0_chk19 (v79 : IVec S16 32) : Prop :=
  (∀ a x, ((![v79] : Fin 1 → IVec S16 32) a x).toNat < S10240.size a)
instance k0_chk19.dec : ∀ (v79 : IVec S16 32), Decidable (k0_chk19 v79) := fun v79 => decidable_of_iff' _ (Iff.of_eq (k0_chk19.eq_1 v79))
theorem k0_idx19_inb : ∀ (v79 : IVec S16 32) (k0_hw19 : k0_chk19 v79), ∀ a x, ((![v79] : Fin 1 → IVec S16 32) a x).toNat < S10240.size a := fun v79 k0_hw19 => k0_hw19

def k0_chk20 (v85 : IVec S16 32) : Prop :=
  (∀ a x, ((![v85] : Fin 1 → IVec S16 32) a x).toNat < S10240.size a)
instance k0_chk20.dec : ∀ (v85 : IVec S16 32), Decidable (k0_chk20 v85) := fun v85 => decidable_of_iff' _ (Iff.of_eq (k0_chk20.eq_1 v85))
theorem k0_idx20_inb : ∀ (v85 : IVec S16 32) (k0_hw20 : k0_chk20 v85), ∀ a x, ((![v85] : Fin 1 → IVec S16 32) a x).toNat < S10240.size a := fun v85 k0_hw20 => k0_hw20

def k0_chk21 (v91 : IVec S16 32) : Prop :=
  (∀ a x, ((![v91] : Fin 1 → IVec S16 32) a x).toNat < S10240.size a)
instance k0_chk21.dec : ∀ (v91 : IVec S16 32), Decidable (k0_chk21 v91) := fun v91 => decidable_of_iff' _ (Iff.of_eq (k0_chk21.eq_1 v91))
theorem k0_idx21_inb : ∀ (v91 : IVec S16 32) (k0_hw21 : k0_chk21 v91), ∀ a x, ((![v91] : Fin 1 → IVec S16 32) a x).toNat < S10240.size a := fun v91 k0_hw21 => k0_hw21

def k0_chk22 (v97 : IVec S16 32) : Prop :=
  (∀ a x, ((![v97] : Fin 1 → IVec S16 32) a x).toNat < S10240.size a)
instance k0_chk22.dec : ∀ (v97 : IVec S16 32), Decidable (k0_chk22 v97) := fun v97 => decidable_of_iff' _ (Iff.of_eq (k0_chk22.eq_1 v97))
theorem k0_idx22_inb : ∀ (v97 : IVec S16 32) (k0_hw22 : k0_chk22 v97), ∀ a x, ((![v97] : Fin 1 → IVec S16 32) a x).toNat < S10240.size a := fun v97 k0_hw22 => k0_hw22

def k0_chk23 (v103 : IVec S16 32) : Prop :=
  (∀ a x, ((![v103] : Fin 1 → IVec S16 32) a x).toNat < S10240.size a)
instance k0_chk23.dec : ∀ (v103 : IVec S16 32), Decidable (k0_chk23 v103) := fun v103 => decidable_of_iff' _ (Iff.of_eq (k0_chk23.eq_1 v103))
theorem k0_idx23_inb : ∀ (v103 : IVec S16 32) (k0_hw23 : k0_chk23 v103), ∀ a x, ((![v103] : Fin 1 → IVec S16 32) a x).toNat < S10240.size a := fun v103 k0_hw23 => k0_hw23

def k0_chk24 (v109 : IVec S16 32) : Prop :=
  (∀ a x, ((![v109] : Fin 1 → IVec S16 32) a x).toNat < S10240.size a)
instance k0_chk24.dec : ∀ (v109 : IVec S16 32), Decidable (k0_chk24 v109) := fun v109 => decidable_of_iff' _ (Iff.of_eq (k0_chk24.eq_1 v109))
theorem k0_idx24_inb : ∀ (v109 : IVec S16 32) (k0_hw24 : k0_chk24 v109), ∀ a x, ((![v109] : Fin 1 → IVec S16 32) a x).toNat < S10240.size a := fun v109 k0_hw24 => k0_hw24
def k0_cond1 (k0_t4 : Fin k0_t4_loop.trips) : BitVec 1 :=
  let c2_i32_22 : BitVec 32 := 2#32
  let c0_i32_19 : BitVec 32 := 0#32
  let c1_i32_20 : BitVec 32 := 1#32
  let arg17 : BitVec 32 := Scf.iv c0_i32_19 c1_i32_20 k0_t4
  let v36 : BitVec 32 := Scalar.muli c2_i32_22 arg17
  let c0_i32_23 : BitVec 32 := 0#32
  let v37 : BitVec 32 := Scalar.addi v36 c0_i32_23
  let c2_i32_35 : BitVec 32 := 2#32
  let v45 : BitVec 32 := Scalar.addi v37 c2_i32_35
  let c50_i32 : BitVec 32 := 50#32
  let v46 : BitVec 1 := Scalar.cmpi .slt v45 c50_i32
  let v47 : BitVec 32 := Scalar.extui v46
  let c0_i32_36 : BitVec 32 := 0#32
  let v48 : BitVec 1 := Scalar.cmpi .ne v47 c0_i32_36
  v48

def k0_off10 (i : grid0.Coords) (k0_t4 : Fin k0_t4_loop.trips) : Fin 2 → Nat :=
  let arg1 : BitVec 32 := BitVec.ofNat 32 (i 1).val
  let arg0 : BitVec 32 := BitVec.ofNat 32 (i 0).val
  let c160000_i32 : BitVec 32 := 160000#32
  let v2 : BitVec 32 := Scalar.muli arg0 c160000_i32
  let c2_i32_22 : BitVec 32 := 2#32
  let c0_i32_19 : BitVec 32 := 0#32
  let c1_i32_20 : BitVec 32 := 1#32
  let arg17 : BitVec 32 := Scf.iv c0_i32_19 c1_i32_20 k0_t4
  let v36 : BitVec 32 := Scalar.muli c2_i32_22 arg17
  let c0_i32_23 : BitVec 32 := 0#32
  let v37 : BitVec 32 := Scalar.addi v36 c0_i32_23
  let c2_i32_53 : BitVec 32 := 2#32
  let v62 : BitVec 32 := Scalar.addi v37 c2_i32_53
  let c3200_i32_54 : BitVec 32 := 3200#32
  let v63 : BitVec 32 := Scalar.muli v62 c3200_i32_54
  let v64 : BitVec 32 := Scalar.addi v2 v63
  ![arg1.toNat, v64.toNat]
def k0_off11 (i : grid0.Coords) (k0_t4 : Fin k0_t4_loop.trips) : Fin 2 → Nat :=
  let c0_i32_56 : BitVec 32 := 0#32
  let arg0 : BitVec 32 := BitVec.ofNat 32 (i 0).val
  let c160000_i32 : BitVec 32 := 160000#32
  let v2 : BitVec 32 := Scalar.muli arg0 c160000_i32
  let c2_i32_22 : BitVec 32 := 2#32
  let c0_i32_19 : BitVec 32 := 0#32
  let c1_i32_20 : BitVec 32 := 1#32
  let arg17 : BitVec 32 := Scf.iv c0_i32_19 c1_i32_20 k0_t4
  let v36 : BitVec 32 := Scalar.muli c2_i32_22 arg17
  let c0_i32_23 : BitVec 32 := 0#32
  let v37 : BitVec 32 := Scalar.addi v36 c0_i32_23
  let c2_i32_53 : BitVec 32 := 2#32
  let v62 : BitVec 32 := Scalar.addi v37 c2_i32_53
  let c3200_i32_55 : BitVec 32 := 3200#32
  let v69 : BitVec 32 := Scalar.muli v62 c3200_i32_55
  let v70 : BitVec 32 := Scalar.addi v2 v69
  ![0, v70.toNat]
@[reducible] def k0_t6_loop : Scf.Loop 32 :=
  let c0_i32_46 : BitVec 32 := 0#32
  let c25_i32_47 : BitVec 32 := 25#32
  let v57 : BitVec 32 := Scalar.addi c0_i32_46 c25_i32_47
  let c1_i32_48 : BitVec 32 := 1#32
  ⟨c0_i32_46, v57, c1_i32_48⟩
def k0_off12 (k0_t6 : Fin k0_t6_loop.trips) (c0_i32_53 : BitVec 32) : Fin 2 → Nat :=
  let c1_i32_54 : BitVec 32 := 1#32
  let v65 : Index := Scalar.indexCast c1_i32_54
  let c0_i32_46 : BitVec 32 := 0#32
  let c1_i32_48 : BitVec 32 := 1#32
  let arg18 : BitVec 32 := Scf.iv c0_i32_46 c1_i32_48 k0_t6
  let c8_i32 : BitVec 32 := 8#32
  let v62 : BitVec 32 := Scalar.muli arg18 c8_i32
  let v63 : BitVec 32 := Scalar.addi v62 c0_i32_53
  let c16_i32 : BitVec 32 := 16#32
  let v64 : BitVec 32 := Scalar.muli v63 c16_i32
  let v66 : Index := Scalar.indexCast v64
  ![1, v66.toNat]
def k0_off13 (k0_t6 : Fin k0_t6_loop.trips) (c0_i32_79 : BitVec 32) : Fin 1 → Nat :=
  let c0_i32_46 : BitVec 32 := 0#32
  let c1_i32_48 : BitVec 32 := 1#32
  let arg18 : BitVec 32 := Scf.iv c0_i32_46 c1_i32_48 k0_t6
  let c8_i32_78 : BitVec 32 := 8#32
  let v110 : BitVec 32 := Scalar.muli arg18 c8_i32_78
  let v111 : BitVec 32 := Scalar.addi v110 c0_i32_79
  let c16_i32_80 : BitVec 32 := 16#32
  let v112 : BitVec 32 := Scalar.muli v111 c16_i32_80
  let v113 : Index := Scalar.indexCast v112
  ![v113.toNat]

def k0_chk25 (v67 : IVec S16 32) : Prop :=
  (∀ a x, ((![v67] : Fin 1 → IVec S16 32) a x).toNat < S10240.size a)
instance k0_chk25.dec : ∀ (v67 : IVec S16 32), Decidable (k0_chk25 v67) := fun v67 => decidable_of_iff' _ (Iff.of_eq (k0_chk25.eq_1 v67))
theorem k0_idx25_inb : ∀ (v67 : IVec S16 32) (k0_hw25 : k0_chk25 v67), ∀ a x, ((![v67] : Fin 1 → IVec S16 32) a x).toNat < S10240.size a := fun v67 k0_hw25 => k0_hw25

def k0_chk26 (v73 : IVec S16 32) : Prop :=
  (∀ a x, ((![v73] : Fin 1 → IVec S16 32) a x).toNat < S10240.size a)
instance k0_chk26.dec : ∀ (v73 : IVec S16 32), Decidable (k0_chk26 v73) := fun v73 => decidable_of_iff' _ (Iff.of_eq (k0_chk26.eq_1 v73))
theorem k0_idx26_inb : ∀ (v73 : IVec S16 32) (k0_hw26 : k0_chk26 v73), ∀ a x, ((![v73] : Fin 1 → IVec S16 32) a x).toNat < S10240.size a := fun v73 k0_hw26 => k0_hw26

def k0_chk27 (v79 : IVec S16 32) : Prop :=
  (∀ a x, ((![v79] : Fin 1 → IVec S16 32) a x).toNat < S10240.size a)
instance k0_chk27.dec : ∀ (v79 : IVec S16 32), Decidable (k0_chk27 v79) := fun v79 => decidable_of_iff' _ (Iff.of_eq (k0_chk27.eq_1 v79))
theorem k0_idx27_inb : ∀ (v79 : IVec S16 32) (k0_hw27 : k0_chk27 v79), ∀ a x, ((![v79] : Fin 1 → IVec S16 32) a x).toNat < S10240.size a := fun v79 k0_hw27 => k0_hw27

def k0_chk28 (v85 : IVec S16 32) : Prop :=
  (∀ a x, ((![v85] : Fin 1 → IVec S16 32) a x).toNat < S10240.size a)
instance k0_chk28.dec : ∀ (v85 : IVec S16 32), Decidable (k0_chk28 v85) := fun v85 => decidable_of_iff' _ (Iff.of_eq (k0_chk28.eq_1 v85))
theorem k0_idx28_inb : ∀ (v85 : IVec S16 32) (k0_hw28 : k0_chk28 v85), ∀ a x, ((![v85] : Fin 1 → IVec S16 32) a x).toNat < S10240.size a := fun v85 k0_hw28 => k0_hw28

def k0_chk29 (v91 : IVec S16 32) : Prop :=
  (∀ a x, ((![v91] : Fin 1 → IVec S16 32) a x).toNat < S10240.size a)
instance k0_chk29.dec : ∀ (v91 : IVec S16 32), Decidable (k0_chk29 v91) := fun v91 => decidable_of_iff' _ (Iff.of_eq (k0_chk29.eq_1 v91))
theorem k0_idx29_inb : ∀ (v91 : IVec S16 32) (k0_hw29 : k0_chk29 v91), ∀ a x, ((![v91] : Fin 1 → IVec S16 32) a x).toNat < S10240.size a := fun v91 k0_hw29 => k0_hw29

def k0_chk30 (v97 : IVec S16 32) : Prop :=
  (∀ a x, ((![v97] : Fin 1 → IVec S16 32) a x).toNat < S10240.size a)
instance k0_chk30.dec : ∀ (v97 : IVec S16 32), Decidable (k0_chk30 v97) := fun v97 => decidable_of_iff' _ (Iff.of_eq (k0_chk30.eq_1 v97))
theorem k0_idx30_inb : ∀ (v97 : IVec S16 32) (k0_hw30 : k0_chk30 v97), ∀ a x, ((![v97] : Fin 1 → IVec S16 32) a x).toNat < S10240.size a := fun v97 k0_hw30 => k0_hw30

def k0_chk31 (v103 : IVec S16 32) : Prop :=
  (∀ a x, ((![v103] : Fin 1 → IVec S16 32) a x).toNat < S10240.size a)
instance k0_chk31.dec : ∀ (v103 : IVec S16 32), Decidable (k0_chk31 v103) := fun v103 => decidable_of_iff' _ (Iff.of_eq (k0_chk31.eq_1 v103))
theorem k0_idx31_inb : ∀ (v103 : IVec S16 32) (k0_hw31 : k0_chk31 v103), ∀ a x, ((![v103] : Fin 1 → IVec S16 32) a x).toNat < S10240.size a := fun v103 k0_hw31 => k0_hw31

def k0_chk32 (v109 : IVec S16 32) : Prop :=
  (∀ a x, ((![v109] : Fin 1 → IVec S16 32) a x).toNat < S10240.size a)
instance k0_chk32.dec : ∀ (v109 : IVec S16 32), Decidable (k0_chk32 v109) := fun v109 => decidable_of_iff' _ (Iff.of_eq (k0_chk32.eq_1 v109))
theorem k0_idx32_inb : ∀ (v109 : IVec S16 32) (k0_hw32 : k0_chk32 v109), ∀ a x, ((![v109] : Fin 1 → IVec S16 32) a x).toNat < S10240.size a := fun v109 k0_hw32 => k0_hw32
def k0_cond2 (k0_t4 : Fin k0_t4_loop.trips) : BitVec 1 :=
  let c2_i32_37 : BitVec 32 := 2#32
  let c0_i32_19 : BitVec 32 := 0#32
  let c1_i32_20 : BitVec 32 := 1#32
  let arg17 : BitVec 32 := Scf.iv c0_i32_19 c1_i32_20 k0_t4
  let v49 : BitVec 32 := Scalar.muli c2_i32_37 arg17
  let c1_i32_38 : BitVec 32 := 1#32
  let v50 : BitVec 32 := Scalar.addi v49 c1_i32_38
  let c2_i32_50 : BitVec 32 := 2#32
  let v58 : BitVec 32 := Scalar.addi v50 c2_i32_50
  let c50_i32_51 : BitVec 32 := 50#32
  let v59 : BitVec 1 := Scalar.cmpi .slt v58 c50_i32_51
  let v60 : BitVec 32 := Scalar.extui v59
  let c0_i32_52 : BitVec 32 := 0#32
  let v61 : BitVec 1 := Scalar.cmpi .ne v60 c0_i32_52
  v61

def k0_off14 (i : grid0.Coords) (k0_t4 : Fin k0_t4_loop.trips) : Fin 2 → Nat :=
  let arg1 : BitVec 32 := BitVec.ofNat 32 (i 1).val
  let arg0 : BitVec 32 := BitVec.ofNat 32 (i 0).val
  let c160000_i32 : BitVec 32 := 160000#32
  let v2 : BitVec 32 := Scalar.muli arg0 c160000_i32
  let c2_i32_37 : BitVec 32 := 2#32
  let c0_i32_19 : BitVec 32 := 0#32
  let c1_i32_20 : BitVec 32 := 1#32
  let arg17 : BitVec 32 := Scf.iv c0_i32_19 c1_i32_20 k0_t4
  let v49 : BitVec 32 := Scalar.muli c2_i32_37 arg17
  let c1_i32_38 : BitVec 32 := 1#32
  let v50 : BitVec 32 := Scalar.addi v49 c1_i32_38
  let c2_i32_53 : BitVec 32 := 2#32
  let v62 : BitVec 32 := Scalar.addi v50 c2_i32_53
  let c3200_i32_54 : BitVec 32 := 3200#32
  let v63 : BitVec 32 := Scalar.muli v62 c3200_i32_54
  let v64 : BitVec 32 := Scalar.addi v2 v63
  ![arg1.toNat, v64.toNat]
def k0_off15 (i : grid0.Coords) (k0_t4 : Fin k0_t4_loop.trips) : Fin 2 → Nat :=
  let c0_i32_56 : BitVec 32 := 0#32
  let arg0 : BitVec 32 := BitVec.ofNat 32 (i 0).val
  let c160000_i32 : BitVec 32 := 160000#32
  let v2 : BitVec 32 := Scalar.muli arg0 c160000_i32
  let c2_i32_37 : BitVec 32 := 2#32
  let c0_i32_19 : BitVec 32 := 0#32
  let c1_i32_20 : BitVec 32 := 1#32
  let arg17 : BitVec 32 := Scf.iv c0_i32_19 c1_i32_20 k0_t4
  let v49 : BitVec 32 := Scalar.muli c2_i32_37 arg17
  let c1_i32_38 : BitVec 32 := 1#32
  let v50 : BitVec 32 := Scalar.addi v49 c1_i32_38
  let c2_i32_53 : BitVec 32 := 2#32
  let v62 : BitVec 32 := Scalar.addi v50 c2_i32_53
  let c3200_i32_55 : BitVec 32 := 3200#32
  let v69 : BitVec 32 := Scalar.muli v62 c3200_i32_55
  let v70 : BitVec 32 := Scalar.addi v2 v69
  ![0, v70.toNat]
def k0_off16 (i : grid0.Coords) : Fin 3 → Nat :=
  let arg0 : BitVec 32 := BitVec.ofNat 32 (i 0).val
  let arg1 : BitVec 32 := BitVec.ofNat 32 (i 1).val
  let c0_i32_22_r1 : BitVec 32 := 0#32
  ![arg0.toNat, arg1.toNat, 0]
abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x16x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x16x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S320000x16_S16x320000_1_0 : S320000x16.Transposes [1, 0] S16x320000
  h_S16 : 0 < S16.numel
  squeezes_S1x3200_S3200 : S1x3200.Squeezes S3200
  h_S1x16 : 0 < S1x16.numel
  shapeCasts_S1x16_S16 : S1x16.ShapeCasts S16
  h_S10240 : 0 < S10240.numel
  inb_S2x320000_S2x3200_0_0 : ∀ a, (![0, 0] : Fin 2 → Nat) a + S2x3200.size a ≤ S2x320000.size a
  squeezes_S1x1x10240_S10240 : S1x1x10240.Squeezes S10240
  slices_S144x64_S128x64_0_0 : S144x64.Slices ![0, 0] S128x64
  slices_S144x64_S16x64_128_0 : S144x64.Slices ![128, 0] S16x64
  shapeCasts_S64_S1x64 : S64.ShapeCasts S1x64
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  inb_S2x16x2048_S1x16x2048_0_0_0 : ∀ a, (![0, 0, 0] : Fin 3 → Nat) a + S1x16x2048.size a ≤ S2x16x2048.size a
  h_S1x16x2048 : 0 < S1x16x2048.numel
  shapeCasts_S1x16x2048_S16x2048 : S1x16x2048.ShapeCasts S16x2048
  inb_S2x16x2048_S1x16x2048_1_0_0 : ∀ a, (![1, 0, 0] : Fin 3 → Nat) a + S1x16x2048.size a ≤ S2x16x2048.size a
  reduces_S16x2048_S2048 : S16x2048.Reduces [0] S2048
  shapeCasts_S2048_S1x2048 : S2048.ShapeCasts S1x2048
  broadcasts_S1x2048_S16x2048 : S1x2048.Broadcasts S16x2048
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  dot_S2048x128_S128x64_S2048x64_1_0_0_1_n_n_wf : DotDims.WF S2048x128 S128x64 S2048x64 [1] [0] [0] [1] [] []
  dot_S16x2048_S16x64_S2048x64_0_0_1_1_n_n_wf : DotDims.WF S16x2048 S16x64 S2048x64 [0] [0] [1] [1] [] []
  dot_S2048x64_S64x128_S2048x128_1_0_0_1_n_n_wf : DotDims.WF S2048x64 S64x128 S2048x128 [1] [0] [0] [1] [] []
  hcc0_scratch7 : 0 + S_.numel ≤ 20
  hcc0_scratch8 : 1 + S_.numel ≤ 20
  hcc0_scratch9 : 2 + S_.numel ≤ 20
  hcc0_scratch10 : 3 + S_.numel ≤ 20
  hcc0_scoped0 : 4 + S_.numel ≤ 20
  hcc0_scoped1 : 5 + S_.numel ≤ 20
  hcc0_scoped2 : 6 + S_.numel ≤ 20
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S16.size a ≤ S10240.size a
  k0_off2_inb : ∀ i : grid0.Coords, ∀ (r : Fin 2), ∀ a, (k0_off2 i (BitVec.ofNat 32 (3200 * r.val))) a + S1x3200.size a ≤ S16x320000.size a
  k0_off3_inb : ∀ i : grid0.Coords, ∀ (r : Fin 2), ∀ a, (k0_off3 i (BitVec.ofNat 32 (3200 * r.val))) a + S2x3200.size a ≤ S2x320000.size a
  k0_off4_inb : ∀ i : grid0.Coords, ∀ a, (k0_off4 i) a + S2x10112.size a ≤ S2x320000.size a
  k0_t2_ok : ∀ i : grid0.Coords, (k0_t2_loop i).OK
  k0_off5_inb : ∀ (i : grid0.Coords) (k0_t2 : Fin (k0_t2_loop i).trips), ∀ (r : Fin 8), ∀ a, (k0_off5 i k0_t2 (BitVec.ofNat 32 r.val)) a + S1x16.size a ≤ S2x10112.size a
  k0_t3_ok : ∀ i : grid0.Coords, (k0_t3_loop i).OK
  k0_off6_inb : ∀ (i : grid0.Coords) (k0_t3 : Fin (k0_t3_loop i).trips), ∀ (r : Fin 8), ∀ a, (k0_off6 i k0_t3 (BitVec.ofNat 32 r.val)) a + S1x16.size a ≤ S2x10112.size a
  k0_t4_ok : k0_t4_loop.OK
  k0_off7_inb : ∀ i : grid0.Coords, ∀ a, (k0_off7 i) a + S1x3200.size a ≤ S16x320000.size a
  k0_t5_ok : k0_t5_loop.OK
  k0_off8_inb : ∀ k0_t5 : Fin k0_t5_loop.trips, ∀ (r : Fin 8), ∀ a, (k0_off8 k0_t5 (BitVec.ofNat 32 r.val)) a + S1x16.size a ≤ S2x3200.size a
  k0_off9_inb : ∀ k0_t5 : Fin k0_t5_loop.trips, ∀ (r : Fin 8), ∀ a, (k0_off9 k0_t5 (BitVec.ofNat 32 r.val)) a + S16.size a ≤ S3200.size a
  k0_off10_inb : ∀ (i : grid0.Coords) (k0_t4 : Fin k0_t4_loop.trips), ∀ (k0_h1 : k0_cond1 k0_t4 = 1#1), ∀ a, (k0_off10 i k0_t4) a + S1x3200.size a ≤ S16x320000.size a
  k0_off11_inb : ∀ (i : grid0.Coords) (k0_t4 : Fin k0_t4_loop.trips), ∀ (k0_h1 : k0_cond1 k0_t4 = 1#1), ∀ a, (k0_off11 i k0_t4) a + S2x3200.size a ≤ S2x320000.size a
  k0_t6_ok : k0_t6_loop.OK
  k0_off12_inb : ∀ k0_t6 : Fin k0_t6_loop.trips, ∀ (r : Fin 8), ∀ a, (k0_off12 k0_t6 (BitVec.ofNat 32 r.val)) a + S1x16.size a ≤ S2x3200.size a
  k0_off13_inb : ∀ k0_t6 : Fin k0_t6_loop.trips, ∀ (r : Fin 8), ∀ a, (k0_off13 k0_t6 (BitVec.ofNat 32 r.val)) a + S16.size a ≤ S3200.size a
  k0_off14_inb : ∀ (i : grid0.Coords) (k0_t4 : Fin k0_t4_loop.trips), ∀ (k0_h2 : k0_cond2 k0_t4 = 1#1), ∀ a, (k0_off14 i k0_t4) a + S1x3200.size a ≤ S16x320000.size a
  k0_off15_inb : ∀ (i : grid0.Coords) (k0_t4 : Fin k0_t4_loop.trips), ∀ (k0_h2 : k0_cond2 k0_t4 = 1#1), ∀ a, (k0_off15 i k0_t4) a + S2x3200.size a ≤ S2x320000.size a
  k0_off16_inb : ∀ i : grid0.Coords, ∀ a, (k0_off16 i) a + S1x1x10240.size a ≤ S2x16x10240.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S2048x128.size a < S10000x128.size a
  hwx1_0 : ∀ i : grid1.Coords, EltTy.bits .f32 = 32 ∨ (Rect.unit (s := S10000x128) (fun a => cc1_transform_0 i a * S2048x128.size a) (fun a => (Pipeline.Clip.of (cc1_transform_0 i a) (S2048x128.size a) (S10000x128.size a)).extent (S2048x128.size a)) fun a => Pipeline.Clip.inb (Pipeline.Clip.ok_of (hstart1_0 i a))).WholeWords (EltTy.packing .f32)
  hwxs1_0 : ∀ i : grid1.Coords, EltTy.bits .f32 = 32 ∨ (Rect.unit (s := S2048x128) (fun _ => 0) (fun a => (Pipeline.Clip.of (cc1_transform_0 i a) (S2048x128.size a) (S10000x128.size a)).extent (S2048x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x16x2048.size a ≤ S2x16x10240.size a
  hwx1_1 : ∀ i : grid1.Coords, EltTy.bits .f32 = 32 ∨ (Rect.block (s := S2x16x10240) S2x16x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x16x2048.size a ≤ S2x16x10240.size a
  hwx1_2 : ∀ i : grid1.Coords, EltTy.bits .f32 = 32 ∨ (Rect.block (s := S2x16x10240) S2x16x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x64.size a ≤ S16x64.size a
  hwx1_4 : ∀ i : grid1.Coords, EltTy.bits .f32 = 32 ∨ (Rect.block (s := S16x64) S16x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x128.size a ≤ S64x128.size a
  hwx1_6 : ∀ i : grid1.Coords, EltTy.bits .f32 = 32 ∨ (Rect.block (s := S64x128) S64x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hstart1_8 : ∀ (i : grid1.Coords) a, cc1_transform_8 i a * S2048x128.size a < S10000x128.size a
  hwx1_8 : ∀ i : grid1.Coords, EltTy.bits .f32 = 32 ∨ (Rect.unit (s := S10000x128) (fun a => cc1_transform_8 i a * S2048x128.size a) (fun a => (Pipeline.Clip.of (cc1_transform_8 i a) (S2048x128.size a) (S10000x128.size a)).extent (S2048x128.size a)) fun a => Pipeline.Clip.inb (Pipeline.Clip.ok_of (hstart1_8 i a))).WholeWords (EltTy.packing .f32)
  hwxs1_8 : ∀ i : grid1.Coords, EltTy.bits .f32 = 32 ∨ (Rect.unit (s := S2048x128) (fun _ => 0) (fun a => (Pipeline.Clip.of (cc1_transform_8 i a) (S2048x128.size a) (S10000x128.size a)).extent (S2048x128.size a)) fun a => (Nat.zero_add _).trans_le (Pipeline.Clip.extent_le (Pipeline.Clip.ok_of (hstart1_8 i a)))).WholeWords (EltTy.packing .f32)

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S16x2048_S16x64_S2048x64_0_0_1_1_n_n : DotDims S16x2048 S16x64 S2048x64 where
  lhsContracting := [0]
  rhsContracting := [0]
  lhsNonContracting := [1]
  rhsNonContracting := [1]
  lhsBatch := []
  rhsBatch := []
  wf := dot_S16x2048_S16x64_S2048x64_0_0_1_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf

abbrev win1_0 : Pipeline.Window sig grid1 :=
  Pipeline.Window.ofSpecClip (Memref.whole main_arg0) S2048x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v1_0) S2x16x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S2x16x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S16x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S64x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpecClip (Memref.whole main_v6) S2048x128.size cc1_transform_8 reads1_8 true false 2 stage1_8 sem1_8
    hrank1 hreads1_8 hstart1_8 nbuf1_8 (Memref.isWhole_whole _) hwx1_8 hwxs1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S320000x16 : Shape := ⟨2, ![320000, 16]⟩
abbrev S1x64 : Shape := ⟨2, ![1, 64]⟩
abbrev S10000 : Shape := ⟨1, ![10000]⟩
abbrev S144x64 : Shape := ⟨2, ![144, 64]⟩
abbrev S64 : Shape := ⟨1, ![64]⟩
abbrev S64x128 : Shape := ⟨2, ![64, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S10000x16 : Shape := ⟨2, ![10000, 16]⟩
abbrev S320000x1 : Shape := ⟨2, ![320000, 1]⟩
abbrev S10000x1 : Shape := ⟨2, ![10000, 1]⟩
abbrev S10000x144 : Shape := ⟨2, ![10000, 144]⟩
abbrev S10000x64 : Shape := ⟨2, ![10000, 64]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000x16, .f32⟩
  | .hbm, ⟨3, _⟩ => ⟨S1x64, .f32⟩
  | .hbm, ⟨4, _⟩ => ⟨S10000, .i32⟩
  | .hbm, ⟨5, _⟩ => ⟨S144x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S1x320000, .i32⟩
  | .hbm, ⟨10, _⟩ => ⟨S320000, .i32⟩
  | .hbm, ⟨11, _⟩ => ⟨S_, .f32⟩
  | .hbm, ⟨12, _⟩ => ⟨S10000x16, .f32⟩
  | .hbm, ⟨13, _⟩ => ⟨S320000x1, .i32⟩
  | .hbm, ⟨14, _⟩ => ⟨S10000x16, .f32⟩
  | .hbm, ⟨15, _⟩ => ⟨S_, .f32⟩
  | .hbm, ⟨16, _⟩ => ⟨S320000x1, .f32⟩
  | .hbm, ⟨17, _⟩ => ⟨S_, .f32⟩
  | .hbm, ⟨18, _⟩ => ⟨S10000x1, .f32⟩
  | .hbm, ⟨19, _⟩ => ⟨S320000x1, .i32⟩
  | .hbm, ⟨20, _⟩ => ⟨S10000x1, .f32⟩
  | .hbm, ⟨21, _⟩ => ⟨S_, .f32⟩
  | .hbm, ⟨22, _⟩ => ⟨S10000x1, .f32⟩
  | .hbm, ⟨23, _⟩ => ⟨S10000x1, .f32⟩
  | .hbm, ⟨24, _⟩ => ⟨S10000x16, .f32⟩
  | .hbm, ⟨25, _⟩ => ⟨S10000x16, .f32⟩
  | .hbm, ⟨26, _⟩ => ⟨S10000x144, .f32⟩
  | .hbm, ⟨27, _⟩ => ⟨S10000x64, .f32⟩
  | .hbm, ⟨28, _⟩ => ⟨S1x64, .f32⟩
  | .hbm, ⟨29, _⟩ => ⟨S10000x64, .f32⟩
  | .hbm, ⟨30, _⟩ => ⟨S10000x64, .f32⟩
  | .hbm, ⟨31, _⟩ => ⟨S_, .f32⟩
  | .hbm, ⟨32, _⟩ => ⟨S10000x64, .f32⟩
  | .hbm, ⟨33, _⟩ => ⟨S10000x64, .f32⟩
  | .hbm, ⟨34, _⟩ => ⟨S10000x128, .f32⟩
  | .hbm, ⟨35, _⟩ => ⟨S1x128, .f32⟩
  | .hbm, ⟨36, _⟩ => ⟨S10000x128, .f32⟩
  | .hbm, ⟨37, _⟩ => ⟨S10000x128, .f32⟩
  | .hbm, ⟨38, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  slices_S2x320000_S1x320000_1_0 : S2x320000.Slices ![1, 0] S1x320000
  shapeCasts_S1x320000_S320000 : S1x320000.ShapeCasts S320000
  bcast_S_S10000x16 : S_.BroadcastsInDim S10000x16 (![] : Fin 0 → Fin S10000x16.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S_S10000x1 : S_.BroadcastsInDim S10000x1 (![] : Fin 0 → Fin S10000x1.rank)
  bcast_S10000x1_S10000x16_0_1 : S10000x1.BroadcastsInDim S10000x16 (![0, 1] : Fin 2 → Fin S10000x16.rank)
  concatenates_S10000x128_S10000x16_S10000x144_d1 : Shape.Concatenates [S10000x128, S10000x16] S10000x144 1
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S10000x16_S320000x1_S320000x16_1_0_0_1_wf : ScatterDims.WF S10000x16 S320000x1 S320000x16 [1] [0] [0] 1
  scatter_S10000x1_S320000x1_S320000x1_1_0_0_1_wf : ScatterDims.WF S10000x1 S320000x1 S320000x1 [1] [0] [0] 1
  dot_S10000x144_S144x64_S10000x64_1_0_0_1_n_n_wf : DotDims.WF S10000x144 S144x64 S10000x64 [1] [0] [0] [1] [] []
  dot_S10000x64_S64x128_S10000x128_1_0_0_1_n_n_wf : DotDims.WF S10000x64 S64x128 S10000x128 [1] [0] [0] [1] [] []

variable [Facts₀]

def scatter_S10000x16_S320000x1_S320000x16_1_0_0_1 : ScatterDims S10000x16 S320000x1 S320000x16 where
  updateWindowDims := [1]
  insertedWindowDims := [0]
  scatterDimsToOperandDims := [0]
  indexVectorDim := 1
  wf := scatter_S10000x16_S320000x1_S320000x16_1_0_0_1_wf
def scatter_S10000x1_S320000x1_S320000x1_1_0_0_1 : ScatterDims S10000x1 S320000x1 S320000x1 where
  updateWindowDims := [1]
  insertedWindowDims := [0]
  scatterDimsToOperandDims := [0]
  indexVectorDim := 1
  wf := scatter_S10000x1_S320000x1_S320000x1_1_0_0_1_wf
def dot_S10000x144_S144x64_S10000x64_1_0_0_1_n_n : DotDims S10000x144 S144x64 S10000x64 where
  lhsContracting := [1]
  rhsContracting := [0]
  lhsNonContracting := [0]
  rhsNonContracting := [1]
  lhsBatch := []
  rhsBatch := []
  wf := dot_S10000x144_S144x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

class Facts : Prop extends Facts₀ where

variable [Facts]
-- ==== Proof.Spec.lean ====
/-
  What the two programs compute, as functions of the argument arrays.

  Edge e carries 16 attributes and points at node col e.  For a node r the AGGREGATE is the mean of the
  attributes of the edges pointing at r (the sum divided by max (count, 1)); the result row is
  x r + relu (x r · W1[0:128] + agg r · W1[128:144] + b1) · W2 + b2.

  The kernel forms the sums on 32 tiles: tile (c, f) adds attribute f of the edges of half c into an
  accumulator of 10240 entries, 16 edges at a time by an indexed add-store, and counts the edges of the w-th of
  32 consecutive ranges (w = 2 f + c) the same way.  These accumulators are stated here for any float
  instance as folds of that add-store; at the exact instance they are sums over edges.
-/
import Idealize.ShloMosaic.PureOps.Ideal
import Idealize.ShloMosaic.Lib.ValueIdx

noncomputable section

namespace Cert.Spec

open Idealize.ShloMosaic Idealize.ShloMosaic.ValueIdx

/-! ## Shapes (the programs' own, spelt out) -/

abbrev SAcc : Shape := ⟨1, ![10240]⟩
abbrev SLane : Shape := ⟨1, ![16]⟩
abbrev SEaT : Shape := ⟨2, ![16, 320000]⟩
abbrev SCol : Shape := ⟨2, ![2, 320000]⟩
abbrev SOut3 : Shape := ⟨3, ![2, 16, 10240]⟩

section Generic

variable {F : FTy → Type} [FloatOps F]

/-- One indexed add-store of 16 lanes into an accumulator: lane l adds v l at entry idx l, lowest lane first.
    Total: nothing is stored when some index is outside the accumulator. -/
def addAt (acc : Vec F SAcc .f32) (idx : IVec SLane 32) (v : Vec F SLane .f32) : Vec F SAcc .f32 :=
  if h : ∀ (a : Fin SAcc.rank) (x : SLane.Idx), ((![idx] : Fin SAcc.rank → IVec SLane 32) a x).toNat < SAcc.size a then
    storeIdx acc ![idx] v (fun _ => 1#1) true h
  else acc

theorem addAt_of_inb (acc : Vec F SAcc .f32) (idx : IVec SLane 32) (v : Vec F SLane .f32)
    (h : ∀ (a : Fin SAcc.rank) (x : SLane.Idx), ((![idx] : Fin SAcc.rank → IVec SLane 32) a x).toNat < SAcc.size a) :
    addAt acc idx v = storeIdx acc ![idx] v (fun _ => 1#1) true h := dif_pos h

/-- The target nodes of the 16 edges e0 … e0 + 15 (row 1 of the edge list). -/
def colVec (col : IVec SCol 32) (e0 : Nat) : IVec SLane 32 :=
  fun l => if h : e0 + (l 0).val < 320000 then col (ix2 (1 : Fin 2) (⟨e0 + (l 0).val, h⟩ : Fin 320000)) else 0#32

/-- Attribute f of the 16 edges e0 … e0 + 15 (row f of the transposed attribute table). -/
def eaVec (eaT : Vec F SEaT .f32) (f : Fin 16) (e0 : Nat) : Vec F SLane .f32 :=
  fun l => if h : e0 + (l 0).val < 320000 then eaT (ix2 f (⟨e0 + (l 0).val, h⟩ : Fin 320000)) else Scalar.ofBits .f32 0x00000000#32

def zeroAcc : Vec F SAcc .f32 := fun _ => Scalar.ofBits .f32 0x00000000#32
def ones16 : Vec F SLane .f32 := fun _ => Scalar.ofBits .f32 0x3F800000#32

/-- Tile (c, f)'s sum accumulator after the first n groups of 16 edges of half c. -/
def sumsAcc (eaT : Vec F SEaT .f32) (col : IVec SCol 32) (c : Fin 2) (f : Fin 16) : Nat → Vec F SAcc .f32
  | 0 => zeroAcc
  | n + 1 => addAt (sumsAcc eaT col c f n) (colVec col (160000 * c.val + 16 * n)) (eaVec eaT f (160000 * c.val + 16 * n))

/-- Tile (c, f)'s sum accumulator at its exit: all 10000 groups of half c. -/
def tileSums (eaT : Vec F SEaT .f32) (col : IVec SCol 32) (c : Fin 2) (f : Fin 16) : Vec F SAcc .f32 :=
  sumsAcc eaT col c f 10000

/-- Where the w-th counting range begins: ranges 0 … 27 hold 78 · 128 edges, ranges 28 … 31 hold 79 · 128. -/
def cntOff (w : Nat) : Nat := (78 * w + (w - 28)) * 128
/-- How many groups of 16 edges the w-th counting range holds. -/
def cntGroups (w : Nat) : Nat := (if 28 ≤ w then 79 else 78) * 8

/-- The count accumulator of range w after its first n groups of 16 edges. -/
def cntAcc (col : IVec SCol 32) (w : Nat) : Nat → Vec F SAcc .f32
  | 0 => zeroAcc
  | n + 1 => addAt (cntAcc col w n) (colVec col (cntOff w + 16 * n)) ones16

/-- Tile (c, f)'s count accumulator at its exit: range w = 2 f + c, whole. -/
def tileCnt (col : IVec SCol 32) (c : Fin 2) (f : Fin 16) : Vec F SAcc .f32 :=
  cntAcc col (2 * f.val + c.val) (cntGroups (2 * f.val + c.val))

/-- The two [2, 16, 10240] arrays the SparseCore call leaves: entry (c, f, n) is tile (c, f)'s accumulator at n. -/
def sumsArr (eaT : Vec F SEaT .f32) (col : IVec SCol 32) : Vec F SOut3 .f32 :=
  fun j => tileSums eaT col (j 0) (j 1) (ix1 (j 2))
def cntArr (col : IVec SCol 32) : Vec F SOut3 .f32 :=
  fun j => tileCnt (F := F) col (j 0) (j 1) (ix1 (j 2))

end Generic

/-! ## The result at the exact instance, row by row -/

abbrev SX : Shape := ⟨2, ![10000, 128]⟩
abbrev SEa : Shape := ⟨2, ![320000, 16]⟩
abbrev SW1 : Shape := ⟨2, ![144, 64]⟩
abbrev SB1 : Shape := ⟨1, ![64]⟩
abbrev SW2 : Shape := ⟨2, ![64, 128]⟩
abbrev SB2 : Shape := ⟨1, ![128]⟩

/-- The float word of 1.0, kept as a word: the same word on both sides is never evaluated. -/
def one : EReal := Ideal.ofBits .f32 0x3F800000#32
/-- The float word of 0.0 (it is the real 0: Ideal.ofBits_zero_f32). -/
def zero : EReal := Ideal.ofBits .f32 0x00000000#32

/-- The sum of attribute f over the edges pointing at node r. -/
def segSum (ea : Vec Ideal SEa .f32) (col : IVec SCol 32) (r : Nat) (f : Fin 16) : EReal :=
  ∑ e : Fin 320000, if (col (ix2 (1 : Fin 2) e)).toNat = r then ea (ix2 e f) else 0
/-- The number of edges pointing at node r, as a sum of the word 1.0. -/
def segCnt (col : IVec SCol 32) (r : Nat) : EReal :=
  ∑ e : Fin 320000, if (col (ix2 (1 : Fin 2) e)).toNat = r then one else 0
/-- The aggregate: the mean of the attributes of the edges pointing at r (0 when there is none). -/
def agg (ea : Vec Ideal SEa .f32) (col : IVec SCol 32) (r : Nat) (f : Fin 16) : EReal :=
  Ideal.div (segSum ea col r f) (max (segCnt col r) one)
/-- The hidden layer: relu of x r · W1[0:128] + agg r · W1[128:144] + b1. -/
def hidden (x : Vec Ideal SX .f32) (ea : Vec Ideal SEa .f32) (col : IVec SCol 32) (W1 : Vec Ideal SW1 .f32) (b1 : Vec Ideal SB1 .f32)
    (r : Fin 10000) (k : Fin 64) : EReal :=
  max (((∑ a : Fin 128, x (ix2 r a) * W1 (ix2 (⟨a.val, by omega⟩ : Fin 144) k))
        + (∑ f : Fin 16, agg ea col r.val f * W1 (ix2 (⟨128 + f.val, by omega⟩ : Fin 144) k))) + b1 (ix1 k)) zero
/-- The result: (x r + hidden r · W2) + b2. -/
def out (x : Vec Ideal SX .f32) (ea : Vec Ideal SEa .f32) (col : IVec SCol 32) (W1 : Vec Ideal SW1 .f32) (b1 : Vec Ideal SB1 .f32)
    (W2 : Vec Ideal SW2 .f32) (b2 : Vec Ideal SB2 .f32) : Vec Ideal SX .f32 :=
  fun j => (x j + ∑ k : Fin 64, hidden x ea col W1 b1 (j 0) k * W2 (ix2 k (j 1))) + b2 (ix1 (j 1))

end Cert.Spec

end
-- ==== Proof.Common.lean ====
/-
  The kernel's run: what is shared by its parts.

  The program as the launch of its SparseCore call sees it; the ghost state (the launch's handshakes, the dense
  stage's staging cells, the tiles' transfer counters); and what the call hands each tile and takes back: a read
  share of the transposed attribute table and of the edge list, and entries (c, f, :) of the two result arrays —
  handed at whatever they hold, taken back holding the tile's two accumulators.
-/
import proofs.«212450_g60069412602311_cont_9to1_m_657_24_alg».proof.Proof.Gen.KernelIdeal
import proofs.«212450_g60069412602311_cont_9to1_m_657_24_alg».proof.Proof.Gen.KernelIdeal.Skeleton
import proofs.«212450_g60069412602311_cont_9to1_m_657_24_alg».proof.Proof.Gen.KernelIdeal.Launch
import proofs.«212450_g60069412602311_cont_9to1_m_657_24_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

/-- The handshakes' rounds library: the left factor. -/
abbrev EH : Emb UH (MT nD τ sig (HIx 1) (Elt F) ℕ UU ℕ) := embL
/-- The staging cells' rounds library: the left of the right factor (the transfers' counters, its right, are found by
    instance). -/
def ER : Emb UR (MT nD τ sig (HIx 1) (Elt F) ℕ UU ℕ) := (Emb.inl : Emb UR (UR × Counters)).trans embR
instance ER_landsIn : (ER : Emb UR 𝕄).LandsIn (upEmb : UEmb _ 𝕄) := by unfold ER; infer_instance

/-! ## The arrays of the SparseCore call -/

variable (m : (ℓ : Loc nD τ sig) → Buf (Elt F) ℓ) (ρ : Dev nD → PrngReg)

/-- The attribute table (an argument), its transpose (written by @main before the call), the edge list (an argument),
    and the call's two results, as the TensorCore's arrays. -/
abbrev aLoc (d : Dev nD) : Loc nD τ sig := (SparseCore.T d).loc main_arg2
abbrev eLoc (d : Dev nD) : Loc nD τ sig := (SparseCore.T d).loc main_v0
abbrev iLoc (d : Dev nD) : Loc nD τ sig := (SparseCore.T d).loc main_arg1
abbrev sLoc (d : Dev nD) : Loc nD τ sig := (SparseCore.T d).loc main_v1_0
abbrev cLoc (d : Dev nD) : Loc nD τ sig := (SparseCore.T d).loc main_v1_1

variable [FloatOps F]

/-- The transposed attribute table the call reads: @main's transpose of the argument. -/
def eaT (d : Dev nD) : Buf (Elt F) (eLoc d) :=
  transpose S16x320000 [1, 0] (m (aLoc d)) transposes_S320000x16_S16x320000_1_0
/-- The edge list the call reads: the argument. -/
abbrev eiV (d : Dev nD) : Buf (Elt F) (iLoc d) := m (iLoc d)

/-- Every target node is below 10000 (so inside the accumulators): what the precondition gives. -/
def PreOK : Prop := ∀ (d : Dev nD) (j : S2x320000.Idx), ((m (iLoc d) : IVec S2x320000 32) j).toNat ≤ 9999

/-- Tile (c, i)'s number among the 32. -/
abbrev tileIx (c : Fin 2) (i : Fin 16) : Fin 32 := ⟨16 * c.val + i.val, by omega⟩
/-- Tile (c, i)'s read share of an array all 32 tiles read: the (16 c + i)-th of 32 read tokens of the whole. -/
abbrev qTile (c : Fin 2) (i : Fin 16) : PosShare TreeShare := Transfers.shareTok fullShare 32 (tileIx c i)

/-- Entries (c, i, :) of a [2, 16, 10240] array. -/
def rowSet (c : Fin 2) (i : Fin 16) : Finset S2x16x10240.Idx := Finset.univ.filter fun j => (j 0).val = c.val ∧ (j 1).val = i.val

/-- What tile (c, i) is handed: its read shares, and its entries of the two result arrays at whatever they hold. -/
def goRes (d : Dev nD) (c : Fin 2) (i : Fin 16) : sProp 𝕄 :=
  iprop((eLoc d ↦{qTile c i} eaT m d) ∗ (iLoc d ↦{qTile c i} eiV m d)
    ∗ (∃ f, sLoc d ↦[rowSet c i]{fullShare} f) ∗ (∃ f, cLoc d ↦[rowSet c i]{fullShare} f))

/-- What it hands back: the read shares, and its entries holding its two accumulators. -/
def tdRes (d : Dev nD) (c : Fin 2) (i : Fin 16) : sProp 𝕄 :=
  iprop((eLoc d ↦{qTile c i} eaT m d) ∗ (iLoc d ↦{qTile c i} eiV m d)
    ∗ (∃ f : Buf (Elt F) (sLoc d), ⌜∀ n : Fin 10240, (f : Vec F S2x16x10240 .f32) (ix3 c i n) = Cert.Spec.tileSums (F := F) (eaT m d) (eiV m d) c i (ix1 n)⌝
        ∗ sLoc d ↦[rowSet c i]{fullShare} f)
    ∗ (∃ f : Buf (Elt F) (cLoc d), ⌜∀ n : Fin 10240, (f : Vec F S2x16x10240 .f32) (ix3 c i n) = Cert.Spec.tileCnt (F := F) (eiV m d) c i (ix1 n)⌝
        ∗ cLoc d ↦[rowSet c i]{fullShare} f))

instance goRes_storable (d : Dev nD) (c : Fin 2) (i : Fin 16) : BI.Storable (upEmb : UEmb _ 𝕄) (goRes m d c i) := by
  unfold goRes; infer_instance
instance tdRes_storable (d : Dev nD) (c : Fin 2) (i : Fin 16) : BI.Storable (upEmb : UEmb _ 𝕄) (tdRes m d c i) := by
  unfold tdRes; infer_instance

/-- The same, with the entries held at the two whole-array functions (every tile's entries at ONE function, so that the
    32 pieces join into the whole arrays). -/
def tdArr (d : Dev nD) (c : Fin 2) (i : Fin 16) : sProp 𝕄 :=
  iprop((eLoc d ↦{qTile c i} eaT m d) ∗ (iLoc d ↦{qTile c i} eiV m d)
    ∗ (sLoc d ↦[rowSet c i]{fullShare} (Cert.Spec.sumsArr (F := F) (eaT m d) (eiV m d) : Buf (Elt F) (sLoc d)))
    ∗ (cLoc d ↦[rowSet c i]{fullShare} (Cert.Spec.cntArr (F := F) (eiV m d) : Buf (Elt F) (cLoc d))))

instance tdArr_storable (d : Dev nD) (c : Fin 2) (i : Fin 16) : BI.Storable (upEmb : UEmb _ 𝕄) (tdArr m d c i) := by
  unfold tdArr; infer_instance

omit [FloatOps F] in
/-- An index of row (c, i) is (c, i, its last coordinate). -/
theorem eq_of_mem_rowSet {c : Fin 2} {i : Fin 16} {j : S2x16x10240.Idx} (hj : j ∈ rowSet c i) :
    j 0 = c ∧ j 1 = i ∧ j = ix3 c i (j 2) := by
  simp only [rowSet, Finset.mem_filter, Finset.mem_univ, true_and] at hj
  have h0 : j 0 = c := Fin.ext hj.1
  have h1 : j 1 = i := Fin.ext hj.2
  refine ⟨h0, h1, ?_⟩
  have := eq_ix3 j
  rw [h0, h1] at this
  exact this

/-- Entries (c, i, :) holding the tile's accumulators are the whole-array functions' entries. -/
theorem tdArr_of_tdRes (d : Dev nD) (c : Fin 2) (i : Fin 16) : tdRes m d c i ⊢ tdArr m d c i := by
  unfold tdRes tdArr
  iintro ⟨He, Hi, ⟨%f, %hf, Hs⟩, ⟨%g, %hg, Hc⟩⟩
  isplitl [He]; · iexact He
  isplitl [Hi]; · iexact Hi
  have es : (sLoc d ↦[rowSet c i]{fullShare} f : sProp 𝕄)
      = sLoc d ↦[rowSet c i]{fullShare} (Cert.Spec.sumsArr (F := F) (eaT m d) (eiV m d) : Buf (Elt F) (sLoc d)) :=
    pointsTo_congr fun j hj => by
      obtain ⟨h0, h1, hj'⟩ := eq_of_mem_rowSet hj
      calc f j = f (ix3 c i (j 2)) := congrArg f hj'
        _ = Cert.Spec.tileSums (F := F) (eaT m d) (eiV m d) c i (ix1 (j 2)) := hf (j 2)
        _ = Cert.Spec.sumsArr (F := F) (eaT m d) (eiV m d) j := by unfold Cert.Spec.sumsArr; rw [h0, h1]
  have ec : (cLoc d ↦[rowSet c i]{fullShare} g : sProp 𝕄)
      = cLoc d ↦[rowSet c i]{fullShare} (Cert.Spec.cntArr (F := F) (eiV m d) : Buf (Elt F) (cLoc d)) :=
    pointsTo_congr fun j hj => by
      obtain ⟨h0, h1, hj'⟩ := eq_of_mem_rowSet hj
      calc g j = g (ix3 c i (j 2)) := congrArg g hj'
        _ = Cert.Spec.tileCnt (F := F) (eiV m d) c i (ix1 (j 2)) := hg (j 2)
        _ = Cert.Spec.cntArr (F := F) (eiV m d) j := by unfold Cert.Spec.cntArr; rw [h0, h1]
  isplitl [Hs]
  · iapply (Entails.of_eq es); iexact Hs
  · iapply (Entails.of_eq ec); iexact Hc

/-- The call's payloads: a SparseCore is handed its sixteen tiles' resources and hands back what they return. -/
def P : (K (F := F)).Pay (nD := nD) (Val := Elt F) (Name := ℕ) (U := UU) where
  st := fun q d c => match q with | 0 => bigSep Finset.univ fun i : Fin 16 => goRes m d (Fin.cast nCore_zero c) i
  dn := fun q d c => match q with | 0 => bigSep Finset.univ fun i : Fin 16 => tdArr m d (Fin.cast nCore_zero c) i
  go := fun q d c i => match q with | 0 => goRes m d (Fin.cast nCore_zero c) (Fin.cast nSub_zero i)
  td := fun q d c i => match q with | 0 => tdArr m d (Fin.cast nCore_zero c) (Fin.cast nSub_zero i)
  x := fun _ _ => iprop(emp)

instance P_storable : (P (F := F) m).IsStorable where
  st q d c := match q with | 0 => (inferInstance : BI.Storable (upEmb : UEmb _ 𝕄) (bigSep Finset.univ fun i : Fin 16 => goRes m d (Fin.cast nCore_zero c) i))
  dn q d c := match q with | 0 => (inferInstance : BI.Storable (upEmb : UEmb _ 𝕄) (bigSep Finset.univ fun i : Fin 16 => tdArr m d (Fin.cast nCore_zero c) i))
  go q d c i := match q with | 0 => (inferInstance : BI.Storable (upEmb : UEmb _ 𝕄) (goRes m d (Fin.cast nCore_zero c) (Fin.cast nSub_zero i)))
  td q d c i := match q with | 0 => (inferInstance : BI.Storable (upEmb : UEmb _ 𝕄) (tdArr m d (Fin.cast nCore_zero c) (Fin.cast nSub_zero i)))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands are its tiles' and its results theirs: nothing to rearrange. -/
theorem vecSplit : (K (F := F)).VecSplit' (P m) 0 := by
  intro d c
  show (bigSep Finset.univ fun i : Fin 16 => goRes m d (Fin.cast nCore_zero c) i) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdArr m d (Fin.cast nCore_zero c) (Fin.cast nSub_zero i))
          -∗ bigSep Finset.univ fun i : Fin 16 => tdArr m d (Fin.cast nCore_zero c) i))
  rw [bigSep_tasks (F := F) (fun i => goRes m d (Fin.cast nCore_zero c) i), bigSep_tasks (F := F) (fun i => tdArr m d (Fin.cast nCore_zero c) i)]
  iintro H; imodintro
  isplitl [H]; · iexact H
  iintro H; iexact H

end Cert.KernelIdeal.Run

end
-- ==== Proof.SplitJoin.lean ====
/-
  Dealing the call's arrays to the 32 tiles and gathering them back.

  A [2, 16, 10240] array is the disjoint union of its 32 rows (c, i, :); an array every tile reads is held as a
  remainder and 32 read tokens, the (16 c + i)-th for tile (c, i).
-/
import proofs.«212450_g60069412602311_cont_9to1_m_657_24_alg».proof.Proof.Common

noncomputable section

namespace Cert.KernelIdeal.Run

open Cert.KernelIdeal Cert.KernelIdeal.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 1) (Elt F) ℕ UU ℕ

/-- Row t = (c, i) of a [2, 16, 10240] array. -/
abbrev rowOf (t : Fin 2 × Fin 16) : Finset S2x16x10240.Idx := rowSet t.1 t.2

theorem rows_disjoint : ∀ t ∈ (Finset.univ : Finset (Fin 2 × Fin 16)), ∀ t' ∈ (Finset.univ : Finset (Fin 2 × Fin 16)), t ≠ t' → Disjoint (rowOf t) (rowOf t') := by
  intro t _ t' _ h
  rw [Finset.disjoint_left]
  intro j hj hj'
  simp only [rowOf, rowSet, Finset.mem_filter, Finset.mem_univ, true_and] at hj hj'
  exact h (Prod.ext (Fin.ext (hj.1.symm.trans hj'.1)) (Fin.ext (hj.2.symm.trans hj'.2)))

theorem rows_cover : (Finset.univ : Finset (Fin 2 × Fin 16)).biUnion rowOf = Finset.univ := by
  ext j
  simp only [Finset.mem_biUnion, Finset.mem_univ, true_and, iff_true, rowOf, rowSet, Finset.mem_filter]
  exact ⟨((⟨(j 0).val, (j 0).isLt⟩ : Fin 2), (⟨(j 1).val, (j 1).isLt⟩ : Fin 16)), rfl, rfl⟩

/-- A whole array of sums is its 32 rows. -/
theorem sPts_rows (d : Dev nD) (f : Buf (Elt F) (sLoc d)) :
    (sLoc d ↦{fullShare} f : sProp 𝕄) = bigSep Finset.univ fun c : Fin 2 => bigSep Finset.univ fun i : Fin 16 => sLoc d ↦[rowSet c i]{fullShare} f := by
  rw [← bigSep_univ_prod (fun t : Fin 2 × Fin 16 => (sLoc d ↦[rowSet t.1 t.2]{fullShare} f : sProp 𝕄)),
    ← pointsTo_biUnion Finset.univ (ℓ := sLoc d) rowOf rows_disjoint, rows_cover]; try rfl
/-- A whole array of counts is its 32 rows. -/
theorem cPts_rows (d : Dev nD) (f : Buf (Elt F) (cLoc d)) :
    (cLoc d ↦{fullShare} f : sProp 𝕄) = bigSep Finset.univ fun c : Fin 2 => bigSep Finset.univ fun i : Fin 16 => cLoc d ↦[rowSet c i]{fullShare} f := by
  rw [← bigSep_univ_prod (fun t : Fin 2 × Fin 16 => (cLoc d ↦[rowSet t.1 t.2]{fullShare} f : sProp 𝕄)),
    ← pointsTo_biUnion Finset.univ (ℓ := cLoc d) rowOf rows_disjoint, rows_cover]; try rfl

/-- The 32 read tokens, by tile. -/
theorem toks_tiles (Φ : Fin 32 → sProp 𝕄) :
    bigSep Finset.univ Φ = bigSep Finset.univ fun c : Fin 2 => bigSep Finset.univ fun i : Fin 16 => Φ (tileIx c i) := by
  rw [← bigSep_univ_prod (fun t : Fin 2 × Fin 16 => Φ (tileIx t.1 t.2))]
  rw [← Finset.map_univ_equiv (finProdFinEquiv : Fin 2 × Fin 16 ≃ Fin 32), bigSep_map]
  refine bigSep_congr fun t _ => congrArg Φ (Fin.ext ?_)
  show (finProdFinEquiv t).val = 16 * t.1.val + t.2.val
  simp [finProdFinEquiv]; omega

/-- The transposed attribute table, whole, is a remainder and one read token per tile; -/
theorem ePts_toks (d : Dev nD) (f : Buf (Elt F) (eLoc d)) :
    (eLoc d ↦{fullShare} f : sProp 𝕄) ⊣⊢ iprop((eLoc d ↦{Transfers.shareDrop fullShare 32} f)
      ∗ bigSep Finset.univ fun c : Fin 2 => bigSep Finset.univ fun i : Fin 16 => eLoc d ↦{qTile c i} f) := by
  rw [← toks_tiles (F := F) (fun k => (eLoc d ↦{Transfers.shareTok fullShare 32 k} f : sProp 𝕄))]
  exact Transfers.pointsTo_toks fullShare 32
/-- and the edge list likewise. -/
theorem iPts_toks (d : Dev nD) (f : Buf (Elt F) (iLoc d)) :
    (iLoc d ↦{fullShare} f : sProp 𝕄) ⊣⊢ iprop((iLoc d ↦{Transfers.shareDrop fullShare 32} f)
      ∗ bigSep Finset.univ fun c : Fin 2 => bigSep Finset.univ fun i : Fin 16 => iLoc d ↦{qTile c i} f) := by
  rw [← toks_tiles (F := F) (fun k => (iLoc d ↦{Transfers.shareTok fullShare 32 k} f : sProp 𝕄))]
  exact Transfers.pointsTo_toks fullShare 32

end Cert.KernelIdeal.Run

end
-- ==== Proof.TileSetup.lean ====
import proofs.«212450_g60069412602311_cont_9to1_m_657_24_alg».proof.Proof.Common

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's place -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

variable [FloatOps F]

/-! ## The tile's own semaphores and buffers, taken out of what it owns -/

omit [FloatOps F] in
theorem ownSems0_V (d : Dev nD) (L : grid0.Coords) :
    (ownSems0 (V d (cV L) (jV L)) : sProp 𝕄)
      = iprop(semVal (((V d (cV L) (jV L)), SemLoc.dma cc0_scratch7.sem) : GSem nD τ sig) 0 ∗ semVal (((V d (cV L) (jV L)), SemLoc.dma cc0_scratch8.sem) : GSem nD τ sig) 0 ∗ semVal (((V d (cV L) (jV L)), SemLoc.dma cc0_scratch9.sem) : GSem nD τ sig) 0 ∗ semVal (((V d (cV L) (jV L)), SemLoc.dma cc0_scratch10.sem) : GSem nD τ sig) 0 ∗ semVal (((V d (cV L) (jV L)), SemLoc.dma cc0_scoped0.sem) : GSem nD τ sig) 0 ∗ semVal (((V d (cV L) (jV L)), SemLoc.dma cc0_scoped1.sem) : GSem nD τ sig) 0 ∗ semVal (((V d (cV L) (jV L)), SemLoc.dma cc0_scoped2.sem) : GSem nD τ sig) 0
          ∗ bigSep ((((((((ownCells (V d (cV L) (jV L))).erase (((V d (cV L) (jV L)), SemLoc.dma cc0_scratch7.sem) : GSem nD τ sig)).erase (((V d (cV L) (jV L)), SemLoc.dma cc0_scratch8.sem) : GSem nD τ sig)).erase (((V d (cV L) (jV L)), SemLoc.dma cc0_scratch9.sem) : GSem nD τ sig)).erase (((V d (cV L) (jV L)), SemLoc.dma cc0_scratch10.sem) : GSem nD τ sig)).erase (((V d (cV L) (jV L)), SemLoc.dma cc0_scoped0.sem) : GSem nD τ sig)).erase (((V d (cV L) (jV L)), SemLoc.dma cc0_scoped1.sem) : GSem nD τ sig)).erase (((V d (cV L) (jV L)), SemLoc.dma cc0_scoped2.sem) : GSem nD τ sig)) fun g => semVal g 0) := by
  unfold SparseCore.Cfg.ownSems0
  rw [SparseCore.bigSep_erase' ((mem_ownCells (g := (((V d (cV L) (jV L)), SemLoc.dma cc0_scratch7.sem) : GSem nD τ sig))).mpr ⟨rfl, by show (SemLoc.dma cc0_scratch7.sem : SemLoc sig).isScoped .scVector = true; decide⟩),
    SparseCore.bigSep_erase' (Finset.mem_erase.mpr ⟨(fun e => absurd (congrArg (fun g : GSem nD τ sig => g.2) e) (show (SemLoc.dma cc0_scratch8.sem : SemLoc sig) ≠ SemLoc.dma cc0_scratch7.sem by decide)), (mem_ownCells (g := (((V d (cV L) (jV L)), SemLoc.dma cc0_scratch8.sem) : GSem nD τ sig))).mpr ⟨rfl, by show (SemLoc.dma cc0_scratch8.sem : SemLoc sig).isScoped .scVector = true; decide⟩⟩),
    SparseCore.bigSep_erase' (Finset.mem_erase.mpr ⟨(fun e => absurd (congrArg (fun g : GSem nD τ sig => g.2) e) (show (SemLoc.dma cc0_scratch9.sem : SemLoc sig) ≠ SemLoc.dma cc0_scratch8.sem by decide)), Finset.mem_erase.mpr ⟨(fun e => absurd (congrArg (fun g : GSem nD τ sig => g.2) e) (show (SemLoc.dma cc0_scratch9.sem : SemLoc sig) ≠ SemLoc.dma cc0_scratch7.sem by decide)), (mem_ownCells (g := (((V d (cV L) (jV L)), SemLoc.dma cc0_scratch9.sem) : GSem nD τ sig))).mpr ⟨rfl, by show (SemLoc.dma cc0_scratch9.sem : SemLoc sig).isScoped .scVector = true; decide⟩⟩⟩),
    SparseCore.bigSep_erase' (Finset.mem_erase.mpr ⟨(fun e => absurd (congrArg (fun g : GSem nD τ sig => g.2) e) (show (SemLoc.dma cc0_scratch10.sem : SemLoc sig) ≠ SemLoc.dma cc0_scratch9.sem by decide)), Finset.mem_erase.mpr ⟨(fun e => absurd (congrArg (fun g : GSem nD τ sig => g.2) e) (show (SemLoc.dma cc0_scratch10.sem : SemLoc sig) ≠ SemLoc.dma cc0_scratch8.sem by decide)), Finset.mem_erase.mpr ⟨(fun e => absurd (congrArg (fun g : GSem nD τ sig => g.2) e) (show (SemLoc.dma cc0_scratch10.sem : SemLoc sig) ≠ SemLoc.dma cc0_scratch7.sem by decide)), (mem_ownCells (g := (((V d (cV L) (jV L)), SemLoc.dma cc0_scratch10.sem) : GSem nD τ sig))).mpr ⟨rfl, by show (SemLoc.dma cc0_scratch10.sem : SemLoc sig).isScoped .scVector = true; decide⟩⟩⟩⟩),
    SparseCore.bigSep_erase' (Finset.mem_erase.mpr ⟨(fun e => absurd (congrArg (fun g : GSem nD τ sig => g.2) e) (show (SemLoc.dma cc0_scoped0.sem : SemLoc sig) ≠ SemLoc.dma cc0_scratch10.sem by decide)), Finset.mem_erase.mpr ⟨(fun e => absurd (congrArg (fun g : GSem nD τ sig => g.2) e) (show (SemLoc.dma cc0_scoped0.sem : SemLoc sig) ≠ SemLoc.dma cc0_scratch9.sem by decide)), Finset.mem_erase.mpr ⟨(fun e => absurd (congrArg (fun g : GSem nD τ sig => g.2) e) (show (SemLoc.dma cc0_scoped0.sem : SemLoc sig) ≠ SemLoc.dma cc0_scratch8.sem by decide)), Finset.mem_erase.mpr ⟨(fun e => absurd (congrArg (fun g : GSem nD τ sig => g.2) e) (show (SemLoc.dma cc0_scoped0.sem : SemLoc sig) ≠ SemLoc.dma cc0_scratch7.sem by decide)), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨(fun e => absurd (congrArg (fun g : GSem nD τ sig => g.2) e) (show (SemLoc.dma cc0_scoped1.sem : SemLoc sig) ≠ SemLoc.dma cc0_scoped0.sem by decide)), Finset.mem_erase.mpr ⟨(fun e => absurd (congrArg (fun g : GSem nD τ sig => g.2) e) (show (SemLoc.dma cc0_scoped1.sem : SemLoc sig) ≠ SemLoc.dma cc0_scratch10.sem by decide)), Finset.mem_erase.mpr ⟨(fun e => absurd (congrArg (fun g : GSem nD τ sig => g.2) e) (show (SemLoc.dma cc0_scoped1.sem : SemLoc sig) ≠ SemLoc.dma cc0_scratch9.sem by decide)), Finset.mem_erase.mpr ⟨(fun e => absurd (congrArg (fun g : GSem nD τ sig => g.2) e) (show (SemLoc.dma cc0_scoped1.sem : SemLoc sig) ≠ SemLoc.dma cc0_scratch8.sem by decide)), Finset.mem_erase.mpr ⟨(fun e => absurd (congrArg (fun g : GSem nD τ sig => g.2) e) (show (SemLoc.dma cc0_scoped1.sem : SemLoc sig) ≠ SemLoc.dma cc0_scratch7.sem by decide)), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩⟩),
    SparseCore.bigSep_erase' (Finset.mem_erase.mpr ⟨(fun e => absurd (congrArg (fun g : GSem nD τ sig => g.2) e) (show (SemLoc.dma cc0_scoped2.sem : SemLoc sig) ≠ SemLoc.dma cc0_scoped1.sem by decide)), Finset.mem_erase.mpr ⟨(fun e => absurd (congrArg (fun g : GSem nD τ sig => g.2) e) (show (SemLoc.dma cc0_scoped2.sem : SemLoc sig) ≠ SemLoc.dma cc0_scoped0.sem by decide)), Finset.mem_erase.mpr ⟨(fun e => absurd (congrArg (fun g : GSem nD τ sig => g.2) e) (show (SemLoc.dma cc0_scoped2.sem : SemLoc sig) ≠ SemLoc.dma cc0_scratch10.sem by decide)), Finset.mem_erase.mpr ⟨(fun e => absurd (congrArg (fun g : GSem nD τ sig => g.2) e) (show (SemLoc.dma cc0_scoped2.sem : SemLoc sig) ≠ SemLoc.dma cc0_scratch9.sem by decide)), Finset.mem_erase.mpr ⟨(fun e => absurd (congrArg (fun g : GSem nD τ sig => g.2) e) (show (SemLoc.dma cc0_scoped2.sem : SemLoc sig) ≠ SemLoc.dma cc0_scratch8.sem by decide)), Finset.mem_erase.mpr ⟨(fun e => absurd (congrArg (fun g : GSem nD τ sig => g.2) e) (show (SemLoc.dma cc0_scoped2.sem : SemLoc sig) ≠ SemLoc.dma cc0_scratch7.sem by decide)), (mem_ownCells (g := (((V d (cV L) (jV L)), SemLoc.dma cc0_scoped2.sem) : GSem nD τ sig))).mpr ⟨rfl, by show (SemLoc.dma cc0_scoped2.sem : SemLoc sig).isScoped .scVector = true; decide⟩⟩⟩⟩⟩⟩⟩)]

omit [FloatOps F] in
theorem ownBufs_V (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f)
          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨(fun e => absurd (Proc.devRef_injective _ e) (show (cc0_scratch1 : Ref sig .scVector) ≠ cc0_scratch0 by decide)), SparseCore.Cfg.mem_ownRefs_of_owner (p := Proc.scVector (cV L) (jV L)) (b := ((Proc.scVector (cV L) (jV L)).devRef cc0_scratch1)) rfl⟩),
    SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨(fun e => absurd (Proc.devRef_injective _ e) (show (cc0_scratch4 : Ref sig .scVector) ≠ cc0_scratch3 by decide)), Finset.mem_erase.mpr ⟨(fun e => absurd (Proc.devRef_injective _ e) (show (cc0_scratch4 : Ref sig .scVector) ≠ cc0_scratch2 by decide)), Finset.mem_erase.mpr ⟨(fun e => absurd (Proc.devRef_injective _ e) (show (cc0_scratch4 : Ref sig .scVector) ≠ cc0_scratch1 by decide)), Finset.mem_erase.mpr ⟨(fun e => absurd (Proc.devRef_injective _ e) (show (cc0_scratch4 : Ref sig .scVector) ≠ cc0_scratch0 by decide)), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨(fun e => absurd (Proc.devRef_injective _ e) (show (cc0_scratch5 : Ref sig .scVector) ≠ cc0_scratch4 by decide)), Finset.mem_erase.mpr ⟨(fun e => absurd (Proc.devRef_injective _ e) (show (cc0_scratch5 : Ref sig .scVector) ≠ cc0_scratch3 by decide)), Finset.mem_erase.mpr ⟨(fun e => absurd (Proc.devRef_injective _ e) (show (cc0_scratch5 : Ref sig .scVector) ≠ cc0_scratch2 by decide)), Finset.mem_erase.mpr ⟨(fun e => absurd (Proc.devRef_injective _ e) (show (cc0_scratch5 : Ref sig .scVector) ≠ cc0_scratch1 by decide)), Finset.mem_erase.mpr ⟨(fun e => absurd (Proc.devRef_injective _ e) (show (cc0_scratch5 : Ref sig .scVector) ≠ cc0_scratch0 by decide)), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨(fun e => absurd (Proc.devRef_injective _ e) (show (cc0_scratch6 : Ref sig .scVector) ≠ cc0_scratch5 by decide)), Finset.mem_erase.mpr ⟨(fun e => absurd (Proc.devRef_injective _ e) (show (cc0_scratch6 : Ref sig .scVector) ≠ cc0_scratch4 by decide)), Finset.mem_erase.mpr ⟨(fun e => absurd (Proc.devRef_injective _ e) (show (cc0_scratch6 : Ref sig .scVector) ≠ cc0_scratch3 by decide)), Finset.mem_erase.mpr ⟨(fun e => absurd (Proc.devRef_injective _ e) (show (cc0_scratch6 : Ref sig .scVector) ≠ cc0_scratch2 by decide)), Finset.mem_erase.mpr ⟨(fun e => absurd (Proc.devRef_injective _ e) (show (cc0_scratch6 : Ref sig .scVector) ≠ cc0_scratch1 by decide)), Finset.mem_erase.mpr ⟨(fun e => absurd (Proc.devRef_injective _ e) (show (cc0_scratch6 : Ref sig .scVector) ≠ cc0_scratch0 by decide)), SparseCore.Cfg.mem_ownRefs_of_owner (p := Proc.scVector (cV L) (jV L)) (b := ((Proc.scVector (cV L) (jV L)).devRef cc0_scratch6)) rfl⟩⟩⟩⟩⟩⟩)]

end Cert.KernelIdeal.Run

end
-- ==== Proof.TileObl.lean ====
/-
  The tile's task as the launch theorem asks for it: the body's run at a symbolic tile, entered through the body
  table's row for that tile.
-/
import proofs.«212450_g60069412602311_cont_9to1_m_657_24_alg».proof.Proof.Common
import proofs.«212450_g60069412602311_cont_9to1_m_657_24_alg».proof.Proof.TileSetup

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- The grid's point of a SparseCore number and a tile number. -/
def coordsV (c : Fin (grid0.bound 0)) (s : Fin (grid0.bound 1)) : grid0.Coords :=
  fun | 0 => c | 1 => s | ⟨_ + 2, h⟩ => absurd h (Nat.not_lt.2 (Nat.le_add_left _ _))

variable [FloatOps F]

/-- What the tile's body is to satisfy, at every tile: from what it is handed to what it hands back. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ goRes m d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_scatter_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 cc0_scoped1 cc0_scoped2)
          fun _ => iprop(tdRes m d (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 0 ()
      = SparseCore.onTile hcore0 hsub0 (fun c s => cc0__sc_scatter_body (coordsV c s) (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 cc0_scoped1 cc0_scoped2) ⟨⟩ c s := rfl

omit [FloatOps F] in
theorem obl_post {thr : Thread nD τ} {A A' B C : sProp 𝕄} (hA : A ⊢ A') {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iapply hA; iexact HA
  isplitl [HB]; · iexact HB
  isplitl [HC]; · iexact HC
  iexists W'; isplitr
  · ipureintro; exact fun p hp => (hW' p hp).imp_right Or.inl
  · iexact HO

/-- The launch theorem's obligation for the call's tiles, from the body's run. -/
theorem tileObl (hb : TileBody (F := F) m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post (tdArr_of_tdRes m d _ _))

end Cert.KernelIdeal.Run

end
-- ==== Proof.Block.lean ====
/-
  The dense stage's result, block by block.

  The stage works on blocks of 2048 nodes: from the block of x, the matching blocks of the two [2, 16, 10240]
  arrays of partial sums and partial counts, and the whole weights, it writes the block of the result.  Stated for
  any float instance: the block as the body's own term of its eight input blocks, and what the stage leaves in the
  result array — every row below 10000 is its block's row; the last block reaches past the array, and the rows of
  its x block beyond row 9999 are whatever the staging buffer held.
-/
import proofs.«212450_g60069412602311_cont_9to1_m_657_24_alg».proof.Proof.Gen.KernelIdeal.Skeleton
import Idealize.ShloMosaic.Lib.ValueIdx

noncomputable section

namespace Cert.KernelIdeal.Blk

open Idealize.ShloMosaic Idealize.ShloMosaic.ValueIdx Cert.KernelIdeal Cert.KernelIdeal.Gen

variable {F : FTy → Type} [FloatOps F]

/-- Half b (the SparseCore's number) of a staged [2, 16, 2048] block, as the [1, 16, 2048] vector the body loads. -/
def half (b : Fin 2) (v : Vec F S2x16x2048 .f32) : Vec F S1x16x2048 .f32 :=
  fun y => v (ix3 b (y 1) (y 2))

/-- The result block as the body's term of its eight input blocks. -/
def blockOut (xb : Vec F S2048x128 .f32) (sb cb : Vec F S2x16x2048 .f32) (w1x : Vec F S128x64 .f32) (w1a : Vec F S16x64 .f32)
    (b1r : Vec F S1x64 .f32) (w2 : Vec F S64x128 .f32) (b2r : Vec F S1x128 .f32) : Vec F S2048x128 .f32 :=
  k1_pay1 xb (k1_pay2 xb (half 0 sb) (half 1 sb) (half 0 cb) (half 1 cb) w1x w1a b1r) w2 (constant (F := F) S2048x128 .f32 0x00000000#32) b2r

/-- Block t (nodes 2048 t … 2048 t + 2047) of a [2, 16, 10240] array. -/
def blk3 (s : Vec F S2x16x10240 .f32) (t : Fin 5) : Vec F S2x16x2048 .f32 :=
  fun y => s (ix3 (y 0) (y 1) (⟨2048 * t.val + (y 2).val, by
    have h1 : (y 2).val < 2048 := (y 2).isLt
    have h2 := t.isLt
    omega⟩ : Fin 10240))

/-- What the dense stage leaves in the result array o, from the arrays it reads. -/
def RegionPost (x : Vec F S10000x128 .f32) (s c : Vec F S2x16x10240 .f32) (w1x : Vec F S128x64 .f32) (w1a : Vec F S16x64 .f32)
    (b1r : Vec F S1x64 .f32) (w2 : Vec F S64x128 .f32) (b2r : Vec F S1x128 .f32) (o : Vec F S10000x128 .f32) : Prop :=
  ∃ xb : Fin 5 → Vec F S2048x128 .f32,
    (∀ (t : Fin 5) (p : Fin 2048) (q : Fin 128) (h : 2048 * t.val + p.val < 10000),
        xb t (ix2 p q) = x (ix2 (⟨2048 * t.val + p.val, h⟩ : Fin 10000) q)) ∧
    ∀ (t : Fin 5) (p : Fin 2048) (q : Fin 128) (h : 2048 * t.val + p.val < 10000),
        o (ix2 (⟨2048 * t.val + p.val, h⟩ : Fin 10000) q)
          = blockOut (xb t) (blk3 s t) (blk3 c t) w1x w1a b1r w2 b2r (ix2 p q)

end Cert.KernelIdeal.Blk

end
-- ==== Proof.Deal.lean ====
/-
  The call's four arrays dealt to the 32 tiles and gathered back: the two read arrays as a remainder and the
  tiles' read tokens, the two result arrays as their 32 rows — handed at whatever they hold, gathered holding the
  whole-array functions of sums and counts.
-/
import proofs.«212450_g60069412602311_cont_9to1_m_657_24_alg».proof.Proof.Common
import proofs.«212450_g60069412602311_cont_9to1_m_657_24_alg».proof.Proof.SplitJoin

noncomputable section

namespace Cert.KernelIdeal.Run

open Cert.KernelIdeal Cert.KernelIdeal.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 1) (Elt F) ℕ UU ℕ

variable (m : (ℓ : Loc nD τ sig) → Buf (Elt F) ℓ) [FloatOps F]

/-- What stays with @main while the tiles hold their read tokens. -/
abbrev readRest (d : Dev nD) : sProp 𝕄 :=
  iprop((eLoc d ↦{Transfers.shareDrop fullShare 32} eaT m d) ∗ (iLoc d ↦{Transfers.shareDrop fullShare 32} eiV m d))

/-- Dealing. -/
theorem deal (d : Dev nD) (fs : Buf (Elt F) (sLoc d)) (fc : Buf (Elt F) (cLoc d)) :
    iprop((eLoc d ↦{fullShare} eaT m d) ∗ (iLoc d ↦{fullShare} eiV m d) ∗ (sLoc d ↦{fullShare} fs) ∗ (cLoc d ↦{fullShare} fc))
      ⊢ iprop(readRest m d ∗ bigSep Finset.univ fun c : Fin 2 => bigSep Finset.univ fun i : Fin 16 => goRes m d c i) := by
  have hs : (bigSep Finset.univ fun c : Fin 2 => bigSep Finset.univ fun i : Fin 16 => (sLoc d ↦[rowSet c i]{fullShare} fs : sProp 𝕄))
      ⊢ bigSep Finset.univ fun c : Fin 2 => bigSep Finset.univ fun i : Fin 16 => (iprop(∃ f, sLoc d ↦[rowSet c i]{fullShare} f) : sProp 𝕄) :=
    bigSep_mono (s := Finset.univ) fun c _ => bigSep_mono (s := Finset.univ) fun i _ =>
      exists_intro (Φ := fun f : Buf (Elt F) (sLoc d) => (sLoc d ↦[rowSet c i]{fullShare} f : sProp 𝕄)) fs
  have hc : (bigSep Finset.univ fun c : Fin 2 => bigSep Finset.univ fun i : Fin 16 => (cLoc d ↦[rowSet c i]{fullShare} fc : sProp 𝕄))
      ⊢ bigSep Finset.univ fun c : Fin 2 => bigSep Finset.univ fun i : Fin 16 => (iprop(∃ f, cLoc d ↦[rowSet c i]{fullShare} f) : sProp 𝕄) :=
    bigSep_mono (s := Finset.univ) fun c _ => bigSep_mono (s := Finset.univ) fun i _ =>
      exists_intro (Φ := fun f : Buf (Elt F) (cLoc d) => (cLoc d ↦[rowSet c i]{fullShare} f : sProp 𝕄)) fc
  iintro ⟨He, Hi, Hs, Hc⟩
  ihave He' := (ePts_toks (F := F) d (eaT m d)).1 $$ He
  icases He' with ⟨Hed, Het⟩
  ihave Hi' := (iPts_toks (F := F) d (eiV m d)).1 $$ Hi
  icases Hi' with ⟨Hid, Hit⟩
  ihave Hs' := (Entails.of_eq (sPts_rows (F := F) d fs)) $$ Hs
  ihave Hc' := (Entails.of_eq (cPts_rows (F := F) d fc)) $$ Hc
  isplitl [Hed Hid]
  · isplitl [Hed] <;> iassumption
  unfold goRes
  simp only [bigSep_sep']
  isplitl [Het]; · iexact Het
  isplitl [Hit]; · iexact Hit
  isplitl [Hs']
  · iapply hs; iexact Hs'
  · iapply hc; iexact Hc'

/-- Gathering. -/
theorem gather (d : Dev nD) :
    iprop(readRest m d ∗ bigSep Finset.univ fun c : Fin 2 => bigSep Finset.univ fun i : Fin 16 => tdArr m d c i)
      ⊢ iprop((eLoc d ↦{fullShare} eaT m d) ∗ (iLoc d ↦{fullShare} eiV m d)
          ∗ (sLoc d ↦{fullShare} (Cert.Spec.sumsArr (F := F) (eaT m d) (eiV m d) : Buf (Elt F) (sLoc d)))
          ∗ (cLoc d ↦{fullShare} (Cert.Spec.cntArr (F := F) (eiV m d) : Buf (Elt F) (cLoc d)))) := by
  unfold tdArr
  simp only [bigSep_sep']
  iintro ⟨⟨Hed, Hid⟩, Het, Hit, Hs, Hc⟩
  isplitl [Hed Het]
  · iapply (ePts_toks (F := F) d (eaT m d)).2
    isplitl [Hed] <;> iassumption
  isplitl [Hid Hit]
  · iapply (iPts_toks (F := F) d (eiV m d)).2
    isplitl [Hid] <;> iassumption
  isplitl [Hs]
  · iapply (Entails.of_eq (sPts_rows (F := F) d _).symm); iexact Hs
  · iapply (Entails.of_eq (cPts_rows (F := F) d _).symm); iexact Hc

end Cert.KernelIdeal.Run

end
-- ==== Proof.RegionIface.lean ====
/-
  The dense stage's run, stated: the one TensorCore pipeline of the program, entered after the SparseCore call.

  What the stage takes (the staging cells' ghost state, the TensorCore's region boundary, its handshake state after
  the call, and its unscoped arrays at a valuation) and what it leaves: the same back, the result array holding, on
  every row below 10000, the block the body computes from the staged blocks.
-/
import proofs.«212450_g60069412602311_cont_9to1_m_657_24_alg».proof.Proof.Common
import proofs.«212450_g60069412602311_cont_9to1_m_657_24_alg».proof.Proof.Block
import Idealize.ShloMosaic.Lib.Pipeline.Frame

noncomputable section

namespace Cert.KernelIdeal.Run

open Cert.KernelIdeal Cert.KernelIdeal.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (SparseCore.Cfg.HIx 1) (Elt F) ℕ UU ℕ

/-- The nine arrays the stage moves, as the TensorCore's buffers: x, the two arrays of partial sums and counts, the two
    slices of the first weight matrix, the first bias as a row, the second weight matrix, the second bias as a row, and
    the result. -/
abbrev rX : DevRef τ sig := Proc.devRef .tc (main_arg0 : Ref sig .tc)
abbrev rS : DevRef τ sig := Proc.devRef .tc (main_v1_0 : Ref sig .tc)
abbrev rC : DevRef τ sig := Proc.devRef .tc (main_v1_1 : Ref sig .tc)
abbrev rW1x : DevRef τ sig := Proc.devRef .tc (main_v2 : Ref sig .tc)
abbrev rW1a : DevRef τ sig := Proc.devRef .tc (main_v3 : Ref sig .tc)
abbrev rB1 : DevRef τ sig := Proc.devRef .tc (main_v4 : Ref sig .tc)
abbrev rW2 : DevRef τ sig := Proc.devRef .tc (main_arg7 : Ref sig .tc)
abbrev rB2 : DevRef τ sig := Proc.devRef .tc (main_v5 : Ref sig .tc)
abbrev rO : DevRef τ sig := Proc.devRef .tc (main_v6 : Ref sig .tc)

abbrev Sreg : Finset (DevRef τ sig) := {rX, rS, rC, rW1x, rW1a, rB1, rW2, rB2, rO}

/-- What device d's TensorCore needs of the staging cells' rounds: their ghost state and the transfers' duty tokens. -/
def Gd (d : Dev nD) : sProp 𝕄 :=
  iprop(Pipeline.cellsGhost cfgs (ER (F := F)) 0 d ∗ Pipeline.toksInit cfgs (ER (F := F)) 0 d)

/-- The staging cells' launch element funds every device's share. -/
def FundRegion : Prop :=
  BI.own ((ER (F := F)) (initOf (Pipeline.cells cfgs cellOf_inj) (Pipeline.launchToks cfgs cellOf_inj)))
    ⊢ iprop(|==> bigSep Finset.univ fun d : Dev nD => Gd (F := F) d)

variable [FloatOps F]
variable (m : (ℓ : Loc nD τ sig) → Buf (Elt F) ℓ)

/-- What the stage leaves: the handshake state and the boundary back, the unscoped arrays at the valuation with the
    result replaced by an array every row of which below 10000 is its block's row. -/
def RegionOut (d : Dev nD) (Vv : Valuation τ sig (Elt F)) : sProp 𝕄 :=
  iprop((K (F := F)).tcSt EH d 1 ∗ boundary (T d)
    ∗ ∃ o : Vec F S10000x128 .f32,
        ⌜Cert.KernelIdeal.Blk.RegionPost (F := F) (Vv rX) (Vv rS) (Vv rC) (Vv rW1x) (Vv rW1a) (Vv rB1) (Vv rW2) (Vv rB2) o⌝
        ∗ held (T d) (Pipeline.ucRefs τ sig) (Function.update Vv rO o))

/-- The stage's run, from the TensorCore's holdings after the call and the host operations to the same with the result
    written, under any post. -/
def RegionRun : Prop :=
  ∀ (κ : GSem nD τ sig → ℕ) (d : Dev nD) (Vv : Valuation τ sig (Elt F)) (Φ : PUnit → sProp 𝕄),
    iprop((K (F := F)).ctx EH (P m) κ ∗ (K (F := F)).tcSt EH d 1 ∗ Gd d ∗ boundary (T d) ∗ held (T d) (Pipeline.ucRefs τ sig) Vv
        ∗ (RegionOut d Vv -∗ Φ ⟨⟩))
      ⊢ wp frame (wpE ((K (F := F)).defs (D (F := F))) 𝒱 (SparseCore.T d) none) Set.univ
          (Prog.lift (.customCall (SparseCore.inner (Pipeline.entry 0)) ())) Φ

end Cert.KernelIdeal.Run

end
-- ==== Proof.LaunchElem.lean ====
/-
  The launch element of the program's ghost state (the handshakes' rounds, the staging cells' rounds funded for
  every device's dense stage, no transfer counters yet), @main's five layout operations as named terms, and the
  valuations @main passes through: at the launch, after the transpose, after the SparseCore call, after the slices
  and reshapes.
-/
import proofs.«212450_g60069412602311_cont_9to1_m_657_24_alg».proof.Proof.Common
import proofs.«212450_g60069412602311_cont_9to1_m_657_24_alg».proof.Proof.SplitJoin
import proofs.«212450_g60069412602311_cont_9to1_m_657_24_alg».proof.Proof.TileObl
import proofs.«212450_g60069412602311_cont_9to1_m_657_24_alg».proof.Proof.Block
import proofs.«212450_g60069412602311_cont_9to1_m_657_24_alg».proof.Proof.Deal
import proofs.«212450_g60069412602311_cont_9to1_m_657_24_alg».proof.Proof.RegionIface
import Idealize.ShloMosaic.Lib.Pipeline.Frame

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element -/

/-- The handshakes' rounds, the staging cells' rounds, the transfers' counters (none yet). -/
def u₀ : UU := (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

theorem hu₀ (hfund : FundRegion (F := F)) : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  have hf : (BI.own (((Emb.inl : Emb UR (UR × Counters)).trans (embR : Emb (UR × Counters) 𝕄)) (initOf (Pipeline.cells cfgs cellOf_inj) (Pipeline.launchToks cfgs cellOf_inj))) : sProp 𝕄)
      ⊢ iprop(|==> bigSep Finset.univ fun d : Dev nD => Gd (F := F) d) := hfund
  unfold u₀
  iintro Hu
  ihave H := (ownU_pair _ _) $$ Hu
  icases H with ⟨HH, HR⟩
  ihave HR' := (own_pair_emb (embR : Emb (UR × Counters) 𝕄) _ _) $$ HR
  icases HR' with ⟨HR, -⟩
  imod hf $$ HR with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main's host operations, named -/

abbrev opT : HloOp τ sig (Elt F) := StableHlo.unary main_arg2 main_v0 ((transpose S16x320000 [1, 0] · transposes_S320000x16_S16x320000_1_0) : (⟨S320000x16, .f32⟩ : BufTy).Contents (Elt F) → (⟨S16x320000, .f32⟩ : BufTy).Contents (Elt F))
abbrev opW1x : HloOp τ sig (Elt F) := StableHlo.unary main_arg5 main_v2 ((extractStridedSlice S128x64 ![0, 0] · slices_S144x64_S128x64_0_0) : (⟨S144x64, .f32⟩ : BufTy).Contents (Elt F) → (⟨S128x64, .f32⟩ : BufTy).Contents (Elt F))
abbrev opW1a : HloOp τ sig (Elt F) := StableHlo.unary main_arg5 main_v3 ((extractStridedSlice S16x64 ![128, 0] · slices_S144x64_S16x64_128_0) : (⟨S144x64, .f32⟩ : BufTy).Contents (Elt F) → (⟨S16x64, .f32⟩ : BufTy).Contents (Elt F))
abbrev opB1 : HloOp τ sig (Elt F) := StableHlo.reshape main_arg6 main_v4 rfl shapeCasts_S64_S1x64
abbrev opB2 : HloOp τ sig (Elt F) := StableHlo.reshape main_arg8 main_v5 rfl shapeCasts_S128_S1x128

theorem hT : (opT (F := F)).bufs ⊆ Pipeline.ucRefs τ sig := Pipeline.sub_ucRefs _ (StableHlo.unary_bufs_sub _ _ _ _ _)
theorem hW1x : (opW1x (F := F)).bufs ⊆ Pipeline.ucRefs τ sig := Pipeline.sub_ucRefs _ (StableHlo.unary_bufs_sub _ _ _ _ _)
theorem hW1a : (opW1a (F := F)).bufs ⊆ Pipeline.ucRefs τ sig := Pipeline.sub_ucRefs _ (StableHlo.unary_bufs_sub _ _ _ _ _)
theorem hB1 : (opB1 (F := F)).bufs ⊆ Pipeline.ucRefs τ sig := Pipeline.sub_ucRefs _ (StableHlo.reshape_bufs_sub _ _ _ _ _ _)
theorem hB2 : (opB2 (F := F)).bufs ⊆ Pipeline.ucRefs τ sig := Pipeline.sub_ucRefs _ (StableHlo.reshape_bufs_sub _ _ _ _ _ _)

/-! ## The valuations @main passes through -/

/-- The launch valuation. -/
def V0 (d : Dev nD) : Valuation τ sig (Elt F) := fun b => m (d, b)
/-- After the transpose. -/
def V1 (d : Dev nD) : Valuation τ sig (Elt F) := (opT (F := F)).result (V0 m d)
/-- After the SparseCore call: its two results hold the whole-array functions of sums and counts. -/
def V2 (d : Dev nD) : Valuation τ sig (Elt F) :=
  Function.update (Function.update (V1 m d) rS (Cert.Spec.sumsArr (F := F) (eaT m d) (eiV m d) : Buf (Elt F) (sLoc d)))
    rC (Cert.Spec.cntArr (F := F) (eiV m d) : Buf (Elt F) (cLoc d))
/-- After the four layout operations. -/
def V3 (d : Dev nD) : Valuation τ sig (Elt F) :=
  (opB2 (F := F)).result ((opB1 (F := F)).result ((opW1a (F := F)).result ((opW1x (F := F)).result (V2 m d))))

abbrev rE : DevRef τ sig := Proc.devRef .tc (main_v0 : Ref sig .tc)
abbrev rI : DevRef τ sig := Proc.devRef .tc (main_arg1 : Ref sig .tc)
abbrev T4 : Finset (DevRef τ sig) := {rE, rI, rS, rC}

theorem T4_sub : (T4 : Finset (DevRef τ sig)) ⊆ Pipeline.ucRefs τ sig := by decide

omit [FloatOps F] in
theorem held_T4 (d : Dev nD) (W : Valuation τ sig (Elt F)) :
    (held (T d) T4 W : sProp 𝕄) = iprop((eLoc d ↦{fullShare} W rE) ∗ (iLoc d ↦{fullShare} W rI) ∗ (sLoc d ↦{fullShare} W rS) ∗ (cLoc d ↦{fullShare} W rC)) := by
  unfold held T4
  rw [SparseCore.bigSep_insert' (by decide), SparseCore.bigSep_insert' (by decide), SparseCore.bigSep_insert' (by decide), bigSep_singleton]

theorem V1_rE (d : Dev nD) : V1 m d rE = eaT m d := by
  unfold V1 eaT; exact StableHlo.unary_result _ _ _ _ _ _
theorem V1_rI (d : Dev nD) : V1 m d rI = eiV m d := by
  unfold V1; rw [StableHlo.unary_result_ne]; rfl; decide

end Cert.KernelIdeal.Run

end
-- ==== Proof.LaunchMain.lean ====
/-
  @main on the TensorCore, run: what each valuation holds at each array, the call's arrays dealt to the tiles and
  gathered back, the layout operations, the dense stage, and the final valuation — the nine arguments at the launch
  memory and the result satisfying the dense stage's post over arrays that are functions of the launch memory.
-/
import proofs.«212450_g60069412602311_cont_9to1_m_657_24_alg».proof.Proof.Common
import proofs.«212450_g60069412602311_cont_9to1_m_657_24_alg».proof.Proof.SplitJoin
import proofs.«212450_g60069412602311_cont_9to1_m_657_24_alg».proof.Proof.TileObl
import proofs.«212450_g60069412602311_cont_9to1_m_657_24_alg».proof.Proof.Block
import proofs.«212450_g60069412602311_cont_9to1_m_657_24_alg».proof.Proof.Deal
import proofs.«212450_g60069412602311_cont_9to1_m_657_24_alg».proof.Proof.RegionIface
import proofs.«212450_g60069412602311_cont_9to1_m_657_24_alg».proof.Proof.LaunchElem
import Idealize.ShloMosaic.Lib.Pipeline.Frame

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the valuations hold -/

abbrev rA : DevRef τ sig := Proc.devRef .tc (main_arg2 : Ref sig .tc)
abbrev rU : DevRef τ sig := Proc.devRef .tc (main_arg3 : Ref sig .tc)
abbrev rBt : DevRef τ sig := Proc.devRef .tc (main_arg4 : Ref sig .tc)
abbrev rW1 : DevRef τ sig := Proc.devRef .tc (main_arg5 : Ref sig .tc)
abbrev rb1 : DevRef τ sig := Proc.devRef .tc (main_arg6 : Ref sig .tc)
abbrev rb2 : DevRef τ sig := Proc.devRef .tc (main_arg8 : Ref sig .tc)

theorem V1_of_ne (d : Dev nD) (b : DevRef τ sig) (hb : b ≠ rE) : V1 m d b = V0 m d b := by
  unfold V1; exact (opT (F := F)).result_of_not_mem (V0 m d) (fun hw => hb (by simpa using hw))

theorem V2_rE (d : Dev nD) : V2 m d rE = eaT m d := by
  unfold V2; rw [Function.update_of_ne (by decide), Function.update_of_ne (by decide)]; exact V1_rE m d
theorem V2_rI (d : Dev nD) : V2 m d rI = eiV m d := by
  unfold V2; rw [Function.update_of_ne (by decide), Function.update_of_ne (by decide)]; exact V1_rI m d
theorem V2_rS (d : Dev nD) : V2 m d rS = (Cert.Spec.sumsArr (F := F) (eaT m d) (eiV m d) : Buf (Elt F) (sLoc d)) := by
  unfold V2; rw [Function.update_of_ne (by decide), Function.update_self]
theorem V2_rC (d : Dev nD) : V2 m d rC = (Cert.Spec.cntArr (F := F) (eiV m d) : Buf (Elt F) (cLoc d)) := by
  unfold V2; rw [Function.update_self]
theorem V2_of_ne (d : Dev nD) (b : DevRef τ sig) (hS : b ≠ rS) (hC : b ≠ rC) : V2 m d b = V1 m d b := by
  unfold V2; rw [Function.update_of_ne hC, Function.update_of_ne hS]

/-! ## After the layout operations -/

/-- The same valuation as a fold over the four operations (the form their results are read in). -/
theorem V3_eq (d : Dev nD) : V3 m d = StableHlo.after [opW1x (F := F), opW1a, opB1, opB2] (V2 m d) := rfl

/-- The arrays the dense stage reads, as functions of the launch memory. -/
def w1x (d : Dev nD) : Vec F S128x64 .f32 := extractStridedSlice S128x64 ![0, 0] (V0 m d rW1) slices_S144x64_S128x64_0_0
def w1a (d : Dev nD) : Vec F S16x64 .f32 := extractStridedSlice S16x64 ![128, 0] (V0 m d rW1) slices_S144x64_S16x64_128_0
def b1r (d : Dev nD) : Vec F S1x64 .f32 := shapeCast S1x64 (V0 m d rb1) shapeCasts_S64_S1x64
def b2r (d : Dev nD) : Vec F S1x128 .f32 := shapeCast S1x128 (V0 m d rb2) shapeCasts_S128_S1x128

theorem V3_keep (d : Dev nD) (b : DevRef τ sig) (h2 : b ≠ rW1x) (h3 : b ≠ rW1a) (h4 : b ≠ rB1) (h5 : b ≠ rB2) : V3 m d b = V2 m d b := by
  unfold V3
  rw [(opB2 (F := F)).result_of_not_mem _ (fun hw => h5 (by simpa using hw)), (opB1 (F := F)).result_of_not_mem _ (fun hw => h4 (by simpa using hw)),
    (opW1a (F := F)).result_of_not_mem _ (fun hw => h3 (by simpa using hw)), (opW1x (F := F)).result_of_not_mem _ (fun hw => h2 (by simpa using hw))]

theorem V3_arg (d : Dev nD) (b : DevRef τ sig) (h2 : b ≠ rW1x) (h3 : b ≠ rW1a) (h4 : b ≠ rB1) (h5 : b ≠ rB2) (hS : b ≠ rS) (hC : b ≠ rC) (hE : b ≠ rE) :
    V3 m d b = V0 m d b := by
  rw [V3_keep m d b h2 h3 h4 h5, V2_of_ne m d b hS hC, V1_of_ne m d b hE]

theorem V3_rS (d : Dev nD) : V3 m d rS = (Cert.Spec.sumsArr (F := F) (eaT m d) (eiV m d) : Buf (Elt F) (sLoc d)) := by
  rw [V3_keep m d rS (by decide) (by decide) (by decide) (by decide)]; exact V2_rS m d
theorem V3_rC (d : Dev nD) : V3 m d rC = (Cert.Spec.cntArr (F := F) (eiV m d) : Buf (Elt F) (cLoc d)) := by
  rw [V3_keep m d rC (by decide) (by decide) (by decide) (by decide)]; exact V2_rC m d

theorem V2_rW1 (d : Dev nD) : V2 m d rW1 = V0 m d rW1 := by
  rw [V2_of_ne m d rW1 (by decide) (by decide), V1_of_ne m d rW1 (by decide)]
theorem V2_rb1 (d : Dev nD) : V2 m d rb1 = V0 m d rb1 := by
  rw [V2_of_ne m d rb1 (by decide) (by decide), V1_of_ne m d rb1 (by decide)]
theorem V2_rb2 (d : Dev nD) : V2 m d rb2 = V0 m d rb2 := by
  rw [V2_of_ne m d rb2 (by decide) (by decide), V1_of_ne m d rb2 (by decide)]

theorem V3_rW1x (d : Dev nD) : V3 m d rW1x = w1x m d := by
  rw [V3_eq]; after_results; rw [V2_rW1]; rfl
theorem V3_rW1a (d : Dev nD) : V3 m d rW1a = w1a m d := by
  rw [V3_eq]; after_results; rw [V2_rW1]; rfl
theorem V3_rB1 (d : Dev nD) : V3 m d rB1 = b1r m d := by
  rw [V3_eq]; after_results; rw [V2_rb1]; rfl
theorem V3_rB2 (d : Dev nD) : V3 m d rB2 = b2r m d := by
  rw [V3_eq]; after_results; rw [V2_rb2]; rfl

/-! ## What @main leaves -/

/-- The final valuation: the nine arguments at the launch memory, the result satisfying the dense stage's post over
    arrays that are functions of the launch memory. -/
def FinFact (d : Dev nD) (Vf : Valuation τ sig (Elt F)) : Prop :=
  (Vf rX = V0 m d rX ∧ Vf rI = V0 m d rI ∧ Vf rA = V0 m d rA ∧ Vf rU = V0 m d rU ∧ Vf rBt = V0 m d rBt ∧ Vf rW1 = V0 m d rW1
      ∧ Vf rb1 = V0 m d rb1 ∧ Vf rW2 = V0 m d rW2 ∧ Vf rb2 = V0 m d rb2)
    ∧ Cert.KernelIdeal.Blk.RegionPost (F := F) (V0 m d rX) (Cert.Spec.sumsArr (F := F) (eaT m d) (eiV m d)) (Cert.Spec.cntArr (F := F) (eiV m d))
        (w1x m d) (w1a m d) (b1r m d) (V0 m d rW2) (b2r m d) (Vf rO)

theorem finFact (d : Dev nD) (o : Vec F S10000x128 .f32)
    (ho : Cert.KernelIdeal.Blk.RegionPost (F := F) (V3 m d rX) (V3 m d rS) (V3 m d rC) (V3 m d rW1x) (V3 m d rW1a) (V3 m d rB1) (V3 m d rW2) (V3 m d rB2) o) :
    FinFact m d (Function.update (V3 m d) rO o) := by
  have hX := V3_arg m d rX (by decide) (by decide) (by decide) (by decide) (by decide) (by decide) (by decide)
  have hW2 := V3_arg m d rW2 (by decide) (by decide) (by decide) (by decide) (by decide) (by decide) (by decide)
  refine ⟨⟨?_, ?_, ?_, ?_, ?_, ?_, ?_, ?_, ?_⟩, ?_⟩
  · rw [Function.update_of_ne (by decide)]; exact hX
  · rw [Function.update_of_ne (by decide)]; exact V3_arg m d rI (by decide) (by decide) (by decide) (by decide) (by decide) (by decide) (by decide)
  · rw [Function.update_of_ne (by decide)]; exact V3_arg m d rA (by decide) (by decide) (by decide) (by decide) (by decide) (by decide) (by decide)
  · rw [Function.update_of_ne (by decide)]; exact V3_arg m d rU (by decide) (by decide) (by decide) (by decide) (by decide) (by decide) (by decide)
  · rw [Function.update_of_ne (by decide)]; exact V3_arg m d rBt (by decide) (by decide) (by decide) (by decide) (by decide) (by decide) (by decide)
  · rw [Function.update_of_ne (by decide)]; exact V3_arg m d rW1 (by decide) (by decide) (by decide) (by decide) (by decide) (by decide) (by decide)
  · rw [Function.update_of_ne (by decide)]; exact V3_arg m d rb1 (by decide) (by decide) (by decide) (by decide) (by decide) (by decide) (by decide)
  · rw [Function.update_of_ne (by decide)]; exact hW2
  · rw [Function.update_of_ne (by decide)]; exact V3_arg m d rb2 (by decide) (by decide) (by decide) (by decide) (by decide) (by decide) (by decide)
  · rw [Function.update_self]
    rw [hX, V3_rS, V3_rC, V3_rW1x, V3_rW1a, V3_rB1, hW2, V3_rB2] at ho
    exact ho

abbrev FIN (d : Dev nD) : sProp 𝕄 := iprop(∃ Vf : Valuation τ sig (Elt F), ⌜FinFact m d Vf⌝ ∗ held (T d) (Pipeline.ucRefs τ sig) Vf)

/-! ## The call's operands and results, as the launch deals them -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c)
    = bigSep Finset.univ fun c : Fin 2 => bigSep Finset.univ fun i : Fin 16 => goRes m d c i :=
  bigSep_cores (F := F) (fun c => bigSep Finset.univ fun i : Fin 16 => goRes m d c i)
theorem dn0_eq (d : Dev nD) : (bigSep Finset.univ fun c : Fin ((K (F := F)).nCore 0) => (P m).dn 0 d c)
    = bigSep Finset.univ fun c : Fin 2 => bigSep Finset.univ fun i : Fin 16 => tdArr m d c i :=
  bigSep_cores (F := F) (fun c => bigSep Finset.univ fun i : Fin 16 => tdArr m d c i)

theorem held_T4_V1 (d : Dev nD) : (held (T d) T4 (V1 m d) : sProp 𝕄)
    = iprop((eLoc d ↦{fullShare} eaT m d) ∗ (iLoc d ↦{fullShare} eiV m d) ∗ (sLoc d ↦{fullShare} V1 m d rS) ∗ (cLoc d ↦{fullShare} V1 m d rC)) := by
  rw [held_T4, V1_rE, V1_rI]
theorem held_T4_V2 (d : Dev nD) : (held (T d) T4 (V2 m d) : sProp 𝕄)
    = iprop((eLoc d ↦{fullShare} eaT m d) ∗ (iLoc d ↦{fullShare} eiV m d)
        ∗ (sLoc d ↦{fullShare} (Cert.Spec.sumsArr (F := F) (eaT m d) (eiV m d) : Buf (Elt F) (sLoc d)))
        ∗ (cLoc d ↦{fullShare} (Cert.Spec.cntArr (F := F) (eiV m d) : Buf (Elt F) (cLoc d)))) := by
  rw [held_T4, V2_rE, V2_rI, V2_rS, V2_rC]
theorem held_rest_V2 (d : Dev nD) : (held (T d) (Pipeline.ucRefs τ sig \ T4) (V2 m d) : sProp 𝕄) = held (T d) (Pipeline.ucRefs τ sig \ T4) (V1 m d) :=
  StableHlo.held_congr (T d) fun b hb => by
    have hb' := (Finset.mem_sdiff.mp hb).2
    simp only [T4, Finset.mem_insert, Finset.mem_singleton, not_or] at hb'
    exact V2_of_ne m d b hb'.2.2.1 hb'.2.2.2

/-! ## @main on the TensorCore -/

/-- @main on device d's TensorCore: the transpose; the SparseCore call, its four arrays dealt to the 32 tiles and
    gathered back; the slices and reshapes; the dense stage; what is left is the final valuation. -/
theorem hmain (hreg : RegionRun m) (κ : GSem nD τ sig → ℕ) (d : Dev nD) :
    iprop((K (F := F)).ctx EH (P m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (fun b : Ref sig .tc => m ((SparseCore.T d).loc b)) = (fun b : Ref sig .tc => V0 m d (Proc.devRef .tc b)) from rfl, Pipeline.unscopedBufs_held]
  simp only [main, wp_bind, wp_pure]
  iintro ⟨#Hctx, Hst, ⟨Hb, Hheld, -, -⟩, HG⟩
  -- the transpose
  iapply (wp_hlo_within 𝒱 (SparseCore.T d) none Set.univ (op := opT) (S := Pipeline.ucRefs τ sig) hT (V := V0 m d)) $$ [Hb Hheld]
  · isplitl [Hb]; · iexact Hb
    iexact Hheld
  iintro ⟨Hb, Hheld⟩
  rw [wp_ret]; imodintro
  -- the call: the four arrays out of the held set, dealt
  ihave Hheld := (Entails.of_eq (show (held (T d) (Pipeline.ucRefs τ sig) ((opT (F := F)).result (V0 m d)) : sProp 𝕄) = held (T d) (Pipeline.ucRefs τ sig) (V1 m d) from rfl)) $$ Hheld
  ihave Hh := (Entails.of_eq (StableHlo.held_sub_split (T d) T4_sub (V1 m d))) $$ Hheld
  icases Hh with ⟨H4, Hrest⟩
  ihave H4' := (Entails.of_eq (held_T4_V1 m d)) $$ H4
  ihave Hd := (deal m d _ _) $$ H4'
  icases Hd with ⟨Hrr, Hgo⟩
  iapply ((K (F := F)).wp_run (D (F := F)) 𝒱 (EH := EH) (P := P m) κ d 0) $$ [Hst Hgo Hrr Hrest Hb HG]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hg := (gather m d) $$ [Hrr Hdn']
  · isplitl [Hrr] <;> iassumption
  ihave H4 := (Entails.of_eq (held_T4_V2 m d).symm) $$ Hg
  ihave Hrest' := (Entails.of_eq (held_rest_V2 m d).symm) $$ Hrest
  ihave Hheld := (Entails.of_eq (StableHlo.held_sub_split (T d) T4_sub (V2 m d)).symm) $$ [H4 Hrest']
  · isplitl [H4] <;> iassumption
  -- the slices and reshapes
  iapply (wp_hlo_within 𝒱 (SparseCore.T d) none Set.univ (op := opW1x) (S := Pipeline.ucRefs τ sig) hW1x (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := opW1a) (S := Pipeline.ucRefs τ sig) hW1a) $$ [Hb Hheld]
  · isplitl [Hb]; · iexact Hb
    iexact Hheld
  iintro ⟨Hb, Hheld⟩
  rw [wp_ret]; imodintro
  iapply (wp_hlo_within 𝒱 (SparseCore.T d) none Set.univ (op := opB1) (S := Pipeline.ucRefs τ sig) hB1) $$ [Hb Hheld]
  · isplitl [Hb]; · iexact Hb
    iexact Hheld
  iintro ⟨Hb, Hheld⟩
  rw [wp_ret]; imodintro
  iapply (wp_hlo_within 𝒱 (SparseCore.T d) none Set.univ (op := opB2) (S := Pipeline.ucRefs τ sig) hB2) $$ [Hb Hheld]
  · isplitl [Hb]; · iexact Hb
    iexact Hheld
  iintro ⟨Hb, Hheld⟩
  rw [wp_ret]; imodintro
  -- the dense stage
  ihave Hheld := (Entails.of_eq (show (held (T d) (Pipeline.ucRefs τ sig) ((opB2 (F := F)).result ((opB1 (F := F)).result ((opW1a (F := F)).result ((opW1x (F := F)).result (V2 m d))))) : sProp 𝕄)
      = held (T d) (Pipeline.ucRefs τ sig) (V3 m d) from rfl)) $$ Hheld
  iapply (hreg κ d (V3 m d) _) $$ [Hst HG Hb Hheld]
  isplitr; · iexact Hctx
  isplitl [Hst]; · iexact Hst
  isplitl [HG]; · iexact HG
  isplitl [Hb]; · iexact Hb
  isplitl [Hheld]; · iexact Hheld
  iintro Hout
  unfold RegionOut
  icases Hout with ⟨Hst, -, %o, %ho, Hheld⟩
  imodintro
  isplitl [Hst]; · iexact Hst
  iexists (Function.update (V3 m d) rO o)
  isplitr
  · ipureintro; exact finFact m d o ho
  · iexact Hheld

end Cert.KernelIdeal.Run

end
-- ==== Proof.HeldAgree.lean ====
/-
  Buffers held whole agree with the physical memory.

  Under the state interpretation each whole buffer held at the full share pins the memory's contents of that
  buffer; the fact is pure, so the state interpretation is kept and the buffers of a finite set are read off it
  one after the other.
-/
import proofs.«212450_g60069412602311_cont_9to1_m_657_24_alg».proof.Proof.Common
import Idealize.ShloMosaic.Lib.StableHlo.Run

noncomputable section

namespace Cert.KernelIdeal.Run

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (SparseCore.Cfg.HIx 1) (Elt F) ℕ UU ℕ

/-- Every buffer of a set held whole at the full share holds, in the physical memory, its held contents. -/
theorem held_agree (c : Thread nD τ) (S : Finset (DevRef τ sig)) (W : Valuation τ sig (Elt F)) (s' : Phys nD τ sig (Elt F)) :
    iprop(StableHlo.held c S W ∗ SI s') ⊢ (⌜∀ b ∈ S, s'.mem.mem (c.1, b) = W b⌝ : sProp 𝕄) := by
  induction S using Finset.induction_on with
  | empty =>
    iintro -
    ipureintro
    intro b hb
    exact absurd hb (Finset.notMem_empty b)
  | insert a S' ha ih =>
    have e : (StableHlo.held c (insert a S') W : sProp 𝕄) = iprop(((c.1, a) ↦{fullShare} W a) ∗ StableHlo.held c S' W) := by
      unfold StableHlo.held
      exact BI.bigSep_insert ha
    rw [e]
    iintro ⟨⟨Ha, HS⟩, HSI⟩
    ihave H := (persistent_entails_right (SI_pointsTo_agree (st := s') (ℓ := (c.1, a)) (I := Finset.univ) (q := fullShare) (f := W a))) $$ [HSI Ha]
    · isplitl [HSI] <;> iassumption
    icases H with ⟨%h1, HSI, -⟩
    ihave H2 := ih $$ [HS HSI]
    · isplitl [HS] <;> iassumption
    icases H2 with %h2
    ipureintro
    intro b hb
    rcases Finset.mem_insert.mp hb with rfl | hb'
    · exact funext fun i => h1 i (Finset.mem_univ i)
    · exact h2 b hb'

end Cert.KernelIdeal.Run

end
-- ==== Proof.RunMain.lean ====
/-
  The program's run: every weakly fair execution of all the threads ends, faulting nowhere, with the nine arguments
  unchanged and the result satisfying the dense stage's post over arrays that are functions of the launch memory.
-/
import proofs.«212450_g60069412602311_cont_9to1_m_657_24_alg».proof.Proof.Common
import proofs.«212450_g60069412602311_cont_9to1_m_657_24_alg».proof.Proof.SplitJoin
import proofs.«212450_g60069412602311_cont_9to1_m_657_24_alg».proof.Proof.TileObl
import proofs.«212450_g60069412602311_cont_9to1_m_657_24_alg».proof.Proof.Block
import proofs.«212450_g60069412602311_cont_9to1_m_657_24_alg».proof.Proof.Deal
import proofs.«212450_g60069412602311_cont_9to1_m_657_24_alg».proof.Proof.RegionIface
import proofs.«212450_g60069412602311_cont_9to1_m_657_24_alg».proof.Proof.LaunchElem
import proofs.«212450_g60069412602311_cont_9to1_m_657_24_alg».proof.Proof.LaunchMain
import proofs.«212450_g60069412602311_cont_9to1_m_657_24_alg».proof.Proof.HeldAgree
import Idealize.ShloMosaic.Lib.Pipeline.Frame

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- What the final state is read as: some valuation with the final facts, held by the memory at every unscoped array. -/
def fq (d : Dev nD) (s' : Phys nD τ sig (Elt F)) : Prop :=
  ∃ Vf : Valuation τ sig (Elt F), FinFact m d Vf ∧ ∀ b ∈ Pipeline.ucRefs τ sig, s'.mem.mem ((d, b) : Loc nD τ sig) = Vf b

theorem hfin (d : Dev nD) (s' : Phys nD τ sig (Elt F)) : iprop(FIN m d ∗ SI s') ⊢ (⌜fq m d s'⌝ : sProp 𝕄) := by
  iintro ⟨⟨%Vf, %hV, Hheld⟩, HSI⟩
  ihave H := (held_agree (F := F) (SparseCore.T d) (Pipeline.ucRefs τ sig) Vf s') $$ [Hheld HSI]
  · isplitl [Hheld] <;> iassumption
  icases H with %h
  ipureintro; exact ⟨Vf, hV, h⟩

/-- The run's post: the result array satisfies the dense stage's post, the nine arguments are unchanged. -/
def QC : PUnit × MemSt nD τ sig (Elt F) → Prop := fun r => ∀ c : Dev nD,
  Cert.KernelIdeal.Blk.RegionPost (F := F) (V0 m c rX) (Cert.Spec.sumsArr (F := F) (eaT m c) (eiV m c)) (Cert.Spec.cntArr (F := F) (eiV m c))
      (w1x m c) (w1a m c) (b1r m c) (V0 m c rW2) (b2r m c) (r.2.mem ((c.tc : Thread nD τ).loc main_v6))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)

theorem qc_of_fq (s' : Phys nD τ sig (Elt F)) (h : ∀ d, fq m d s') : QC m (⟨⟩, s'.mem) := by
  intro c
  obtain ⟨Vf, ⟨⟨h0, h1, h2, h3, h4, h5, h6, h7, h8⟩, hP⟩, hm⟩ := h c
  refine ⟨?_, ?_, ?_, ?_, ?_, ?_, ?_, ?_, ?_, ?_⟩
  · have := hm rO (by decide); exact this ▸ hP
  · exact (hm rX (by decide)).trans h0
  · exact (hm rI (by decide)).trans h1
  · exact (hm rA (by decide)).trans h2
  · exact (hm rU (by decide)).trans h3
  · exact (hm rBt (by decide)).trans h4
  · exact (hm rW1 (by decide)).trans h5
  · exact (hm rb1 (by decide)).trans h6
  · exact (hm rW2 (by decide)).trans h7
  · exact (hm rb2 (by decide)).trans h8

theorem run_main [∀ e, Nonempty (Elt F e)] (hb : TileBody (F := F) m) (hreg : RegionRun m) (hfund : FundRegion (F := F)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb)
    (fun q _ => match q with | 0 => SparseCore.Cfg.VecSplit.of_plain (vecSplit m))
    m ρ main (fun d => Gd (F := F) d) (FIN m) (u₀ (F := F)) (sep_elim_left.trans (hu₀ m hfund)) (hmain m ρ hreg) (fq m) (hfin m) (QC m) (qc_of_fq m)

end Cert.KernelIdeal.Run

end
-- ==== Proof.PreRange.lean ====
/-
  The index range the precondition states, read back.

  The precondition is a conjunction (by and on one-bit words) of jnp.all's, one per argument.  The conjunct for the
  edge list says 0 ≤ e ≤ 9999 for every entry e, both comparisons signed.  A 32-bit word that is between 0 and
  9999 read signed is at most 9999 read unsigned.
-/
import proofs.«212450_g60069412602311_cont_9to1_m_657_24_alg».proof.Pre_input_domain
import Idealize.ShloMosaic.Lib.ReduceAll

namespace Cert.Proof.PreRange

open Idealize.ShloMosaic Cert.Pre_input_domain

instance : Subsingleton S_.Idx := ⟨fun a b => funext fun d => d.elim0⟩

/-- A word in [0, n] signed is at most n unsigned. -/
theorem toNat_le_of_signed (w : BitVec 32) (n : Nat) (hn : n < 2 ^ 31)
    (h0 : (0#32 : BitVec 32).toInt ≤ w.toInt) (h1 : w.toInt ≤ (BitVec.ofNat 32 n).toInt) : w.toNat ≤ n := by
  have hz : (0#32 : BitVec 32).toInt = 0 := by decide
  have hnn : (BitVec.ofNat 32 n).toInt = (n : Int) := by
    rw [BitVec.toInt_eq_toNat_of_lt (by rw [BitVec.toNat_ofNat]; omega), BitVec.toNat_ofNat]
    have : n % 2 ^ 32 = n := Nat.mod_eq_of_lt (by omega)
    omega
  rw [hz] at h0
  rw [hnn] at h1
  have h32 := w.isLt
  unfold BitVec.toInt at h0 h1
  split at h1 <;> omega

/-- Under the precondition every entry of the edge list is at most 9999 (as a natural number). -/
theorem col_le {F : FTy → Type} [FloatOps F] [Facts]
    (x : FVec F S10000x128 .f32) (ei : IVec S2x320000 32) (ea : FVec F S320000x16 .f32) (u : FVec F S1x64 .f32)
    (batch : IVec S10000 32) (W1 : FVec F S144x64 .f32) (b1 : FVec F S64 .f32) (W2 : FVec F S64x128 .f32)
    (b2 : FVec F S128 .f32)
    (h : fn (F := F) x ei ea u batch W1 b1 W2 b2 = fun _ => 1#1) : ∀ j, (ei j).toNat ≤ 9999 := by
  intro j
  have e := congrFun h (fun d => d.elim0)
  unfold fn fn_part1 fn_part2 at e
  dsimp only at e
  have e1 := (IntOp.andi_eq_one.1 e).1
  have e2 := (IntOp.andi_eq_one.1 e1).2
  have e3 := Host.reduce_andi_all _ _ _ _ _ e2 j
  obtain ⟨hge, hle⟩ := IntOp.andi_eq_one.1 e3
  have hge' := IntOp.cmpi_sge.1 hge
  have hle' := IntOp.cmpi_sle.1 hle
  exact toNat_le_of_signed (ei j) 9999 (by decide) hge' hle'

end Cert.Proof.PreRange
-- ==== Proof.PreOK.lean ====
/-
  The precondition gives the kernel's index range: under it every entry of the edge list, on every device, is at most
  9999, so every target node lies inside the accumulators.
-/
import proofs.«212450_g60069412602311_cont_9to1_m_657_24_alg».proof.Defs
import proofs.«212450_g60069412602311_cont_9to1_m_657_24_alg».proof.Proof.Common
import proofs.«212450_g60069412602311_cont_9to1_m_657_24_alg».proof.Proof.PreRange

namespace Cert.KernelIdeal.Run

open Cert.KernelIdeal Idealize.ShloMosaic

/-- The precondition, read on device d, bounds the edge list as the call's tiles read it. -/
theorem preOK_of_pre [Cert.Pre_input_domain.Facts] (m : (ℓ : Loc nD τ sig) → Buf (Elt Ideal) ℓ)
    (h : Cert.Pre_KernelIdeal m) : PreOK (F := Ideal) m :=
  fun d j => Cert.Proof.PreRange.col_le (F := Ideal) _ _ _ _ _ _ _ _ _ (h d) j

end Cert.KernelIdeal.Run
-- ==== Proof.RefRun.lean ====
/-
  The reference's run and its stages read at an index (the generated modules), gathered under one import.
-/
import proofs.«212450_g60069412602311_cont_9to1_m_657_24_alg».proof.Defs
import proofs.«212450_g60069412602311_cont_9to1_m_657_24_alg».proof.Proof.Gen.ReferenceIdeal.Run
import proofs.«212450_g60069412602311_cont_9to1_m_657_24_alg».proof.Proof.Gen.ReferenceIdeal.Read
-- ==== Proof.LibGatherScatter.lean ====
/-
  Row gathers and accumulating row scatters on the host, read at an index.

  `x[idx]` of an array `x : [N, C]` (or a flat `x : [N]`) at a column of start indices `idx : [M, 1]` lowers to a
  `stablehlo.gather` that collapses axis 0: result row `e` is operand row `idx[e, 0]`, the start index read as a signed
  integer and clamped into `[0, N - 1]`. `segment_sum` / `.at[idx].add` lowers to a `stablehlo.scatter` with an `add`
  body that inserts axis 0: at the ideal instance operand row `n` receives the sum of the update rows `e` whose start
  index, read signed and NOT clamped, is exactly `n`; an update whose start index is outside `[0, N)` is dropped.
  Everything here is generic in the extents `N`, `M`, `C` and in the width of the index words.
-/
import Idealize.ShloMosaic.PureOps.Ideal
import Idealize.ShloMosaic.Lib.ValueIdx

noncomputable section

open scoped BigOperators

namespace Idealize.ShloMosaic.RowIdx

open Idealize.ShloMosaic Idealize.ShloMosaic.ValueIdx

/-! ## A start index clamped into the rows -/

/-- A signed start index clamped into `[0, N - 1]`: the row a gather reads. -/
def clampRow (N : Nat) (hN : 0 < N) {w : Nat} (v : BitVec w) : Fin N := ⟨min v.toInt.toNat (N - 1), by omega⟩

/-- A start index that IS a row number is its own clamp. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  rw [h, Int.toNat_natCast]
  have := n.isLt
  omega

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Gathers of rows -/

section Gather
variable {α : Type}

/-- The dimension numbers of `x[idx]` for `x : [N, C]`, `idx : [M, 1]`: axis 0 collapsed and indexed, axis 1 an offset axis. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Result element `(e, q)` of a row gather is the operand at row `clamp idx[e, 0]`, column `q`. -/
theorem rowGather_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (q : Fin C) :
    Host.gather (rowGatherDims N M C wf) x idx (ix2 e q) = x (ix2 (clampRow N hN (idx (ix2 e (0 : Fin 1)))) q) := by
  unfold Host.gather
  congr 1
  funext a
  refine Fin.ext ?_
  match a with
  | ⟨0, _⟩ =>
    show (rowGatherDims N M C wf).start (ix2 e q) idx 0 + (rowGatherDims N M C wf).batchCoord (ix2 e q) 0
      + (rowGatherDims N M C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e q) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e q) idx 1 + (rowGatherDims N M C wf).batchCoord (ix2 e q) 1
      + (rowGatherDims N M C wf).offCoord (ix2 e q) 1 = q.val
    rw [GatherDims.batchCoord_eq_zero _ _ _ List.not_mem_nil]
    have hs : (rowGatherDims N M C wf).start (ix2 e q) idx 1 = 0 := by
      unfold GatherDims.start
      rw [dif_neg (fun h => absurd (List.mem_singleton.mp h) (show ¬ ((1 : Fin 2) = 0) by decide))]
    rw [hs]
    simp only [Nat.add_zero, Nat.zero_add]
    rfl

/-- The dimension numbers of `x[idx]` for a flat `x : [N]`, `idx : [M, 1]`. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Result element `e` of a flat gather is the operand at `clamp idx[e, 0]`. -/
theorem flatGather_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e) = x (ix1 (clampRow N hN (idx (ix2 e (0 : Fin 1))))) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating scatters of rows, at the ideal instance -/

/-- An update lands at operand index `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · intro he a
      have h1 : (d.start j idx a + (d.window j a : Int)).toNat = (i a).val := congrArg (fun f => (f a).val) he
      have h2 := (h a).1
      omega
    · intro he
      funext a
      apply Fin.ext
      show (d.start j idx a + (d.window j a : Int)).toNat = (i a).val
      rw [he a, Int.toNat_natCast]
  · next h =>
    constructor
    · intro he; cases he
    · intro he
      refine absurd (fun a => ⟨?_, ?_⟩) h
      · rw [he a]; exact Int.natCast_nonneg _
      · rw [he a]; exact_mod_cast (i a).isLt

/-- The dimension numbers of `x.at[idx].add(upd)` for `x : [N, C]`, `idx : [M, 1]`, `upd : [M, C]`: axis 0 inserted and
    indexed, axis 1 a window axis. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowScatter
variable {N M C w : Nat} (wf : ScatterDims.WF ⟨2, ![N, C]⟩ ⟨2, ![M, 1]⟩ ⟨2, ![M, C]⟩ [1] [0] [0] 1)
  (idx : IVec ⟨2, ![M, 1]⟩ w) (e : Fin M) (q' : Fin C)

theorem rowScatter_start0 : (rowScatterDims N M C wf).start (ix2 e q') idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e q') ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 : (rowScatterDims N M C wf).start (ix2 e q') idx 1 = 0 := by
  unfold ScatterDims.start
  rw [dif_neg (fun h => absurd (List.mem_singleton.mp h) (show ¬ ((1 : Fin 2) = 0) by decide))]

theorem rowScatter_window0 : (rowScatterDims N M C wf).window (ix2 e q') 0 = 0 := by
  have hmem : ¬ ((0 : Fin 2) ∈ (rowScatterDims N M C wf).sKept) := by
    show (0 : Fin 2) ∉ ([1] : List (Fin 2)); decide
  unfold ScatterDims.window
  rw [dif_neg hmem]

theorem rowScatter_window1 : (rowScatterDims N M C wf).window (ix2 e q') 1 = q'.val := by
  have hmem : (1 : Fin 2) ∈ (rowScatterDims N M C wf).sKept := by
    show (1 : Fin 2) ∈ ([1] : List (Fin 2)); decide
  unfold ScatterDims.window
  rw [dif_pos hmem]
  rfl

/-- Update `(e, q')` lands at `(n, q)` exactly when its start index is `n` and the columns agree. -/
theorem rowScatter_lands_iff (n : Fin N) (q : Fin C) :
    (rowScatterDims N M C wf).resultIdx? (ix2 e q') idx = some (ix2 n q)
      ↔ (idx (ix2 e (0 : Fin 1))).toInt = (n.val : Int) ∧ q' = q := by
  rw [resultIdx?_eq_some_iff]
  constructor
  · intro h
    have h0 := h 0
    have h1 := h 1
    rw [rowScatter_start0, rowScatter_window0] at h0
    rw [rowScatter_start1, rowScatter_window1] at h1
    have h0' : (idx (ix2 e (0 : Fin 1))).toInt + ((0 : Nat) : Int) = (n.val : Int) := h0
    have h1' : (0 : Int) + (q'.val : Int) = (q.val : Int) := h1
    refine ⟨by simpa using h0', Fin.ext (by omega)⟩
  · rintro ⟨h0, rfl⟩ a
    match a with
    | ⟨0, _⟩ =>
      show (rowScatterDims N M C wf).start (ix2 e q') idx 0 + ((rowScatterDims N M C wf).window (ix2 e q') 0 : Int) = (n.val : Int)
      rw [rowScatter_start0, rowScatter_window0, h0]; simp
    | ⟨1, _⟩ =>
      show (rowScatterDims N M C wf).start (ix2 e q') idx 1 + ((rowScatterDims N M C wf).window (ix2 e q') 1 : Int) = (q'.val : Int)
      rw [rowScatter_start1, rowScatter_window1]; simp

end RowScatter

/-- THE ROW SCATTER-ADD READ AT `(n, q)`: the operand there plus the sum, over the update rows `e` whose start index is
    `n`, of the update at `(e, q)`. -/
theorem rowScatterAdd_apply {N M C w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (q : Fin C) :
    Ideal.hostScatterAdd (rowScatterDims N M C wf) x idx upd (ix2 n q)
      = x (ix2 n q) + ∑ e ∈ Finset.univ.filter (fun e : Fin M => (idx (ix2 e (0 : Fin 1))).toInt = (n.val : Int)), upd (ix2 e q) := by
  unfold Ideal.hostScatterAdd
  congr 1
  rw [Finset.sum_filter, sum_idx2, Finset.sum_filter]
  refine Finset.sum_congr rfl fun e _ => ?_
  simp only [rowScatter_lands_iff]
  by_cases h : (idx (ix2 e (0 : Fin 1))).toInt = (n.val : Int)
  · simp only [h, true_and, if_true]
    rw [Finset.sum_ite_eq' Finset.univ q (fun b => upd (ix2 e b))]
    simp
  · simp only [h, false_and, if_false, Finset.sum_const_zero]

/-- The dimension numbers of `x.at[idx].add(upd)` for a flat `x : [N]`, `idx : [M, 1]`, `upd : [M]`. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section FlatScatter
variable {N M w : Nat} (wf : ScatterDims.WF ⟨1, ![N]⟩ ⟨2, ![M, 1]⟩ ⟨1, ![M]⟩ [] [0] [0] 1)
  (idx : IVec ⟨2, ![M, 1]⟩ w) (e : Fin M)

theorem flatScatter_start0 : (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem flatScatter_window0 : (flatScatterDims N M wf).window (ix1 e) 0 = 0 := by
  have hmem : ¬ ((0 : Fin 1) ∈ (flatScatterDims N M wf).sKept) := by
    show (0 : Fin 1) ∉ ([] : List (Fin 1)); decide
  unfold ScatterDims.window
  rw [dif_neg hmem]

/-- Update `e` lands at `n` exactly when its start index is `n`. -/
theorem flatScatter_lands_iff (n : Fin N) :
    (flatScatterDims N M wf).resultIdx? (ix1 e) idx = some (ix1 n) ↔ (idx (ix2 e (0 : Fin 1))).toInt = (n.val : Int) := by
  rw [resultIdx?_eq_some_iff]
  constructor
  · intro h
    have h0 := h 0
    rw [flatScatter_start0, flatScatter_window0] at h0
    have h0' : (idx (ix2 e (0 : Fin 1))).toInt + ((0 : Nat) : Int) = (n.val : Int) := h0
    simpa using h0'
  · intro h0 a
    obtain rfl : a = 0 := Subsingleton.elim _ _
    show (flatScatterDims N M wf).start (ix1 e) idx 0 + ((flatScatterDims N M wf).window (ix1 e) 0 : Int) = (n.val : Int)
    rw [flatScatter_start0, flatScatter_window0, h0]; simp

end FlatScatter

/-- THE FLAT SCATTER-ADD READ AT `n`: the operand there plus the sum of the updates whose start index is `n`. -/
theorem flatScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (flatScatterDims N M wf) x idx upd (ix1 n)
      = x (ix1 n) + ∑ e ∈ Finset.univ.filter (fun e : Fin M => (idx (ix2 e (0 : Fin 1))).toInt = (n.val : Int)), upd (ix1 e) := by
  unfold Ideal.hostScatterAdd
  congr 1
  rw [Finset.sum_filter, sum_idx1, Finset.sum_filter]
  refine Finset.sum_congr rfl fun e _ => ?_
  simp only [flatScatter_lands_iff]

end Idealize.ShloMosaic.RowIdx

end
-- ==== Proof.LibHostScatter.lean ====
/-
  The accumulating row scatters of LibGatherScatter, stated for the host operation `Host.scatterAdd` itself at the ideal
  instance (which is, by definition, the exact sum `Ideal.hostScatterAdd`), generic in the extents and in the float format:
  a goal that spells the operation as the program prints it meets these lemmas head on.
-/
import proofs.«212450_g60069412602311_cont_9to1_m_657_24_alg».proof.Proof.LibGatherScatter

noncomputable section

open scoped BigOperators

namespace Idealize.ShloMosaic.RowIdx

open Idealize.ShloMosaic Idealize.ShloMosaic.ValueIdx

/-- The host's accumulating row scatter at `(n, q)`: the operand there plus the updates `(e, q)` of the rows whose
    start index is `n`. -/
theorem host_rowScatterAdd_apply {N M C w : Nat} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ) (n : Fin N) (q : Fin C) :
    Host.scatterAdd (F := Ideal) (rowScatterDims N M C wf) x idx upd (ix2 n q)
      = x (ix2 n q) + ∑ e ∈ Finset.univ.filter (fun e : Fin M => (idx (ix2 e (0 : Fin 1))).toInt = (n.val : Int)), upd (ix2 e q) :=
  rowScatterAdd_apply wf x idx upd n q

/-- The host's accumulating flat scatter at `n`: the operand there plus the updates whose start index is `n`. -/
theorem host_flatScatterAdd_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (n : Fin N) :
    Host.scatterAdd (F := Ideal) (flatScatterDims N M wf) x idx upd (ix1 n)
      = x (ix1 n) + ∑ e ∈ Finset.univ.filter (fun e : Fin M => (idx (ix2 e (0 : Fin 1))).toInt = (n.val : Int)), upd (ix1 e) :=
  flatScatterAdd_apply wf x idx upd n

end Idealize.ShloMosaic.RowIdx

end
-- ==== Proof.RefValueAgg.lean ====
/-
  The reference's aggregate, read at an index: the two scatter-adds are the sum and the count over the edges pointing
  at a node, and their quotient is the mean.
-/
import proofs.«212450_g60069412602311_cont_9to1_m_657_24_alg».proof.Proof.RefRun
import proofs.«212450_g60069412602311_cont_9to1_m_657_24_alg».proof.Proof.Spec
import proofs.«212450_g60069412602311_cont_9to1_m_657_24_alg».proof.Proof.LibHostScatter

noncomputable section

namespace Cert.Proof.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-! ## The target node of an edge, through the slice, the reshape and the broadcast -/

variable {F : FTy → Type} [FloatOps F]

/-- Entry (e, 0) of the column of scatter indices is row 1 of the edge list at e. -/
theorem col_apply (ei : (⟨S2x320000, .i32⟩ : BufTy).Contents (Elt F)) (e : Fin 320000) :
    val_main_v3 (F := F) ei (ix2 e (0 : Fin 1)) = ei (ix2 (1 : Fin 2) e) := by
  rw [val_main_v3_apply, val_main_v1_apply, val_main_v0_apply]
  congr 1
  funext a
  match a with
  | ⟨0, _⟩ => rfl
  | ⟨1, _⟩ => exact Fin.ext (Nat.mod_eq_of_lt e.isLt)

/-- The second scatter's index column is the same column. -/
theorem col_apply' (ei : (⟨S2x320000, .i32⟩ : BufTy).Contents (Elt F)) (e : Fin 320000) :
    val_main_v7 (F := F) ei (ix2 e (0 : Fin 1)) = ei (ix2 (1 : Fin 2) e) := col_apply ei e

/-- A 32-bit word read signed is a small natural number exactly when it is that number read unsigned. -/
theorem toInt_eq_iff (w : BitVec 32) (r : Nat) (hr : r < 2 ^ 31) : w.toInt = (r : Int) ↔ w.toNat = r := by
  have := w.isLt
  unfold BitVec.toInt
  split <;> omega

/-! ## The two segment sums -/

/-- The scattered sum of the attributes at (r, f) is the sum of attribute f over the edges pointing at r. -/
theorem v4_apply (ei : (⟨S2x320000, .i32⟩ : BufTy).Contents (Elt Ideal)) (ea : (⟨S320000x16, .f32⟩ : BufTy).Contents (Elt Ideal))
    (r : Fin 10000) (f : Fin 16) :
    val_main_v4 (F := Ideal) ei ea (ix2 r f) = Cert.Spec.segSum ea ei r.val f := by
  unfold val_main_v4
  rw [show scatter_S10000x16_S320000x1_S320000x16_1_0_0_1
        = RowIdx.rowScatterDims 10000 320000 16 Facts₀.scatter_S10000x16_S320000x1_S320000x16_1_0_0_1_wf from rfl,
    RowIdx.host_rowScatterAdd_apply, val_main_v2_apply, val_main_cst_apply, Ideal.ofBits_def, Ideal.ofBits_zero_f32, zero_add,
    Finset.sum_filter]
  unfold Cert.Spec.segSum
  refine Finset.sum_congr rfl fun e _ => ?_
  rw [col_apply]
  exact if_congr (toInt_eq_iff _ _ (by have := r.isLt; omega)) rfl rfl

/-- The scattered count at (r, 0) is the number of edges pointing at r, as a sum of the word 1.0. -/
theorem v8_apply (ei : (⟨S2x320000, .i32⟩ : BufTy).Contents (Elt Ideal)) (r : Fin 10000) :
    val_main_v8 (F := Ideal) ei (ix2 r (0 : Fin 1)) = Cert.Spec.segCnt ei r.val := by
  unfold val_main_v8
  rw [show scatter_S10000x1_S320000x1_S320000x1_1_0_0_1
        = RowIdx.rowScatterDims 10000 320000 1 Facts₀.scatter_S10000x1_S320000x1_S320000x1_1_0_0_1_wf from rfl,
    RowIdx.host_rowScatterAdd_apply, val_main_v6_apply, val_main_cst_1_apply, Ideal.ofBits_def, Ideal.ofBits_zero_f32, zero_add,
    Finset.sum_filter]
  unfold Cert.Spec.segCnt
  refine Finset.sum_congr rfl fun e _ => ?_
  rw [col_apply', val_main_v5_apply, val_main_cst_0_apply]
  exact if_congr (toInt_eq_iff _ _ (by have := r.isLt; omega)) rfl rfl

/-- The quotient at (r, f) is the aggregate. -/
theorem v12_apply (ei : (⟨S2x320000, .i32⟩ : BufTy).Contents (Elt Ideal)) (ea : (⟨S320000x16, .f32⟩ : BufTy).Contents (Elt Ideal))
    (r : Fin 10000) (f : Fin 16) :
    val_main_v12 (F := Ideal) ei ea (ix2 r f) = Cert.Spec.agg ea ei r.val f := by
  have hidx : idx_main_v11 (ix2 r f) = ix2 r (0 : Fin 1) := by
    funext a
    match a with
    | ⟨0, _⟩ => rfl
    | ⟨1, _⟩ => rfl
  rw [val_main_v12_apply, val_main_v11_apply, val_main_v10_apply, hidx, v4_apply, v8_apply, val_main_v9_apply, val_main_cst_2_apply]
  rfl

end Cert.Proof.RefValue

end
-- ==== Proof.RefValue.lean ====
/-
  The reference's result is the target function of its arguments.

  The reference multiplies the concatenation [x, agg] by W1 in one sum over 144 columns and adds x to (h · W2 + b2);
  the target splits that sum at column 128 and groups the last sums as (x + h · W2) + b2.  Splitting a finite sum and
  re-associating + hold for extended reals as they stand.
-/
import proofs.«212450_g60069412602311_cont_9to1_m_657_24_alg».proof.Proof.RefValueAgg

noncomputable section

namespace Cert.Proof.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-! ## The concatenation [x, agg] at a column -/

/-- A column below 128 of the concatenation is x's. -/
theorem v13_left (x : (⟨S10000x128, .f32⟩ : BufTy).Contents (Elt Ideal)) (ei : (⟨S2x320000, .i32⟩ : BufTy).Contents (Elt Ideal))
    (ea : (⟨S320000x16, .f32⟩ : BufTy).Contents (Elt Ideal)) (r : Fin 10000) (a : Fin 128) :
    val_main_v13 (F := Ideal) x ei ea (ix2 r (⟨a.val, by omega⟩ : Fin 144)) = x (ix2 r a) := by
  unfold val_main_v13
  refine concatenate_pair_apply_left 1 x _ concatenates_S10000x128_S10000x16_S10000x144_d1 _ rfl (ix2 r a) ?_
  intro b
  match b with
  | ⟨0, _⟩ => rfl
  | ⟨1, _⟩ => rfl

/-- Column 128 + f of the concatenation is the aggregate's column f. -/
theorem v13_right (x : (⟨S10000x128, .f32⟩ : BufTy).Contents (Elt Ideal)) (ei : (⟨S2x320000, .i32⟩ : BufTy).Contents (Elt Ideal))
    (ea : (⟨S320000x16, .f32⟩ : BufTy).Contents (Elt Ideal)) (r : Fin 10000) (f : Fin 16) :
    val_main_v13 (F := Ideal) x ei ea (ix2 r (⟨128 + f.val, by omega⟩ : Fin 144)) = Cert.Spec.agg ea ei r.val f := by
  unfold val_main_v13
  rw [concatenate_pair_apply_right 1 x _ concatenates_S10000x128_S10000x16_S10000x144_d1 _ rfl rfl (ix2 r f) ?_ ?_]
  · exact v12_apply ei ea r f
  · intro b hb
    match b, hb with
    | ⟨0, _⟩, _ => rfl
    | ⟨1, _⟩, hb => exact absurd rfl hb
  · show f.val + 128 = 128 + f.val
    omega

/-- A sum over 144 columns is the sum over the first 128 plus the sum over the last 16. -/
theorem sum_split (g : Fin 144 → EReal) :
    ∑ a : Fin 144, g a = (∑ a : Fin 128, g ⟨a.val, by omega⟩) + ∑ f : Fin 16, g ⟨128 + f.val, by omega⟩ :=
  Fin.sum_univ_add (a := 128) (b := 16) g

/-! ## The hidden layer and the result -/

/-- The hidden layer's entry (r, k). -/
theorem v19_apply (x : (⟨S10000x128, .f32⟩ : BufTy).Contents (Elt Ideal)) (ei : (⟨S2x320000, .i32⟩ : BufTy).Contents (Elt Ideal))
    (ea : (⟨S320000x16, .f32⟩ : BufTy).Contents (Elt Ideal)) (W1 : (⟨S144x64, .f32⟩ : BufTy).Contents (Elt Ideal))
    (b1 : (⟨S64, .f32⟩ : BufTy).Contents (Elt Ideal)) (r : Fin 10000) (k : Fin 64) :
    val_main_v19 (F := Ideal) x ei ea W1 b1 (ix2 r k) = Cert.Spec.hidden x ea ei W1 b1 r k := by
  have hl : ∀ a : Fin 144, lidx_main_v14 (ix2 r k) a = ix2 r a := fun a => by
    funext d
    match d with
    | ⟨0, _⟩ => rfl
    | ⟨1, _⟩ => rfl
  have hr : ∀ a : Fin 144, ridx_main_v14 (ix2 r k) a = ix2 a k := fun a => by
    funext d
    match d with
    | ⟨0, _⟩ => rfl
    | ⟨1, _⟩ => rfl
  have hb : idx_main_v15 (idx_main_v16 (ix2 r k)) = ix1 k := by
    funext d
    match d with
    | ⟨0, _⟩ => rfl
  rw [val_main_v19_apply, val_main_v17_apply, val_main_v14_apply, val_main_v16_apply, val_main_v15_apply, val_main_v18_apply,
    val_main_cst_3_apply, hb]
  simp only [hl, hr, Ideal.maximumf_def, Ideal.addf_def, Ideal.ofBits_def]
  rw [sum_split]
  simp only [v13_left, v13_right]
  rfl

theorem ref_out_eq (x : (⟨S10000x128, .f32⟩ : BufTy).Contents (Elt Ideal)) (ei : (⟨S2x320000, .i32⟩ : BufTy).Contents (Elt Ideal))
    (ea : (⟨S320000x16, .f32⟩ : BufTy).Contents (Elt Ideal)) (W1 : (⟨S144x64, .f32⟩ : BufTy).Contents (Elt Ideal))
    (b1 : (⟨S64, .f32⟩ : BufTy).Contents (Elt Ideal)) (W2 : (⟨S64x128, .f32⟩ : BufTy).Contents (Elt Ideal))
    (b2 : (⟨S128, .f32⟩ : BufTy).Contents (Elt Ideal)) :
    val_main_v24 (F := Ideal) x ei ea W1 b1 W2 b2 = Cert.Spec.out x ea ei W1 b1 W2 b2 := by
  funext j
  obtain ⟨r, q, rfl⟩ : ∃ (r : Fin 10000) (q : Fin 128), j = ix2 r q := ⟨j 0, j 1, eq_ix2 j⟩
  have hl : ∀ k : Fin 64, lidx_main_v20 (ix2 r q) k = ix2 r k := fun k => by
    funext d
    match d with
    | ⟨0, _⟩ => rfl
    | ⟨1, _⟩ => rfl
  have hr : ∀ k : Fin 64, ridx_main_v20 (ix2 r q) k = ix2 k q := fun k => by
    funext d
    match d with
    | ⟨0, _⟩ => rfl
    | ⟨1, _⟩ => rfl
  have hb : idx_main_v21 (idx_main_v22 (ix2 r q)) = ix1 q := by
    funext d
    match d with
    | ⟨0, _⟩ => rfl
  rw [val_main_v24_apply, val_main_v23_apply, val_main_v20_apply, val_main_v22_apply, val_main_v21_apply, hb]
  simp only [hl, hr, v19_apply, Ideal.addf_def]
  exact (add_assoc _ _ _).symm

theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v24)
        = Cert.Spec.out (m' ((c.tc : Thread nD τ).loc main_arg0)) (m' ((c.tc : Thread nD τ).loc main_arg2))
            (m' ((c.tc : Thread nD τ).loc main_arg1)) (m' ((c.tc : Thread nD τ).loc main_arg5))
            (m' ((c.tc : Thread nD τ).loc main_arg6)) (m' ((c.tc : Thread nD τ).loc main_arg7))
            (m' ((c.tc : Thread nD τ).loc main_arg8))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)) :=
  (θ_run defs _ _).mono (fun _ h c => ⟨by rw [(h c).1, val_main_v24_eq, ref_out_eq], (h c).2⟩)
    (Cert.ReferenceIdeal.Value.run (F := Ideal) m' ρ')

/-- The reference's frame: its run with the result dropped. -/
theorem ref_frame [Cert.Pre_input_domain.Facts] : Cert.frame_ReferenceIdeal :=
  fun m ρ _ => (θ_run Cert.ReferenceIdeal.defs _ _).mono (fun _ h c => (h c).2) (Cert.ReferenceIdeal.Value.run (F := Ideal) m ρ)

end Cert.Proof.RefValue

end
-- ==== Proof.IdxAddSum.lean ====
/-
  An indexed vector store that ADDS, read at one entry, at the exact instance.

  The store takes the lanes of a rank-one vector in ascending order; each lane adds its element onto the entry its
  index names.  Over the extended reals addition is commutative and associative, so the entry j ends as its old
  value plus the sum, over the lanes whose index names j, of their elements — duplicates inside the vector
  accumulate, and the order of the lanes does not matter.
-/
import Idealize.ShloMosaic.PureOps.Ideal
import Idealize.ShloMosaic.PureOps.Ideal.Laws
import Idealize.ShloMosaic.Lib.ValueIdx

noncomputable section

open scoped BigOperators

namespace Cert.Proof.IdxAdd

open Idealize.ShloMosaic Idealize.ShloMosaic.ValueIdx

variable {s : Shape} {d : Fin 1 → Nat}

/-- Two multi-indices whose coordinates agree as natural numbers on every axis are equal, and conversely. -/
theorem idx_eq_iff (i j : s.Idx) : (∀ a, (j a).val = (i a).val) ↔ i = j :=
  ⟨fun hh => funext fun a => Fin.ext (hh a).symm, fun hh a => by rw [hh]⟩

/-- The add of the single lane k: the entry lane k names gains lane k's element; every other entry stays. -/
def laneAdd (idxs : Fin s.rank → IVec ⟨1, d⟩ 32) (v : Vec Ideal ⟨1, d⟩ .f32)
    (h : ∀ a x, (idxs a x).toNat < s.size a) (g : Vec Ideal s .f32) (k : Fin (d 0)) : Vec Ideal s .f32 :=
  fun j => if (∀ a, (j a).val = (idxAt idxs h (Shape.ofLane k) a).val)
    then (g (idxAt idxs h (Shape.ofLane k)) + v (Shape.ofLane k) : EReal) else g j

/-- An unmasked adding store is the left fold of the lane adds over the lanes in ascending order. -/
theorem storeIdx_add_eq_foldl (f : Vec Ideal s .f32) (idxs : Fin s.rank → IVec ⟨1, d⟩ 32) (v : Vec Ideal ⟨1, d⟩ .f32)
    (h : ∀ a x, (idxs a x).toNat < s.size a) :
    storeIdx f idxs v (fun _ => 1#1) true h = (List.finRange (d 0)).foldl (laneAdd idxs v h) f := by
  rfl

/-- A fold of lane adds over any list of lanes, read at an entry j: the starting value plus the elements of the
    lanes of the list that name j. -/
theorem foldl_laneAdd (idxs : Fin s.rank → IVec ⟨1, d⟩ 32) (v : Vec Ideal ⟨1, d⟩ .f32)
    (h : ∀ a x, (idxs a x).toNat < s.size a) (l : List (Fin (d 0))) :
    ∀ (f : Vec Ideal s .f32) (j : s.Idx),
      (l.foldl (laneAdd idxs v h) f j : EReal)
        = f j + (l.map fun k => if idxAt idxs h (Shape.ofLane k) = j then (v (Shape.ofLane k) : EReal) else 0).sum := by
  induction l with
  | nil => intro f j; simp
  | cons k l ih =>
    intro f j
    rw [List.foldl_cons, ih, List.map_cons, List.sum_cons]
    by_cases hk : idxAt idxs h (Shape.ofLane k) = j
    · have h1 : laneAdd idxs v h f k j = (f j + v (Shape.ofLane k) : EReal) := by
        unfold laneAdd; rw [if_pos ((idx_eq_iff _ _).2 hk), hk]
      rw [h1, if_pos hk, add_assoc]
    · have h1 : laneAdd idxs v h f k j = f j := by
        unfold laneAdd; rw [if_neg (fun hh => hk ((idx_eq_iff _ _).1 hh))]
      rw [h1, if_neg hk, zero_add]

/-- The adding store read at an entry j: the old value plus the sum over the lanes naming j of their elements. -/
theorem storeIdx_add_apply (f : Vec Ideal s .f32) (idxs : Fin s.rank → IVec ⟨1, d⟩ 32) (v : Vec Ideal ⟨1, d⟩ .f32)
    (h : ∀ a x, (idxs a x).toNat < s.size a) (j : s.Idx) :
    (storeIdx f idxs v (fun _ => 1#1) true h j : EReal)
      = f j + ∑ k : Fin (d 0), if idxAt idxs h (Shape.ofLane k) = j then (v (Shape.ofLane k) : EReal) else 0 := by
  rw [storeIdx_add_eq_foldl, foldl_laneAdd, Fin.sum_univ_def]

end Cert.Proof.IdxAdd

end
-- ==== Proof.TileSums.lean ====
/-
  The tiles' accumulators at the exact instance, as sums over edges.

  Each group of 16 edges adds, at entry r, the elements of its lanes whose target node is r.  So after all its
  groups a tile's sum accumulator holds at r the sum of its attribute over the edges of its half pointing at r, and
  its count accumulator the number (as a sum of the word 1.0) of the edges of its range pointing at r.  The two
  halves make the whole edge list; the 32 ranges, taken in the order w = 2 f + c, tile it exactly.  Everything is
  a finite sum in a commutative monoid (the extended reals): no order and no finiteness is used.
-/
import proofs.«212450_g60069412602311_cont_9to1_m_657_24_alg».proof.Proof.Spec
import proofs.«212450_g60069412602311_cont_9to1_m_657_24_alg».proof.Proof.IdxAddSum
import Idealize.ShloMosaic.Lib.Pipeline.Value

noncomputable section

open scoped BigOperators

namespace Cert.Proof.TileSums

open Idealize.ShloMosaic Idealize.ShloMosaic.ValueIdx Cert.Spec

/-! ## One indexed add-store of 16 lanes, at an entry -/

/-- Lane k of a 16-lane vector is the index with coordinate k. -/
theorem ofLane_eq_ix1 (k : Fin 16) : (Shape.ofLane (d := ![16]) k : SLane.Idx) = ix1 k := by
  funext a
  match a with
  | ⟨0, _⟩ => rfl

/-- One add-store read at entry n: the old value plus the elements of the lanes whose index is n. -/
theorem addAt_apply (acc : Vec Ideal SAcc .f32) (idx : IVec SLane 32) (v : Vec Ideal SLane .f32)
    (hin : ∀ l, (idx l).toNat < 10240) (n : Fin 10240) :
    (addAt acc idx v (ix1 n) : EReal)
      = acc (ix1 n) + ∑ k : Fin 16, if (idx (ix1 k)).toNat = n.val then (v (ix1 k) : EReal) else 0 := by
  have h : ∀ (a : Fin SAcc.rank) (x : SLane.Idx), ((![idx] : Fin SAcc.rank → IVec SLane 32) a x).toNat < SAcc.size a := by
    intro a x
    match a with
    | ⟨0, _⟩ => exact hin x
  rw [addAt_of_inb acc idx v h]
  refine (IdxAdd.storeIdx_add_apply acc _ v h (ix1 n)).trans ?_
  show (acc (ix1 n) : EReal) + (∑ k : Fin 16,
      if idxAt (![idx] : Fin SAcc.rank → IVec SLane 32) h (Shape.ofLane (d := ![16]) k) = ix1 n
        then (v (Shape.ofLane (d := ![16]) k) : EReal) else 0) = _
  refine congrArg (fun z : EReal => (acc (ix1 n) : EReal) + z) (Finset.sum_congr rfl fun k _ => ?_)
  rw [ofLane_eq_ix1 k]
  have hc : (idxAt (![idx] : Fin SAcc.rank → IVec SLane 32) h (ix1 k) = ix1 n) ↔ (idx (ix1 k)).toNat = n.val := by
    constructor
    · intro hh; exact congrArg (fun i : SAcc.Idx => (i 0).val) hh
    · intro hh
      funext a
      match a with
      | ⟨0, _⟩ => exact Fin.ext hh
  by_cases hk : (idx (ix1 k)).toNat = n.val
  · rw [if_pos hk, if_pos (hc.2 hk)]
  · rw [if_neg hk, if_neg (fun hh => hk (hc.1 hh))]

/-! ## What an edge contributes -/

/-- What edge e adds to node r's sum of attribute f (nothing beyond the edge list). -/
def gS (eaT : Vec Ideal SEaT .f32) (col : IVec SCol 32) (r : Nat) (f : Fin 16) (e : Nat) : EReal :=
  if h : e < 320000 then
    (if (col (ix2 (1 : Fin 2) (⟨e, h⟩ : Fin 320000))).toNat = r then (eaT (ix2 f (⟨e, h⟩ : Fin 320000)) : EReal) else 0)
  else 0

/-- What edge e adds to node r's count (nothing beyond the edge list). -/
def gC (col : IVec SCol 32) (r : Nat) (e : Nat) : EReal :=
  if h : e < 320000 then (if (col (ix2 (1 : Fin 2) (⟨e, h⟩ : Fin 320000))).toNat = r then one else 0) else 0

/-- The targets of a group of 16 edges are inside the accumulator. -/
theorem colVec_inb (col : IVec SCol 32) (hcol : ∀ j, (col j).toNat ≤ 9999) (e0 : Nat) (l : SLane.Idx) :
    (colVec col e0 l).toNat < 10240 := by
  unfold colVec
  split
  · exact Nat.lt_of_le_of_lt (hcol _) (by norm_num)
  · show (0#32).toNat < 10240
    decide

/-- Lane k of the group starting at e0 adds edge e0 + k's contribution to the sum. -/
theorem lane_sum (eaT : Vec Ideal SEaT .f32) (col : IVec SCol 32) (r : Nat) (f : Fin 16) (e0 : Nat) (k : Fin 16) :
    (if (colVec col e0 (ix1 k)).toNat = r then (eaVec eaT f e0 (ix1 k) : EReal) else 0) = gS eaT col r f (e0 + k.val) := by
  unfold colVec eaVec gS
  by_cases h : e0 + k.val < 320000
  · rw [dif_pos h]
    have h' : e0 + ((ix1 k : SLane.Idx) 0).val < 320000 := h
    rw [dif_pos h', dif_pos h']
  · rw [dif_neg h]
    have h' : ¬ e0 + ((ix1 k : SLane.Idx) 0).val < 320000 := h
    rw [dif_neg h', dif_neg h']
    have hz : (Scalar.ofBits (F := Ideal) .f32 0x00000000#32 : EReal) = 0 := Ideal.ofBits_zero_f32
    rw [hz, ite_self]

/-- Lane k of a group inside the edge list adds edge e0 + k's contribution to the count. -/
theorem lane_cnt (col : IVec SCol 32) (r : Nat) (e0 : Nat) (k : Fin 16) (h : e0 + k.val < 320000) :
    (if (colVec col e0 (ix1 k)).toNat = r then (ones16 (F := Ideal) (ix1 k) : EReal) else 0) = gC col r (e0 + k.val) := by
  unfold colVec gC
  rw [dif_pos h]
  have h' : e0 + ((ix1 k : SLane.Idx) 0).val < 320000 := h
  rw [dif_pos h']
  rfl

/-! ## The accumulators after n groups -/

/-- The zero accumulator holds the real 0. -/
theorem zeroAcc_apply (j : SAcc.Idx) : (zeroAcc (F := Ideal) j : EReal) = 0 := Ideal.ofBits_zero_f32

/-- Tile (c, f)'s sum accumulator after n groups: the contributions of the first 16 n edges of half c. -/
theorem sumsAcc_apply (eaT : Vec Ideal SEaT .f32) (col : IVec SCol 32) (hcol : ∀ j, (col j).toNat ≤ 9999)
    (c : Fin 2) (f : Fin 16) (r : Fin 10240) (n : Nat) :
    (sumsAcc eaT col c f n (ix1 r) : EReal) = ∑ i ∈ Finset.range (16 * n), gS eaT col r.val f (160000 * c.val + i) := by
  induction n with
  | zero =>
    show (zeroAcc (F := Ideal) (ix1 r) : EReal) = _
    rw [zeroAcc_apply]; simp
  | succ n ih =>
    show (addAt (sumsAcc eaT col c f n) (colVec col (160000 * c.val + 16 * n)) (eaVec eaT f (160000 * c.val + 16 * n)) (ix1 r) : EReal) = _
    rw [addAt_apply _ _ _ (colVec_inb col hcol _) r, ih, show 16 * (n + 1) = 16 * n + 16 by ring, Finset.sum_range_add]
    refine congrArg (fun z : EReal => (∑ i ∈ Finset.range (16 * n), gS eaT col r.val f (160000 * c.val + i)) + z) ?_
    rw [Finset.sum_range]
    refine Finset.sum_congr rfl fun k _ => ?_
    rw [lane_sum, Nat.add_assoc]

/-- The count accumulator of a range after n groups inside the edge list: the contributions of its first 16 n edges. -/
theorem cntAcc_apply (col : IVec SCol 32) (hcol : ∀ j, (col j).toNat ≤ 9999) (w : Nat) (r : Fin 10240) (n : Nat)
    (hn : cntOff w + 16 * n ≤ 320000) :
    (cntAcc (F := Ideal) col w n (ix1 r) : EReal) = ∑ i ∈ Finset.range (16 * n), gC col r.val (cntOff w + i) := by
  induction n with
  | zero =>
    show (zeroAcc (F := Ideal) (ix1 r) : EReal) = _
    rw [zeroAcc_apply]; simp
  | succ n ih =>
    show (addAt (cntAcc (F := Ideal) col w n) (colVec col (cntOff w + 16 * n)) ones16 (ix1 r) : EReal) = _
    rw [addAt_apply _ _ _ (colVec_inb col hcol _) r, ih (by omega), show 16 * (n + 1) = 16 * n + 16 by ring, Finset.sum_range_add]
    refine congrArg (fun z : EReal => (∑ i ∈ Finset.range (16 * n), gC col r.val (cntOff w + i)) + z) ?_
    rw [Finset.sum_range]
    refine Finset.sum_congr rfl fun k _ => ?_
    rw [lane_cnt col r.val _ k (by have := k.isLt; omega), Nat.add_assoc]

/-! ## The sums: two halves make the edge list -/

/-- The contributions over the whole edge list are the sum over edges of the specification. -/
theorem sum_gS (eaT : Vec Ideal SEaT .f32) (col : IVec SCol 32) (r : Nat) (f : Fin 16) :
    ∑ i ∈ Finset.range 320000, gS eaT col r f i
      = ∑ e : Fin 320000, if (col (ix2 (1 : Fin 2) e)).toNat = r then (eaT (ix2 f e) : EReal) else 0 := by
  rw [Finset.sum_range]
  refine Finset.sum_congr rfl fun e _ => ?_
  unfold gS
  rw [dif_pos e.isLt]

theorem sum_gC (col : IVec SCol 32) (r : Nat) :
    ∑ i ∈ Finset.range 320000, gC col r i = segCnt col r := by
  unfold segCnt
  rw [Finset.sum_range]
  refine Finset.sum_congr rfl fun e _ => ?_
  unfold gC
  rw [dif_pos e.isLt]

/-- The two tiles of attribute f together hold, at r, the sum of attribute f over all edges pointing at r. -/
theorem sums_halves (eaT : Vec Ideal SEaT .f32) (col : IVec SCol 32) (hcol : ∀ j, (col j).toNat ≤ 9999)
    (f : Fin 16) (r : Fin 10240) :
    (tileSums eaT col 0 f (ix1 r) + tileSums eaT col 1 f (ix1 r) : EReal)
      = ∑ e : Fin 320000, if (col (ix2 (1 : Fin 2) e)).toNat = r.val then (eaT (ix2 f e) : EReal) else 0 := by
  unfold tileSums
  rw [sumsAcc_apply eaT col hcol 0 f r, sumsAcc_apply eaT col hcol 1 f r, ← sum_gS,
    show (320000 : Nat) = 16 * 10000 + 16 * 10000 by norm_num, Finset.sum_range_add]
  simp

/-- The transposed attribute table at (f, e) is the table at (e, f). -/
theorem transpose_ea (ea : Vec Ideal SEa .f32) (h : SEa.Transposes [1, 0] SEaT) (f : Fin 16) (e : Fin 320000) :
    transpose SEaT [1, 0] ea h (ix2 f e) = ea (ix2 e f) :=
  transpose_apply [1, 0] ea h (ix2 f e) (ix2 e f) (fun b => by
    match b with
    | ⟨0, _⟩ => rfl
    | ⟨1, _⟩ => rfl)

/-- With the transposed table: the two tiles of attribute f hold the specification's sum. -/
theorem sums_total (ea : Vec Ideal SEa .f32) (h : SEa.Transposes [1, 0] SEaT) (col : IVec SCol 32)
    (hcol : ∀ j, (col j).toNat ≤ 9999) (f : Fin 16) (r : Fin 10240) :
    (tileSums (transpose SEaT [1, 0] ea h) col 0 f (ix1 r) + tileSums (transpose SEaT [1, 0] ea h) col 1 f (ix1 r) : EReal)
      = segSum ea col r.val f := by
  rw [sums_halves _ col hcol f r]
  unfold segSum
  refine Finset.sum_congr rfl fun e _ => ?_
  rw [transpose_ea]

/-! ## The counts: 32 consecutive ranges tile the edge list -/

/-- Each range begins where the one before ends. -/
theorem cntOff_succ (w : Nat) : cntOff (w + 1) = cntOff w + 16 * cntGroups w := by
  unfold cntOff cntGroups
  split <;> omega

theorem cntOff_zero : cntOff 0 = 0 := by decide
theorem cntOff_32 : cntOff 32 = 320000 := by decide

/-- Every range of the 32 ends inside the edge list. -/
theorem cnt_range_le (w : Nat) (hw : w < 32) : cntOff w + 16 * cntGroups w ≤ 320000 := by
  unfold cntOff cntGroups
  split <;> omega

/-- Consecutive ranges, concatenated: the sums over the first W ranges are the sum up to where range W begins. -/
theorem sum_ranges (g : Nat → EReal) (W : Nat) :
    ∑ w ∈ Finset.range W, ∑ i ∈ Finset.range (16 * cntGroups w), g (cntOff w + i) = ∑ i ∈ Finset.range (cntOff W), g i := by
  induction W with
  | zero => rw [cntOff_zero]; simp
  | succ W ih => rw [Finset.sum_range_succ, ih, cntOff_succ, Finset.sum_range_add]

/-- A sum over 2 n consecutive numbers, taken in pairs. -/
theorem sum_pairs (T : Nat → EReal) (n : Nat) :
    ∑ f ∈ Finset.range n, (T (2 * f) + T (2 * f + 1)) = ∑ w ∈ Finset.range (2 * n), T w := by
  induction n with
  | zero => simp
  | succ n ih =>
    rw [Finset.sum_range_succ, ih, show 2 * (n + 1) = 2 * n + 1 + 1 by ring, Finset.sum_range_succ, Finset.sum_range_succ, add_assoc]

/-- The contributions of the edges of range w to node r's count. -/
def rangeCnt (col : IVec SCol 32) (r : Nat) (w : Nat) : EReal :=
  ∑ i ∈ Finset.range (16 * cntGroups w), gC col r (cntOff w + i)

/-- Tile (c, f)'s count accumulator at r: the contributions of range 2 f + c. -/
theorem tileCnt_apply (col : IVec SCol 32) (hcol : ∀ j, (col j).toNat ≤ 9999) (c : Fin 2) (f : Fin 16) (r : Fin 10240) :
    (tileCnt (F := Ideal) col c f (ix1 r) : EReal) = rangeCnt col r.val (2 * f.val + c.val) := by
  unfold tileCnt rangeCnt
  exact cntAcc_apply col hcol _ r _ (cnt_range_le _ (by have := f.isLt; have := c.isLt; omega))

/-- All 32 count accumulators together hold, at r, the number of edges pointing at r. -/
theorem cnt_total (col : IVec SCol 32) (hcol : ∀ j, (col j).toNat ≤ 9999) (r : Fin 10240) :
    (∑ f : Fin 16, ((tileCnt (F := Ideal) col 0 f (ix1 r) : EReal) + tileCnt (F := Ideal) col 1 f (ix1 r)))
      = segCnt col r.val := by
  calc (∑ f : Fin 16, ((tileCnt (F := Ideal) col 0 f (ix1 r) : EReal) + tileCnt (F := Ideal) col 1 f (ix1 r)))
      = ∑ f : Fin 16, (fun n : Nat => rangeCnt col r.val (2 * n) + rangeCnt col r.val (2 * n + 1)) f.val :=
        Finset.sum_congr rfl fun f _ => by
          rw [tileCnt_apply col hcol 0 f r, tileCnt_apply col hcol 1 f r]
          rfl
    _ = ∑ n ∈ Finset.range 16, (rangeCnt col r.val (2 * n) + rangeCnt col r.val (2 * n + 1)) :=
        Fin.sum_univ_eq_sum_range (fun n : Nat => rangeCnt col r.val (2 * n) + rangeCnt col r.val (2 * n + 1)) 16
    _ = ∑ w ∈ Finset.range (2 * 16), rangeCnt col r.val w := sum_pairs _ 16
    _ = ∑ i ∈ Finset.range (cntOff 32), gC col r.val i := sum_ranges (gC col r.val) 32
    _ = segCnt col r.val := by rw [cntOff_32, sum_gC]

end Cert.Proof.TileSums

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.BlockRow.lean ====
/-
  The dense stage's result block at the exact instance, entry by entry.

  Row p of the block depends on row p of the x block and on column p of the staged partial sums and counts only:
  the aggregate is (s0 + s1) / max (Σ_f (c0 + c1), 1) taken entrywise, the hidden layer is
  relu (x · W1x + aggᵀ · W1a + b1), and the result x + hidden · W2 + b2.  Each product accumulates into a zero
  array, so at the exact instance it is the plain sum over the contracted axis.
-/
import proofs.«212450_g60069412602311_cont_9to1_m_657_24_alg».proof.Proof.Block
import proofs.«212450_g60069412602311_cont_9to1_m_657_24_alg».proof.Proof.Spec
import proofs.«212450_g60069412602311_cont_9to1_m_657_24_alg».proof.Proof.LibMatRows
import Idealize.ShloMosaic.Lib.Pipeline.Value
import Idealize.ShloMosaic.PureOps.Ideal.Laws

noncomputable section

open scoped BigOperators

namespace Cert.Proof.BlockRow

open Idealize.ShloMosaic Idealize.ShloMosaic.ValueIdx Cert.KernelIdeal Cert.KernelIdeal.Gen Cert.KernelIdeal.Blk
open Cert.KernelIdeal.Facts₀ Cert.KernelIdeal.Facts

/-! ## The layout operations of the body, at an entry -/

/-- A [1, 16, 2048] vector viewed [16, 2048]: entry (f, p) is entry (0, f, p). -/
theorem castHalf_apply {α : Type} (v : S1x16x2048.Idx → α) (h : S1x16x2048.ShapeCasts S16x2048) (f : Fin 16) (p : Fin 2048) :
    shapeCast S16x2048 v h (ix2 f p) = v (ix3 (0 : Fin 1) f p) := by
  refine (shapeCast_dropUnit_apply ![16, 2048] v h (ix2 f p)).trans (congrArg v ?_)
  funext a
  match a with
  | ⟨0, _⟩ => rfl
  | ⟨1, _⟩ => rfl
  | ⟨2, _⟩ => rfl

/-- The sum over the 16 attributes' tiles of a [16, 2048] vector, at node p. -/
theorem cntRed_apply (w : FVec Ideal S16x2048 .f32) (h : S16x2048.Reduces [0] S2048) (hφ : FKind.Formats .f32)
    (hacc : (0x00000000#32 : BitVec 32) = 0x00000000#32) (p : Fin 2048) :
    (multiReduction (F := Ideal) .add [0] S2048 w 0x00000000#32 h hφ hacc (ix1 p) : EReal) = ∑ f : Fin 16, (w (ix2 f p) : EReal) := by
  refine (Ideal.multiReduction_add_single w 0x00000000#32 h hφ hacc (ix1 p)).trans ?_
  show (∑ f : Fin 16, (w (h.lift (ix1 p) f) : EReal)) = _
  refine Finset.sum_congr rfl fun f _ => congrArg w ?_
  funext a
  match a with
  | ⟨0, _⟩ => exact Fin.ext rfl
  | ⟨1, _⟩ => exact Fin.ext rfl

/-- A [2048] vector viewed [1, 2048] and repeated over 16 rows: entry (f, p) is entry p. -/
theorem den_apply (u : FVec Ideal S2048 .f32) (h1 : S2048.ShapeCasts S1x2048) (h2 : S1x2048.Broadcasts S16x2048)
    (f : Fin 16) (p : Fin 2048) :
    broadcastTo S16x2048 (shapeCast S1x2048 u h1) h2 (ix2 f p) = u (ix1 p) := by
  refine (broadcastTo_apply (shapeCast S1x2048 u h1) h2 (ix2 f p) (ix2 (0 : Fin 1) p) (fun a => by
    match a with
    | ⟨0, _⟩ => rfl
    | ⟨1, _⟩ => rfl)).trans ?_
  refine (shapeCast_addUnit_apply ![2048] u h1 (ix2 (0 : Fin 1) p)).trans (congrArg u ?_)
  funext a
  match a with
  | ⟨0, _⟩ => rfl

/-- A [1, n] row repeated over the 2048 rows of a block: entry (p, k) is entry (0, k). -/
theorem bias_apply {α : Type} {n : Nat} (v : (⟨2, ![1, n]⟩ : Shape).Idx → α) (h1 : (⟨2, ![1, n]⟩ : Shape).ShapeCasts ⟨2, ![1, n]⟩)
    (h2 : (⟨2, ![1, n]⟩ : Shape).Broadcasts ⟨2, ![2048, n]⟩) (hn : n ≠ 1) (p : Fin 2048) (k : Fin n) :
    broadcastTo ⟨2, ![2048, n]⟩ (shapeCast ⟨2, ![1, n]⟩ v h1) h2 (ix2 p k) = v (ix2 (0 : Fin 1) k) := by
  rw [shapeCast_self]
  refine broadcastTo_apply v h2 (ix2 p k) (ix2 (0 : Fin 1) k) (fun a => ?_)
  match a with
  | ⟨0, _⟩ => exact (if_pos rfl).symm
  | ⟨1, _⟩ => exact (if_neg hn).symm

/-! ## The three products -/

/-- x · W1x at (p, k). -/
theorem mm1_apply (a : Vec Ideal S2048x128 .f32) (b : Vec Ideal S128x64 .f32) (h : S128x64.ShapeCasts S128x64)
    (p : Fin 2048) (k : Fin 64) :
    (matmul (φ₁ := .f32) (φ₂ := .f32) dot_S2048x128_S128x64_S2048x64_1_0_0_1_n_n none a (shapeCast S128x64 b h) (constant (F := Ideal) S2048x64 .f32 0x00000000#32) (ix2 p k) : EReal)
      = ∑ i : Fin 128, (a (ix2 p i) : EReal) * b (ix2 i k) := by
  rw [shapeCast_self]
  exact MatRows.matmul_plain_apply (M := 2048) (K := 128) (N := 64) none a b p k

/-- hidden · W2 at (p, q). -/
theorem mm3_apply (a : FVec Ideal S2048x64 .f32) (b : Vec Ideal S64x128 .f32) (p : Fin 2048) (q : Fin 128) :
    (matmul (φ₁ := .f32) (φ₂ := .f32) dot_S2048x64_S64x128_S2048x128_1_0_0_1_n_n none a b (constant (F := Ideal) S2048x128 .f32 0x00000000#32) (ix2 p q) : EReal)
      = ∑ k : Fin 64, (a (ix2 p k) : EReal) * b (ix2 k q) :=
  MatRows.matmul_plain_apply (M := 2048) (K := 64) (N := 128) none a b p q

/-- The contraction index of the product over the attribute axis of both operands is its one coordinate. -/
abbrev contr2 : dot_S16x2048_S16x64_S2048x64_0_0_1_1_n_n.contr.Idx ≃ Fin 16 :=
  contrEquiv1 dot_S16x2048_S16x64_S2048x64_0_0_1_1_n_n 16 rfl rfl

/-- aggᵀ · W1a at (p, k): both operands are contracted over their first axis. -/
theorem mm2_apply (a : FVec Ideal S16x2048 .f32) (b : Vec Ideal S16x64 .f32) (h : S16x64.ShapeCasts S16x64)
    (p : Fin 2048) (k : Fin 64) :
    (matmul (φ₁ := .f32) (φ₂ := .f32) dot_S16x2048_S16x64_S2048x64_0_0_1_1_n_n none a (shapeCast S16x64 b h) (constant (F := Ideal) S2048x64 .f32 0x00000000#32) (ix2 p k) : EReal)
      = ∑ f : Fin 16, (a (ix2 f p) : EReal) * b (ix2 f k) := by
  rw [shapeCast_self]
  refine (Ideal.matmul_constant_zero_apply dot_S16x2048_S16x64_S2048x64_0_0_1_1_n_n none a b (ix2 p k)).trans ?_
  rw [← Equiv.sum_comp contr2.symm]
  refine Finset.sum_congr rfl fun f _ => ?_
  have hl : dot_S16x2048_S16x64_S2048x64_0_0_1_1_n_n.lhsIdx (ix2 p k) (contr2.symm f) = ix2 f p := by
    funext x
    refine Fin.ext ?_
    match x with
    | ⟨0, _⟩ =>
      exact (dot_S16x2048_S16x64_S2048x64_0_0_1_1_n_n.lhsIdx_val_of_single (cl := (0 : Fin 2)) rfl (ix2 p k) _).trans
        (contrEquiv1_symm_val dot_S16x2048_S16x64_S2048x64_0_0_1_1_n_n 16 rfl rfl f)
    | ⟨1, _⟩ => rfl
  have hr : dot_S16x2048_S16x64_S2048x64_0_0_1_1_n_n.rhsIdx (ix2 p k) (contr2.symm f) = ix2 f k := by
    funext x
    refine Fin.ext ?_
    match x with
    | ⟨0, _⟩ =>
      exact (dot_S16x2048_S16x64_S2048x64_0_0_1_1_n_n.rhsIdx_val_of_single (cr := (0 : Fin 2)) rfl (ix2 p k) _).trans
        (contrEquiv1_symm_val dot_S16x2048_S16x64_S2048x64_0_0_1_1_n_n 16 rfl rfl f)
    | ⟨1, _⟩ => rfl
  rw [hl, hr]

/-- The first bias row over the block. -/
theorem bias1_apply {α : Type} (v : S1x64.Idx → α) (h1 : S1x64.ShapeCasts S1x64) (h2 : S1x64.Broadcasts S2048x64)
    (p : Fin 2048) (k : Fin 64) :
    broadcastTo S2048x64 (shapeCast S1x64 v h1) h2 (ix2 p k) = v (ix2 (0 : Fin 1) k) :=
  bias_apply (n := 64) v h1 h2 (by decide) p k

/-- The second bias row over the block. -/
theorem bias2_apply {α : Type} (v : S1x128.Idx → α) (h1 : S1x128.ShapeCasts S1x128) (h2 : S1x128.Broadcasts S2048x128)
    (p : Fin 2048) (q : Fin 128) :
    broadcastTo S2048x128 (shapeCast S1x128 v h1) h2 (ix2 p q) = v (ix2 (0 : Fin 1) q) :=
  bias_apply (n := 128) v h1 h2 (by decide) p q

/-! ## The body's two values at an entry -/

/-- The hidden layer of the block at (p, k). -/
theorem k1_pay2_apply (v0 : Vec Ideal S2048x128 .f32) (v1 v3 v6 v8 : Vec Ideal S1x16x2048 .f32) (v17 : Vec Ideal S128x64 .f32)
    (v20 : Vec Ideal S16x64 .f32) (v24 : Vec Ideal S1x64 .f32) (p : Fin 2048) (k : Fin 64) :
    (k1_pay2 v0 v1 v3 v6 v8 v17 v20 v24 (ix2 p k) : EReal)
      = max (((∑ i : Fin 128, (v0 (ix2 p i) : EReal) * v17 (ix2 i k))
          + (∑ f : Fin 16, Ideal.div ((v1 (ix3 (0 : Fin 1) f p) : EReal) + v3 (ix3 (0 : Fin 1) f p))
                (max (∑ g : Fin 16, ((v6 (ix3 (0 : Fin 1) g p) : EReal) + v8 (ix3 (0 : Fin 1) g p))) Cert.Spec.one) * v20 (ix2 f k)))
          + v24 (ix2 (0 : Fin 1) k)) Cert.Spec.zero := by
  unfold k1_pay2
  simp only [maximumf_apply, addf_apply, divf_apply, broadcast_apply, mm1_apply, mm2_apply, bias1_apply, den_apply,
    castHalf_apply]
  have hMR := cntRed_apply (addf (shapeCast S16x2048 v6 Gen.shapeCasts_S1x16x2048_S16x2048) (shapeCast S16x2048 v8 Gen.shapeCasts_S1x16x2048_S16x2048))
    Gen.reduces_S16x2048_S2048 (.inl rfl) rfl p
  simp only [addf_apply, castHalf_apply] at hMR
  rw [hMR]
  rfl

/-- The result block at (p, q) from the hidden layer. -/
theorem k1_pay1_apply (v0 : Vec Ideal S2048x128 .f32) (v29 : FVec Ideal S2048x64 .f32) (v30 : Vec Ideal S64x128 .f32)
    (v33 : Vec Ideal S1x128 .f32) (p : Fin 2048) (q : Fin 128) :
    (k1_pay1 v0 v29 v30 (constant (F := Ideal) S2048x128 .f32 0x00000000#32) v33 (ix2 p q) : EReal)
      = ((v0 (ix2 p q) : EReal) + ∑ k : Fin 64, (v29 (ix2 p k) : EReal) * v30 (ix2 k q)) + v33 (ix2 (0 : Fin 1) q) := by
  unfold k1_pay1
  simp only [addf_apply, mm3_apply, bias2_apply]

/-! ## The block -/

/-- The hidden layer of row p as a function of the row of x and of the columns of the staged sums and counts. -/
def hid (xb : Vec Ideal S2048x128 .f32) (sb cb : Vec Ideal S2x16x2048 .f32) (w1x : Vec Ideal S128x64 .f32)
    (w1a : Vec Ideal S16x64 .f32) (b1r : Vec Ideal S1x64 .f32) (p : Fin 2048) (k : Fin 64) : EReal :=
  max (((∑ i : Fin 128, (xb (ix2 p i) : EReal) * w1x (ix2 i k))
      + (∑ f : Fin 16, Ideal.div ((sb (ix3 (0 : Fin 2) f p) : EReal) + sb (ix3 (1 : Fin 2) f p))
            (max (∑ g : Fin 16, ((cb (ix3 (0 : Fin 2) g p) : EReal) + cb (ix3 (1 : Fin 2) g p))) Cert.Spec.one) * w1a (ix2 f k)))
      + b1r (ix2 (0 : Fin 1) k)) Cert.Spec.zero

/-- The result block at (p, q): x + hidden · W2 + b2 on row p. -/
theorem blockOut_apply (xb : Vec Ideal S2048x128 .f32) (sb cb : Vec Ideal S2x16x2048 .f32) (w1x : Vec Ideal S128x64 .f32)
    (w1a : Vec Ideal S16x64 .f32) (b1r : Vec Ideal S1x64 .f32) (w2 : Vec Ideal S64x128 .f32) (b2r : Vec Ideal S1x128 .f32)
    (p : Fin 2048) (q : Fin 128) :
    (blockOut xb sb cb w1x w1a b1r w2 b2r (ix2 p q) : EReal)
      = ((xb (ix2 p q) : EReal) + ∑ k : Fin 64, hid xb sb cb w1x w1a b1r p k * w2 (ix2 k q)) + b2r (ix2 (0 : Fin 1) q) := by
  unfold blockOut
  rw [k1_pay1_apply]
  refine congrArg (fun z : EReal => ((xb (ix2 p q) : EReal) + z) + b2r (ix2 (0 : Fin 1) q)) ?_
  refine Finset.sum_congr rfl fun k _ => ?_
  rw [k1_pay2_apply]
  rfl

end Cert.Proof.BlockRow

end
-- ==== Proof.KernelValue.lean ====
/-
  The kernel's value at the exact instance: what the dense stage leaves in the result array, from the accumulators
  the 32 tiles leave, is the specification's result.

  Row r of the result is its block's row: x r + hidden r · W2 + b2, where hidden r reads column r of the summed
  partial sums and of the summed partial counts.  The two tiles of attribute f together hold at r the sum of
  attribute f over all edges pointing at r, and the 32 count accumulators together the number of those edges, so
  the column is the specification's aggregate; the slices of W1 and the reshaped biases read the arguments' own
  entries.
-/
import proofs.«212450_g60069412602311_cont_9to1_m_657_24_alg».proof.Proof.Block
import proofs.«212450_g60069412602311_cont_9to1_m_657_24_alg».proof.Proof.Spec
import proofs.«212450_g60069412602311_cont_9to1_m_657_24_alg».proof.Proof.TileSums
import proofs.«212450_g60069412602311_cont_9to1_m_657_24_alg».proof.Proof.BlockRow

noncomputable section

open scoped BigOperators

namespace Cert.Proof.KValue

open Idealize.ShloMosaic Idealize.ShloMosaic.ValueIdx Cert.KernelIdeal Cert.KernelIdeal.Blk
open Cert.KernelIdeal.Facts₀ Cert.KernelIdeal.Facts

/-! ## The host operations at an entry -/

/-- Rows 0 … 127 of W1. -/
theorem w1x_apply (W1 : Vec Ideal S144x64 .f32) (h : S144x64.Slices ![0, 0] S128x64) (i : Fin 128) (k : Fin 64) :
    extractStridedSlice S128x64 ![0, 0] W1 h (ix2 i k) = W1 (ix2 (⟨i.val, by omega⟩ : Fin 144) k) :=
  extractStridedSlice_apply ![0, 0] W1 h (ix2 i k) (ix2 (⟨i.val, by omega⟩ : Fin 144) k) (fun a => by
    match a with
    | ⟨0, _⟩ => exact (Nat.zero_add _).symm
    | ⟨1, _⟩ => exact (Nat.zero_add _).symm)

/-- Rows 128 … 143 of W1. -/
theorem w1a_apply (W1 : Vec Ideal S144x64 .f32) (h : S144x64.Slices ![128, 0] S16x64) (f : Fin 16) (k : Fin 64) :
    extractStridedSlice S16x64 ![128, 0] W1 h (ix2 f k) = W1 (ix2 (⟨128 + f.val, by omega⟩ : Fin 144) k) :=
  extractStridedSlice_apply ![128, 0] W1 h (ix2 f k) (ix2 (⟨128 + f.val, by omega⟩ : Fin 144) k) (fun a => by
    match a with
    | ⟨0, _⟩ => rfl
    | ⟨1, _⟩ => exact (Nat.zero_add _).symm)

/-- A vector of n entries viewed as one row. -/
theorem row_apply {α : Type} {n : Nat} (b : (⟨1, ![n]⟩ : Shape).Idx → α) (h : (⟨1, ![n]⟩ : Shape).ShapeCasts ⟨2, ![1, n]⟩) (k : Fin n) :
    shapeCast ⟨2, ![1, n]⟩ b h (ix2 (0 : Fin 1) k) = b (ix1 k) := by
  refine (shapeCast_addUnit_apply ![n] b h (ix2 (0 : Fin 1) k)).trans (congrArg b ?_)
  funext a
  match a with
  | ⟨0, _⟩ => rfl

/-! ## The hidden layer of a row -/

/-- The block's hidden layer on row p of block t is the specification's on node 2048 t + p. -/
theorem hid_eq (x : Vec Ideal S10000x128 .f32) (ei : IVec S2x320000 32) (ea : Vec Ideal S320000x16 .f32)
    (W1 : Vec Ideal S144x64 .f32) (b1 : Vec Ideal S64 .f32) (hei : ∀ j, (ei j).toNat ≤ 9999)
    (xb : Fin 5 → Vec Ideal S2048x128 .f32)
    (hx : ∀ (t : Fin 5) (p : Fin 2048) (q : Fin 128) (h : 2048 * t.val + p.val < 10000),
        xb t (ix2 p q) = x (ix2 (⟨2048 * t.val + p.val, h⟩ : Fin 10000) q))
    (t : Fin 5) (p : Fin 2048) (hlt : 2048 * t.val + p.val < 10000) (k : Fin 64) :
    BlockRow.hid (xb t)
        (blk3 (Cert.Spec.sumsArr (transpose S16x320000 [1, 0] ea transposes_S320000x16_S16x320000_1_0) ei) t)
        (blk3 (Cert.Spec.cntArr (F := Ideal) ei) t)
        (extractStridedSlice S128x64 ![0, 0] W1 slices_S144x64_S128x64_0_0)
        (extractStridedSlice S16x64 ![128, 0] W1 slices_S144x64_S16x64_128_0)
        (shapeCast S1x64 b1 shapeCasts_S64_S1x64) p k
      = Cert.Spec.hidden x ea ei W1 b1 (⟨2048 * t.val + p.val, hlt⟩ : Fin 10000) k := by
  have hr' : 2048 * t.val + p.val < 10240 := by omega
  have e1 : ∀ i : Fin 128, ((xb t (ix2 p i) : EReal) * extractStridedSlice S128x64 ![0, 0] W1 slices_S144x64_S128x64_0_0 (ix2 i k))
      = (x (ix2 (⟨2048 * t.val + p.val, hlt⟩ : Fin 10000) i) : EReal) * W1 (ix2 (⟨i.val, by omega⟩ : Fin 144) k) := by
    intro i; rw [hx t p i hlt, w1x_apply]
  have e2 : ∀ f : Fin 16,
      ((blk3 (Cert.Spec.sumsArr (transpose S16x320000 [1, 0] ea transposes_S320000x16_S16x320000_1_0) ei) t (ix3 (0 : Fin 2) f p) : EReal)
        + blk3 (Cert.Spec.sumsArr (transpose S16x320000 [1, 0] ea transposes_S320000x16_S16x320000_1_0) ei) t (ix3 (1 : Fin 2) f p))
        = Cert.Spec.segSum ea ei (2048 * t.val + p.val) f :=
    fun f => TileSums.sums_total ea transposes_S320000x16_S16x320000_1_0 ei hei f (⟨2048 * t.val + p.val, hr'⟩ : Fin 10240)
  have e3 : (∑ g : Fin 16, ((blk3 (Cert.Spec.cntArr (F := Ideal) ei) t (ix3 (0 : Fin 2) g p) : EReal)
        + blk3 (Cert.Spec.cntArr (F := Ideal) ei) t (ix3 (1 : Fin 2) g p)))
        = Cert.Spec.segCnt ei (2048 * t.val + p.val) :=
    TileSums.cnt_total ei hei (⟨2048 * t.val + p.val, hr'⟩ : Fin 10240)
  unfold BlockRow.hid Cert.Spec.hidden Cert.Spec.agg
  rw [Finset.sum_congr rfl (fun i _ => e1 i), e3, row_apply (n := 64)]
  refine congrArg (fun z : EReal => max (((∑ a : Fin 128, (x (ix2 (⟨2048 * t.val + p.val, hlt⟩ : Fin 10000) a) : EReal)
      * W1 (ix2 (⟨a.val, by omega⟩ : Fin 144) k)) + z) + b1 (ix1 k)) Cert.Spec.zero) ?_
  refine Finset.sum_congr rfl fun f _ => ?_
  rw [e2 f, w1a_apply]

/-! ## The result -/

theorem kernel_value (x : Vec Ideal S10000x128 .f32) (ei : IVec S2x320000 32) (ea : Vec Ideal S320000x16 .f32)
    (W1 : Vec Ideal S144x64 .f32) (b1 : Vec Ideal S64 .f32) (W2 : Vec Ideal S64x128 .f32) (b2 : Vec Ideal S128 .f32)
    (hei : ∀ j, (ei j).toNat ≤ 9999) (o : Vec Ideal S10000x128 .f32)
    (h : Cert.KernelIdeal.Blk.RegionPost (F := Ideal) x
      (Cert.Spec.sumsArr (transpose S16x320000 [1, 0] ea transposes_S320000x16_S16x320000_1_0) ei)
      (Cert.Spec.cntArr (F := Ideal) ei)
      (extractStridedSlice S128x64 ![0, 0] W1 slices_S144x64_S128x64_0_0)
      (extractStridedSlice S16x64 ![128, 0] W1 slices_S144x64_S16x64_128_0)
      (shapeCast S1x64 b1 shapeCasts_S64_S1x64) W2 (shapeCast S1x128 b2 shapeCasts_S128_S1x128) o) :
    o = Cert.Spec.out x ea ei W1 b1 W2 b2 := by
  obtain ⟨xb, hx, ho⟩ := h
  funext j
  obtain ⟨r, q, rfl⟩ : ∃ (r : Fin 10000) (q : Fin 128), j = ix2 r q := ⟨j 0, j 1, eq_ix2 j⟩
  obtain ⟨t, p, hlt, rfl⟩ : ∃ (t : Fin 5) (p : Fin 2048) (hlt : 2048 * t.val + p.val < 10000),
      r = (⟨2048 * t.val + p.val, hlt⟩ : Fin 10000) :=
    ⟨⟨r.val / 2048, by have := r.isLt; omega⟩, ⟨r.val % 2048, Nat.mod_lt _ (by norm_num)⟩,
      by show 2048 * (r.val / 2048) + r.val % 2048 < 10000; have := r.isLt; omega,
      Fin.ext (by show r.val = 2048 * (r.val / 2048) + r.val % 2048; omega)⟩
  rw [ho t p q hlt, BlockRow.blockOut_apply]
  show _ = ((x (ix2 (⟨2048 * t.val + p.val, hlt⟩ : Fin 10000) q) : EReal)
      + ∑ k : Fin 64, Cert.Spec.hidden x ea ei W1 b1 (⟨2048 * t.val + p.val, hlt⟩ : Fin 10000) k * W2 (ix2 k q)) + b2 (ix1 q)
  rw [hx t p q hlt, row_apply (n := 128)]
  refine congrArg (fun z : EReal => ((x (ix2 (⟨2048 * t.val + p.val, hlt⟩ : Fin 10000) q) : EReal) + z) + b2 (ix1 q)) ?_
  refine Finset.sum_congr rfl fun k _ => ?_
  rw [hid_eq x ei ea W1 b1 hei xb hx t p hlt k]

end Cert.Proof.KValue

end
-- ==== Proof.ClaimsIdeal.lean ====
/-
  The idealized kernel's two conjuncts from its run: its frame (the run with the value dropped) and the
  algebraic conjunct — at the exact instance the dense stage's post over the tiles' accumulators IS the reference's
  function of the arguments (the kernel's value), and the reference's run ends at that same function.
-/
import proofs.«212450_g60069412602311_cont_9to1_m_657_24_alg».proof.Defs
import proofs.«212450_g60069412602311_cont_9to1_m_657_24_alg».proof.Proof.RunMain
import proofs.«212450_g60069412602311_cont_9to1_m_657_24_alg».proof.Proof.PreOK
import proofs.«212450_g60069412602311_cont_9to1_m_657_24_alg».proof.Proof.RefValue
import proofs.«212450_g60069412602311_cont_9to1_m_657_24_alg».proof.Proof.KernelValue

noncomputable section

namespace Cert.Proof.ClaimsIdeal

open Idealize.ShloMosaic Idealize.SL.Sem
open Cert.KernelIdeal Cert.KernelIdeal.Run

variable [hPre : Cert.Pre_input_domain.Facts]

/-- What the run is conditional on: the tile's body, the dense stage's run, the staging cells' funding. -/
structure Parts : Prop where
  tile : ∀ m : (ℓ : Loc nD τ sig) → Buf (Elt Ideal) ℓ, PreOK (F := Ideal) m → TileBody (F := Ideal) m
  region : ∀ m : (ℓ : Loc nD τ sig) → Buf (Elt Ideal) ℓ, RegionRun (F := Ideal) m
  fund : FundRegion (F := Ideal)

theorem frame_ki (hp : Parts) : Cert.frame_KernelIdeal := fun m ρ hpre =>
  (θ_run (Cert.KernelIdeal.defs (F := Ideal)) _ _).mono (fun _ h c => (h c).2)
    (run_main (F := Ideal) m ρ (hp.tile m (preOK_of_pre m hpre)) (hp.region m) hp.fund)

theorem algebraic (hp : Parts) : Cert.algebraic_KernelIdeal_ReferenceIdeal := by
  intro m ρ m' ρ' hpre hagree
  refine ⟨fun c => Cert.Spec.out (m ((c.tc : Thread nD τ).loc main_arg0)) (m ((c.tc : Thread nD τ).loc main_arg2)) (m ((c.tc : Thread nD τ).loc main_arg1))
    (m ((c.tc : Thread nD τ).loc main_arg5)) (m ((c.tc : Thread nD τ).loc main_arg6)) (m ((c.tc : Thread nD τ).loc main_arg7)) (m ((c.tc : Thread nD τ).loc main_arg8)), ?_, ?_⟩
  · refine (θ_run (Cert.KernelIdeal.defs (F := Ideal)) _ _).mono (fun r h c => ⟨?_, (h c).2⟩)
      (run_main (F := Ideal) m ρ (hp.tile m (preOK_of_pre m hpre)) (hp.region m) hp.fund)
    exact Cert.Proof.KValue.kernel_value _ _ _ _ _ _ _ (preOK_of_pre m hpre c) _ (h c).1
  · refine (θ_run (Cert.ReferenceIdeal.defs (F := Ideal)) _ _).mono (fun r h c => ⟨?_, (h c).2⟩) (Cert.Proof.RefValue.ref_run m' ρ')
    rw [(h c).1, (hagree c).1, (hagree c).2.1, (hagree c).2.2.1, (hagree c).2.2.2.2.2.1, (hagree c).2.2.2.2.2.2.1, (hagree c).2.2.2.2.2.2.2.1, (hagree c).2.2.2.2.2.2.2.2]

end Cert.Proof.ClaimsIdeal

end
-- ==== Proof.WCommon.lean ====
/-
  The kernel's run: what is shared by its parts.

  The program as the launch of its SparseCore call sees it; the ghost state (the launch's handshakes, the dense
  stage's staging cells, the tiles' transfer counters); and what the call hands each tile and takes back: a read
  share of the transposed attribute table and of the edge list, and entries (c, f, :) of the two result arrays —
  handed at whatever they hold, taken back holding the tile's two accumulators.
-/
import proofs.«212450_g60069412602311_cont_9to1_m_657_24_alg».proof.Proof.Gen.Kernel
import proofs.«212450_g60069412602311_cont_9to1_m_657_24_alg».proof.Proof.Gen.Kernel.Skeleton
import proofs.«212450_g60069412602311_cont_9to1_m_657_24_alg».proof.Proof.Gen.Kernel.Launch
import proofs.«212450_g60069412602311_cont_9to1_m_657_24_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

/-- The handshakes' rounds library: the left factor. -/
abbrev EH : Emb UH (MT nD τ sig (HIx 1) (Elt F) ℕ UU ℕ) := embL
/-- The staging cells' rounds library: the left of the right factor (the transfers' counters, its right, are found by
    instance). -/
def ER : Emb UR (MT nD τ sig (HIx 1) (Elt F) ℕ UU ℕ) := (Emb.inl : Emb UR (UR × Counters)).trans embR
instance ER_landsIn : (ER : Emb UR 𝕄).LandsIn (upEmb : UEmb _ 𝕄) := by unfold ER; infer_instance

/-! ## The arrays of the SparseCore call -/

variable (m : (ℓ : Loc nD τ sig) → Buf (Elt F) ℓ) (ρ : Dev nD → PrngReg)

/-- The attribute table (an argument), its transpose (written by @main before the call), the edge list (an argument),
    and the call's two results, as the TensorCore's arrays. -/
abbrev aLoc (d : Dev nD) : Loc nD τ sig := (SparseCore.T d).loc main_arg2
abbrev eLoc (d : Dev nD) : Loc nD τ sig := (SparseCore.T d).loc main_v0
abbrev iLoc (d : Dev nD) : Loc nD τ sig := (SparseCore.T d).loc main_arg1
abbrev sLoc (d : Dev nD) : Loc nD τ sig := (SparseCore.T d).loc main_v1_0
abbrev cLoc (d : Dev nD) : Loc nD τ sig := (SparseCore.T d).loc main_v1_1

variable [FloatOps F]

/-- The transposed attribute table the call reads: @main's transpose of the argument. -/
def eaT (d : Dev nD) : Buf (Elt F) (eLoc d) :=
  transpose S16x320000 [1, 0] (m (aLoc d)) transposes_S320000x16_S16x320000_1_0
/-- The edge list the call reads: the argument. -/
abbrev eiV (d : Dev nD) : Buf (Elt F) (iLoc d) := m (iLoc d)

/-- Every target node is below 10000 (so inside the accumulators): what the precondition gives. -/
def PreOK : Prop := ∀ (d : Dev nD) (j : S2x320000.Idx), ((m (iLoc d) : IVec S2x320000 32) j).toNat ≤ 9999

/-- Tile (c, i)'s number among the 32. -/
abbrev tileIx (c : Fin 2) (i : Fin 16) : Fin 32 := ⟨16 * c.val + i.val, by omega⟩
/-- Tile (c, i)'s read share of an array all 32 tiles read: the (16 c + i)-th of 32 read tokens of the whole. -/
abbrev qTile (c : Fin 2) (i : Fin 16) : PosShare TreeShare := Transfers.shareTok fullShare 32 (tileIx c i)

/-- Entries (c, i, :) of a [2, 16, 10240] array. -/
def rowSet (c : Fin 2) (i : Fin 16) : Finset S2x16x10240.Idx := Finset.univ.filter fun j => (j 0).val = c.val ∧ (j 1).val = i.val

/-- What tile (c, i) is handed: its read shares, and its entries of the two result arrays at whatever they hold. -/
def goRes (d : Dev nD) (c : Fin 2) (i : Fin 16) : sProp 𝕄 :=
  iprop((eLoc d ↦{qTile c i} eaT m d) ∗ (iLoc d ↦{qTile c i} eiV m d)
    ∗ (∃ f, sLoc d ↦[rowSet c i]{fullShare} f) ∗ (∃ f, cLoc d ↦[rowSet c i]{fullShare} f))

/-- What it hands back: the read shares, and its entries holding its two accumulators. -/
def tdRes (d : Dev nD) (c : Fin 2) (i : Fin 16) : sProp 𝕄 :=
  iprop((eLoc d ↦{qTile c i} eaT m d) ∗ (iLoc d ↦{qTile c i} eiV m d)
    ∗ (∃ f : Buf (Elt F) (sLoc d), ⌜∀ n : Fin 10240, (f : Vec F S2x16x10240 .f32) (ix3 c i n) = Cert.Spec.tileSums (F := F) (eaT m d) (eiV m d) c i (ix1 n)⌝
        ∗ sLoc d ↦[rowSet c i]{fullShare} f)
    ∗ (∃ f : Buf (Elt F) (cLoc d), ⌜∀ n : Fin 10240, (f : Vec F S2x16x10240 .f32) (ix3 c i n) = Cert.Spec.tileCnt (F := F) (eiV m d) c i (ix1 n)⌝
        ∗ cLoc d ↦[rowSet c i]{fullShare} f))

instance goRes_storable (d : Dev nD) (c : Fin 2) (i : Fin 16) : BI.Storable (upEmb : UEmb _ 𝕄) (goRes m d c i) := by
  unfold goRes; infer_instance
instance tdRes_storable (d : Dev nD) (c : Fin 2) (i : Fin 16) : BI.Storable (upEmb : UEmb _ 𝕄) (tdRes m d c i) := by
  unfold tdRes; infer_instance

/-- The same, with the entries held at the two whole-array functions (every tile's entries at ONE function, so that the
    32 pieces join into the whole arrays). -/
def tdArr (d : Dev nD) (c : Fin 2) (i : Fin 16) : sProp 𝕄 :=
  iprop((eLoc d ↦{qTile c i} eaT m d) ∗ (iLoc d ↦{qTile c i} eiV m d)
    ∗ (sLoc d ↦[rowSet c i]{fullShare} (Cert.Spec.sumsArr (F := F) (eaT m d) (eiV m d) : Buf (Elt F) (sLoc d)))
    ∗ (cLoc d ↦[rowSet c i]{fullShare} (Cert.Spec.cntArr (F := F) (eiV m d) : Buf (Elt F) (cLoc d))))

instance tdArr_storable (d : Dev nD) (c : Fin 2) (i : Fin 16) : BI.Storable (upEmb : UEmb _ 𝕄) (tdArr m d c i) := by
  unfold tdArr; infer_instance

omit [FloatOps F] in
/-- An index of row (c, i) is (c, i, its last coordinate). -/
theorem eq_of_mem_rowSet {c : Fin 2} {i : Fin 16} {j : S2x16x10240.Idx} (hj : j ∈ rowSet c i) :
    j 0 = c ∧ j 1 = i ∧ j = ix3 c i (j 2) := by
  simp only [rowSet, Finset.mem_filter, Finset.mem_univ, true_and] at hj
  have h0 : j 0 = c := Fin.ext hj.1
  have h1 : j 1 = i := Fin.ext hj.2
  refine ⟨h0, h1, ?_⟩
  have := eq_ix3 j
  rw [h0, h1] at this
  exact this

/-- Entries (c, i, :) holding the tile's accumulators are the whole-array functions' entries. -/
theorem tdArr_of_tdRes (d : Dev nD) (c : Fin 2) (i : Fin 16) : tdRes m d c i ⊢ tdArr m d c i := by
  unfold tdRes tdArr
  iintro ⟨He, Hi, ⟨%f, %hf, Hs⟩, ⟨%g, %hg, Hc⟩⟩
  isplitl [He]; · iexact He
  isplitl [Hi]; · iexact Hi
  have es : (sLoc d ↦[rowSet c i]{fullShare} f : sProp 𝕄)
      = sLoc d ↦[rowSet c i]{fullShare} (Cert.Spec.sumsArr (F := F) (eaT m d) (eiV m d) : Buf (Elt F) (sLoc d)) :=
    pointsTo_congr fun j hj => by
      obtain ⟨h0, h1, hj'⟩ := eq_of_mem_rowSet hj
      calc f j = f (ix3 c i (j 2)) := congrArg f hj'
        _ = Cert.Spec.tileSums (F := F) (eaT m d) (eiV m d) c i (ix1 (j 2)) := hf (j 2)
        _ = Cert.Spec.sumsArr (F := F) (eaT m d) (eiV m d) j := by unfold Cert.Spec.sumsArr; rw [h0, h1]
  have ec : (cLoc d ↦[rowSet c i]{fullShare} g : sProp 𝕄)
      = cLoc d ↦[rowSet c i]{fullShare} (Cert.Spec.cntArr (F := F) (eiV m d) : Buf (Elt F) (cLoc d)) :=
    pointsTo_congr fun j hj => by
      obtain ⟨h0, h1, hj'⟩ := eq_of_mem_rowSet hj
      calc g j = g (ix3 c i (j 2)) := congrArg g hj'
        _ = Cert.Spec.tileCnt (F := F) (eiV m d) c i (ix1 (j 2)) := hg (j 2)
        _ = Cert.Spec.cntArr (F := F) (eiV m d) j := by unfold Cert.Spec.cntArr; rw [h0, h1]
  isplitl [Hs]
  · iapply (Entails.of_eq es); iexact Hs
  · iapply (Entails.of_eq ec); iexact Hc

/-- The call's payloads: a SparseCore is handed its sixteen tiles' resources and hands back what they return. -/
def P : (K (F := F)).Pay (nD := nD) (Val := Elt F) (Name := ℕ) (U := UU) where
  st := fun q d c => match q with | 0 => bigSep Finset.univ fun i : Fin 16 => goRes m d (Fin.cast nCore_zero c) i
  dn := fun q d c => match q with | 0 => bigSep Finset.univ fun i : Fin 16 => tdArr m d (Fin.cast nCore_zero c) i
  go := fun q d c i => match q with | 0 => goRes m d (Fin.cast nCore_zero c) (Fin.cast nSub_zero i)
  td := fun q d c i => match q with | 0 => tdArr m d (Fin.cast nCore_zero c) (Fin.cast nSub_zero i)
  x := fun _ _ => iprop(emp)

instance P_storable : (P (F := F) m).IsStorable where
  st q d c := match q with | 0 => (inferInstance : BI.Storable (upEmb : UEmb _ 𝕄) (bigSep Finset.univ fun i : Fin 16 => goRes m d (Fin.cast nCore_zero c) i))
  dn q d c := match q with | 0 => (inferInstance : BI.Storable (upEmb : UEmb _ 𝕄) (bigSep Finset.univ fun i : Fin 16 => tdArr m d (Fin.cast nCore_zero c) i))
  go q d c i := match q with | 0 => (inferInstance : BI.Storable (upEmb : UEmb _ 𝕄) (goRes m d (Fin.cast nCore_zero c) (Fin.cast nSub_zero i)))
  td q d c i := match q with | 0 => (inferInstance : BI.Storable (upEmb : UEmb _ 𝕄) (tdArr m d (Fin.cast nCore_zero c) (Fin.cast nSub_zero i)))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands are its tiles' and its results theirs: nothing to rearrange. -/
theorem vecSplit : (K (F := F)).VecSplit' (P m) 0 := by
  intro d c
  show (bigSep Finset.univ fun i : Fin 16 => goRes m d (Fin.cast nCore_zero c) i) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdArr m d (Fin.cast nCore_zero c) (Fin.cast nSub_zero i))
          -∗ bigSep Finset.univ fun i : Fin 16 => tdArr m d (Fin.cast nCore_zero c) i))
  rw [bigSep_tasks (F := F) (fun i => goRes m d (Fin.cast nCore_zero c) i), bigSep_tasks (F := F) (fun i => tdArr m d (Fin.cast nCore_zero c) i)]
  iintro H; imodintro
  isplitl [H]; · iexact H
  iintro H; iexact H

end Cert.Kernel.Run

end
-- ==== Proof.WSplitJoin.lean ====
/-
  Dealing the call's arrays to the 32 tiles and gathering them back.

  A [2, 16, 10240] array is the disjoint union of its 32 rows (c, i, :); an array every tile reads is held as a
  remainder and 32 read tokens, the (16 c + i)-th for tile (c, i).
-/
import proofs.«212450_g60069412602311_cont_9to1_m_657_24_alg».proof.Proof.WCommon

noncomputable section

namespace Cert.Kernel.Run

open Cert.Kernel Cert.Kernel.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 1) (Elt F) ℕ UU ℕ

/-- Row t = (c, i) of a [2, 16, 10240] array. -/
abbrev rowOf (t : Fin 2 × Fin 16) : Finset S2x16x10240.Idx := rowSet t.1 t.2

theorem rows_disjoint : ∀ t ∈ (Finset.univ : Finset (Fin 2 × Fin 16)), ∀ t' ∈ (Finset.univ : Finset (Fin 2 × Fin 16)), t ≠ t' → Disjoint (rowOf t) (rowOf t') := by
  intro t _ t' _ h
  rw [Finset.disjoint_left]
  intro j hj hj'
  simp only [rowOf, rowSet, Finset.mem_filter, Finset.mem_univ, true_and] at hj hj'
  exact h (Prod.ext (Fin.ext (hj.1.symm.trans hj'.1)) (Fin.ext (hj.2.symm.trans hj'.2)))

theorem rows_cover : (Finset.univ : Finset (Fin 2 × Fin 16)).biUnion rowOf = Finset.univ := by
  ext j
  simp only [Finset.mem_biUnion, Finset.mem_univ, true_and, iff_true, rowOf, rowSet, Finset.mem_filter]
  exact ⟨((⟨(j 0).val, (j 0).isLt⟩ : Fin 2), (⟨(j 1).val, (j 1).isLt⟩ : Fin 16)), rfl, rfl⟩

/-- A whole array of sums is its 32 rows. -/
theorem sPts_rows (d : Dev nD) (f : Buf (Elt F) (sLoc d)) :
    (sLoc d ↦{fullShare} f : sProp 𝕄) = bigSep Finset.univ fun c : Fin 2 => bigSep Finset.univ fun i : Fin 16 => sLoc d ↦[rowSet c i]{fullShare} f := by
  rw [← bigSep_univ_prod (fun t : Fin 2 × Fin 16 => (sLoc d ↦[rowSet t.1 t.2]{fullShare} f : sProp 𝕄)),
    ← pointsTo_biUnion Finset.univ (ℓ := sLoc d) rowOf rows_disjoint, rows_cover]; try rfl
/-- A whole array of counts is its 32 rows. -/
theorem cPts_rows (d : Dev nD) (f : Buf (Elt F) (cLoc d)) :
    (cLoc d ↦{fullShare} f : sProp 𝕄) = bigSep Finset.univ fun c : Fin 2 => bigSep Finset.univ fun i : Fin 16 => cLoc d ↦[rowSet c i]{fullShare} f := by
  rw [← bigSep_univ_prod (fun t : Fin 2 × Fin 16 => (cLoc d ↦[rowSet t.1 t.2]{fullShare} f : sProp 𝕄)),
    ← pointsTo_biUnion Finset.univ (ℓ := cLoc d) rowOf rows_disjoint, rows_cover]; try rfl

/-- The 32 read tokens, by tile. -/
theorem toks_tiles (Φ : Fin 32 → sProp 𝕄) :
    bigSep Finset.univ Φ = bigSep Finset.univ fun c : Fin 2 => bigSep Finset.univ fun i : Fin 16 => Φ (tileIx c i) := by
  rw [← bigSep_univ_prod (fun t : Fin 2 × Fin 16 => Φ (tileIx t.1 t.2))]
  rw [← Finset.map_univ_equiv (finProdFinEquiv : Fin 2 × Fin 16 ≃ Fin 32), bigSep_map]
  refine bigSep_congr fun t _ => congrArg Φ (Fin.ext ?_)
  show (finProdFinEquiv t).val = 16 * t.1.val + t.2.val
  simp [finProdFinEquiv]; omega

/-- The transposed attribute table, whole, is a remainder and one read token per tile; -/
theorem ePts_toks (d : Dev nD) (f : Buf (Elt F) (eLoc d)) :
    (eLoc d ↦{fullShare} f : sProp 𝕄) ⊣⊢ iprop((eLoc d ↦{Transfers.shareDrop fullShare 32} f)
      ∗ bigSep Finset.univ fun c : Fin 2 => bigSep Finset.univ fun i : Fin 16 => eLoc d ↦{qTile c i} f) := by
  rw [← toks_tiles (F := F) (fun k => (eLoc d ↦{Transfers.shareTok fullShare 32 k} f : sProp 𝕄))]
  exact Transfers.pointsTo_toks fullShare 32
/-- and the edge list likewise. -/
theorem iPts_toks (d : Dev nD) (f : Buf (Elt F) (iLoc d)) :
    (iLoc d ↦{fullShare} f : sProp 𝕄) ⊣⊢ iprop((iLoc d ↦{Transfers.shareDrop fullShare 32} f)
      ∗ bigSep Finset.univ fun c : Fin 2 => bigSep Finset.univ fun i : Fin 16 => iLoc d ↦{qTile c i} f) := by
  rw [← toks_tiles (F := F) (fun k => (iLoc d ↦{Transfers.shareTok fullShare 32 k} f : sProp 𝕄))]
  exact Transfers.pointsTo_toks fullShare 32

end Cert.Kernel.Run

end
-- ==== Proof.WTileSetup.lean ====
import proofs.«212450_g60069412602311_cont_9to1_m_657_24_alg».proof.Proof.WCommon

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's place -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

variable [FloatOps F]

/-! ## The tile's own semaphores and buffers, taken out of what it owns -/

omit [FloatOps F] in
theorem ownSems0_V (d : Dev nD) (L : grid0.Coords) :
    (ownSems0 (V d (cV L) (jV L)) : sProp 𝕄)
      = iprop(semVal (((V d (cV L) (jV L)), SemLoc.dma cc0_scratch7.sem) : GSem nD τ sig) 0 ∗ semVal (((V d (cV L) (jV L)), SemLoc.dma cc0_scratch8.sem) : GSem nD τ sig) 0 ∗ semVal (((V d (cV L) (jV L)), SemLoc.dma cc0_scratch9.sem) : GSem nD τ sig) 0 ∗ semVal (((V d (cV L) (jV L)), SemLoc.dma cc0_scratch10.sem) : GSem nD τ sig) 0 ∗ semVal (((V d (cV L) (jV L)), SemLoc.dma cc0_scoped0.sem) : GSem nD τ sig) 0 ∗ semVal (((V d (cV L) (jV L)), SemLoc.dma cc0_scoped1.sem) : GSem nD τ sig) 0 ∗ semVal (((V d (cV L) (jV L)), SemLoc.dma cc0_scoped2.sem) : GSem nD τ sig) 0
          ∗ bigSep ((((((((ownCells (V d (cV L) (jV L))).erase (((V d (cV L) (jV L)), SemLoc.dma cc0_scratch7.sem) : GSem nD τ sig)).erase (((V d (cV L) (jV L)), SemLoc.dma cc0_scratch8.sem) : GSem nD τ sig)).erase (((V d (cV L) (jV L)), SemLoc.dma cc0_scratch9.sem) : GSem nD τ sig)).erase (((V d (cV L) (jV L)), SemLoc.dma cc0_scratch10.sem) : GSem nD τ sig)).erase (((V d (cV L) (jV L)), SemLoc.dma cc0_scoped0.sem) : GSem nD τ sig)).erase (((V d (cV L) (jV L)), SemLoc.dma cc0_scoped1.sem) : GSem nD τ sig)).erase (((V d (cV L) (jV L)), SemLoc.dma cc0_scoped2.sem) : GSem nD τ sig)) fun g => semVal g 0) := by
  unfold SparseCore.Cfg.ownSems0
  rw [SparseCore.bigSep_erase' ((mem_ownCells (g := (((V d (cV L) (jV L)), SemLoc.dma cc0_scratch7.sem) : GSem nD τ sig))).mpr ⟨rfl, by show (SemLoc.dma cc0_scratch7.sem : SemLoc sig).isScoped .scVector = true; decide⟩),
    SparseCore.bigSep_erase' (Finset.mem_erase.mpr ⟨(fun e => absurd (congrArg (fun g : GSem nD τ sig => g.2) e) (show (SemLoc.dma cc0_scratch8.sem : SemLoc sig) ≠ SemLoc.dma cc0_scratch7.sem by decide)), (mem_ownCells (g := (((V d (cV L) (jV L)), SemLoc.dma cc0_scratch8.sem) : GSem nD τ sig))).mpr ⟨rfl, by show (SemLoc.dma cc0_scratch8.sem : SemLoc sig).isScoped .scVector = true; decide⟩⟩),
    SparseCore.bigSep_erase' (Finset.mem_erase.mpr ⟨(fun e => absurd (congrArg (fun g : GSem nD τ sig => g.2) e) (show (SemLoc.dma cc0_scratch9.sem : SemLoc sig) ≠ SemLoc.dma cc0_scratch8.sem by decide)), Finset.mem_erase.mpr ⟨(fun e => absurd (congrArg (fun g : GSem nD τ sig => g.2) e) (show (SemLoc.dma cc0_scratch9.sem : SemLoc sig) ≠ SemLoc.dma cc0_scratch7.sem by decide)), (mem_ownCells (g := (((V d (cV L) (jV L)), SemLoc.dma cc0_scratch9.sem) : GSem nD τ sig))).mpr ⟨rfl, by show (SemLoc.dma cc0_scratch9.sem : SemLoc sig).isScoped .scVector = true; decide⟩⟩⟩),
    SparseCore.bigSep_erase' (Finset.mem_erase.mpr ⟨(fun e => absurd (congrArg (fun g : GSem nD τ sig => g.2) e) (show (SemLoc.dma cc0_scratch10.sem : SemLoc sig) ≠ SemLoc.dma cc0_scratch9.sem by decide)), Finset.mem_erase.mpr ⟨(fun e => absurd (congrArg (fun g : GSem nD τ sig => g.2) e) (show (SemLoc.dma cc0_scratch10.sem : SemLoc sig) ≠ SemLoc.dma cc0_scratch8.sem by decide)), Finset.mem_erase.mpr ⟨(fun e => absurd (congrArg (fun g : GSem nD τ sig => g.2) e) (show (SemLoc.dma cc0_scratch10.sem : SemLoc sig) ≠ SemLoc.dma cc0_scratch7.sem by decide)), (mem_ownCells (g := (((V d (cV L) (jV L)), SemLoc.dma cc0_scratch10.sem) : GSem nD τ sig))).mpr ⟨rfl, by show (SemLoc.dma cc0_scratch10.sem : SemLoc sig).isScoped .scVector = true; decide⟩⟩⟩⟩),
    SparseCore.bigSep_erase' (Finset.mem_erase.mpr ⟨(fun e => absurd (congrArg (fun g : GSem nD τ sig => g.2) e) (show (SemLoc.dma cc0_scoped0.sem : SemLoc sig) ≠ SemLoc.dma cc0_scratch10.sem by decide)), Finset.mem_erase.mpr ⟨(fun e => absurd (congrArg (fun g : GSem nD τ sig => g.2) e) (show (SemLoc.dma cc0_scoped0.sem : SemLoc sig) ≠ SemLoc.dma cc0_scratch9.sem by decide)), Finset.mem_erase.mpr ⟨(fun e => absurd (congrArg (fun g : GSem nD τ sig => g.2) e) (show (SemLoc.dma cc0_scoped0.sem : SemLoc sig) ≠ SemLoc.dma cc0_scratch8.sem by decide)), Finset.mem_erase.mpr ⟨(fun e => absurd (congrArg (fun g : GSem nD τ sig => g.2) e) (show (SemLoc.dma cc0_scoped0.sem : SemLoc sig) ≠ SemLoc.dma cc0_scratch7.sem by decide)), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨(fun e => absurd (congrArg (fun g : GSem nD τ sig => g.2) e) (show (SemLoc.dma cc0_scoped1.sem : SemLoc sig) ≠ SemLoc.dma cc0_scoped0.sem by decide)), Finset.mem_erase.mpr ⟨(fun e => absurd (congrArg (fun g : GSem nD τ sig => g.2) e) (show (SemLoc.dma cc0_scoped1.sem : SemLoc sig) ≠ SemLoc.dma cc0_scratch10.sem by decide)), Finset.mem_erase.mpr ⟨(fun e => absurd (congrArg (fun g : GSem nD τ sig => g.2) e) (show (SemLoc.dma cc0_scoped1.sem : SemLoc sig) ≠ SemLoc.dma cc0_scratch9.sem by decide)), Finset.mem_erase.mpr ⟨(fun e => absurd (congrArg (fun g : GSem nD τ sig => g.2) e) (show (SemLoc.dma cc0_scoped1.sem : SemLoc sig) ≠ SemLoc.dma cc0_scratch8.sem by decide)), Finset.mem_erase.mpr ⟨(fun e => absurd (congrArg (fun g : GSem nD τ sig => g.2) e) (show (SemLoc.dma cc0_scoped1.sem : SemLoc sig) ≠ SemLoc.dma cc0_scratch7.sem by decide)), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩⟩),
    SparseCore.bigSep_erase' (Finset.mem_erase.mpr ⟨(fun e => absurd (congrArg (fun g : GSem nD τ sig => g.2) e) (show (SemLoc.dma cc0_scoped2.sem : SemLoc sig) ≠ SemLoc.dma cc0_scoped1.sem by decide)), Finset.mem_erase.mpr ⟨(fun e => absurd (congrArg (fun g : GSem nD τ sig => g.2) e) (show (SemLoc.dma cc0_scoped2.sem : SemLoc sig) ≠ SemLoc.dma cc0_scoped0.sem by decide)), Finset.mem_erase.mpr ⟨(fun e => absurd (congrArg (fun g : GSem nD τ sig => g.2) e) (show (SemLoc.dma cc0_scoped2.sem : SemLoc sig) ≠ SemLoc.dma cc0_scratch10.sem by decide)), Finset.mem_erase.mpr ⟨(fun e => absurd (congrArg (fun g : GSem nD τ sig => g.2) e) (show (SemLoc.dma cc0_scoped2.sem : SemLoc sig) ≠ SemLoc.dma cc0_scratch9.sem by decide)), Finset.mem_erase.mpr ⟨(fun e => absurd (congrArg (fun g : GSem nD τ sig => g.2) e) (show (SemLoc.dma cc0_scoped2.sem : SemLoc sig) ≠ SemLoc.dma cc0_scratch8.sem by decide)), Finset.mem_erase.mpr ⟨(fun e => absurd (congrArg (fun g : GSem nD τ sig => g.2) e) (show (SemLoc.dma cc0_scoped2.sem : SemLoc sig) ≠ SemLoc.dma cc0_scratch7.sem by decide)), (mem_ownCells (g := (((V d (cV L) (jV L)), SemLoc.dma cc0_scoped2.sem) : GSem nD τ sig))).mpr ⟨rfl, by show (SemLoc.dma cc0_scoped2.sem : SemLoc sig).isScoped .scVector = true; decide⟩⟩⟩⟩⟩⟩⟩)]

omit [FloatOps F] in
theorem ownBufs_V (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f)
          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨(fun e => absurd (Proc.devRef_injective _ e) (show (cc0_scratch1 : Ref sig .scVector) ≠ cc0_scratch0 by decide)), SparseCore.Cfg.mem_ownRefs_of_owner (p := Proc.scVector (cV L) (jV L)) (b := ((Proc.scVector (cV L) (jV L)).devRef cc0_scratch1)) rfl⟩),
    SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨(fun e => absurd (Proc.devRef_injective _ e) (show (cc0_scratch4 : Ref sig .scVector) ≠ cc0_scratch3 by decide)), Finset.mem_erase.mpr ⟨(fun e => absurd (Proc.devRef_injective _ e) (show (cc0_scratch4 : Ref sig .scVector) ≠ cc0_scratch2 by decide)), Finset.mem_erase.mpr ⟨(fun e => absurd (Proc.devRef_injective _ e) (show (cc0_scratch4 : Ref sig .scVector) ≠ cc0_scratch1 by decide)), Finset.mem_erase.mpr ⟨(fun e => absurd (Proc.devRef_injective _ e) (show (cc0_scratch4 : Ref sig .scVector) ≠ cc0_scratch0 by decide)), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨(fun e => absurd (Proc.devRef_injective _ e) (show (cc0_scratch5 : Ref sig .scVector) ≠ cc0_scratch4 by decide)), Finset.mem_erase.mpr ⟨(fun e => absurd (Proc.devRef_injective _ e) (show (cc0_scratch5 : Ref sig .scVector) ≠ cc0_scratch3 by decide)), Finset.mem_erase.mpr ⟨(fun e => absurd (Proc.devRef_injective _ e) (show (cc0_scratch5 : Ref sig .scVector) ≠ cc0_scratch2 by decide)), Finset.mem_erase.mpr ⟨(fun e => absurd (Proc.devRef_injective _ e) (show (cc0_scratch5 : Ref sig .scVector) ≠ cc0_scratch1 by decide)), Finset.mem_erase.mpr ⟨(fun e => absurd (Proc.devRef_injective _ e) (show (cc0_scratch5 : Ref sig .scVector) ≠ cc0_scratch0 by decide)), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨(fun e => absurd (Proc.devRef_injective _ e) (show (cc0_scratch6 : Ref sig .scVector) ≠ cc0_scratch5 by decide)), Finset.mem_erase.mpr ⟨(fun e => absurd (Proc.devRef_injective _ e) (show (cc0_scratch6 : Ref sig .scVector) ≠ cc0_scratch4 by decide)), Finset.mem_erase.mpr ⟨(fun e => absurd (Proc.devRef_injective _ e) (show (cc0_scratch6 : Ref sig .scVector) ≠ cc0_scratch3 by decide)), Finset.mem_erase.mpr ⟨(fun e => absurd (Proc.devRef_injective _ e) (show (cc0_scratch6 : Ref sig .scVector) ≠ cc0_scratch2 by decide)), Finset.mem_erase.mpr ⟨(fun e => absurd (Proc.devRef_injective _ e) (show (cc0_scratch6 : Ref sig .scVector) ≠ cc0_scratch1 by decide)), Finset.mem_erase.mpr ⟨(fun e => absurd (Proc.devRef_injective _ e) (show (cc0_scratch6 : Ref sig .scVector) ≠ cc0_scratch0 by decide)), SparseCore.Cfg.mem_ownRefs_of_owner (p := Proc.scVector (cV L) (jV L)) (b := ((Proc.scVector (cV L) (jV L)).devRef cc0_scratch6)) rfl⟩⟩⟩⟩⟩⟩)]

end Cert.Kernel.Run

end
-- ==== Proof.WTileObl.lean ====
/-
  The tile's task as the launch theorem asks for it: the body's run at a symbolic tile, entered through the body
  table's row for that tile.
-/
import proofs.«212450_g60069412602311_cont_9to1_m_657_24_alg».proof.Proof.WCommon
import proofs.«212450_g60069412602311_cont_9to1_m_657_24_alg».proof.Proof.WTileSetup

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- The grid's point of a SparseCore number and a tile number. -/
def coordsV (c : Fin (grid0.bound 0)) (s : Fin (grid0.bound 1)) : grid0.Coords :=
  fun | 0 => c | 1 => s | ⟨_ + 2, h⟩ => absurd h (Nat.not_lt.2 (Nat.le_add_left _ _))

variable [FloatOps F]

/-- What the tile's body is to satisfy, at every tile: from what it is handed to what it hands back. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ goRes m d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_scatter_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 cc0_scoped1 cc0_scoped2)
          fun _ => iprop(tdRes m d (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 0 ()
      = SparseCore.onTile hcore0 hsub0 (fun c s => cc0__sc_scatter_body (coordsV c s) (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 cc0_scoped1 cc0_scoped2) ⟨⟩ c s := rfl

omit [FloatOps F] in
theorem obl_post {thr : Thread nD τ} {A A' B C : sProp 𝕄} (hA : A ⊢ A') {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iapply hA; iexact HA
  isplitl [HB]; · iexact HB
  isplitl [HC]; · iexact HC
  iexists W'; isplitr
  · ipureintro; exact fun p hp => (hW' p hp).imp_right Or.inl
  · iexact HO

/-- The launch theorem's obligation for the call's tiles, from the body's run. -/
theorem tileObl (hb : TileBody (F := F) m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post (tdArr_of_tdRes m d _ _))

end Cert.Kernel.Run

end
-- ==== Proof.WBlock.lean ====
/-
  The dense stage's result, block by block.

  The stage works on blocks of 2048 nodes: from the block of x, the matching blocks of the two [2, 16, 10240]
  arrays of partial sums and partial counts, and the whole weights, it writes the block of the result.  Stated for
  any float instance: the block as the body's own term of its eight input blocks, and what the stage leaves in the
  result array — every row below 10000 is its block's row; the last block reaches past the array, and the rows of
  its x block beyond row 9999 are whatever the staging buffer held.
-/
import proofs.«212450_g60069412602311_cont_9to1_m_657_24_alg».proof.Proof.Gen.Kernel.Skeleton
import Idealize.ShloMosaic.Lib.ValueIdx

noncomputable section

namespace Cert.Kernel.Blk

open Idealize.ShloMosaic Idealize.ShloMosaic.ValueIdx Cert.Kernel Cert.Kernel.Gen

variable {F : FTy → Type} [FloatOps F]

/-- Half b (the SparseCore's number) of a staged [2, 16, 2048] block, as the [1, 16, 2048] vector the body loads. -/
def half (b : Fin 2) (v : Vec F S2x16x2048 .f32) : Vec F S1x16x2048 .f32 :=
  fun y => v (ix3 b (y 1) (y 2))

/-- The result block as the body's term of its eight input blocks. -/
def blockOut (xb : Vec F S2048x128 .f32) (sb cb : Vec F S2x16x2048 .f32) (w1x : Vec F S128x64 .f32) (w1a : Vec F S16x64 .f32)
    (b1r : Vec F S1x64 .f32) (w2 : Vec F S64x128 .f32) (b2r : Vec F S1x128 .f32) : Vec F S2048x128 .f32 :=
  k1_pay1 xb (k1_pay2 xb (half 0 sb) (half 1 sb) (half 0 cb) (half 1 cb) w1x w1a b1r) w2 (constant (F := F) S2048x128 .f32 0x00000000#32) b2r

/-- Block t (nodes 2048 t … 2048 t + 2047) of a [2, 16, 10240] array. -/
def blk3 (s : Vec F S2x16x10240 .f32) (t : Fin 5) : Vec F S2x16x2048 .f32 :=
  fun y => s (ix3 (y 0) (y 1) (⟨2048 * t.val + (y 2).val, by
    have h1 : (y 2).val < 2048 := (y 2).isLt
    have h2 := t.isLt
    omega⟩ : Fin 10240))

/-- What the dense stage leaves in the result array o, from the arrays it reads. -/
def RegionPost (x : Vec F S10000x128 .f32) (s c : Vec F S2x16x10240 .f32) (w1x : Vec F S128x64 .f32) (w1a : Vec F S16x64 .f32)
    (b1r : Vec F S1x64 .f32) (w2 : Vec F S64x128 .f32) (b2r : Vec F S1x128 .f32) (o : Vec F S10000x128 .f32) : Prop :=
  ∃ xb : Fin 5 → Vec F S2048x128 .f32,
    (∀ (t : Fin 5) (p : Fin 2048) (q : Fin 128) (h : 2048 * t.val + p.val < 10000),
        xb t (ix2 p q) = x (ix2 (⟨2048 * t.val + p.val, h⟩ : Fin 10000) q)) ∧
    ∀ (t : Fin 5) (p : Fin 2048) (q : Fin 128) (h : 2048 * t.val + p.val < 10000),
        o (ix2 (⟨2048 * t.val + p.val, h⟩ : Fin 10000) q)
          = blockOut (xb t) (blk3 s t) (blk3 c t) w1x w1a b1r w2 b2r (ix2 p q)

end Cert.Kernel.Blk

end
-- ==== Proof.WDeal.lean ====
/-
  The call's four arrays dealt to the 32 tiles and gathered back: the two read arrays as a remainder and the
  tiles' read tokens, the two result arrays as their 32 rows — handed at whatever they hold, gathered holding the
  whole-array functions of sums and counts.
-/
import proofs.«212450_g60069412602311_cont_9to1_m_657_24_alg».proof.Proof.WCommon
import proofs.«212450_g60069412602311_cont_9to1_m_657_24_alg».proof.Proof.WSplitJoin

noncomputable section

namespace Cert.Kernel.Run

open Cert.Kernel Cert.Kernel.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 1) (Elt F) ℕ UU ℕ

variable (m : (ℓ : Loc nD τ sig) → Buf (Elt F) ℓ) [FloatOps F]

/-- What stays with @main while the tiles hold their read tokens. -/
abbrev readRest (d : Dev nD) : sProp 𝕄 :=
  iprop((eLoc d ↦{Transfers.shareDrop fullShare 32} eaT m d) ∗ (iLoc d ↦{Transfers.shareDrop fullShare 32} eiV m d))

/-- Dealing. -/
theorem deal (d : Dev nD) (fs : Buf (Elt F) (sLoc d)) (fc : Buf (Elt F) (cLoc d)) :
    iprop((eLoc d ↦{fullShare} eaT m d) ∗ (iLoc d ↦{fullShare} eiV m d) ∗ (sLoc d ↦{fullShare} fs) ∗ (cLoc d ↦{fullShare} fc))
      ⊢ iprop(readRest m d ∗ bigSep Finset.univ fun c : Fin 2 => bigSep Finset.univ fun i : Fin 16 => goRes m d c i) := by
  have hs : (bigSep Finset.univ fun c : Fin 2 => bigSep Finset.univ fun i : Fin 16 => (sLoc d ↦[rowSet c i]{fullShare} fs : sProp 𝕄))
      ⊢ bigSep Finset.univ fun c : Fin 2 => bigSep Finset.univ fun i : Fin 16 => (iprop(∃ f, sLoc d ↦[rowSet c i]{fullShare} f) : sProp 𝕄) :=
    bigSep_mono (s := Finset.univ) fun c _ => bigSep_mono (s := Finset.univ) fun i _ =>
      exists_intro (Φ := fun f : Buf (Elt F) (sLoc d) => (sLoc d ↦[rowSet c i]{fullShare} f : sProp 𝕄)) fs
  have hc : (bigSep Finset.univ fun c : Fin 2 => bigSep Finset.univ fun i : Fin 16 => (cLoc d ↦[rowSet c i]{fullShare} fc : sProp 𝕄))
      ⊢ bigSep Finset.univ fun c : Fin 2 => bigSep Finset.univ fun i : Fin 16 => (iprop(∃ f, cLoc d ↦[rowSet c i]{fullShare} f) : sProp 𝕄) :=
    bigSep_mono (s := Finset.univ) fun c _ => bigSep_mono (s := Finset.univ) fun i _ =>
      exists_intro (Φ := fun f : Buf (Elt F) (cLoc d) => (cLoc d ↦[rowSet c i]{fullShare} f : sProp 𝕄)) fc
  iintro ⟨He, Hi, Hs, Hc⟩
  ihave He' := (ePts_toks (F := F) d (eaT m d)).1 $$ He
  icases He' with ⟨Hed, Het⟩
  ihave Hi' := (iPts_toks (F := F) d (eiV m d)).1 $$ Hi
  icases Hi' with ⟨Hid, Hit⟩
  ihave Hs' := (Entails.of_eq (sPts_rows (F := F) d fs)) $$ Hs
  ihave Hc' := (Entails.of_eq (cPts_rows (F := F) d fc)) $$ Hc
  isplitl [Hed Hid]
  · isplitl [Hed] <;> iassumption
  unfold goRes
  simp only [bigSep_sep']
  isplitl [Het]; · iexact Het
  isplitl [Hit]; · iexact Hit
  isplitl [Hs']
  · iapply hs; iexact Hs'
  · iapply hc; iexact Hc'

/-- Gathering. -/
theorem gather (d : Dev nD) :
    iprop(readRest m d ∗ bigSep Finset.univ fun c : Fin 2 => bigSep Finset.univ fun i : Fin 16 => tdArr m d c i)
      ⊢ iprop((eLoc d ↦{fullShare} eaT m d) ∗ (iLoc d ↦{fullShare} eiV m d)
          ∗ (sLoc d ↦{fullShare} (Cert.Spec.sumsArr (F := F) (eaT m d) (eiV m d) : Buf (Elt F) (sLoc d)))
          ∗ (cLoc d ↦{fullShare} (Cert.Spec.cntArr (F := F) (eiV m d) : Buf (Elt F) (cLoc d)))) := by
  unfold tdArr
  simp only [bigSep_sep']
  iintro ⟨⟨Hed, Hid⟩, Het, Hit, Hs, Hc⟩
  isplitl [Hed Het]
  · iapply (ePts_toks (F := F) d (eaT m d)).2
    isplitl [Hed] <;> iassumption
  isplitl [Hid Hit]
  · iapply (iPts_toks (F := F) d (eiV m d)).2
    isplitl [Hid] <;> iassumption
  isplitl [Hs]
  · iapply (Entails.of_eq (sPts_rows (F := F) d _).symm); iexact Hs
  · iapply (Entails.of_eq (cPts_rows (F := F) d _).symm); iexact Hc

end Cert.Kernel.Run

end
-- ==== Proof.WRegionIface.lean ====
/-
  The dense stage's run, stated: the one TensorCore pipeline of the program, entered after the SparseCore call.

  What the stage takes (the staging cells' ghost state, the TensorCore's region boundary, its handshake state after
  the call, and its unscoped arrays at a valuation) and what it leaves: the same back, the result array holding, on
  every row below 10000, the block the body computes from the staged blocks.
-/
import proofs.«212450_g60069412602311_cont_9to1_m_657_24_alg».proof.Proof.WCommon
import proofs.«212450_g60069412602311_cont_9to1_m_657_24_alg».proof.Proof.WBlock
import Idealize.ShloMosaic.Lib.Pipeline.Frame

noncomputable section

namespace Cert.Kernel.Run

open Cert.Kernel Cert.Kernel.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (SparseCore.Cfg.HIx 1) (Elt F) ℕ UU ℕ

/-- The nine arrays the stage moves, as the TensorCore's buffers: x, the two arrays of partial sums and counts, the two
    slices of the first weight matrix, the first bias as a row, the second weight matrix, the second bias as a row, and
    the result. -/
abbrev rX : DevRef τ sig := Proc.devRef .tc (main_arg0 : Ref sig .tc)
abbrev rS : DevRef τ sig := Proc.devRef .tc (main_v1_0 : Ref sig .tc)
abbrev rC : DevRef τ sig := Proc.devRef .tc (main_v1_1 : Ref sig .tc)
abbrev rW1x : DevRef τ sig := Proc.devRef .tc (main_v2 : Ref sig .tc)
abbrev rW1a : DevRef τ sig := Proc.devRef .tc (main_v3 : Ref sig .tc)
abbrev rB1 : DevRef τ sig := Proc.devRef .tc (main_v4 : Ref sig .tc)
abbrev rW2 : DevRef τ sig := Proc.devRef .tc (main_arg7 : Ref sig .tc)
abbrev rB2 : DevRef τ sig := Proc.devRef .tc (main_v5 : Ref sig .tc)
abbrev rO : DevRef τ sig := Proc.devRef .tc (main_v6 : Ref sig .tc)

abbrev Sreg : Finset (DevRef τ sig) := {rX, rS, rC, rW1x, rW1a, rB1, rW2, rB2, rO}

/-- What device d's TensorCore needs of the staging cells' rounds: their ghost state and the transfers' duty tokens. -/
def Gd (d : Dev nD) : sProp 𝕄 :=
  iprop(Pipeline.cellsGhost cfgs (ER (F := F)) 0 d ∗ Pipeline.toksInit cfgs (ER (F := F)) 0 d)

/-- The staging cells' launch element funds every device's share. -/
def FundRegion : Prop :=
  BI.own ((ER (F := F)) (initOf (Pipeline.cells cfgs cellOf_inj) (Pipeline.launchToks cfgs cellOf_inj)))
    ⊢ iprop(|==> bigSep Finset.univ fun d : Dev nD => Gd (F := F) d)

variable [FloatOps F]
variable (m : (ℓ : Loc nD τ sig) → Buf (Elt F) ℓ)

/-- What the stage leaves: the handshake state and the boundary back, the unscoped arrays at the valuation with the
    result replaced by an array every row of which below 10000 is its block's row. -/
def RegionOut (d : Dev nD) (Vv : Valuation τ sig (Elt F)) : sProp 𝕄 :=
  iprop((K (F := F)).tcSt EH d 1 ∗ boundary (T d)
    ∗ ∃ o : Vec F S10000x128 .f32,
        ⌜Cert.Kernel.Blk.RegionPost (F := F) (Vv rX) (Vv rS) (Vv rC) (Vv rW1x) (Vv rW1a) (Vv rB1) (Vv rW2) (Vv rB2) o⌝
        ∗ held (T d) (Pipeline.ucRefs τ sig) (Function.update Vv rO o))

/-- The stage's run, from the TensorCore's holdings after the call and the host operations to the same with the result
    written, under any post. -/
def RegionRun : Prop :=
  ∀ (κ : GSem nD τ sig → ℕ) (d : Dev nD) (Vv : Valuation τ sig (Elt F)) (Φ : PUnit → sProp 𝕄),
    iprop((K (F := F)).ctx EH (P m) κ ∗ (K (F := F)).tcSt EH d 1 ∗ Gd d ∗ boundary (T d) ∗ held (T d) (Pipeline.ucRefs τ sig) Vv
        ∗ (RegionOut d Vv -∗ Φ ⟨⟩))
      ⊢ wp frame (wpE ((K (F := F)).defs (D (F := F))) 𝒱 (SparseCore.T d) none) Set.univ
          (Prog.lift (.customCall (SparseCore.inner (Pipeline.entry 0)) ())) Φ

end Cert.Kernel.Run

end
-- ==== Proof.WLaunchElem.lean ====
/-
  The launch element of the program's ghost state (the handshakes' rounds, the staging cells' rounds funded for
  every device's dense stage, no transfer counters yet), @main's five layout operations as named terms, and the
  valuations @main passes through: at the launch, after the transpose, after the SparseCore call, after the slices
  and reshapes.
-/
import proofs.«212450_g60069412602311_cont_9to1_m_657_24_alg».proof.Proof.WCommon
import proofs.«212450_g60069412602311_cont_9to1_m_657_24_alg».proof.Proof.WSplitJoin
import proofs.«212450_g60069412602311_cont_9to1_m_657_24_alg».proof.Proof.WTileObl
import proofs.«212450_g60069412602311_cont_9to1_m_657_24_alg».proof.Proof.WBlock
import proofs.«212450_g60069412602311_cont_9to1_m_657_24_alg».proof.Proof.WDeal
import proofs.«212450_g60069412602311_cont_9to1_m_657_24_alg».proof.Proof.WRegionIface
import Idealize.ShloMosaic.Lib.Pipeline.Frame

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element -/

/-- The handshakes' rounds, the staging cells' rounds, the transfers' counters (none yet). -/
def u₀ : UU := (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

theorem hu₀ (hfund : FundRegion (F := F)) : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  have hf : (BI.own (((Emb.inl : Emb UR (UR × Counters)).trans (embR : Emb (UR × Counters) 𝕄)) (initOf (Pipeline.cells cfgs cellOf_inj) (Pipeline.launchToks cfgs cellOf_inj))) : sProp 𝕄)
      ⊢ iprop(|==> bigSep Finset.univ fun d : Dev nD => Gd (F := F) d) := hfund
  unfold u₀
  iintro Hu
  ihave H := (ownU_pair _ _) $$ Hu
  icases H with ⟨HH, HR⟩
  ihave HR' := (own_pair_emb (embR : Emb (UR × Counters) 𝕄) _ _) $$ HR
  icases HR' with ⟨HR, -⟩
  imod hf $$ HR with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main's host operations, named -/

abbrev opT : HloOp τ sig (Elt F) := StableHlo.unary main_arg2 main_v0 ((transpose S16x320000 [1, 0] · transposes_S320000x16_S16x320000_1_0) : (⟨S320000x16, .f32⟩ : BufTy).Contents (Elt F) → (⟨S16x320000, .f32⟩ : BufTy).Contents (Elt F))
abbrev opW1x : HloOp τ sig (Elt F) := StableHlo.unary main_arg5 main_v2 ((extractStridedSlice S128x64 ![0, 0] · slices_S144x64_S128x64_0_0) : (⟨S144x64, .f32⟩ : BufTy).Contents (Elt F) → (⟨S128x64, .f32⟩ : BufTy).Contents (Elt F))
abbrev opW1a : HloOp τ sig (Elt F) := StableHlo.unary main_arg5 main_v3 ((extractStridedSlice S16x64 ![128, 0] · slices_S144x64_S16x64_128_0) : (⟨S144x64, .f32⟩ : BufTy).Contents (Elt F) → (⟨S16x64, .f32⟩ : BufTy).Contents (Elt F))
abbrev opB1 : HloOp τ sig (Elt F) := StableHlo.reshape main_arg6 main_v4 rfl shapeCasts_S64_S1x64
abbrev opB2 : HloOp τ sig (Elt F) := StableHlo.reshape main_arg8 main_v5 rfl shapeCasts_S128_S1x128

theorem hT : (opT (F := F)).bufs ⊆ Pipeline.ucRefs τ sig := Pipeline.sub_ucRefs _ (StableHlo.unary_bufs_sub _ _ _ _ _)
theorem hW1x : (opW1x (F := F)).bufs ⊆ Pipeline.ucRefs τ sig := Pipeline.sub_ucRefs _ (StableHlo.unary_bufs_sub _ _ _ _ _)
theorem hW1a : (opW1a (F := F)).bufs ⊆ Pipeline.ucRefs τ sig := Pipeline.sub_ucRefs _ (StableHlo.unary_bufs_sub _ _ _ _ _)
theorem hB1 : (opB1 (F := F)).bufs ⊆ Pipeline.ucRefs τ sig := Pipeline.sub_ucRefs _ (StableHlo.reshape_bufs_sub _ _ _ _ _ _)
theorem hB2 : (opB2 (F := F)).bufs ⊆ Pipeline.ucRefs τ sig := Pipeline.sub_ucRefs _ (StableHlo.reshape_bufs_sub _ _ _ _ _ _)

/-! ## The valuations @main passes through -/

/-- The launch valuation. -/
def V0 (d : Dev nD) : Valuation τ sig (Elt F) := fun b => m (d, b)
/-- After the transpose. -/
def V1 (d : Dev nD) : Valuation τ sig (Elt F) := (opT (F := F)).result (V0 m d)
/-- After the SparseCore call: its two results hold the whole-array functions of sums and counts. -/
def V2 (d : Dev nD) : Valuation τ sig (Elt F) :=
  Function.update (Function.update (V1 m d) rS (Cert.Spec.sumsArr (F := F) (eaT m d) (eiV m d) : Buf (Elt F) (sLoc d)))
    rC (Cert.Spec.cntArr (F := F) (eiV m d) : Buf (Elt F) (cLoc d))
/-- After the four layout operations. -/
def V3 (d : Dev nD) : Valuation τ sig (Elt F) :=
  (opB2 (F := F)).result ((opB1 (F := F)).result ((opW1a (F := F)).result ((opW1x (F := F)).result (V2 m d))))

abbrev rE : DevRef τ sig := Proc.devRef .tc (main_v0 : Ref sig .tc)
abbrev rI : DevRef τ sig := Proc.devRef .tc (main_arg1 : Ref sig .tc)
abbrev T4 : Finset (DevRef τ sig) := {rE, rI, rS, rC}

theorem T4_sub : (T4 : Finset (DevRef τ sig)) ⊆ Pipeline.ucRefs τ sig := by decide

omit [FloatOps F] in
theorem held_T4 (d : Dev nD) (W : Valuation τ sig (Elt F)) :
    (held (T d) T4 W : sProp 𝕄) = iprop((eLoc d ↦{fullShare} W rE) ∗ (iLoc d ↦{fullShare} W rI) ∗ (sLoc d ↦{fullShare} W rS) ∗ (cLoc d ↦{fullShare} W rC)) := by
  unfold held T4
  rw [SparseCore.bigSep_insert' (by decide), SparseCore.bigSep_insert' (by decide), SparseCore.bigSep_insert' (by decide), bigSep_singleton]

theorem V1_rE (d : Dev nD) : V1 m d rE = eaT m d := by
  unfold V1 eaT; exact StableHlo.unary_result _ _ _ _ _ _
theorem V1_rI (d : Dev nD) : V1 m d rI = eiV m d := by
  unfold V1; rw [StableHlo.unary_result_ne]; rfl; decide

end Cert.Kernel.Run

end
-- ==== Proof.WLaunchMain.lean ====
/-
  @main on the TensorCore, run: what each valuation holds at each array, the call's arrays dealt to the tiles and
  gathered back, the layout operations, the dense stage, and the final valuation — the nine arguments at the launch
  memory and the result satisfying the dense stage's post over arrays that are functions of the launch memory.
-/
import proofs.«212450_g60069412602311_cont_9to1_m_657_24_alg».proof.Proof.WCommon
import proofs.«212450_g60069412602311_cont_9to1_m_657_24_alg».proof.Proof.WSplitJoin
import proofs.«212450_g60069412602311_cont_9to1_m_657_24_alg».proof.Proof.WTileObl
import proofs.«212450_g60069412602311_cont_9to1_m_657_24_alg».proof.Proof.WBlock
import proofs.«212450_g60069412602311_cont_9to1_m_657_24_alg».proof.Proof.WDeal
import proofs.«212450_g60069412602311_cont_9to1_m_657_24_alg».proof.Proof.WRegionIface
import proofs.«212450_g60069412602311_cont_9to1_m_657_24_alg».proof.Proof.WLaunchElem
import Idealize.ShloMosaic.Lib.Pipeline.Frame

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the valuations hold -/

abbrev rA : DevRef τ sig := Proc.devRef .tc (main_arg2 : Ref sig .tc)
abbrev rU : DevRef τ sig := Proc.devRef .tc (main_arg3 : Ref sig .tc)
abbrev rBt : DevRef τ sig := Proc.devRef .tc (main_arg4 : Ref sig .tc)
abbrev rW1 : DevRef τ sig := Proc.devRef .tc (main_arg5 : Ref sig .tc)
abbrev rb1 : DevRef τ sig := Proc.devRef .tc (main_arg6 : Ref sig .tc)
abbrev rb2 : DevRef τ sig := Proc.devRef .tc (main_arg8 : Ref sig .tc)

theorem V1_of_ne (d : Dev nD) (b : DevRef τ sig) (hb : b ≠ rE) : V1 m d b = V0 m d b := by
  unfold V1; exact (opT (F := F)).result_of_not_mem (V0 m d) (fun hw => hb (by simpa using hw))

theorem V2_rE (d : Dev nD) : V2 m d rE = eaT m d := by
  unfold V2; rw [Function.update_of_ne (by decide), Function.update_of_ne (by decide)]; exact V1_rE m d
theorem V2_rI (d : Dev nD) : V2 m d rI = eiV m d := by
  unfold V2; rw [Function.update_of_ne (by decide), Function.update_of_ne (by decide)]; exact V1_rI m d
theorem V2_rS (d : Dev nD) : V2 m d rS = (Cert.Spec.sumsArr (F := F) (eaT m d) (eiV m d) : Buf (Elt F) (sLoc d)) := by
  unfold V2; rw [Function.update_of_ne (by decide), Function.update_self]
theorem V2_rC (d : Dev nD) : V2 m d rC = (Cert.Spec.cntArr (F := F) (eiV m d) : Buf (Elt F) (cLoc d)) := by
  unfold V2; rw [Function.update_self]
theorem V2_of_ne (d : Dev nD) (b : DevRef τ sig) (hS : b ≠ rS) (hC : b ≠ rC) : V2 m d b = V1 m d b := by
  unfold V2; rw [Function.update_of_ne hC, Function.update_of_ne hS]

/-! ## After the layout operations -/

/-- The same valuation as a fold over the four operations (the form their results are read in). -/
theorem V3_eq (d : Dev nD) : V3 m d = StableHlo.after [opW1x (F := F), opW1a, opB1, opB2] (V2 m d) := rfl

/-- The arrays the dense stage reads, as functions of the launch memory. -/
def w1x (d : Dev nD) : Vec F S128x64 .f32 := extractStridedSlice S128x64 ![0, 0] (V0 m d rW1) slices_S144x64_S128x64_0_0
def w1a (d : Dev nD) : Vec F S16x64 .f32 := extractStridedSlice S16x64 ![128, 0] (V0 m d rW1) slices_S144x64_S16x64_128_0
def b1r (d : Dev nD) : Vec F S1x64 .f32 := shapeCast S1x64 (V0 m d rb1) shapeCasts_S64_S1x64
def b2r (d : Dev nD) : Vec F S1x128 .f32 := shapeCast S1x128 (V0 m d rb2) shapeCasts_S128_S1x128

theorem V3_keep (d : Dev nD) (b : DevRef τ sig) (h2 : b ≠ rW1x) (h3 : b ≠ rW1a) (h4 : b ≠ rB1) (h5 : b ≠ rB2) : V3 m d b = V2 m d b := by
  unfold V3
  rw [(opB2 (F := F)).result_of_not_mem _ (fun hw => h5 (by simpa using hw)), (opB1 (F := F)).result_of_not_mem _ (fun hw => h4 (by simpa using hw)),
    (opW1a (F := F)).result_of_not_mem _ (fun hw => h3 (by simpa using hw)), (opW1x (F := F)).result_of_not_mem _ (fun hw => h2 (by simpa using hw))]

theorem V3_arg (d : Dev nD) (b : DevRef τ sig) (h2 : b ≠ rW1x) (h3 : b ≠ rW1a) (h4 : b ≠ rB1) (h5 : b ≠ rB2) (hS : b ≠ rS) (hC : b ≠ rC) (hE : b ≠ rE) :
    V3 m d b = V0 m d b := by
  rw [V3_keep m d b h2 h3 h4 h5, V2_of_ne m d b hS hC, V1_of_ne m d b hE]

theorem V3_rS (d : Dev nD) : V3 m d rS = (Cert.Spec.sumsArr (F := F) (eaT m d) (eiV m d) : Buf (Elt F) (sLoc d)) := by
  rw [V3_keep m d rS (by decide) (by decide) (by decide) (by decide)]; exact V2_rS m d
theorem V3_rC (d : Dev nD) : V3 m d rC = (Cert.Spec.cntArr (F := F) (eiV m d) : Buf (Elt F) (cLoc d)) := by
  rw [V3_keep m d rC (by decide) (by decide) (by decide) (by decide)]; exact V2_rC m d

theorem V2_rW1 (d : Dev nD) : V2 m d rW1 = V0 m d rW1 := by
  rw [V2_of_ne m d rW1 (by decide) (by decide), V1_of_ne m d rW1 (by decide)]
theorem V2_rb1 (d : Dev nD) : V2 m d rb1 = V0 m d rb1 := by
  rw [V2_of_ne m d rb1 (by decide) (by decide), V1_of_ne m d rb1 (by decide)]
theorem V2_rb2 (d : Dev nD) : V2 m d rb2 = V0 m d rb2 := by
  rw [V2_of_ne m d rb2 (by decide) (by decide), V1_of_ne m d rb2 (by decide)]

theorem V3_rW1x (d : Dev nD) : V3 m d rW1x = w1x m d := by
  rw [V3_eq]; after_results; rw [V2_rW1]; rfl
theorem V3_rW1a (d : Dev nD) : V3 m d rW1a = w1a m d := by
  rw [V3_eq]; after_results; rw [V2_rW1]; rfl
theorem V3_rB1 (d : Dev nD) : V3 m d rB1 = b1r m d := by
  rw [V3_eq]; after_results; rw [V2_rb1]; rfl
theorem V3_rB2 (d : Dev nD) : V3 m d rB2 = b2r m d := by
  rw [V3_eq]; after_results; rw [V2_rb2]; rfl

/-! ## What @main leaves -/

/-- The final valuation: the nine arguments at the launch memory, the result satisfying the dense stage's post over
    arrays that are functions of the launch memory. -/
def FinFact (d : Dev nD) (Vf : Valuation τ sig (Elt F)) : Prop :=
  (Vf rX = V0 m d rX ∧ Vf rI = V0 m d rI ∧ Vf rA = V0 m d rA ∧ Vf rU = V0 m d rU ∧ Vf rBt = V0 m d rBt ∧ Vf rW1 = V0 m d rW1
      ∧ Vf rb1 = V0 m d rb1 ∧ Vf rW2 = V0 m d rW2 ∧ Vf rb2 = V0 m d rb2)
    ∧ Cert.Kernel.Blk.RegionPost (F := F) (V0 m d rX) (Cert.Spec.sumsArr (F := F) (eaT m d) (eiV m d)) (Cert.Spec.cntArr (F := F) (eiV m d))
        (w1x m d) (w1a m d) (b1r m d) (V0 m d rW2) (b2r m d) (Vf rO)

theorem finFact (d : Dev nD) (o : Vec F S10000x128 .f32)
    (ho : Cert.Kernel.Blk.RegionPost (F := F) (V3 m d rX) (V3 m d rS) (V3 m d rC) (V3 m d rW1x) (V3 m d rW1a) (V3 m d rB1) (V3 m d rW2) (V3 m d rB2) o) :
    FinFact m d (Function.update (V3 m d) rO o) := by
  have hX := V3_arg m d rX (by decide) (by decide) (by decide) (by decide) (by decide) (by decide) (by decide)
  have hW2 := V3_arg m d rW2 (by decide) (by decide) (by decide) (by decide) (by decide) (by decide) (by decide)
  refine ⟨⟨?_, ?_, ?_, ?_, ?_, ?_, ?_, ?_, ?_⟩, ?_⟩
  · rw [Function.update_of_ne (by decide)]; exact hX
  · rw [Function.update_of_ne (by decide)]; exact V3_arg m d rI (by decide) (by decide) (by decide) (by decide) (by decide) (by decide) (by decide)
  · rw [Function.update_of_ne (by decide)]; exact V3_arg m d rA (by decide) (by decide) (by decide) (by decide) (by decide) (by decide) (by decide)
  · rw [Function.update_of_ne (by decide)]; exact V3_arg m d rU (by decide) (by decide) (by decide) (by decide) (by decide) (by decide) (by decide)
  · rw [Function.update_of_ne (by decide)]; exact V3_arg m d rBt (by decide) (by decide) (by decide) (by decide) (by decide) (by decide) (by decide)
  · rw [Function.update_of_ne (by decide)]; exact V3_arg m d rW1 (by decide) (by decide) (by decide) (by decide) (by decide) (by decide) (by decide)
  · rw [Function.update_of_ne (by decide)]; exact V3_arg m d rb1 (by decide) (by decide) (by decide) (by decide) (by decide) (by decide) (by decide)
  · rw [Function.update_of_ne (by decide)]; exact hW2
  · rw [Function.update_of_ne (by decide)]; exact V3_arg m d rb2 (by decide) (by decide) (by decide) (by decide) (by decide) (by decide) (by decide)
  · rw [Function.update_self]
    rw [hX, V3_rS, V3_rC, V3_rW1x, V3_rW1a, V3_rB1, hW2, V3_rB2] at ho
    exact ho

abbrev FIN (d : Dev nD) : sProp 𝕄 := iprop(∃ Vf : Valuation τ sig (Elt F), ⌜FinFact m d Vf⌝ ∗ held (T d) (Pipeline.ucRefs τ sig) Vf)

/-! ## The call's operands and results, as the launch deals them -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c)
    = bigSep Finset.univ fun c : Fin 2 => bigSep Finset.univ fun i : Fin 16 => goRes m d c i :=
  bigSep_cores (F := F) (fun c => bigSep Finset.univ fun i : Fin 16 => goRes m d c i)
theorem dn0_eq (d : Dev nD) : (bigSep Finset.univ fun c : Fin ((K (F := F)).nCore 0) => (P m).dn 0 d c)
    = bigSep Finset.univ fun c : Fin 2 => bigSep Finset.univ fun i : Fin 16 => tdArr m d c i :=
  bigSep_cores (F := F) (fun c => bigSep Finset.univ fun i : Fin 16 => tdArr m d c i)

theorem held_T4_V1 (d : Dev nD) : (held (T d) T4 (V1 m d) : sProp 𝕄)
    = iprop((eLoc d ↦{fullShare} eaT m d) ∗ (iLoc d ↦{fullShare} eiV m d) ∗ (sLoc d ↦{fullShare} V1 m d rS) ∗ (cLoc d ↦{fullShare} V1 m d rC)) := by
  rw [held_T4, V1_rE, V1_rI]
theorem held_T4_V2 (d : Dev nD) : (held (T d) T4 (V2 m d) : sProp 𝕄)
    = iprop((eLoc d ↦{fullShare} eaT m d) ∗ (iLoc d ↦{fullShare} eiV m d)
        ∗ (sLoc d ↦{fullShare} (Cert.Spec.sumsArr (F := F) (eaT m d) (eiV m d) : Buf (Elt F) (sLoc d)))
        ∗ (cLoc d ↦{fullShare} (Cert.Spec.cntArr (F := F) (eiV m d) : Buf (Elt F) (cLoc d)))) := by
  rw [held_T4, V2_rE, V2_rI, V2_rS, V2_rC]
theorem held_rest_V2 (d : Dev nD) : (held (T d) (Pipeline.ucRefs τ sig \ T4) (V2 m d) : sProp 𝕄) = held (T d) (Pipeline.ucRefs τ sig \ T4) (V1 m d) :=
  StableHlo.held_congr (T d) fun b hb => by
    have hb' := (Finset.mem_sdiff.mp hb).2
    simp only [T4, Finset.mem_insert, Finset.mem_singleton, not_or] at hb'
    exact V2_of_ne m d b hb'.2.2.1 hb'.2.2.2

/-! ## @main on the TensorCore -/

/-- @main on device d's TensorCore: the transpose; the SparseCore call, its four arrays dealt to the 32 tiles and
    gathered back; the slices and reshapes; the dense stage; what is left is the final valuation. -/
theorem hmain (hreg : RegionRun m) (κ : GSem nD τ sig → ℕ) (d : Dev nD) :
    iprop((K (F := F)).ctx EH (P m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (fun b : Ref sig .tc => m ((SparseCore.T d).loc b)) = (fun b : Ref sig .tc => V0 m d (Proc.devRef .tc b)) from rfl, Pipeline.unscopedBufs_held]
  simp only [main, wp_bind, wp_pure]
  iintro ⟨#Hctx, Hst, ⟨Hb, Hheld, -, -⟩, HG⟩
  -- the transpose
  iapply (wp_hlo_within 𝒱 (SparseCore.T d) none Set.univ (op := opT) (S := Pipeline.ucRefs τ sig) hT (V := V0 m d)) $$ [Hb Hheld]
  · isplitl [Hb]; · iexact Hb
    iexact Hheld
  iintro ⟨Hb, Hheld⟩
  rw [wp_ret]; imodintro
  -- the call: the four arrays out of the held set, dealt
  ihave Hheld := (Entails.of_eq (show (held (T d) (Pipeline.ucRefs τ sig) ((opT (F := F)).result (V0 m d)) : sProp 𝕄) = held (T d) (Pipeline.ucRefs τ sig) (V1 m d) from rfl)) $$ Hheld
  ihave Hh := (Entails.of_eq (StableHlo.held_sub_split (T d) T4_sub (V1 m d))) $$ Hheld
  icases Hh with ⟨H4, Hrest⟩
  ihave H4' := (Entails.of_eq (held_T4_V1 m d)) $$ H4
  ihave Hd := (deal m d _ _) $$ H4'
  icases Hd with ⟨Hrr, Hgo⟩
  iapply ((K (F := F)).wp_run (D (F := F)) 𝒱 (EH := EH) (P := P m) κ d 0) $$ [Hst Hgo Hrr Hrest Hb HG]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hg := (gather m d) $$ [Hrr Hdn']
  · isplitl [Hrr] <;> iassumption
  ihave H4 := (Entails.of_eq (held_T4_V2 m d).symm) $$ Hg
  ihave Hrest' := (Entails.of_eq (held_rest_V2 m d).symm) $$ Hrest
  ihave Hheld := (Entails.of_eq (StableHlo.held_sub_split (T d) T4_sub (V2 m d)).symm) $$ [H4 Hrest']
  · isplitl [H4] <;> iassumption
  -- the slices and reshapes
  iapply (wp_hlo_within 𝒱 (SparseCore.T d) none Set.univ (op := opW1x) (S := Pipeline.ucRefs τ sig) hW1x (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := opW1a) (S := Pipeline.ucRefs τ sig) hW1a) $$ [Hb Hheld]
  · isplitl [Hb]; · iexact Hb
    iexact Hheld
  iintro ⟨Hb, Hheld⟩
  rw [wp_ret]; imodintro
  iapply (wp_hlo_within 𝒱 (SparseCore.T d) none Set.univ (op := opB1) (S := Pipeline.ucRefs τ sig) hB1) $$ [Hb Hheld]
  · isplitl [Hb]; · iexact Hb
    iexact Hheld
  iintro ⟨Hb, Hheld⟩
  rw [wp_ret]; imodintro
  iapply (wp_hlo_within 𝒱 (SparseCore.T d) none Set.univ (op := opB2) (S := Pipeline.ucRefs τ sig) hB2) $$ [Hb Hheld]
  · isplitl [Hb]; · iexact Hb
    iexact Hheld
  iintro ⟨Hb, Hheld⟩
  rw [wp_ret]; imodintro
  -- the dense stage
  ihave Hheld := (Entails.of_eq (show (held (T d) (Pipeline.ucRefs τ sig) ((opB2 (F := F)).result ((opB1 (F := F)).result ((opW1a (F := F)).result ((opW1x (F := F)).result (V2 m d))))) : sProp 𝕄)
      = held (T d) (Pipeline.ucRefs τ sig) (V3 m d) from rfl)) $$ Hheld
  iapply (hreg κ d (V3 m d) _) $$ [Hst HG Hb Hheld]
  isplitr; · iexact Hctx
  isplitl [Hst]; · iexact Hst
  isplitl [HG]; · iexact HG
  isplitl [Hb]; · iexact Hb
  isplitl [Hheld]; · iexact Hheld
  iintro Hout
  unfold RegionOut
  icases Hout with ⟨Hst, -, %o, %ho, Hheld⟩
  imodintro
  isplitl [Hst]; · iexact Hst
  iexists (Function.update (V3 m d) rO o)
  isplitr
  · ipureintro; exact finFact m d o ho
  · iexact Hheld

end Cert.Kernel.Run

end
-- ==== Proof.WHeldAgree.lean ====
/-
  Buffers held whole agree with the physical memory.

  Under the state interpretation each whole buffer held at the full share pins the memory's contents of that
  buffer; the fact is pure, so the state interpretation is kept and the buffers of a finite set are read off it
  one after the other.
-/
import proofs.«212450_g60069412602311_cont_9to1_m_657_24_alg».proof.Proof.WCommon
import Idealize.ShloMosaic.Lib.StableHlo.Run

noncomputable section

namespace Cert.Kernel.Run

open Cert.Kernel Cert.Kernel.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (SparseCore.Cfg.HIx 1) (Elt F) ℕ UU ℕ

/-- Every buffer of a set held whole at the full share holds, in the physical memory, its held contents. -/
theorem held_agree (c : Thread nD τ) (S : Finset (DevRef τ sig)) (W : Valuation τ sig (Elt F)) (s' : Phys nD τ sig (Elt F)) :
    iprop(StableHlo.held c S W ∗ SI s') ⊢ (⌜∀ b ∈ S, s'.mem.mem (c.1, b) = W b⌝ : sProp 𝕄) := by
  induction S using Finset.induction_on with
  | empty =>
    iintro -
    ipureintro
    intro b hb
    exact absurd hb (Finset.notMem_empty b)
  | insert a S' ha ih =>
    have e : (StableHlo.held c (insert a S') W : sProp 𝕄) = iprop(((c.1, a) ↦{fullShare} W a) ∗ StableHlo.held c S' W) := by
      unfold StableHlo.held
      exact BI.bigSep_insert ha
    rw [e]
    iintro ⟨⟨Ha, HS⟩, HSI⟩
    ihave H := (persistent_entails_right (SI_pointsTo_agree (st := s') (ℓ := (c.1, a)) (I := Finset.univ) (q := fullShare) (f := W a))) $$ [HSI Ha]
    · isplitl [HSI] <;> iassumption
    icases H with ⟨%h1, HSI, -⟩
    ihave H2 := ih $$ [HS HSI]
    · isplitl [HS] <;> iassumption
    icases H2 with %h2
    ipureintro
    intro b hb
    rcases Finset.mem_insert.mp hb with rfl | hb'
    · exact funext fun i => h1 i (Finset.mem_univ i)
    · exact h2 b hb'

end Cert.Kernel.Run

end
-- ==== Proof.WRunMain.lean ====
/-
  The program's run: every weakly fair execution of all the threads ends, faulting nowhere, with the nine arguments
  unchanged and the result satisfying the dense stage's post over arrays that are functions of the launch memory.
-/
import proofs.«212450_g60069412602311_cont_9to1_m_657_24_alg».proof.Proof.WCommon
import proofs.«212450_g60069412602311_cont_9to1_m_657_24_alg».proof.Proof.WSplitJoin
import proofs.«212450_g60069412602311_cont_9to1_m_657_24_alg».proof.Proof.WTileObl
import proofs.«212450_g60069412602311_cont_9to1_m_657_24_alg».proof.Proof.WBlock
import proofs.«212450_g60069412602311_cont_9to1_m_657_24_alg».proof.Proof.WDeal
import proofs.«212450_g60069412602311_cont_9to1_m_657_24_alg».proof.Proof.WRegionIface
import proofs.«212450_g60069412602311_cont_9to1_m_657_24_alg».proof.Proof.WLaunchElem
import proofs.«212450_g60069412602311_cont_9to1_m_657_24_alg».proof.Proof.WLaunchMain
import proofs.«212450_g60069412602311_cont_9to1_m_657_24_alg».proof.Proof.WHeldAgree
import Idealize.ShloMosaic.Lib.Pipeline.Frame

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- What the final state is read as: some valuation with the final facts, held by the memory at every unscoped array. -/
def fq (d : Dev nD) (s' : Phys nD τ sig (Elt F)) : Prop :=
  ∃ Vf : Valuation τ sig (Elt F), FinFact m d Vf ∧ ∀ b ∈ Pipeline.ucRefs τ sig, s'.mem.mem ((d, b) : Loc nD τ sig) = Vf b

theorem hfin (d : Dev nD) (s' : Phys nD τ sig (Elt F)) : iprop(FIN m d ∗ SI s') ⊢ (⌜fq m d s'⌝ : sProp 𝕄) := by
  iintro ⟨⟨%Vf, %hV, Hheld⟩, HSI⟩
  ihave H := (held_agree (F := F) (SparseCore.T d) (Pipeline.ucRefs τ sig) Vf s') $$ [Hheld HSI]
  · isplitl [Hheld] <;> iassumption
  icases H with %h
  ipureintro; exact ⟨Vf, hV, h⟩

/-- The run's post: the result array satisfies the dense stage's post, the nine arguments are unchanged. -/
def QC : PUnit × MemSt nD τ sig (Elt F) → Prop := fun r => ∀ c : Dev nD,
  Cert.Kernel.Blk.RegionPost (F := F) (V0 m c rX) (Cert.Spec.sumsArr (F := F) (eaT m c) (eiV m c)) (Cert.Spec.cntArr (F := F) (eiV m c))
      (w1x m c) (w1a m c) (b1r m c) (V0 m c rW2) (b2r m c) (r.2.mem ((c.tc : Thread nD τ).loc main_v6))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)

theorem qc_of_fq (s' : Phys nD τ sig (Elt F)) (h : ∀ d, fq m d s') : QC m (⟨⟩, s'.mem) := by
  intro c
  obtain ⟨Vf, ⟨⟨h0, h1, h2, h3, h4, h5, h6, h7, h8⟩, hP⟩, hm⟩ := h c
  refine ⟨?_, ?_, ?_, ?_, ?_, ?_, ?_, ?_, ?_, ?_⟩
  · have := hm rO (by decide); exact this ▸ hP
  · exact (hm rX (by decide)).trans h0
  · exact (hm rI (by decide)).trans h1
  · exact (hm rA (by decide)).trans h2
  · exact (hm rU (by decide)).trans h3
  · exact (hm rBt (by decide)).trans h4
  · exact (hm rW1 (by decide)).trans h5
  · exact (hm rb1 (by decide)).trans h6
  · exact (hm rW2 (by decide)).trans h7
  · exact (hm rb2 (by decide)).trans h8

theorem run_main [∀ e, Nonempty (Elt F e)] (hb : TileBody (F := F) m) (hreg : RegionRun m) (hfund : FundRegion (F := F)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb)
    (fun q _ => match q with | 0 => SparseCore.Cfg.VecSplit.of_plain (vecSplit m))
    m ρ main (fun d => Gd (F := F) d) (FIN m) (u₀ (F := F)) (sep_elim_left.trans (hu₀ m hfund)) (hmain m ρ hreg) (fq m) (hfin m) (QC m) (qc_of_fq m)

end Cert.Kernel.Run

end
-- ==== Proof.WPreOK.lean ====
/-
  The precondition gives the kernel's index range: under it every entry of the edge list, on every device, is at most
  9999, so every target node lies inside the accumulators.
-/
import proofs.«212450_g60069412602311_cont_9to1_m_657_24_alg».proof.Defs
import proofs.«212450_g60069412602311_cont_9to1_m_657_24_alg».proof.Proof.WCommon
import proofs.«212450_g60069412602311_cont_9to1_m_657_24_alg».proof.Proof.PreRange

namespace Cert.Kernel.Run

open Cert.Kernel Idealize.ShloMosaic

/-- The precondition, read on device d, bounds the edge list as the call's tiles read it. -/
theorem preOK_of_pre [Cert.Pre_input_domain.Facts] (m : (ℓ : Loc nD τ sig) → Buf (Elt Bits) ℓ)
    (h : Cert.Pre_Kernel m) : PreOK (F := Bits) m :=
  fun d j => Cert.Proof.PreRange.col_le (F := Bits) _ _ _ _ _ _ _ _ _ (h d) j

end Cert.Kernel.Run
-- ==== Proof.ClaimsWord.lean ====
/-
  The word-level kernel's frame from its run: the same run as the idealized kernel's, read at the word-level
  instance, with the value dropped.
-/
import proofs.«212450_g60069412602311_cont_9to1_m_657_24_alg».proof.Defs
import proofs.«212450_g60069412602311_cont_9to1_m_657_24_alg».proof.Proof.WRunMain
import proofs.«212450_g60069412602311_cont_9to1_m_657_24_alg».proof.Proof.WPreOK

noncomputable section

namespace Cert.Proof.ClaimsWord

open Idealize.ShloMosaic Idealize.SL.Sem
open Cert.Kernel Cert.Kernel.Run

variable [hPre : Cert.Pre_input_domain.Facts]

/-- What the run is conditional on: the tile's body, the dense stage's run, the staging cells' funding. -/
structure Parts : Prop where
  tile : ∀ m : (ℓ : Loc nD τ sig) → Buf (Elt Bits) ℓ, PreOK (F := Bits) m → TileBody (F := Bits) m
  region : ∀ m : (ℓ : Loc nD τ sig) → Buf (Elt Bits) ℓ, RegionRun (F := Bits) m
  fund : FundRegion (F := Bits)

theorem frame_k (hp : Parts) : Cert.frame_Kernel := fun m ρ hpre =>
  (θ_run (Cert.Kernel.defs (F := Bits)) _ _).mono (fun _ h c => (h c).2)
    (run_main (F := Bits) m ρ (hp.tile m (preOK_of_pre m hpre)) (hp.region m) hp.fund)

end Cert.Proof.ClaimsWord

end
-- ==== Proof.TileMem.lean ====
import proofs.«212450_g60069412602311_cont_9to1_m_657_24_alg».proof.Proof.TileSetup

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays and the tile's buffers as the body names them -/

abbrev eW : Memref sig .scVector .hbm S16x320000 .f32 := Memref.whole main_v0_scv
abbrev iW : Memref sig .scVector .hbm S2x320000 .i32 := Memref.whole main_arg1_scv
abbrev sW : Memref sig .scVector .hbm S2x16x10240 .f32 := Memref.whole main_v1_0_scv
abbrev cW : Memref sig .scVector .hbm S2x16x10240 .f32 := Memref.whole main_v1_1_scv
abbrev B0 : Memref sig .scVector .vmem S3200 .f32 := Memref.whole cc0_scratch0
abbrev B1 : Memref sig .scVector .vmem S3200 .f32 := Memref.whole cc0_scratch1
abbrev B2 : Memref sig .scVector .vmem S2x3200 .i32 := Memref.whole cc0_scratch2
abbrev B3 : Memref sig .scVector .vmem S2x3200 .i32 := Memref.whole cc0_scratch3
abbrev B4 : Memref sig .scVector .vmem S2x10112 .i32 := Memref.whole cc0_scratch4
abbrev B5 : Memref sig .scVector .vmem S10240 .f32 := Memref.whole cc0_scratch5
abbrev B6 : Memref sig .scVector .vmem S10240 .f32 := Memref.whole cc0_scratch6

variable (d : Dev nD) (L : grid0.Coords)

/-- Entries (L 0, L 1, :) of a result array as the body slices them. -/
abbrev rowR (L : grid0.Coords) : Rect S2x16x10240 := Rect.unit (s := S2x16x10240) (k0_off16 L) S1x1x10240.size (k0_off16_inb L)
abbrev sRow (L : grid0.Coords) : Memref sig .scVector .hbm S10240 .f32 := ((sW).slice (rowR L) (fun _ => rfl)).squeeze S10240 squeezes_S1x1x10240_S10240
abbrev cRow (L : grid0.Coords) : Memref sig .scVector .hbm S10240 .f32 := ((cW).slice (rowR L) (fun _ => rfl)).squeeze S10240 squeezes_S1x1x10240_S10240

theorem rowR_set : (rowR L).set = rowSet (cL L) (jL L) := by
  ext j
  rw [Rect.mem_set_unit, k0_off16_eq]
  unfold rowSet
  simp only [Finset.mem_filter, Finset.mem_univ, true_and]
  constructor
  · intro h
    have h0 := h 0; have h1 := h 1
    simp at h0 h1
    exact ⟨by show (j 0).val = (L 0).val; omega, by show (j 1).val = (L 1).val; omega⟩
  · rintro ⟨h0, h1⟩ a
    have h0' : (j 0).val = (L 0).val := h0
    have h1' : (j 1).val = (L 1).val := h1
    have h2 : (j 2).val < 10240 := (j 2).isLt
    match a with
    | 0 => exact (show (L 0).val ≤ (j 0).val ∧ (j 0).val < (L 0).val + 1 from by omega)
    | 1 => exact (show (L 1).val ≤ (j 1).val ∧ (j 1).val < (L 1).val + 1 from by omega)
    | 2 => exact (show 0 ≤ (j 2).val ∧ (j 2).val < 0 + 10240 from by omega)

theorem set_sRow : (sRow L).view.set = rowSet (cL L) (jL L) := by
  show (((sW).view.slice (rowR L)).reshape S10240 squeezes_S1x1x10240_S10240.numel_eq).set = _
  rw [View.set_reshape]
  exact (View.set_slice_whole _ _).trans (rowR_set L)
theorem set_cRow : (cRow L).view.set = rowSet (cL L) (jL L) := by
  show (((cW).view.slice (rowR L)).reshape S10240 squeezes_S1x1x10240_S10240.numel_eq).set = _
  rw [View.set_reshape]
  exact (View.set_slice_whole _ _).trans (rowR_set L)

/-! ## The held buffers, addressed through the memrefs the body names -/

theorem pts_e (q : PosShare TreeShare) (f : Buf (Elt F) (eLoc d)) :
    ((eW).view.loc (V d (cV L) (jV L)) ↦{q} f : sProp 𝕄) = eLoc d ↦{q} f := by
  simp only [Memref.view_whole, View.set_whole]
theorem pts_i (q : PosShare TreeShare) (f : Buf (Elt F) (iLoc d)) :
    ((iW).view.loc (V d (cV L) (jV L)) ↦{q} f : sProp 𝕄) = iLoc d ↦{q} f := by
  simp only [Memref.view_whole, View.set_whole]
theorem pts_sRow (f : Buf (Elt F) (sLoc d)) :
    ((sRow L).view.loc (V d (cV L) (jV L)) ↦[(sRow L).view.set]{fullShare} f : sProp 𝕄) = sLoc d ↦[rowSet (cL L) (jL L)]{fullShare} f := by
  rw [set_sRow]
theorem pts_cRow (f : Buf (Elt F) (cLoc d)) :
    ((cRow L).view.loc (V d (cV L) (jV L)) ↦[(cRow L).view.set]{fullShare} f : sProp 𝕄) = cLoc d ↦[rowSet (cL L) (jL L)]{fullShare} f := by
  rw [set_cRow]
theorem pts_B0 (f : Buf (Elt F) ((V d (cV L) (jV L)).loc cc0_scratch0)) :
    ((B0).view.loc (V d (cV L) (jV L)) ↦{fullShare} f : sProp 𝕄) = (V d (cV L) (jV L)).loc cc0_scratch0 ↦{fullShare} f := rfl
theorem pts_B1 (f : Buf (Elt F) ((V d (cV L) (jV L)).loc cc0_scratch1)) :
    ((B1).view.loc (V d (cV L) (jV L)) ↦{fullShare} f : sProp 𝕄) = (V d (cV L) (jV L)).loc cc0_scratch1 ↦{fullShare} f := rfl
theorem pts_B2 (f : Buf (Elt F) ((V d (cV L) (jV L)).loc cc0_scratch2)) :
    ((B2).view.loc (V d (cV L) (jV L)) ↦{fullShare} f : sProp 𝕄) = (V d (cV L) (jV L)).loc cc0_scratch2 ↦{fullShare} f := rfl
theorem pts_B3 (f : Buf (Elt F) ((V d (cV L) (jV L)).loc cc0_scratch3)) :
    ((B3).view.loc (V d (cV L) (jV L)) ↦{fullShare} f : sProp 𝕄) = (V d (cV L) (jV L)).loc cc0_scratch3 ↦{fullShare} f := rfl
theorem pts_B4 (f : Buf (Elt F) ((V d (cV L) (jV L)).loc cc0_scratch4)) :
    ((B4).view.loc (V d (cV L) (jV L)) ↦{fullShare} f : sProp 𝕄) = (V d (cV L) (jV L)).loc cc0_scratch4 ↦{fullShare} f := rfl
theorem pts_B5 (f : Buf (Elt F) ((V d (cV L) (jV L)).loc cc0_scratch5)) :
    ((B5).view.loc (V d (cV L) (jV L)) ↦{fullShare} f : sProp 𝕄) = (V d (cV L) (jV L)).loc cc0_scratch5 ↦{fullShare} f := rfl
theorem pts_B6 (f : Buf (Elt F) ((V d (cV L) (jV L)).loc cc0_scratch6)) :
    ((B6).view.loc (V d (cV L) (jV L)) ↦{fullShare} f : sProp 𝕄) = (V d (cV L) (jV L)).loc cc0_scratch6 ↦{fullShare} f := rfl

/-! ## Read tokens, one at a time -/

theorem tok_succ {ℓ : Loc nD τ sig} {Sx : Finset (Idx ℓ)} {f : Buf (Elt F) ℓ} (q : PosShare TreeShare) (k : ℕ) :
    (ℓ ↦[Sx]{Transfers.shareDrop q k} f : sProp 𝕄) ⊣⊢ iprop((ℓ ↦[Sx]{Transfers.shareDrop q (k + 1)} f) ∗ ℓ ↦[Sx]{Transfers.shareTokN q k} f) :=
  pointsTo_share (PosShare.mem_left_op_right _)

end Cert.KernelIdeal.Run

end
-- ==== Proof.TileOps.lean ====
import proofs.«212450_g60069412602311_cont_9to1_m_657_24_alg».proof.Proof.TileMem

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The indexed add-store into an accumulator held whole -/

theorem wp_addStore_B5 {α : Type} {Q : α → sProp 𝕄} (d : Dev nD) (L : grid0.Coords) {dd : Fin 1 → Nat}
    {idxs : Fin S10240.rank → IVec ⟨1, dd⟩ 32} {v : Vec F ⟨1, dd⟩ .f32} {mask : IVec ⟨1, dd⟩ 1} {add : Bool}
    {h : ∀ a x, (idxs a x).toNat < S10240.size a} {hs : ((B5).access (.whole S10240)).Stores Finset.univ}
    {k : PUnit → Prog (TpuEff nD τ sig (Elt F) Λ₀ (.scVector (cV L) (jV L))) α} (f : Buf (Elt F) ((V d (cV L) (jV L)).loc cc0_scratch5)) :
    ((B5).view.loc (V d (cV L) (jV L)) ↦{fullShare} f : sProp 𝕄)
      ⊢ iprop((((B5).view.loc (V d (cV L) (jV L)) ↦{fullShare} (storeIdx (f : Vec F S10240 .f32) idxs v mask add h : Vec F S10240 .f32))
            -∗ wp frame (wpE (defs₀ (F := F)) 𝒱₀ (V d (cV L) (jV L)) none) Set.univ (k ⟨⟩) Q)
          -∗ wp frame (wpE (defs₀ (F := F)) 𝒱₀ (V d (cV L) (jV L)) none) Set.univ (SparseCore.vectorStoreIdx (B5) idxs v mask add h hs >>= k) Q) := by
  have e1 : ((B5).access (.whole S10240)).read (Elt F) f = f := Memref.read_access_whole (Elt F) cc0_scratch5 f
  have e2 : ∀ w, ((B5).access (.whole S10240)).write (Elt F) f w Finset.univ = w := fun w => Memref.write_access_whole_univ (Elt F) cc0_scratch5 f w
  have e3 : ((B5).access (.whole S10240)).set = Finset.univ := Memref.set_access_whole cc0_scratch5
  have key := SparseCore.wp_vectorStoreIdx (defs := defs₀ (F := F)) (Ix := HIx 1) (Name := ℕ) (U := UU) (Lvl := ℕ) 𝒱₀ (V d (cV L) (jV L)) none Set.univ (base := B5) (idxs := idxs) (v := v) (mask := mask)
    (add := add) (h := h) (hs := hs) (k := k) (f := f) (Q := Q)
  rw [e1, e2, e3] at key
  exact key

theorem wp_addStore_B6 {α : Type} {Q : α → sProp 𝕄} (d : Dev nD) (L : grid0.Coords) {dd : Fin 1 → Nat}
    {idxs : Fin S10240.rank → IVec ⟨1, dd⟩ 32} {v : Vec F ⟨1, dd⟩ .f32} {mask : IVec ⟨1, dd⟩ 1} {add : Bool}
    {h : ∀ a x, (idxs a x).toNat < S10240.size a} {hs : ((B6).access (.whole S10240)).Stores Finset.univ}
    {k : PUnit → Prog (TpuEff nD τ sig (Elt F) Λ₀ (.scVector (cV L) (jV L))) α} (f : Buf (Elt F) ((V d (cV L) (jV L)).loc cc0_scratch6)) :
    ((B6).view.loc (V d (cV L) (jV L)) ↦{fullShare} f : sProp 𝕄)
      ⊢ iprop((((B6).view.loc (V d (cV L) (jV L)) ↦{fullShare} (storeIdx (f : Vec F S10240 .f32) idxs v mask add h : Vec F S10240 .f32))
            -∗ wp frame (wpE (defs₀ (F := F)) 𝒱₀ (V d (cV L) (jV L)) none) Set.univ (k ⟨⟩) Q)
          -∗ wp frame (wpE (defs₀ (F := F)) 𝒱₀ (V d (cV L) (jV L)) none) Set.univ (SparseCore.vectorStoreIdx (B6) idxs v mask add h hs >>= k) Q) := by
  have e1 : ((B6).access (.whole S10240)).read (Elt F) f = f := Memref.read_access_whole (Elt F) cc0_scratch6 f
  have e2 : ∀ w, ((B6).access (.whole S10240)).write (Elt F) f w Finset.univ = w := fun w => Memref.write_access_whole_univ (Elt F) cc0_scratch6 f w
  have e3 : ((B6).access (.whole S10240)).set = Finset.univ := Memref.set_access_whole cc0_scratch6
  have key := SparseCore.wp_vectorStoreIdx (defs := defs₀ (F := F)) (Ix := HIx 1) (Name := ℕ) (U := UU) (Lvl := ℕ) 𝒱₀ (V d (cV L) (jV L)) none Set.univ (base := B6) (idxs := idxs) (v := v) (mask := mask)
    (add := add) (h := h) (hs := hs) (k := k) (f := f) (Q := Q)
  rw [e1, e2, e3] at key
  exact key

end Cert.KernelIdeal.Run

end
-- ==== Proof.TileDPure1.lean ====
/-
  Closed forms of the tile body's loop bounds, conditions and offsets that the printed program computes on 32-bit
  words: the count loop of tile (c, f) makes 78 trips, or 79 when its range number 2 f + c is at least 28; the loop
  printed for a remainder makes none; the prefetch of the chunk after next is issued in all trips of the pair loop but
  the last; the count range is read from the edge list at the range's first edge.
-/
import proofs.«212450_g60069412602311_cont_9to1_m_657_24_alg».proof.Proof.TileSetup

namespace Cert.KernelIdeal.Run

open Cert.KernelIdeal Cert.KernelIdeal.Gen
open Idealize.ShloMosaic Idealize.ShloMosaic.ValueIdx

/-- Tile L's range number among the 32 counting ranges. -/
abbrev wL (L : grid0.Coords) : Nat := 2 * (L 1).val + (L 0).val

theorem wL_lt (L : grid0.Coords) : wL L < 32 := by
  have h0 : (L 0).val < 2 := (L 0).isLt
  have h1 : (L 1).val < 16 := (L 1).isLt
  show 2 * (L 1).val + (L 0).val < 32
  omega

/-- The pair loop makes 25 trips. -/
theorem k0_t4_trips : k0_t4_loop.trips = 25 := by decide +kernel
/-- Each chunk's scatter loop makes 25 trips of 8 groups of 16 edges. -/
theorem k0_t5_trips : k0_t5_loop.trips = 25 := by decide +kernel
theorem k0_t6_trips : k0_t6_loop.trips = 25 := by decide +kernel
/-- The zeroing loop makes 640 trips. -/
theorem k0_t1_trips : k0_t1_loop.trips = 640 := by decide +kernel

/-- The first slot's prefetch of chunk 2 t + 2 is issued exactly in the trips t < 24. -/
theorem k0_cond1_iff : ∀ t : Fin k0_t4_loop.trips, k0_cond1 t = 1#1 ↔ t.val < 24 := by decide +kernel
/-- The second slot's prefetch of chunk 2 t + 3 is issued exactly in the trips t < 24. -/
theorem k0_cond2_iff : ∀ t : Fin k0_t4_loop.trips, k0_cond2 t = 1#1 ↔ t.val < 24 := by decide +kernel

/-- The loop printed for the count loop's remainder makes no trip. -/
theorem k0_t3_trips (L : grid0.Coords) : (k0_t3_loop L).trips = 0 := Nat.le_zero.1 (k0_t3_abs L).2.1

/-- The count loop makes 79 trips for the ranges 28 … 31 and 78 for the others. -/
theorem k0_t2_trips : ∀ L : grid0.Coords, (k0_t2_loop L).trips = if 28 ≤ 2 * (L 1).val + (L 0).val then 79 else 78 := by
  decide +kernel

/-- Eight groups of 16 edges per trip: the count loop covers the range's groups. -/
theorem k0_t2_groups (L : grid0.Coords) : 8 * (k0_t2_loop L).trips = Cert.Spec.cntGroups (wL L) := by
  rw [k0_t2_trips L]
  show _ = (if 28 ≤ 2 * (L 1).val + (L 0).val then 79 else 78) * 8
  split <;> rfl

/-- The count range is copied from the edge list at the range's first edge, both rows. -/
theorem k0_off4_eq : ∀ L : grid0.Coords, k0_off4 L = ![0, (78 * (2 * (L 1).val + (L 0).val) + ((2 * (L 1).val + (L 0).val) - 28)) * 128] := by
  decide +kernel

theorem k0_off4_eq' (L : grid0.Coords) : k0_off4 L = ![0, Cert.Spec.cntOff (wL L)] := k0_off4_eq L

/-- The count range's copy of 10112 edges stays inside the edge list. -/
theorem cntOff_add_le (L : grid0.Coords) : Cert.Spec.cntOff (wL L) + 10112 ≤ 320000 := by
  have h := k0_off4_inb L 1
  rw [k0_off4_eq' L] at h
  exact h

/-- A count group read by trip t, lane group r lies inside the range's copy and inside the edge list. -/
theorem cnt_group_lt (L : grid0.Coords) (t : Fin (k0_t2_loop L).trips) (r : Fin 8) (l : Fin 16) :
    128 * t.val + 16 * r.val + l.val < 10112 ∧ Cert.Spec.cntOff (wL L) + (128 * t.val + 16 * r.val + l.val) < 320000 := by
  have ht : t.val < 79 := Nat.lt_of_lt_of_le t.isLt (k0_t2_abs L).2.1
  have h := cntOff_add_le L
  have hr := r.isLt
  have hl := l.isLt
  omega

end Cert.KernelIdeal.Run
-- ==== Proof.TileDPure2.lean ====
/-
  What the tile's indexed stores and vector loads see, as pure facts.

  Under the precondition's range every 16 target nodes read off the edge list are inside the accumulators: the side
  condition of each indexed add-store.  A staged copy of a stretch of the edge list (or of a row of the transposed
  attribute table), read 16 lanes at a time at the offsets the loops compute, gives the 16 consecutive edges' target
  nodes (attributes) at the matching place of the whole list.
-/
import proofs.«212450_g60069412602311_cont_9to1_m_657_24_alg».proof.Proof.TileDPure1
import Idealize.ShloMosaic.Lib.Pipeline.Value

noncomputable section

namespace Cert.KernelIdeal.Run

open Cert.KernelIdeal Cert.KernelIdeal.Gen
open Idealize.ShloMosaic Idealize.ShloMosaic.ValueIdx
open Idealize.ShloMosaic.SparseCore (S V T)

variable {F : FTy → Type} [FloatOps F]
variable (m : (ℓ : Loc nD τ sig) → Buf (Elt F) ℓ)

/-! ## The indexed stores' side condition -/

/-- Under the range, each of 16 target nodes read off the edge list (or the zero word past its end) is below 10240. -/
theorem colVec_lt (hpre : PreOK m) (d : Dev nD) (e0 : Nat) (l : Cert.Spec.SLane.Idx) :
    (Cert.Spec.colVec (eiV m d) e0 l).toNat < 10240 := by
  unfold Cert.Spec.colVec
  split
  · exact Nat.lt_of_le_of_lt (hpre d _) (by decide)
  · decide

/-- The side condition of an indexed add-store at 16 target nodes, in the accumulator's own spelling. -/
theorem inb_colVec (hpre : PreOK m) (d : Dev nD) (e0 : Nat) :
    ∀ (a : Fin Cert.Spec.SAcc.rank) (x : Cert.Spec.SLane.Idx),
      ((![Cert.Spec.colVec (eiV m d) e0] : Fin Cert.Spec.SAcc.rank → IVec Cert.Spec.SLane 32) a x).toNat < Cert.Spec.SAcc.size a := by
  intro a x
  obtain rfl : a = 0 := Subsingleton.elim _ _
  exact colVec_lt m hpre d e0 x

/-- The same as the printed body assumes it (all its 32 checks are this one predicate). -/
theorem chk_colVec (hpre : PreOK m) (d : Dev nD) (e0 : Nat) : k0_chk1 (Cert.Spec.colVec (eiV m d) e0) :=
  inb_colVec m hpre d e0

/-! ## The count range's staged copy, read 16 lanes at a time -/

/-- A place of the count range's copy is a place of the edge list. -/
theorem cnt_col_lt (L : grid0.Coords) (j1 : Fin 10112) : Cert.Spec.cntOff (wL L) + j1.val < 320000 := by
  have h := cntOff_add_le L
  have := j1.isLt
  omega

/-- Trip t, lane group r of the count loop reads the target nodes of the 16 edges from the range's
    (8 t + r)-th group on, when the staged copy holds the edge list from the range's first edge. -/
theorem cnt_read (L : grid0.Coords) (d : Dev nD) (g : Buf (Elt F) ((V d (cV L) (jV L)).loc cc0_scratch4))
    (hg : ∀ j : S2x10112.Idx, g j = (eiV m d : IVec S2x320000 32) (ix2 (j 0) (⟨Cert.Spec.cntOff (wL L) + (j 1).val, cnt_col_lt L (j 1)⟩ : Fin 320000)))
    (t : Fin (k0_t2_loop L).trips) (r : Fin 8) :
    shapeCast S16 ((Memref.whole cc0_scratch4 : Memref sig .scVector .vmem S2x10112 .i32).view.readAt (Elt F)
        (Rect.unit (s := S2x10112) (k0_off5 L t (BitVec.ofNat 32 r.val)) S1x16.size (k0_off5_inb L t r)).toLoadRect g) shapeCasts_S1x16_S16
      = Cert.Spec.colVec (eiV m d) (Cert.Spec.cntOff (wL L) + 16 * (8 * t.val + r.val)) := by
  funext l
  obtain ⟨l0, rfl⟩ : ∃ l0 : Fin 16, l = ix1 l0 := ⟨l 0, eq_ix1 l⟩
  have hlt := cnt_group_lt L t r l0
  rw [shapeCast_apply _ shapeCasts_S1x16_S16 (ix1 l0) (ix2 (0 : Fin 1) l0)
    (by rewrite [Shape.rowMajor_val_two, Shape.rowMajor_val_one]; show 0 * 16 + l0.val = l0.val; omega)]
  have hidx : (Rect.unit (s := S2x10112) (k0_off5 L t (BitVec.ofNat 32 r.val)) S1x16.size (k0_off5_inb L t r)).toLoadRect.idx (ix2 (0 : Fin 1) l0)
      = ix2 (1 : Fin 2) (⟨128 * t.val + 16 * r.val + l0.val, hlt.1⟩ : Fin 10112) := by
    funext a
    apply Fin.ext
    have e := k0_off5_eq L t r
    match a with
    | ⟨0, _⟩ =>
      show k0_off5 L t (BitVec.ofNat 32 r.val) 0 + 1 * 0 = 1
      rw [e]; rfl
    | ⟨1, _⟩ =>
      show k0_off5 L t (BitVec.ofNat 32 r.val) 1 + 1 * l0.val = 128 * t.val + 16 * r.val + l0.val
      rw [e]; show 128 * t.val + 16 * r.val + 1 * l0.val = _; omega
  show g ((Rect.unit (s := S2x10112) (k0_off5 L t (BitVec.ofNat 32 r.val)) S1x16.size (k0_off5_inb L t r)).toLoadRect.idx (ix2 (0 : Fin 1) l0)) = _
  rw [hidx, hg]
  unfold Cert.Spec.colVec
  have hpos : Cert.Spec.cntOff (wL L) + 16 * (8 * t.val + r.val) + ((ix1 l0 : Cert.Spec.SLane.Idx) 0).val < 320000 := by
    show Cert.Spec.cntOff (wL L) + 16 * (8 * t.val + r.val) + l0.val < 320000
    have := hlt.2; omega
  rw [dif_pos hpos]
  congr 1
  funext a
  match a with
  | ⟨0, _⟩ => rfl
  | ⟨1, _⟩ => exact Fin.ext (by show Cert.Spec.cntOff (wL L) + (128 * t.val + 16 * r.val + l0.val) = Cert.Spec.cntOff (wL L) + 16 * (8 * t.val + r.val) + l0.val; omega)

/-! ## A staged stretch of the edge list or of an attribute row, read 16 lanes at a time -/

/-- A copy g of W consecutive edges of the list from edge e1 on (both rows), read at 16 lanes from place p of row 1,
    gives the target nodes of the 16 edges from e1 + p on. -/
theorem colRead_core {W : Nat} (col : IVec Cert.Spec.SCol 32) (e1 : Nat) (he1 : e1 + W ≤ 320000)
    (g : (⟨2, ![2, W]⟩ : Shape).Idx → BitVec 32)
    (hg : ∀ j : (⟨2, ![2, W]⟩ : Shape).Idx, g j = col (ix2 (j 0) (⟨e1 + (j 1).val, by have := idx2_lt1 j; omega⟩ : Fin 320000)))
    (off : Fin 2 → Nat) (inb : ∀ a, off a + S1x16.size a ≤ (⟨2, ![2, W]⟩ : Shape).size a) (p : Nat) (hoff : off = ![1, p]) :
    shapeCast S16 (fun y => g ((Rect.unit (s := ⟨2, ![2, W]⟩) off S1x16.size inb).toLoadRect.idx y)) shapeCasts_S1x16_S16
      = Cert.Spec.colVec col (e1 + p) := by
  have hp : p + 16 ≤ W := by
    have h := inb 1
    rw [hoff] at h
    exact h
  funext l
  obtain ⟨l0, rfl⟩ : ∃ l0 : Fin 16, l = ix1 l0 := ⟨l 0, eq_ix1 l⟩
  have hl := l0.isLt
  rw [shapeCast_apply _ shapeCasts_S1x16_S16 (ix1 l0) (ix2 (0 : Fin 1) l0)
    (by rewrite [Shape.rowMajor_val_two, Shape.rowMajor_val_one]; show 0 * 16 + l0.val = l0.val; omega)]
  have hidx : (Rect.unit (s := ⟨2, ![2, W]⟩) off S1x16.size inb).toLoadRect.idx (ix2 (0 : Fin 1) l0)
      = ix2 (1 : Fin 2) (⟨p + l0.val, by omega⟩ : Fin W) := by
    funext a
    apply Fin.ext
    match a with
    | ⟨0, _⟩ =>
      show off 0 + 1 * 0 = 1
      rw [hoff]; rfl
    | ⟨1, _⟩ =>
      show off 1 + 1 * l0.val = p + l0.val
      rw [hoff]; show p + 1 * l0.val = _; omega
  show g _ = _
  rw [hidx, hg]
  unfold Cert.Spec.colVec
  have hpos : e1 + p + ((ix1 l0 : Cert.Spec.SLane.Idx) 0).val < 320000 := by
    show e1 + p + l0.val < 320000
    omega
  rw [dif_pos hpos]
  congr 1
  funext a
  match a with
  | ⟨0, _⟩ => rfl
  | ⟨1, _⟩ => exact Fin.ext (by show e1 + (p + l0.val) = e1 + p + l0.val; omega)

/-- A copy g of 3200 consecutive entries of row f of the transposed attribute table from edge e1 on, read at 16 lanes
    from place p, gives attribute f of the 16 edges from e1 + p on. -/
theorem eaRead_core (eaT : Vec F Cert.Spec.SEaT .f32) (f : Fin 16) (e1 : Nat) (he1 : e1 + 3200 ≤ 320000)
    (g : S3200.Idx → Elt F .f32)
    (hg : ∀ j : S3200.Idx, g j = eaT (ix2 f (⟨e1 + (j 0).val, by have : (j 0).val < 3200 := (j 0).isLt; omega⟩ : Fin 320000)))
    (off : Fin 1 → Nat) (inb : ∀ a, off a + S16.size a ≤ S3200.size a) (p : Nat) (hoff : off = ![p]) :
    (fun y => g ((Rect.unit (s := S3200) off S16.size inb).toLoadRect.idx y)) = Cert.Spec.eaVec eaT f (e1 + p) := by
  have hp : p + 16 ≤ 3200 := by
    have h := inb 0
    rw [hoff] at h
    exact h
  funext l
  obtain ⟨l0, rfl⟩ : ∃ l0 : Fin 16, l = ix1 l0 := ⟨l 0, eq_ix1 l⟩
  have hl := l0.isLt
  have hidx : (Rect.unit (s := S3200) off S16.size inb).toLoadRect.idx (ix1 l0) = ix1 (⟨p + l0.val, by omega⟩ : Fin 3200) := by
    funext a
    apply Fin.ext
    match a with
    | ⟨0, _⟩ =>
      show off 0 + 1 * l0.val = p + l0.val
      rw [hoff]; show p + 1 * l0.val = _; omega
  show g _ = _
  rw [hidx, hg]
  unfold Cert.Spec.eaVec
  have hpos : e1 + p + ((ix1 l0 : Cert.Spec.SLane.Idx) 0).val < 320000 := by
    show e1 + p + l0.val < 320000
    omega
  rw [dif_pos hpos]
  congr 1
  funext a
  match a with
  | ⟨0, _⟩ => rfl
  | ⟨1, _⟩ => exact Fin.ext (by show e1 + (p + l0.val) = e1 + p + l0.val; omega)

/-- Chunk k of half c begins at edge 160000 c + 3200 k and ends inside the half. -/
theorem chunk_le (L : grid0.Coords) (k : Nat) (hk : k < 50) : 160000 * (L 0).val + 3200 * k + 3200 ≤ 320000 := by
  have h0 : (L 0).val < 2 := (L 0).isLt
  omega

theorem chunk_lt (L : grid0.Coords) (k : Nat) (hk : k < 50) (j : Fin 3200) : 160000 * (L 0).val + 3200 * k + j.val < 320000 := by
  have := chunk_le L k hk
  have := j.isLt
  omega

/-- Slot 0's staged edges of chunk k, read by trip t, lane group r of its scatter loop. -/
theorem sum_col_read0 (L : grid0.Coords) (d : Dev nD) (k : Nat) (hk : k < 50)
    (g : Buf (Elt F) ((V d (cV L) (jV L)).loc cc0_scratch2))
    (hg : ∀ j : S2x3200.Idx, g j = (eiV m d : IVec S2x320000 32) (ix2 (j 0) (⟨160000 * (L 0).val + 3200 * k + (j 1).val, chunk_lt L k hk (j 1)⟩ : Fin 320000)))
    (t : Fin k0_t5_loop.trips) (r : Fin 8) :
    shapeCast S16 ((Memref.whole cc0_scratch2 : Memref sig .scVector .vmem S2x3200 .i32).view.readAt (Elt F)
        (Rect.unit (s := S2x3200) (k0_off8 t (BitVec.ofNat 32 r.val)) S1x16.size (k0_off8_inb t r)).toLoadRect g) shapeCasts_S1x16_S16
      = Cert.Spec.colVec (eiV m d) (160000 * (L 0).val + 16 * (200 * k + 8 * t.val + r.val)) :=
  (colRead_core (W := 3200) (eiV m d) (160000 * (L 0).val + 3200 * k) (chunk_le L k hk) g hg _ (k0_off8_inb t r)
    (128 * t.val + 16 * r.val) (k0_off8_eq t r)).trans (congrArg _ (by omega))

/-- Slot 1's staged edges of chunk k, read by trip t, lane group r of its scatter loop. -/
theorem sum_col_read1 (L : grid0.Coords) (d : Dev nD) (k : Nat) (hk : k < 50)
    (g : Buf (Elt F) ((V d (cV L) (jV L)).loc cc0_scratch3))
    (hg : ∀ j : S2x3200.Idx, g j = (eiV m d : IVec S2x320000 32) (ix2 (j 0) (⟨160000 * (L 0).val + 3200 * k + (j 1).val, chunk_lt L k hk (j 1)⟩ : Fin 320000)))
    (t : Fin k0_t6_loop.trips) (r : Fin 8) :
    shapeCast S16 ((Memref.whole cc0_scratch3 : Memref sig .scVector .vmem S2x3200 .i32).view.readAt (Elt F)
        (Rect.unit (s := S2x3200) (k0_off12 t (BitVec.ofNat 32 r.val)) S1x16.size (k0_off12_inb t r)).toLoadRect g) shapeCasts_S1x16_S16
      = Cert.Spec.colVec (eiV m d) (160000 * (L 0).val + 16 * (200 * k + 8 * t.val + r.val)) :=
  (colRead_core (W := 3200) (eiV m d) (160000 * (L 0).val + 3200 * k) (chunk_le L k hk) g hg _ (k0_off12_inb t r)
    (128 * t.val + 16 * r.val) (k0_off12_eq t r)).trans (congrArg _ (by omega))

/-- Slot 0's staged attributes of chunk k, read by trip t, lane group r of its scatter loop. -/
theorem sum_ea_read0 (L : grid0.Coords) (d : Dev nD) (k : Nat) (hk : k < 50)
    (g : Buf (Elt F) ((V d (cV L) (jV L)).loc cc0_scratch0))
    (hg : ∀ j : S3200.Idx, g j = (eaT m d : Vec F S16x320000 .f32) (ix2 (jL L) (⟨160000 * (L 0).val + 3200 * k + (j 0).val, chunk_lt L k hk (j 0)⟩ : Fin 320000)))
    (t : Fin k0_t5_loop.trips) (r : Fin 8) :
    (Memref.whole cc0_scratch0 : Memref sig .scVector .vmem S3200 .f32).view.readAt (Elt F)
        (Rect.unit (s := S3200) (k0_off9 t (BitVec.ofNat 32 r.val)) S16.size (k0_off9_inb t r)).toLoadRect g
      = Cert.Spec.eaVec (eaT m d) (jL L) (160000 * (L 0).val + 16 * (200 * k + 8 * t.val + r.val)) :=
  (eaRead_core (eaT m d) (jL L) (160000 * (L 0).val + 3200 * k) (chunk_le L k hk) g hg _ (k0_off9_inb t r)
    (128 * t.val + 16 * r.val) (k0_off9_eq t r)).trans (congrArg _ (by omega))

/-- Slot 1's staged attributes of chunk k, read by trip t, lane group r of its scatter loop. -/
theorem sum_ea_read1 (L : grid0.Coords) (d : Dev nD) (k : Nat) (hk : k < 50)
    (g : Buf (Elt F) ((V d (cV L) (jV L)).loc cc0_scratch1))
    (hg : ∀ j : S3200.Idx, g j = (eaT m d : Vec F S16x320000 .f32) (ix2 (jL L) (⟨160000 * (L 0).val + 3200 * k + (j 0).val, chunk_lt L k hk (j 0)⟩ : Fin 320000)))
    (t : Fin k0_t6_loop.trips) (r : Fin 8) :
    (Memref.whole cc0_scratch1 : Memref sig .scVector .vmem S3200 .f32).view.readAt (Elt F)
        (Rect.unit (s := S3200) (k0_off13 t (BitVec.ofNat 32 r.val)) S16.size (k0_off13_inb t r)).toLoadRect g
      = Cert.Spec.eaVec (eaT m d) (jL L) (160000 * (L 0).val + 16 * (200 * k + 8 * t.val + r.val)) :=
  (eaRead_core (eaT m d) (jL L) (160000 * (L 0).val + 3200 * k) (chunk_le L k hk) g hg _ (k0_off13_inb t r)
    (128 * t.val + 16 * r.val) (k0_off13_eq t r)).trans (congrArg _ (by omega))

end Cert.KernelIdeal.Run

end
-- ==== Proof.TileDPure3.lean ====
/-
  Where a copy's source slice sits in its array, and what a whole-buffer write leaves.

  The tile's copies read a stretch of the edge list (both rows, some consecutive edges) or of one row of the transposed
  attribute table (sliced as a [1, 3200] rectangle and squeezed to [3200]).  Read through such a slice, the source's
  contents are the array's at the same place shifted by the slice's offset.
-/
import proofs.«212450_g60069412602311_cont_9to1_m_657_24_alg».proof.Proof.TileDPure2

noncomputable section

namespace Cert.KernelIdeal.Run

open Cert.KernelIdeal Cert.KernelIdeal.Gen
open Idealize.ShloMosaic Idealize.ShloMosaic.ValueIdx
open Idealize.ShloMosaic.SparseCore (S V T)

variable {F : FTy → Type} [FloatOps F]

/-- Place j of a [2, W] slice of the edge list at offsets (0, e1) is place (j 0, e1 + j 1) of the list. -/
theorem col_slice_idx {W : Nat} (off : Fin 2 → Nat) (inb : ∀ a, off a + (⟨2, ![2, W]⟩ : Shape).size a ≤ S2x320000.size a)
    (e1 : Nat) (hoff : off = ![0, e1]) (j : (⟨2, ![2, W]⟩ : Shape).Idx) (h : e1 + (j 1).val < 320000) :
    (Rect.unit (s := S2x320000) off (⟨2, ![2, W]⟩ : Shape).size inb).emb j = ix2 (j 0) (⟨e1 + (j 1).val, h⟩ : Fin 320000) := by
  funext a
  apply Fin.ext
  match a with
  | ⟨0, _⟩ =>
    show off 0 + 1 * (j 0).val = (j 0).val
    rw [hoff]; show 0 + 1 * (j 0).val = _; omega
  | ⟨1, _⟩ =>
    show off 1 + 1 * (j 1).val = e1 + (j 1).val
    rw [hoff]; show e1 + 1 * (j 1).val = _; omega

/-- Place j of a [1, 3200] slice of the transposed attribute table at offsets (f, e1) is place (f, e1 + j 1). -/
theorem ea_slice_idx (off : Fin 2 → Nat) (inb : ∀ a, off a + S1x3200.size a ≤ S16x320000.size a)
    (f : Fin 16) (e1 : Nat) (hoff : off = ![f.val, e1]) (j : S1x3200.Idx) (h : e1 + (j 1).val < 320000) :
    (Rect.unit (s := S16x320000) off S1x3200.size inb).emb j = ix2 f (⟨e1 + (j 1).val, h⟩ : Fin 320000) := by
  funext a
  apply Fin.ext
  have h0 : (j 0).val = 0 := by have : (j 0).val < 1 := (j 0).isLt; omega
  match a with
  | ⟨0, _⟩ =>
    show off 0 + 1 * (j 0).val = f.val
    rw [hoff, h0]; rfl
  | ⟨1, _⟩ =>
    show off 1 + 1 * (j 1).val = e1 + (j 1).val
    rw [hoff]; show e1 + 1 * (j 1).val = _; omega

/-- Place j of the squeezed [3200] view is place (0, j) of the [1, 3200] slice. -/
theorem squeeze_idx (j : S3200.Idx) :
    Shape.reshapeEquiv (s := S1x3200) (s' := S3200) squeezes_S1x3200_S3200.numel_eq j = ix2 (0 : Fin 1) (⟨(j 0).val, (j 0).isLt⟩ : Fin 3200) := by
  refine Shape.reshapeEquiv_eq_of_rowMajor _ ?_
  rewrite [Shape.rowMajor_val_two, Shape.rowMajor_val_one]
  show 0 * 3200 + (j 0).val = (j 0).val
  omega

/-! ## The sources read through their slices -/

/-- The edge list read through a [2, W] slice at offsets (0, e1). -/
theorem read_col_slice {W : Nat} (fs : (⟨S2x320000, .i32⟩ : BufTy).Contents (Elt F)) (off : Fin 2 → Nat)
    (inb : ∀ a, off a + (⟨2, ![2, W]⟩ : Shape).size a ≤ S2x320000.size a)
    (hs : ∀ a, (Rect.unit (s := S2x320000) off (⟨2, ![2, W]⟩ : Shape).size inb).stride a = 1)
    (e1 : Nat) (hoff : off = ![0, e1]) (j : (⟨2, ![2, W]⟩ : Shape).Idx) (h : e1 + (j 1).val < 320000) :
    ((Memref.whole main_arg1_scv : Memref sig .scVector .hbm S2x320000 .i32).slice
        (Rect.unit (s := S2x320000) off (⟨2, ![2, W]⟩ : Shape).size inb) hs).view.read (Elt F) fs j
      = fs (ix2 (j 0) (⟨e1 + (j 1).val, h⟩ : Fin 320000)) := by
  exact congrArg fs (col_slice_idx off inb e1 hoff j h)

/-- Row f of the transposed attribute table read through a [1, 3200] slice at offsets (f, e1), squeezed to [3200]. -/
theorem read_ea_slice (fs : (⟨S16x320000, .f32⟩ : BufTy).Contents (Elt F)) (off : Fin 2 → Nat)
    (inb : ∀ a, off a + S1x3200.size a ≤ S16x320000.size a)
    (hs : ∀ a, (Rect.unit (s := S16x320000) off S1x3200.size inb).stride a = 1)
    (f : Fin 16) (e1 : Nat) (hoff : off = ![f.val, e1]) (j : S3200.Idx) (h : e1 + (j 0).val < 320000) :
    (((Memref.whole main_v0_scv : Memref sig .scVector .hbm S16x320000 .f32).slice
        (Rect.unit (s := S16x320000) off S1x3200.size inb) hs).squeeze S3200 squeezes_S1x3200_S3200).view.read (Elt F) fs j
      = fs (ix2 f (⟨e1 + (j 0).val, h⟩ : Fin 320000)) := by
  show fs ((Rect.unit (s := S16x320000) off S1x3200.size inb).emb
    (Shape.reshapeEquiv (s := S1x3200) (s' := S3200) squeezes_S1x3200_S3200.numel_eq j)) = _
  rw [squeeze_idx j]
  exact congrArg fs (ea_slice_idx off inb f e1 hoff _ h)

/-! ## The offsets of the tile's copies, as chunk numbers -/

/-- The two copies issued before the loops fetch chunks 0 and 1 of the half. -/
theorem k0_off3_chunk (L : grid0.Coords) (r : Fin 2) :
    k0_off3 L (BitVec.ofNat 32 (3200 * r.val)) = ![0, 160000 * (L 0).val + 3200 * r.val] := k0_off3_eq L r
theorem k0_off2_chunk (L : grid0.Coords) (r : Fin 2) :
    k0_off2 L (BitVec.ofNat 32 (3200 * r.val)) = ![(jL L).val, 160000 * (L 0).val + 3200 * r.val] := k0_off2_eq L r
/-- Trip t of the pair loop fetches chunk 2 t + 2 into slot 0 and chunk 2 t + 3 into slot 1. -/
theorem k0_off11_chunk (L : grid0.Coords) (t : Fin k0_t4_loop.trips) :
    k0_off11 L t = ![0, 160000 * (L 0).val + 3200 * (2 * t.val + 2)] := by
  rw [k0_off11_eq, show 160000 * (L 0).val + 6400 * t.val + 6400 = 160000 * (L 0).val + 3200 * (2 * t.val + 2) by omega]
theorem k0_off10_chunk (L : grid0.Coords) (t : Fin k0_t4_loop.trips) :
    k0_off10 L t = ![(jL L).val, 160000 * (L 0).val + 3200 * (2 * t.val + 2)] := by
  rw [k0_off10_eq, show 160000 * (L 0).val + 6400 * t.val + 6400 = 160000 * (L 0).val + 3200 * (2 * t.val + 2) by omega]
  rfl
theorem k0_off15_chunk (L : grid0.Coords) (t : Fin k0_t4_loop.trips) :
    k0_off15 L t = ![0, 160000 * (L 0).val + 3200 * (2 * t.val + 3)] := by
  rw [k0_off15_eq, show 160000 * (L 0).val + 6400 * t.val + 9600 = 160000 * (L 0).val + 3200 * (2 * t.val + 3) by omega]
theorem k0_off14_chunk (L : grid0.Coords) (t : Fin k0_t4_loop.trips) :
    k0_off14 L t = ![(jL L).val, 160000 * (L 0).val + 3200 * (2 * t.val + 3)] := by
  rw [k0_off14_eq, show 160000 * (L 0).val + 6400 * t.val + 9600 = 160000 * (L 0).val + 3200 * (2 * t.val + 3) by omega]
  rfl

end Cert.KernelIdeal.Run

end
-- ==== Proof.TileDPure4.lean ====
/-
  The sources of the tile's copies, read through the slices the program makes, in the form the staged buffers'
  reads ask for: chunk k of the half's edges (both rows), chunk k of the tile's attribute row, and the count range.
-/
import proofs.«212450_g60069412602311_cont_9to1_m_657_24_alg».proof.Proof.TileDPure3

noncomputable section

namespace Cert.KernelIdeal.Run

open Cert.KernelIdeal Cert.KernelIdeal.Gen
open Idealize.ShloMosaic Idealize.ShloMosaic.ValueIdx
open Idealize.ShloMosaic.SparseCore (S V T)

variable {F : FTy → Type} [FloatOps F]
variable (m : (ℓ : Loc nD τ sig) → Buf (Elt F) ℓ)

/-- Chunk k of the half's edges, read through a [2, 3200] slice of the edge list at that chunk. -/
theorem src_col (L : grid0.Coords) (d : Dev nD) (k : Nat) (hk : k < 50) (off : Fin 2 → Nat)
    (inb : ∀ a, off a + S2x3200.size a ≤ S2x320000.size a)
    (hs : ∀ a, (Rect.unit (s := S2x320000) off S2x3200.size inb).stride a = 1)
    (hoff : off = ![0, 160000 * (L 0).val + 3200 * k]) (j : S2x3200.Idx) :
    ((Memref.whole main_arg1_scv : Memref sig .scVector .hbm S2x320000 .i32).slice
        (Rect.unit (s := S2x320000) off S2x3200.size inb) hs).view.read (Elt F) (eiV m d) j
      = (eiV m d : IVec S2x320000 32) (ix2 (j 0) (⟨160000 * (L 0).val + 3200 * k + (j 1).val, chunk_lt L k hk (j 1)⟩ : Fin 320000)) :=
  read_col_slice (W := 3200) (eiV m d) off inb hs _ hoff j _

/-- The count range, read through the [2, 10112] slice of the edge list at the range's first edge. -/
theorem src_cnt (L : grid0.Coords) (d : Dev nD) (off : Fin 2 → Nat)
    (inb : ∀ a, off a + S2x10112.size a ≤ S2x320000.size a)
    (hs : ∀ a, (Rect.unit (s := S2x320000) off S2x10112.size inb).stride a = 1)
    (hoff : off = ![0, Cert.Spec.cntOff (wL L)]) (j : S2x10112.Idx) :
    ((Memref.whole main_arg1_scv : Memref sig .scVector .hbm S2x320000 .i32).slice
        (Rect.unit (s := S2x320000) off S2x10112.size inb) hs).view.read (Elt F) (eiV m d) j
      = (eiV m d : IVec S2x320000 32) (ix2 (j 0) (⟨Cert.Spec.cntOff (wL L) + (j 1).val, cnt_col_lt L (j 1)⟩ : Fin 320000)) :=
  read_col_slice (W := 10112) (eiV m d) off inb hs _ hoff j _

/-- Chunk k of the tile's attribute row, read through the squeezed [1, 3200] slice of the transposed table. -/
theorem src_ea (L : grid0.Coords) (d : Dev nD) (k : Nat) (hk : k < 50) (off : Fin 2 → Nat)
    (inb : ∀ a, off a + S1x3200.size a ≤ S16x320000.size a)
    (hs : ∀ a, (Rect.unit (s := S16x320000) off S1x3200.size inb).stride a = 1)
    (hoff : off = ![(jL L).val, 160000 * (L 0).val + 3200 * k]) (j : S3200.Idx) :
    (((Memref.whole main_v0_scv : Memref sig .scVector .hbm S16x320000 .f32).slice
        (Rect.unit (s := S16x320000) off S1x3200.size inb) hs).squeeze S3200 squeezes_S1x3200_S3200).view.read (Elt F) (eaT m d) j
      = (eaT m d : Vec F S16x320000 .f32) (ix2 (jL L) (⟨160000 * (L 0).val + 3200 * k + (j 0).val, chunk_lt L k hk (j 0)⟩ : Fin 320000)) :=
  read_ea_slice (eaT m d) off inb hs (jL L) _ hoff j _

/-! The program's own spellings, as instances. -/

example (L : grid0.Coords) (d : Dev nD) (j : S2x3200.Idx) :
    ((Memref.whole main_arg1_scv : Memref sig .scVector .hbm S2x320000 .i32).slice
        (Rect.unit (s := S2x320000) (k0_off3 L 0#32) S2x3200.size (k0_off3_inb L 0)) (fun _ => rfl)).view.read (Elt F) (eiV m d) j
      = (eiV m d : IVec S2x320000 32) (ix2 (j 0) (⟨160000 * (L 0).val + 3200 * 0 + (j 1).val, chunk_lt L 0 (by omega) (j 1)⟩ : Fin 320000)) :=
  src_col m L d 0 (by omega) _ _ _ (k0_off3_chunk L 0) j

example (L : grid0.Coords) (d : Dev nD) (j : S2x3200.Idx) :
    ((Memref.whole main_arg1_scv : Memref sig .scVector .hbm S2x320000 .i32).slice
        (Rect.unit (s := S2x320000) (k0_off3 L 3200#32) S2x3200.size (k0_off3_inb L 1)) (fun _ => rfl)).view.read (Elt F) (eiV m d) j
      = (eiV m d : IVec S2x320000 32) (ix2 (j 0) (⟨160000 * (L 0).val + 3200 * 1 + (j 1).val, chunk_lt L 1 (by omega) (j 1)⟩ : Fin 320000)) :=
  src_col m L d 1 (by omega) _ _ _ (k0_off3_chunk L 1) j

example (L : grid0.Coords) (d : Dev nD) (t : Fin k0_t4_loop.trips) (h1 : k0_cond1 t = 1#1) (j : S2x3200.Idx) :
    ((Memref.whole main_arg1_scv : Memref sig .scVector .hbm S2x320000 .i32).slice
        (Rect.unit (s := S2x320000) (k0_off11 L t) S2x3200.size (k0_off11_inb L t h1)) (fun _ => rfl)).view.read (Elt F) (eiV m d) j
      = (eiV m d : IVec S2x320000 32) (ix2 (j 0) (⟨160000 * (L 0).val + 3200 * (2 * t.val + 2) + (j 1).val,
          chunk_lt L (2 * t.val + 2) (by have := (k0_cond1_iff t).1 h1; omega) (j 1)⟩ : Fin 320000)) :=
  src_col m L d (2 * t.val + 2) (by have := (k0_cond1_iff t).1 h1; omega) _ _ _ (k0_off11_chunk L t) j

example (L : grid0.Coords) (d : Dev nD) (j : S2x10112.Idx) :
    ((Memref.whole main_arg1_scv : Memref sig .scVector .hbm S2x320000 .i32).slice
        (Rect.unit (s := S2x320000) (k0_off4 L) S2x10112.size (k0_off4_inb L)) (fun _ => rfl)).view.read (Elt F) (eiV m d) j
      = (eiV m d : IVec S2x320000 32) (ix2 (j 0) (⟨Cert.Spec.cntOff (wL L) + (j 1).val, cnt_col_lt L (j 1)⟩ : Fin 320000)) :=
  src_cnt m L d _ _ _ (k0_off4_eq' L) j

example (L : grid0.Coords) (d : Dev nD) (j : S3200.Idx) :
    (((Memref.whole main_v0_scv : Memref sig .scVector .hbm S16x320000 .f32).slice
        (Rect.unit (s := S16x320000) (k0_off2 L 3200#32) S1x3200.size (k0_off2_inb L 1)) (fun _ => rfl)).squeeze S3200 squeezes_S1x3200_S3200).view.read (Elt F) (eaT m d) j
      = (eaT m d : Vec F S16x320000 .f32) (ix2 (jL L) (⟨160000 * (L 0).val + 3200 * 1 + (j 0).val, chunk_lt L 1 (by omega) (j 0)⟩ : Fin 320000)) :=
  src_ea m L d 1 (by omega) _ _ _ (k0_off2_chunk L 1) j

example (L : grid0.Coords) (d : Dev nD) (t : Fin k0_t4_loop.trips) (h2 : k0_cond2 t = 1#1) (j : S3200.Idx) :
    (((Memref.whole main_v0_scv : Memref sig .scVector .hbm S16x320000 .f32).slice
        (Rect.unit (s := S16x320000) (k0_off14 L t) S1x3200.size (k0_off14_inb L t h2)) (fun _ => rfl)).squeeze S3200 squeezes_S1x3200_S3200).view.read (Elt F) (eaT m d) j
      = (eaT m d : Vec F S16x320000 .f32) (ix2 (jL L) (⟨160000 * (L 0).val + 3200 * (2 * t.val + 3) + (j 0).val,
          chunk_lt L (2 * t.val + 3) (by have := (k0_cond2_iff t).1 h2; omega) (j 0)⟩ : Fin 320000)) :=
  src_ea m L d (2 * t.val + 3) (by have := (k0_cond2_iff t).1 h2; omega) _ _ _ (k0_off14_chunk L t) j

end Cert.KernelIdeal.Run

end
-- ==== Proof.TileEAcc.lean ====
/-
  The tile's accumulators, step by step, as pure facts.

  One indexed add-store of a group of 16 edges takes the accumulator after n groups to the accumulator after
  n + 1 groups, for the sums and for the counts; and an accumulator whose entries are the word 0.0 below 16 n,
  written with 16 more zeros at 16 n, is zero below 16 (n + 1), the whole accumulator being zero after 640 steps.
-/
import proofs.«212450_g60069412602311_cont_9to1_m_657_24_alg».proof.Proof.TileMem

noncomputable section

namespace Cert.KernelIdeal.Run

open Cert.KernelIdeal Cert.KernelIdeal.Gen

open Idealize.ShloMosaic Idealize.ShloMosaic.ValueIdx

variable {F : FTy → Type} [FloatOps F]

/-- The vector of sixteen ones the body adds for the counts is the specification's. -/
theorem k0_pay6_eq : (k0_pay6 (F := F) : Vec F S16 .f32) = Cert.Spec.ones16 := rfl

/-- The vector of sixteen zeros the body stores is the word 0.0 in every lane. -/
theorem k0_pay5_apply (l : S16.Idx) : (k0_pay5 (F := F) : Vec F S16 .f32) l = Scalar.ofBits .f32 0x00000000#32 := rfl

/-- (E1) One add-store of a group's sixteen ones: the count accumulator after one more group. -/
theorem cnt_step (col : IVec S2x320000 32) (w n : ℕ)
    (h : ∀ a x, ((![Cert.Spec.colVec col (Cert.Spec.cntOff w + 16 * n)] : Fin S10240.rank → IVec S16 32) a x).toNat < S10240.size a) :
    (storeIdx (Cert.Spec.cntAcc (F := F) col w n : Vec F S10240 .f32) ![Cert.Spec.colVec col (Cert.Spec.cntOff w + 16 * n)]
        (k0_pay6 (F := F)) (fun _ => 1#1) true h : Vec F S10240 .f32)
      = Cert.Spec.cntAcc col w (n + 1) :=
  (Cert.Spec.addAt_of_inb (Cert.Spec.cntAcc (F := F) col w n) (Cert.Spec.colVec col (Cert.Spec.cntOff w + 16 * n)) Cert.Spec.ones16 h).symm

/-- (E2) One add-store of a group's sixteen attributes: the sum accumulator after one more group. -/
theorem sum_step (eaT : Vec F S16x320000 .f32) (col : IVec S2x320000 32) (c : Fin 2) (f : Fin 16) (n : ℕ)
    (h : ∀ a x, ((![Cert.Spec.colVec col (160000 * c.val + 16 * n)] : Fin S10240.rank → IVec S16 32) a x).toNat < S10240.size a) :
    (storeIdx (Cert.Spec.sumsAcc eaT col c f n : Vec F S10240 .f32) ![Cert.Spec.colVec col (160000 * c.val + 16 * n)]
        (Cert.Spec.eaVec eaT f (160000 * c.val + 16 * n)) (fun _ => 1#1) true h : Vec F S10240 .f32)
      = Cert.Spec.sumsAcc eaT col c f (n + 1) :=
  (Cert.Spec.addAt_of_inb (Cert.Spec.sumsAcc eaT col c f n) (Cert.Spec.colVec col (160000 * c.val + 16 * n))
    (Cert.Spec.eaVec eaT f (160000 * c.val + 16 * n)) h).symm

/-- The first 16 n entries are the word 0.0. -/
def Zd' (n : ℕ) (f : Vec F S10240 .f32) : Prop := ∀ j : S10240.Idx, (j 0).val < 16 * n → f j = Scalar.ofBits .f32 0x00000000#32

/-- (E3) Zero on all 640 groups of 16 entries is the zero accumulator. -/
theorem zeroAcc_of_zero_below (f : Vec F S10240 .f32)
    (h : ∀ j : S10240.Idx, (j 0).val < 16 * 640 → f j = Scalar.ofBits .f32 0x00000000#32) : f = Cert.Spec.zeroAcc :=
  funext fun j => h j (by have : (j 0).val < 10240 := (j 0).isLt; omega)

theorem zeroAcc_of_Zd' (f : Vec F S10240 .f32) (h : Zd' 640 f) : f = Cert.Spec.zeroAcc := zeroAcc_of_zero_below f h

/-- (E3) Sixteen zeros written at 16 k over an accumulator zero below 16 k: zero below 16 (k + 1). -/
theorem zero_below_step (k : ℕ) (f f' : Vec F S10240 .f32)
    (hf' : ∀ j : S10240.Idx, f' j = if 16 * k ≤ (j 0).val ∧ (j 0).val < 16 * k + 16 then Scalar.ofBits .f32 0x00000000#32 else f j)
    (hz : ∀ j : S10240.Idx, (j 0).val < 16 * k → f j = Scalar.ofBits .f32 0x00000000#32) :
    ∀ j : S10240.Idx, (j 0).val < 16 * (k + 1) → f' j = Scalar.ofBits .f32 0x00000000#32 := by
  intro j hj
  rw [hf' j]
  split
  · rfl
  · rename_i hn
    exact hz j (by omega)

theorem Zd'_step (k : ℕ) (f f' : Vec F S10240 .f32)
    (hf' : ∀ j : S10240.Idx, f' j = if 16 * k ≤ (j 0).val ∧ (j 0).val < 16 * k + 16 then Scalar.ofBits .f32 0x00000000#32 else f j)
    (hz : Zd' k f) : Zd' (k + 1) f' := zero_below_step k f f' hf' hz

end Cert.KernelIdeal.Run

end
-- ==== Proof.TileInv.lean ====
import proofs.«212450_g60069412602311_cont_9to1_m_657_24_alg».proof.Proof.TileOps
import proofs.«212450_g60069412602311_cont_9to1_m_657_24_alg».proof.Proof.TileDPure4
import proofs.«212450_g60069412602311_cont_9to1_m_657_24_alg».proof.Proof.TileEAcc

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F] (d : Dev nD) (L : grid0.Coords)

/-! ## What the staged buffers hold -/

/-- The count buffer holds columns [cntOff w, +10112) of the edge list. -/
def Stg4 (g : IVec S2x10112 32) : Prop :=
  ∀ j : S2x10112.Idx, g j = (eiV m d : IVec S2x320000 32) (ix2 (j 0) (⟨Cert.Spec.cntOff (wL L) + (j 1).val, cnt_col_lt L (j 1)⟩ : Fin 320000))
/-- An index buffer holds chunk k of the edge list: columns [160000 c + 3200 k, +3200). -/
def StgI (k : ℕ) (hk : k < 50) (g : IVec S2x3200 32) : Prop :=
  ∀ j : S2x3200.Idx, g j = (eiV m d : IVec S2x320000 32) (ix2 (j 0) (⟨160000 * (L 0).val + 3200 * k + (j 1).val, chunk_lt L k hk (j 1)⟩ : Fin 320000))
/-- A value buffer holds chunk k of row f of the transposed attribute table. -/
def StgV (k : ℕ) (hk : k < 50) (g : Vec F S3200 .f32) : Prop :=
  ∀ j : S3200.Idx, g j = (eaT m d : Vec F S16x320000 .f32) (ix2 (jL L) (⟨160000 * (L 0).val + 3200 * k + (j 0).val, chunk_lt L k hk (j 0)⟩ : Fin 320000))

/-! ## The loops' invariants -/

/-- The first 16 n entries are the word 0.0. -/
def Zd (n : ℕ) (f : Vec F S10240 .f32) : Prop := ∀ j : S10240.Idx, (j 0).val < 16 * n → f j = Scalar.ofBits .f32 0x00000000#32

/-- The zeroing loop: before trip n both accumulators are zero below 16 n. -/
def inv1 (n : ℕ) (_ : PUnit) : sProp 𝕄 :=
  iprop((∃ f : Buf (Elt F) ((V d (cV L) (jV L)).loc cc0_scratch5), ⌜Zd n (f : Vec F S10240 .f32)⌝ ∗ (B5).view.loc (V d (cV L) (jV L)) ↦{fullShare} f)
    ∗ (∃ f : Buf (Elt F) ((V d (cV L) (jV L)).loc cc0_scratch6), ⌜Zd n (f : Vec F S10240 .f32)⌝ ∗ (B6).view.loc (V d (cV L) (jV L)) ↦{fullShare} f))

/-- The count loop: the count buffer (unchanged), the count accumulator after 8 n groups. -/
def inv2 (g4 : Buf (Elt F) ((V d (cV L) (jV L)).loc cc0_scratch4)) (n : ℕ) (_ : PUnit) : sProp 𝕄 :=
  iprop(((B4).view.loc (V d (cV L) (jV L)) ↦{fullShare} g4)
    ∗ ((B6).view.loc (V d (cV L) (jV L)) ↦{fullShare} (Cert.Spec.cntAcc (F := F) (eiV m d) (wL L) (8 * n) : Vec F S10240 .f32)))

/-- The inner loop over chunk k held in buffers 0 / 2: the sum accumulator after 200 k + 8 n groups. -/
def inv5 (k : ℕ) (g0 : Buf (Elt F) ((V d (cV L) (jV L)).loc cc0_scratch0)) (g2 : Buf (Elt F) ((V d (cV L) (jV L)).loc cc0_scratch2)) (n : ℕ) (_ : PUnit) : sProp 𝕄 :=
  iprop(((B0).view.loc (V d (cV L) (jV L)) ↦{fullShare} g0) ∗ ((B2).view.loc (V d (cV L) (jV L)) ↦{fullShare} g2)
    ∗ ((B5).view.loc (V d (cV L) (jV L)) ↦{fullShare} (Cert.Spec.sumsAcc (eaT m d) (eiV m d) (cL L) (jL L) (200 * k + 8 * n) : Vec F S10240 .f32)))
/-- The same over buffers 1 / 3. -/
def inv6 (k : ℕ) (g1 : Buf (Elt F) ((V d (cV L) (jV L)).loc cc0_scratch1)) (g3 : Buf (Elt F) ((V d (cV L) (jV L)).loc cc0_scratch3)) (n : ℕ) (_ : PUnit) : sProp 𝕄 :=
  iprop(((B1).view.loc (V d (cV L) (jV L)) ↦{fullShare} g1) ∗ ((B3).view.loc (V d (cV L) (jV L)) ↦{fullShare} g3)
    ∗ ((B5).view.loc (V d (cV L) (jV L)) ↦{fullShare} (Cert.Spec.sumsAcc (eaT m d) (eiV m d) (cL L) (jL L) (200 * k + 8 * n) : Vec F S10240 .f32)))

/-- Chunk k of the attribute row in flight into buffer 0 (or landed, not yet waited for): the flight delivers the buffer at the chunk and
    the lent elements of the row's read token; the token's other elements stay here. -/
def FlV0 (k : ℕ) (hk : k < 50) : sProp 𝕄 :=
  iprop(∃ (g : Buf (Elt F) ((V d (cV L) (jV L)).loc cc0_scratch0)) (Sv : Finset (Idx ((eW).view.loc (V d (cV L) (jV L))))), ⌜StgV m d L k hk (g : Vec F S3200 .f32)⌝
    ∗ Transfers.Flight (countersEmb (U := UU)) (V d (cV L) (jV L)) (SemLoc.dma cc0_scratch7.sem) (default : HIx 1) 102400
        iprop(((B0).view.loc (V d (cV L) (jV L)) ↦{fullShare} g) ∗ ((eW).view.loc (V d (cV L) (jV L)) ↦[Sv]{Transfers.shareTokN (qTile (cL L) (jL L)) 0} eaT m d))
    ∗ ((eW).view.loc (V d (cV L) (jV L)) ↦[Finset.univ \ Sv]{Transfers.shareTokN (qTile (cL L) (jL L)) 0} eaT m d))

/-- Chunk k of the attribute row in flight into buffer 1 (or landed, not yet waited for): the flight delivers the buffer at the chunk and
    the lent elements of the row's read token; the token's other elements stay here. -/
def FlV1 (k : ℕ) (hk : k < 50) : sProp 𝕄 :=
  iprop(∃ (g : Buf (Elt F) ((V d (cV L) (jV L)).loc cc0_scratch1)) (Sv : Finset (Idx ((eW).view.loc (V d (cV L) (jV L))))), ⌜StgV m d L k hk (g : Vec F S3200 .f32)⌝
    ∗ Transfers.Flight (countersEmb (U := UU)) (V d (cV L) (jV L)) (SemLoc.dma cc0_scratch8.sem) (default : HIx 1) 102400
        iprop(((B1).view.loc (V d (cV L) (jV L)) ↦{fullShare} g) ∗ ((eW).view.loc (V d (cV L) (jV L)) ↦[Sv]{Transfers.shareTokN (qTile (cL L) (jL L)) 1} eaT m d))
    ∗ ((eW).view.loc (V d (cV L) (jV L)) ↦[Finset.univ \ Sv]{Transfers.shareTokN (qTile (cL L) (jL L)) 1} eaT m d))

def FlI0 (k : ℕ) (hk : k < 50) : sProp 𝕄 :=
  iprop(∃ (g : Buf (Elt F) ((V d (cV L) (jV L)).loc cc0_scratch2)) (Si : Finset (Idx ((iW).view.loc (V d (cV L) (jV L))))), ⌜StgI m d L k hk (g : IVec S2x3200 32)⌝
    ∗ Transfers.Flight (countersEmb (U := UU)) (V d (cV L) (jV L)) (SemLoc.dma cc0_scratch9.sem) (default : HIx 1) 204800
        iprop(((B2).view.loc (V d (cV L) (jV L)) ↦{fullShare} g) ∗ ((iW).view.loc (V d (cV L) (jV L)) ↦[Si]{Transfers.shareTokN (qTile (cL L) (jL L)) 2} eiV m d))
    ∗ ((iW).view.loc (V d (cV L) (jV L)) ↦[Finset.univ \ Si]{Transfers.shareTokN (qTile (cL L) (jL L)) 2} eiV m d))

def FlI1 (k : ℕ) (hk : k < 50) : sProp 𝕄 :=
  iprop(∃ (g : Buf (Elt F) ((V d (cV L) (jV L)).loc cc0_scratch3)) (Si : Finset (Idx ((iW).view.loc (V d (cV L) (jV L))))), ⌜StgI m d L k hk (g : IVec S2x3200 32)⌝
    ∗ Transfers.Flight (countersEmb (U := UU)) (V d (cV L) (jV L)) (SemLoc.dma cc0_scratch10.sem) (default : HIx 1) 204800
        iprop(((B3).view.loc (V d (cV L) (jV L)) ↦{fullShare} g) ∗ ((iW).view.loc (V d (cV L) (jV L)) ↦[Si]{Transfers.shareTokN (qTile (cL L) (jL L)) 3} eiV m d))
    ∗ ((iW).view.loc (V d (cV L) (jV L)) ↦[Finset.univ \ Si]{Transfers.shareTokN (qTile (cL L) (jL L)) 3} eiV m d))

/-- Buffer pair 0 at rest: its two semaphores at zero, the buffers at anything, the two read tokens whole. -/
def Idle0 : sProp 𝕄 :=
  iprop(semVal ((V d (cV L) (jV L)), SemLoc.dma cc0_scratch7.sem) 0 ∗ semVal ((V d (cV L) (jV L)), SemLoc.dma cc0_scratch9.sem) 0
    ∗ (∃ g, (B0).view.loc (V d (cV L) (jV L)) ↦{fullShare} g) ∗ (∃ g, (B2).view.loc (V d (cV L) (jV L)) ↦{fullShare} g)
    ∗ ((eW).view.loc (V d (cV L) (jV L)) ↦{Transfers.shareTokN (qTile (cL L) (jL L)) 0} eaT m d) ∗ ((iW).view.loc (V d (cV L) (jV L)) ↦{Transfers.shareTokN (qTile (cL L) (jL L)) 2} eiV m d))

/-- Buffer pair 0 before the chunk k it is to hold is waited for: both copies in flight while there is such a chunk, at rest after the last. -/
def Slot0 (k : ℕ) : sProp 𝕄 := if hk : k < 50 then iprop(FlV0 m d L k hk ∗ FlI0 m d L k hk) else Idle0 m d L

/-- Buffer pair 1 at rest: its two semaphores at zero, the buffers at anything, the two read tokens whole. -/
def Idle1 : sProp 𝕄 :=
  iprop(semVal ((V d (cV L) (jV L)), SemLoc.dma cc0_scratch8.sem) 0 ∗ semVal ((V d (cV L) (jV L)), SemLoc.dma cc0_scratch10.sem) 0
    ∗ (∃ g, (B1).view.loc (V d (cV L) (jV L)) ↦{fullShare} g) ∗ (∃ g, (B3).view.loc (V d (cV L) (jV L)) ↦{fullShare} g)
    ∗ ((eW).view.loc (V d (cV L) (jV L)) ↦{Transfers.shareTokN (qTile (cL L) (jL L)) 1} eaT m d) ∗ ((iW).view.loc (V d (cV L) (jV L)) ↦{Transfers.shareTokN (qTile (cL L) (jL L)) 3} eiV m d))

/-- Buffer pair 1 before the chunk k it is to hold is waited for: both copies in flight while there is such a chunk, at rest after the last. -/
def Slot1 (k : ℕ) : sProp 𝕄 := if hk : k < 50 then iprop(FlV1 m d L k hk ∗ FlI1 m d L k hk) else Idle1 m d L

/-- The pair loop: before trip t the sum accumulator holds 400 t groups; chunks 2 t and 2 t + 1 are in flight into the two buffer pairs;
    the thread's waits so far are at index none. -/
def inv4 (O : CellTallies nD τ sig (HIx 1)) (W : Waits sig (HIx 1)) (t : ℕ) (_ : PUnit) : sProp 𝕄 :=
  iprop(Transfers.MayWaits (V d (cV L) (jV L)) (none : HIx 1) O
    ∗ ((B5).view.loc (V d (cV L) (jV L)) ↦{fullShare} (Cert.Spec.sumsAcc (eaT m d) (eiV m d) (cL L) (jL L) (400 * t) : Vec F S10240 .f32))
    ∗ Slot0 m d L (2 * t) ∗ Slot1 m d L (2 * t + 1)
    ∗ ∃ W', ⌜∀ p ∈ W', p ∈ W ∨ p.2 = none⌝ ∗ owes (V d (cV L) (jV L)) O W')

end Cert.KernelIdeal.Run

end
-- ==== Proof.TileEZero.lean ====
/-
  The zeroing loop, step by step.

  Trip k stores sixteen zeros at entries 16 k … 16 k + 15 of an accumulator.  If the accumulator was zero below
  16 k it is then zero below 16 (k + 1): an entry the store covers now holds a lane of the stored vector, every
  lane of which is the word 0.0, and an entry it does not cover is as before.  After all 640 trips the accumulator
  is the zero accumulator.
-/
import proofs.«212450_g60069412602311_cont_9to1_m_657_24_alg».proof.Proof.TileInv

noncomputable section

namespace Cert.KernelIdeal.Run

open Cert.KernelIdeal Cert.KernelIdeal.Gen

open Idealize.ShloMosaic Idealize.ShloMosaic.ValueIdx
open Idealize.ShloMosaic.SparseCore (S V T)

variable {F : FTy → Type} [FloatOps F]

/-- (Z1) The zeroing store into the sum accumulator. -/
theorem zd_step5 (d : Dev nD) (L : grid0.Coords) (k : Fin k0_t1_loop.trips)
    (g5 : Buf (Elt F) ((V d (cV L) (jV L)).loc cc0_scratch5)) (h : Zd k.val (g5 : Vec F S10240 .f32)) :
    Zd (k.val + 1) ((B5).view.writes (Elt F) g5
      [⟨Rect.unit (s := S10240) (k0_off1 k) S16.size (k0_off1_inb k), k0_pay5 (F := F)⟩] : Vec F S10240 .f32) := by
  intro j hj
  rw [View.writes_singleton]
  by_cases hj' : j ∈ ((B5).view.slice (Rect.unit (s := S10240) (k0_off1 k) S16.size (k0_off1_inb k))).setOn Finset.univ
  · obtain ⟨x, hx, rfl⟩ := Finset.mem_map.mp hj'
    exact (View.write_emb_of_mem _ _ hx).trans rfl
  · refine (View.write_of_not_mem _ _ _ hj').trans (h j ?_)
    by_contra hge
    apply hj'
    rw [View.setOn_univ]
    show j ∈ ((View.whole cc0_scratch5).slice (Rect.unit (s := S10240) (k0_off1 k) S16.size (k0_off1_inb k))).set
    rw [View.set_slice_whole, Rect.mem_set_unit]
    intro a
    match a with
    | ⟨0, _⟩ =>
      show k0_off1 k 0 ≤ (j 0).val ∧ (j 0).val < k0_off1 k 0 + S16.size 0
      rw [k0_off1_eq]
      show 16 * k.val ≤ (j 0).val ∧ (j 0).val < 16 * k.val + 16
      omega

/-- (Z1) The zeroing store into the count accumulator. -/
theorem zd_step6 (d : Dev nD) (L : grid0.Coords) (k : Fin k0_t1_loop.trips)
    (g6 : Buf (Elt F) ((V d (cV L) (jV L)).loc cc0_scratch6)) (h : Zd k.val (g6 : Vec F S10240 .f32)) :
    Zd (k.val + 1) ((B6).view.writes (Elt F) g6
      [⟨Rect.unit (s := S10240) (k0_off1 k) S16.size (k0_off1_inb k), k0_pay5 (F := F)⟩] : Vec F S10240 .f32) := by
  intro j hj
  rw [View.writes_singleton]
  by_cases hj' : j ∈ ((B6).view.slice (Rect.unit (s := S10240) (k0_off1 k) S16.size (k0_off1_inb k))).setOn Finset.univ
  · obtain ⟨x, hx, rfl⟩ := Finset.mem_map.mp hj'
    exact (View.write_emb_of_mem _ _ hx).trans rfl
  · refine (View.write_of_not_mem _ _ _ hj').trans (h j ?_)
    by_contra hge
    apply hj'
    rw [View.setOn_univ]
    show j ∈ ((View.whole cc0_scratch6).slice (Rect.unit (s := S10240) (k0_off1 k) S16.size (k0_off1_inb k))).set
    rw [View.set_slice_whole, Rect.mem_set_unit]
    intro a
    match a with
    | ⟨0, _⟩ =>
      show k0_off1 k 0 ≤ (j 0).val ∧ (j 0).val < k0_off1 k 0 + S16.size 0
      rw [k0_off1_eq]
      show 16 * k.val ≤ (j 0).val ∧ (j 0).val < 16 * k.val + 16
      omega

/-- (Z2) Zero below all 640 groups of 16 entries: the zero accumulator. -/
theorem zd_done (g : Vec F S10240 .f32) (h : Zd (Scf.trips k0_t1_loop.lb k0_t1_loop.ub k0_t1_loop.st) g) : g = Cert.Spec.zeroAcc := by
  have e : Scf.trips k0_t1_loop.lb k0_t1_loop.ub k0_t1_loop.st = 640 := k0_t1_trips
  rw [e] at h
  exact zeroAcc_of_zero_below g h

end Cert.KernelIdeal.Run

end
-- ==== Proof.TileFold.lean ====
import proofs.«212450_g60069412602311_cont_9to1_m_657_24_alg».proof.Proof.TileInv

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F] (d : Dev nD) (L : grid0.Coords)

/-! ## What a landed copy leaves, in the invariants' words -/

theorem stg4_landed (f4 : Buf (Elt F) ((V d (cV L) (jV L)).loc cc0_scratch4)) (off : Fin 2 → Nat) (inb) (hs) (hoff : off = ![0, Cert.Spec.cntOff (wL L)]) :
    Stg4 m d L (View.write (Elt F) (Memref.whole cc0_scratch4).view f4
      (ReadAs.same.apply (View.read (Elt F) ((Memref.whole main_arg1_scv : Memref sig .scVector .hbm S2x320000 .i32).slice (Rect.unit (s := S2x320000) off S2x10112.size inb) hs).view (eiV m d)))
      Finset.univ : IVec S2x10112 32) := by
  intro j
  rw [View.write_whole_univ]
  exact src_cnt m L d off inb hs hoff j

theorem fold_FlV0 (k : ℕ) (hk : k < 50) (f : Buf (Elt F) ((V d (cV L) (jV L)).loc cc0_scratch0)) (sm : DmaSem sig) (hsm : sm = cc0_scratch7.sem)
    (off : Fin 2 → Nat) (inb) (hs) (hoff : off = ![(jL L).val, 160000 * (L 0).val + 3200 * k]) :
    iprop(Transfers.Flight (countersEmb (U := UU)) (V d (cV L) (jV L)) (SemLoc.dma sm) (default : HIx 1) 102400
        iprop(((B0).view.loc (V d (cV L) (jV L)) ↦{fullShare} View.write (Elt F) (Memref.whole cc0_scratch0).view f
              (ReadAs.same.apply (View.read (Elt F) (((Memref.whole main_v0_scv : Memref sig .scVector .hbm S16x320000 .f32).slice (Rect.unit (s := S16x320000) off S1x3200.size inb) hs).squeeze S3200 squeezes_S1x3200_S3200).view (eaT m d))) Finset.univ)
          ∗ ((eW).view.loc (V d (cV L) (jV L)) ↦[(((Memref.whole main_v0_scv : Memref sig .scVector .hbm S16x320000 .f32).slice (Rect.unit (s := S16x320000) off S1x3200.size inb) hs).squeeze S3200 squeezes_S1x3200_S3200).view.set]{Transfers.shareTokN (qTile (cL L) (jL L)) 0} eaT m d))
      ∗ ((eW).view.loc (V d (cV L) (jV L)) ↦[Finset.univ \ (((Memref.whole main_v0_scv : Memref sig .scVector .hbm S16x320000 .f32).slice (Rect.unit (s := S16x320000) off S1x3200.size inb) hs).squeeze S3200 squeezes_S1x3200_S3200).view.set]{Transfers.shareTokN (qTile (cL L) (jL L)) 0} eaT m d))
      ⊢ (FlV0 m d L k hk : sProp 𝕄) := by
  subst hsm
  unfold FlV0
  iintro ⟨Hf, Hr⟩
  iexists (View.write (Elt F) (Memref.whole cc0_scratch0).view f (ReadAs.same.apply (View.read (Elt F) (((Memref.whole main_v0_scv : Memref sig .scVector .hbm S16x320000 .f32).slice (Rect.unit (s := S16x320000) off S1x3200.size inb) hs).squeeze S3200 squeezes_S1x3200_S3200).view (eaT m d))) Finset.univ)
  iexists (((Memref.whole main_v0_scv : Memref sig .scVector .hbm S16x320000 .f32).slice (Rect.unit (s := S16x320000) off S1x3200.size inb) hs).squeeze S3200 squeezes_S1x3200_S3200).view.set
  isplitr
  · ipureintro
    intro j
    rw [View.write_whole_univ]
    exact src_ea m L d k hk off inb hs hoff j
  isplitl [Hf]
  · iexact Hf
  · iexact Hr

theorem fold_FlV1 (k : ℕ) (hk : k < 50) (f : Buf (Elt F) ((V d (cV L) (jV L)).loc cc0_scratch1)) (sm : DmaSem sig) (hsm : sm = cc0_scratch8.sem)
    (off : Fin 2 → Nat) (inb) (hs) (hoff : off = ![(jL L).val, 160000 * (L 0).val + 3200 * k]) :
    iprop(Transfers.Flight (countersEmb (U := UU)) (V d (cV L) (jV L)) (SemLoc.dma sm) (default : HIx 1) 102400
        iprop(((B1).view.loc (V d (cV L) (jV L)) ↦{fullShare} View.write (Elt F) (Memref.whole cc0_scratch1).view f
              (ReadAs.same.apply (View.read (Elt F) (((Memref.whole main_v0_scv : Memref sig .scVector .hbm S16x320000 .f32).slice (Rect.unit (s := S16x320000) off S1x3200.size inb) hs).squeeze S3200 squeezes_S1x3200_S3200).view (eaT m d))) Finset.univ)
          ∗ ((eW).view.loc (V d (cV L) (jV L)) ↦[(((Memref.whole main_v0_scv : Memref sig .scVector .hbm S16x320000 .f32).slice (Rect.unit (s := S16x320000) off S1x3200.size inb) hs).squeeze S3200 squeezes_S1x3200_S3200).view.set]{Transfers.shareTokN (qTile (cL L) (jL L)) 1} eaT m d))
      ∗ ((eW).view.loc (V d (cV L) (jV L)) ↦[Finset.univ \ (((Memref.whole main_v0_scv : Memref sig .scVector .hbm S16x320000 .f32).slice (Rect.unit (s := S16x320000) off S1x3200.size inb) hs).squeeze S3200 squeezes_S1x3200_S3200).view.set]{Transfers.shareTokN (qTile (cL L) (jL L)) 1} eaT m d))
      ⊢ (FlV1 m d L k hk : sProp 𝕄) := by
  subst hsm
  unfold FlV1
  iintro ⟨Hf, Hr⟩
  iexists (View.write (Elt F) (Memref.whole cc0_scratch1).view f (ReadAs.same.apply (View.read (Elt F) (((Memref.whole main_v0_scv : Memref sig .scVector .hbm S16x320000 .f32).slice (Rect.unit (s := S16x320000) off S1x3200.size inb) hs).squeeze S3200 squeezes_S1x3200_S3200).view (eaT m d))) Finset.univ)
  iexists (((Memref.whole main_v0_scv : Memref sig .scVector .hbm S16x320000 .f32).slice (Rect.unit (s := S16x320000) off S1x3200.size inb) hs).squeeze S3200 squeezes_S1x3200_S3200).view.set
  isplitr
  · ipureintro
    intro j
    rw [View.write_whole_univ]
    exact src_ea m L d k hk off inb hs hoff j
  isplitl [Hf]
  · iexact Hf
  · iexact Hr

theorem fold_FlI0 (k : ℕ) (hk : k < 50) (f : Buf (Elt F) ((V d (cV L) (jV L)).loc cc0_scratch2)) (sm : DmaSem sig) (hsm : sm = cc0_scratch9.sem)
    (off : Fin 2 → Nat) (inb) (hs) (hoff : off = ![0, 160000 * (L 0).val + 3200 * k]) :
    iprop(Transfers.Flight (countersEmb (U := UU)) (V d (cV L) (jV L)) (SemLoc.dma sm) (default : HIx 1) 204800
        iprop(((B2).view.loc (V d (cV L) (jV L)) ↦{fullShare} View.write (Elt F) (Memref.whole cc0_scratch2).view f
              (ReadAs.same.apply (View.read (Elt F) ((Memref.whole main_arg1_scv : Memref sig .scVector .hbm S2x320000 .i32).slice (Rect.unit (s := S2x320000) off S2x3200.size inb) hs).view (eiV m d))) Finset.univ)
          ∗ ((iW).view.loc (V d (cV L) (jV L)) ↦[((Memref.whole main_arg1_scv : Memref sig .scVector .hbm S2x320000 .i32).slice (Rect.unit (s := S2x320000) off S2x3200.size inb) hs).view.set]{Transfers.shareTokN (qTile (cL L) (jL L)) 2} eiV m d))
      ∗ ((iW).view.loc (V d (cV L) (jV L)) ↦[Finset.univ \ ((Memref.whole main_arg1_scv : Memref sig .scVector .hbm S2x320000 .i32).slice (Rect.unit (s := S2x320000) off S2x3200.size inb) hs).view.set]{Transfers.shareTokN (qTile (cL L) (jL L)) 2} eiV m d))
      ⊢ (FlI0 m d L k hk : sProp 𝕄) := by
  subst hsm
  unfold FlI0
  iintro ⟨Hf, Hr⟩
  iexists (View.write (Elt F) (Memref.whole cc0_scratch2).view f (ReadAs.same.apply (View.read (Elt F) ((Memref.whole main_arg1_scv : Memref sig .scVector .hbm S2x320000 .i32).slice (Rect.unit (s := S2x320000) off S2x3200.size inb) hs).view (eiV m d))) Finset.univ)
  iexists ((Memref.whole main_arg1_scv : Memref sig .scVector .hbm S2x320000 .i32).slice (Rect.unit (s := S2x320000) off S2x3200.size inb) hs).view.set
  isplitr
  · ipureintro
    intro j
    rw [View.write_whole_univ]
    exact src_col m L d k hk off inb hs hoff j
  isplitl [Hf]
  · iexact Hf
  · iexact Hr

theorem fold_FlI1 (k : ℕ) (hk : k < 50) (f : Buf (Elt F) ((V d (cV L) (jV L)).loc cc0_scratch3)) (sm : DmaSem sig) (hsm : sm = cc0_scratch10.sem)
    (off : Fin 2 → Nat) (inb) (hs) (hoff : off = ![0, 160000 * (L 0).val + 3200 * k]) :
    iprop(Transfers.Flight (countersEmb (U := UU)) (V d (cV L) (jV L)) (SemLoc.dma sm) (default : HIx 1) 204800
        iprop(((B3).view.loc (V d (cV L) (jV L)) ↦{fullShare} View.write (Elt F) (Memref.whole cc0_scratch3).view f
              (ReadAs.same.apply (View.read (Elt F) ((Memref.whole main_arg1_scv : Memref sig .scVector .hbm S2x320000 .i32).slice (Rect.unit (s := S2x320000) off S2x3200.size inb) hs).view (eiV m d))) Finset.univ)
          ∗ ((iW).view.loc (V d (cV L) (jV L)) ↦[((Memref.whole main_arg1_scv : Memref sig .scVector .hbm S2x320000 .i32).slice (Rect.unit (s := S2x320000) off S2x3200.size inb) hs).view.set]{Transfers.shareTokN (qTile (cL L) (jL L)) 3} eiV m d))
      ∗ ((iW).view.loc (V d (cV L) (jV L)) ↦[Finset.univ \ ((Memref.whole main_arg1_scv : Memref sig .scVector .hbm S2x320000 .i32).slice (Rect.unit (s := S2x320000) off S2x3200.size inb) hs).view.set]{Transfers.shareTokN (qTile (cL L) (jL L)) 3} eiV m d))
      ⊢ (FlI1 m d L k hk : sProp 𝕄) := by
  subst hsm
  unfold FlI1
  iintro ⟨Hf, Hr⟩
  iexists (View.write (Elt F) (Memref.whole cc0_scratch3).view f (ReadAs.same.apply (View.read (Elt F) ((Memref.whole main_arg1_scv : Memref sig .scVector .hbm S2x320000 .i32).slice (Rect.unit (s := S2x320000) off S2x3200.size inb) hs).view (eiV m d))) Finset.univ)
  iexists ((Memref.whole main_arg1_scv : Memref sig .scVector .hbm S2x320000 .i32).slice (Rect.unit (s := S2x320000) off S2x3200.size inb) hs).view.set
  isplitr
  · ipureintro
    intro j
    rw [View.write_whole_univ]
    exact src_col m L d k hk off inb hs hoff j
  isplitl [Hf]
  · iexact Hf
  · iexact Hr

end Cert.KernelIdeal.Run

end
-- ==== Proof.TileCOut.lean ====
/-
  The tile's two results read back: entry n of the accumulator copied into entries (c, f, :) of a [2, 16, 10240] array
  is entry (c, f, n) of the array afterwards.
-/
import proofs.«212450_g60069412602311_cont_9to1_m_657_24_alg».proof.Proof.TileMem

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Place n of the squeezed [10240] view is place (0, 0, n) of the [1, 1, 10240] slice. -/
theorem squeeze_idx3 (j : S10240.Idx) :
    Shape.reshapeEquiv (s := S1x1x10240) (s' := S10240) squeezes_S1x1x10240_S10240.numel_eq j
      = ix3 (0 : Fin 1) (0 : Fin 1) (⟨(j 0).val, (j 0).isLt⟩ : Fin 10240) := by
  refine Shape.reshapeEquiv_eq_of_rowMajor _ ?_
  rewrite [Shape.rowMajor_val_three, Shape.rowMajor_val_one]
  show (0 * 1 + 0) * 10240 + (j 0).val = (j 0).val
  omega

/-- Place (0, 0, n) of the slice at entries (L 0, L 1, :) is place (L 0, L 1, n) of the array. -/
theorem row_slice_idx (L : grid0.Coords) (n : Fin 10240) :
    (rowR L).emb (ix3 (0 : Fin 1) (0 : Fin 1) n) = ix3 (cL L) (jL L) n := by
  have hoff := k0_off16_eq L
  funext a
  apply Fin.ext
  rw [Rect.emb_apply]
  match a with
  | ⟨0, _⟩ => show k0_off16 L 0 + 1 * 0 = (L 0).val; rw [hoff]; show (L 0).val + 1 * 0 = _; omega
  | ⟨1, _⟩ => show k0_off16 L 1 + 1 * 0 = (L 1).val; rw [hoff]; show (L 1).val + 1 * 0 = _; omega
  | ⟨2, _⟩ => show k0_off16 L 2 + 1 * n.val = n.val; rw [hoff]; show 0 + 1 * n.val = _; omega

/-- Place n of the row view of the sums array is place (L 0, L 1, n) of the array, -/
theorem sRow_emb (L : grid0.Coords) (n : Fin 10240) : (sRow L).view.emb (ix1 n) = ix3 (cL L) (jL L) n := by
  show (rowR L).emb (Shape.reshapeEquiv (s := S1x1x10240) (s' := S10240) squeezes_S1x1x10240_S10240.numel_eq (ix1 n)) = _
  rw [squeeze_idx3]
  exact row_slice_idx L n
/-- and of the counts array likewise. -/
theorem cRow_emb (L : grid0.Coords) (n : Fin 10240) : (cRow L).view.emb (ix1 n) = ix3 (cL L) (jL L) n := by
  show (rowR L).emb (Shape.reshapeEquiv (s := S1x1x10240) (s' := S10240) squeezes_S1x1x10240_S10240.numel_eq (ix1 n)) = _
  rw [squeeze_idx3]
  exact row_slice_idx L n

variable (d : Dev nD)

/-- The sums array after p is written through its row view, read at an entry of the row: p's entry. -/
theorem out_read_s (L : grid0.Coords) (fs : Buf (Elt F) (sLoc d)) (p : Vec F S10240 .f32) (n : Fin 10240) :
    (((sRow L).view.write (Elt F) fs p Finset.univ : Buf (Elt F) (sLoc d)) : Vec F S2x16x10240 .f32) (ix3 (cL L) (jL L) n) = p (ix1 n) := by
  rw [← sRow_emb L n]
  exact View.write_emb_of_mem (v := (sRow L).view) fs p (Finset.mem_univ (ix1 n))

/-- The counts array likewise. -/
theorem out_read_c (L : grid0.Coords) (fc : Buf (Elt F) (cLoc d)) (p : Vec F S10240 .f32) (n : Fin 10240) :
    (((cRow L).view.write (Elt F) fc p Finset.univ : Buf (Elt F) (cLoc d)) : Vec F S2x16x10240 .f32) (ix3 (cL L) (jL L) n) = p (ix1 n) := by
  rw [← cRow_emb L n]
  exact View.write_emb_of_mem (v := (cRow L).view) fc p (Finset.mem_univ (ix1 n))

/-- The same when the copy is recorded as the one-piece list of writes over the whole row view. -/
theorem out_reads_s (L : grid0.Coords) (fs : Buf (Elt F) (sLoc d)) (p : Vec F S10240 .f32) (n : Fin 10240) :
    (((sRow L).view.writes (Elt F) fs [(⟨Rect.whole S10240, p⟩ : View.Piece (Elt F) S10240 .f32)] : Buf (Elt F) (sLoc d)) : Vec F S2x16x10240 .f32)
        (ix3 (cL L) (jL L) n) = p (ix1 n) := by
  rw [View.writes_singleton, ← sRow_emb L n]
  have e : (sRow L).view.emb (ix1 n) = ((sRow L).view.slice (Rect.whole S10240)).emb (ix1 n) := by
    show _ = (sRow L).view.emb ((Rect.whole S10240).emb (ix1 n)); rw [Rect.emb_whole_apply]
  rw [e]
  exact View.write_emb_of_mem (v := (sRow L).view.slice (Rect.whole S10240)) fs p (Finset.mem_univ (ix1 n))

theorem out_reads_c (L : grid0.Coords) (fc : Buf (Elt F) (cLoc d)) (p : Vec F S10240 .f32) (n : Fin 10240) :
    (((cRow L).view.writes (Elt F) fc [(⟨Rect.whole S10240, p⟩ : View.Piece (Elt F) S10240 .f32)] : Buf (Elt F) (cLoc d)) : Vec F S2x16x10240 .f32)
        (ix3 (cL L) (jL L) n) = p (ix1 n) := by
  rw [View.writes_singleton, ← cRow_emb L n]
  have e : (cRow L).view.emb (ix1 n) = ((cRow L).view.slice (Rect.whole S10240)).emb (ix1 n) := by
    show _ = (cRow L).view.emb ((Rect.whole S10240).emb (ix1 n)); rw [Rect.emb_whole_apply]
  rw [e]
  exact View.write_emb_of_mem (v := (cRow L).view.slice (Rect.whole S10240)) fc p (Finset.mem_univ (ix1 n))

end Cert.KernelIdeal.Run

end
-- ==== Proof.TileEJoin.lean ====
/-
  Read tokens of a share, taken off one at a time and put back.

  A share q with k tokens taken off splits into the share with k + 1 taken off and the k-th token; so the share with
  n tokens taken off together with tokens 0 … n − 1 is the share q again, and conversely.
-/
import proofs.«212450_g60069412602311_cont_9to1_m_657_24_alg».proof.Proof.TileMem

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The share itself is the share with one token taken off and token 0. -/
theorem tokStep0 {ℓ : Loc nD τ sig} {Sx : Finset (Idx ℓ)} {f : Buf (Elt F) ℓ} (q : PosShare TreeShare) :
    (ℓ ↦[Sx]{q} f : sProp 𝕄) ⊣⊢ iprop((ℓ ↦[Sx]{Transfers.shareDrop q 1} f) ∗ ℓ ↦[Sx]{Transfers.shareTokN q 0} f) :=
  tok_succ q 0

/-- The share with k tokens taken off is the share with k' = k + 1 taken off and token k. -/
theorem tokStep {ℓ : Loc nD τ sig} {Sx : Finset (Idx ℓ)} {f : Buf (Elt F) ℓ} (q : PosShare TreeShare) (k k' : ℕ) (hk : k' = k + 1) :
    (ℓ ↦[Sx]{Transfers.shareDrop q k} f : sProp 𝕄) ⊣⊢ iprop((ℓ ↦[Sx]{Transfers.shareDrop q k'} f) ∗ ℓ ↦[Sx]{Transfers.shareTokN q k} f) := by
  subst hk; exact tok_succ q k

theorem toks_join2 {ℓ : Loc nD τ sig} {Sx : Finset (Idx ℓ)} {f : Buf (Elt F) ℓ} (q : PosShare TreeShare) :
    iprop((ℓ ↦[Sx]{Transfers.shareDrop q 2} f) ∗ (ℓ ↦[Sx]{Transfers.shareTokN q 0} f) ∗ (ℓ ↦[Sx]{Transfers.shareTokN q 1} f))
      ⊢ (ℓ ↦[Sx]{q} f : sProp 𝕄) := by
  iintro ⟨HD, H0, H1⟩
  ihave HD1 := (tokStep (F := F) q 1 2 rfl).2 $$ [HD H1]
  · isplitl [HD] <;> iassumption
  ihave HD0 := (tokStep0 (F := F) q).2 $$ [HD1 H0]
  · isplitl [HD1] <;> iassumption
  iexact HD0

theorem toks_split2 {ℓ : Loc nD τ sig} {Sx : Finset (Idx ℓ)} {f : Buf (Elt F) ℓ} (q : PosShare TreeShare) :
    (ℓ ↦[Sx]{q} f : sProp 𝕄)
      ⊢ iprop((ℓ ↦[Sx]{Transfers.shareDrop q 2} f) ∗ (ℓ ↦[Sx]{Transfers.shareTokN q 0} f) ∗ (ℓ ↦[Sx]{Transfers.shareTokN q 1} f)) := by
  iintro H
  ihave H1 := (tokStep0 (F := F) q).1 $$ H
  icases H1 with ⟨HD1, H0⟩
  ihave H2 := (tokStep (F := F) q 1 2 rfl).1 $$ HD1
  icases H2 with ⟨HD2, H1⟩
  isplitl [HD2]; · iexact HD2
  isplitl [H0]; · iexact H0
  iexact H1

theorem toks_join5 {ℓ : Loc nD τ sig} {Sx : Finset (Idx ℓ)} {f : Buf (Elt F) ℓ} (q : PosShare TreeShare) :
    iprop((ℓ ↦[Sx]{Transfers.shareDrop q 5} f) ∗ (ℓ ↦[Sx]{Transfers.shareTokN q 0} f) ∗ (ℓ ↦[Sx]{Transfers.shareTokN q 1} f)
        ∗ (ℓ ↦[Sx]{Transfers.shareTokN q 2} f) ∗ (ℓ ↦[Sx]{Transfers.shareTokN q 3} f) ∗ (ℓ ↦[Sx]{Transfers.shareTokN q 4} f))
      ⊢ (ℓ ↦[Sx]{q} f : sProp 𝕄) := by
  iintro ⟨HD, H0, H1, H2, H3, H4⟩
  ihave HD4 := (tokStep (F := F) q 4 5 rfl).2 $$ [HD H4]
  · isplitl [HD] <;> iassumption
  ihave HD3 := (tokStep (F := F) q 3 4 rfl).2 $$ [HD4 H3]
  · isplitl [HD4] <;> iassumption
  ihave HD2 := (tokStep (F := F) q 2 3 rfl).2 $$ [HD3 H2]
  · isplitl [HD3] <;> iassumption
  ihave HD1 := (tokStep (F := F) q 1 2 rfl).2 $$ [HD2 H1]
  · isplitl [HD2] <;> iassumption
  ihave HD0 := (tokStep0 (F := F) q).2 $$ [HD1 H0]
  · isplitl [HD1] <;> iassumption
  iexact HD0

theorem toks_split5 {ℓ : Loc nD τ sig} {Sx : Finset (Idx ℓ)} {f : Buf (Elt F) ℓ} (q : PosShare TreeShare) :
    (ℓ ↦[Sx]{q} f : sProp 𝕄)
      ⊢ iprop((ℓ ↦[Sx]{Transfers.shareDrop q 5} f) ∗ (ℓ ↦[Sx]{Transfers.shareTokN q 0} f) ∗ (ℓ ↦[Sx]{Transfers.shareTokN q 1} f)
        ∗ (ℓ ↦[Sx]{Transfers.shareTokN q 2} f) ∗ (ℓ ↦[Sx]{Transfers.shareTokN q 3} f) ∗ (ℓ ↦[Sx]{Transfers.shareTokN q 4} f)) := by
  iintro H
  ihave G1 := (tokStep0 (F := F) q).1 $$ H
  icases G1 with ⟨HD1, H0⟩
  ihave G2 := (tokStep (F := F) q 1 2 rfl).1 $$ HD1
  icases G2 with ⟨HD2, H1⟩
  ihave G3 := (tokStep (F := F) q 2 3 rfl).1 $$ HD2
  icases G3 with ⟨HD3, H2⟩
  ihave G4 := (tokStep (F := F) q 3 4 rfl).1 $$ HD3
  icases G4 with ⟨HD4, H3⟩
  ihave G5 := (tokStep (F := F) q 4 5 rfl).1 $$ HD4
  icases G5 with ⟨HD5, H4⟩
  isplitl [HD5]; · iexact HD5
  isplitl [H0]; · iexact H0
  isplitl [H1]; · iexact H1
  isplitl [H2]; · iexact H2
  isplitl [H3]; · iexact H3
  iexact H4

end Cert.KernelIdeal.Run

end
-- ==== Proof.TileTrip2.lean ====
/-
  One trip of the count loop: eight groups of 16 target nodes are read off the staged count range and eight indexed
  add-stores of sixteen ones take the count accumulator from 8 t groups to 8 (t + 1).
-/
import proofs.«212450_g60069412602311_cont_9to1_m_657_24_alg».proof.Proof.TileInv

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

/-- Each group of 16 target nodes the count loop reads is inside the accumulator. -/
theorem chk_rd (d : Dev nD) (L : grid0.Coords) (hpre : PreOK m) (g4 : Buf (Elt F) ((V d (cV L) (jV L)).loc cc0_scratch4))
    (hg4 : Stg4 m d L (g4 : IVec S2x10112 32)) (t : Fin (k0_t2_loop L).trips) (r : Fin 8) :
    k0_chk1 (shapeCast S16 ((B4).view.readAt (Elt F)
        (Rect.unit (s := S2x10112) (k0_off5 L t (BitVec.ofNat 32 r.val)) S1x16.size (k0_off5_inb L t r)).toLoadRect g4) shapeCasts_S1x16_S16) := by
  rw [cnt_read m L d g4 hg4 t r]
  exact chk_colVec m hpre d _

/-- One add-store of sixteen ones at a group's 16 target nodes, however the group's vector is spelt. -/
theorem cnt_step_v (col : IVec S2x320000 32) (w n : ℕ) (v : IVec S16 32) (hv : v = Cert.Spec.colVec col (Cert.Spec.cntOff w + 16 * n))
    (h : ∀ a x, ((![v] : Fin S10240.rank → IVec S16 32) a x).toNat < S10240.size a) :
    (storeIdx (Cert.Spec.cntAcc (F := F) col w n : Vec F S10240 .f32) ![v] (k0_pay6 (F := F)) (fun _ => 1#1) true h : Vec F S10240 .f32)
      = Cert.Spec.cntAcc col w (n + 1) := by
  subst hv
  exact cnt_step col w n h

/-- The indexed add-store of a group's ones into the count accumulator after n groups leaves it after n + 1. -/
theorem wp_cnt_store {α : Type} {Q : α → sProp 𝕄} (d : Dev nD) (L : grid0.Coords) (n : ℕ) (v : IVec S16 32)
    (hv : v = Cert.Spec.colVec (eiV m d) (Cert.Spec.cntOff (wL L) + 16 * n))
    {h : ∀ a x, ((![v] : Fin S10240.rank → IVec S16 32) a x).toNat < S10240.size a} {hs : ((B6).access (.whole S10240)).Stores Finset.univ}
    {k : PUnit → Prog (TpuEff nD τ sig (Elt F) Λ₀ (.scVector (cV L) (jV L))) α} :
    ((B6).view.loc (V d (cV L) (jV L)) ↦{fullShare} (Cert.Spec.cntAcc (F := F) (eiV m d) (wL L) n : Vec F S10240 .f32) : sProp 𝕄)
      ⊢ iprop((((B6).view.loc (V d (cV L) (jV L)) ↦{fullShare} (Cert.Spec.cntAcc (F := F) (eiV m d) (wL L) (n + 1) : Vec F S10240 .f32))
            -∗ wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.vectorStoreIdx (B6) ![v] (k0_pay6 (F := F)) (fun _ => 1#1) true h hs >>= k) Q) := by
  have key := wp_addStore_B6 (F := F) (Q := Q) d L (idxs := ![v]) (v := k0_pay6 (F := F)) (mask := fun _ => 1#1) (add := true)
    (h := h) (hs := hs) (k := k) (Cert.Spec.cntAcc (F := F) (eiV m d) (wL L) n : Vec F S10240 .f32)
  rw [cnt_step_v (eiV m d) (wL L) n v hv h] at key
  exact key

set_option maxHeartbeats 800000 in
theorem trip2 (d : Dev nD) (L : grid0.Coords) (hpre : PreOK m) (g4 : Buf (Elt F) ((V d (cV L) (jV L)).loc cc0_scratch4))
    (hg4 : Stg4 m d L (g4 : IVec S2x10112 32)) (t : Fin (k0_t2_loop L).trips) (acc : PUnit) :
    inv2 m d L g4 t.val acc ⊢ wp frame (wpE (defs₀ (F := F)) 𝒱₀ (V d (cV L) (jV L)) none) Set.univ
      (k0_t2_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 cc0_scoped1 cc0_scoped2 (k0_pay6 (F := F)) t acc) (inv2 m d L g4 (t.val + 1)) := by
  unfold inv2 k0_t2_body
  iintro ⟨H4, H6⟩
  sl_exec (disch := (sl_unfold_run_names; first
    | sl_exact (chk_rd m d L hpre g4 hg4 t 0)
    | sl_exact (chk_rd m d L hpre g4 hg4 t 1)
    | sl_exact (chk_rd m d L hpre g4 hg4 t 2)
    | sl_exact (chk_rd m d L hpre g4 hg4 t 3)
    | sl_exact (chk_rd m d L hpre g4 hg4 t 4)
    | sl_exact (chk_rd m d L hpre g4 hg4 t 5)
    | sl_exact (chk_rd m d L hpre g4 hg4 t 6)
    | sl_exact (chk_rd m d L hpre g4 hg4 t 7)))
  iapply (wp_cnt_store m d L (8 * t.val) _ (cnt_read m L d g4 hg4 t 0)) $$ H6; iintro H6
  iapply (wp_cnt_store m d L (8 * t.val + 1) _ (cnt_read m L d g4 hg4 t 1)) $$ H6; iintro H6
  iapply (wp_cnt_store m d L (8 * t.val + 1 + 1) _ (cnt_read m L d g4 hg4 t 2)) $$ H6; iintro H6
  iapply (wp_cnt_store m d L (8 * t.val + 1 + 1 + 1) _ (cnt_read m L d g4 hg4 t 3)) $$ H6; iintro H6
  iapply (wp_cnt_store m d L (8 * t.val + 1 + 1 + 1 + 1) _ (cnt_read m L d g4 hg4 t 4)) $$ H6; iintro H6
  iapply (wp_cnt_store m d L (8 * t.val + 1 + 1 + 1 + 1 + 1) _ (cnt_read m L d g4 hg4 t 5)) $$ H6; iintro H6
  iapply (wp_cnt_store m d L (8 * t.val + 1 + 1 + 1 + 1 + 1 + 1) _ (cnt_read m L d g4 hg4 t 6)) $$ H6; iintro H6
  iapply (wp_cnt_store m d L (8 * t.val + 1 + 1 + 1 + 1 + 1 + 1 + 1) _ (cnt_read m L d g4 hg4 t 7)) $$ H6; iintro H6
  sl_step
  rw [show 8 * t.val + 1 + 1 + 1 + 1 + 1 + 1 + 1 + 1 = 8 * (t.val + 1) by omega]
  isplitl [H4]
  · iexact H4
  · iexact H6

end Cert.KernelIdeal.Run

end
-- ==== Proof.TilePairInner.lean ====
/-
  The inner loops of the tile's main phase, one trip: from chunk k held in a buffer pair (its sixteen-edge groups read
  through the staged-contents facts), eight groups are added into the sum accumulator by the indexed add-store; the
  accumulator after 200 k + 8 n groups becomes the accumulator after 200 k + 8 (n + 1).
-/
import proofs.«212450_g60069412602311_cont_9to1_m_657_24_alg».proof.Proof.TileInv

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F] (d : Dev nD) (L : grid0.Coords)

/-- A group of sixteen targets loaded from chunk k in its index buffer passes the range check. -/
theorem chk0 (hpre : PreOK m) (k : ℕ) (hk : k < 50) (g2 : Buf (Elt F) ((V d (cV L) (jV L)).loc cc0_scratch2)) (hg2 : StgI m d L k hk (g2 : IVec S2x3200 32))
    (n : Fin k0_t5_loop.trips) (r : Fin 8) :
    k0_chk1 (shapeCast S16 ((Memref.whole cc0_scratch2 : Memref sig .scVector .vmem S2x3200 .i32).view.readAt (Elt F)
        (Rect.unit (s := S2x3200) (k0_off8 n (BitVec.ofNat 32 r.val)) S1x16.size (k0_off8_inb n r)).toLoadRect g2) shapeCasts_S1x16_S16) := by
  rw [sum_col_read0 m L d k hk g2 hg2 n r]; exact chk_colVec m hpre d _
theorem chk0_0 (hpre : PreOK m) (k : ℕ) (hk : k < 50) (g2 : Buf (Elt F) ((V d (cV L) (jV L)).loc cc0_scratch2)) (hg2 : StgI m d L k hk (g2 : IVec S2x3200 32)) (n : Fin k0_t5_loop.trips) :
    k0_chk17 (shapeCast S16 ((Memref.whole cc0_scratch2 : Memref sig .scVector .vmem S2x3200 .i32).view.readAt (Elt F)
        (Rect.unit (s := S2x3200) (k0_off8 n 0#32) S1x16.size (k0_off8_inb n 0)).toLoadRect g2) shapeCasts_S1x16_S16) :=
  chk0 m d L hpre k hk g2 hg2 n 0
theorem chk0_1 (hpre : PreOK m) (k : ℕ) (hk : k < 50) (g2 : Buf (Elt F) ((V d (cV L) (jV L)).loc cc0_scratch2)) (hg2 : StgI m d L k hk (g2 : IVec S2x3200 32)) (n : Fin k0_t5_loop.trips) :
    k0_chk18 (shapeCast S16 ((Memref.whole cc0_scratch2 : Memref sig .scVector .vmem S2x3200 .i32).view.readAt (Elt F)
        (Rect.unit (s := S2x3200) (k0_off8 n 1#32) S1x16.size (k0_off8_inb n 1)).toLoadRect g2) shapeCasts_S1x16_S16) :=
  chk0 m d L hpre k hk g2 hg2 n 1
theorem chk0_2 (hpre : PreOK m) (k : ℕ) (hk : k < 50) (g2 : Buf (Elt F) ((V d (cV L) (jV L)).loc cc0_scratch2)) (hg2 : StgI m d L k hk (g2 : IVec S2x3200 32)) (n : Fin k0_t5_loop.trips) :
    k0_chk19 (shapeCast S16 ((Memref.whole cc0_scratch2 : Memref sig .scVector .vmem S2x3200 .i32).view.readAt (Elt F)
        (Rect.unit (s := S2x3200) (k0_off8 n 2#32) S1x16.size (k0_off8_inb n 2)).toLoadRect g2) shapeCasts_S1x16_S16) :=
  chk0 m d L hpre k hk g2 hg2 n 2
theorem chk0_3 (hpre : PreOK m) (k : ℕ) (hk : k < 50) (g2 : Buf (Elt F) ((V d (cV L) (jV L)).loc cc0_scratch2)) (hg2 : StgI m d L k hk (g2 : IVec S2x3200 32)) (n : Fin k0_t5_loop.trips) :
    k0_chk20 (shapeCast S16 ((Memref.whole cc0_scratch2 : Memref sig .scVector .vmem S2x3200 .i32).view.readAt (Elt F)
        (Rect.unit (s := S2x3200) (k0_off8 n 3#32) S1x16.size (k0_off8_inb n 3)).toLoadRect g2) shapeCasts_S1x16_S16) :=
  chk0 m d L hpre k hk g2 hg2 n 3
theorem chk0_4 (hpre : PreOK m) (k : ℕ) (hk : k < 50) (g2 : Buf (Elt F) ((V d (cV L) (jV L)).loc cc0_scratch2)) (hg2 : StgI m d L k hk (g2 : IVec S2x3200 32)) (n : Fin k0_t5_loop.trips) :
    k0_chk21 (shapeCast S16 ((Memref.whole cc0_scratch2 : Memref sig .scVector .vmem S2x3200 .i32).view.readAt (Elt F)
        (Rect.unit (s := S2x3200) (k0_off8 n 4#32) S1x16.size (k0_off8_inb n 4)).toLoadRect g2) shapeCasts_S1x16_S16) :=
  chk0 m d L hpre k hk g2 hg2 n 4
theorem chk0_5 (hpre : PreOK m) (k : ℕ) (hk : k < 50) (g2 : Buf (Elt F) ((V d (cV L) (jV L)).loc cc0_scratch2)) (hg2 : StgI m d L k hk (g2 : IVec S2x3200 32)) (n : Fin k0_t5_loop.trips) :
    k0_chk22 (shapeCast S16 ((Memref.whole cc0_scratch2 : Memref sig .scVector .vmem S2x3200 .i32).view.readAt (Elt F)
        (Rect.unit (s := S2x3200) (k0_off8 n 5#32) S1x16.size (k0_off8_inb n 5)).toLoadRect g2) shapeCasts_S1x16_S16) :=
  chk0 m d L hpre k hk g2 hg2 n 5
theorem chk0_6 (hpre : PreOK m) (k : ℕ) (hk : k < 50) (g2 : Buf (Elt F) ((V d (cV L) (jV L)).loc cc0_scratch2)) (hg2 : StgI m d L k hk (g2 : IVec S2x3200 32)) (n : Fin k0_t5_loop.trips) :
    k0_chk23 (shapeCast S16 ((Memref.whole cc0_scratch2 : Memref sig .scVector .vmem S2x3200 .i32).view.readAt (Elt F)
        (Rect.unit (s := S2x3200) (k0_off8 n 6#32) S1x16.size (k0_off8_inb n 6)).toLoadRect g2) shapeCasts_S1x16_S16) :=
  chk0 m d L hpre k hk g2 hg2 n 6
theorem chk0_7 (hpre : PreOK m) (k : ℕ) (hk : k < 50) (g2 : Buf (Elt F) ((V d (cV L) (jV L)).loc cc0_scratch2)) (hg2 : StgI m d L k hk (g2 : IVec S2x3200 32)) (n : Fin k0_t5_loop.trips) :
    k0_chk24 (shapeCast S16 ((Memref.whole cc0_scratch2 : Memref sig .scVector .vmem S2x3200 .i32).view.readAt (Elt F)
        (Rect.unit (s := S2x3200) (k0_off8 n 7#32) S1x16.size (k0_off8_inb n 7)).toLoadRect g2) shapeCasts_S1x16_S16) :=
  chk0 m d L hpre k hk g2 hg2 n 7

/-- A group of sixteen targets loaded from chunk k in its index buffer passes the range check. -/
theorem chk1 (hpre : PreOK m) (k : ℕ) (hk : k < 50) (g2 : Buf (Elt F) ((V d (cV L) (jV L)).loc cc0_scratch3)) (hg2 : StgI m d L k hk (g2 : IVec S2x3200 32))
    (n : Fin k0_t6_loop.trips) (r : Fin 8) :
    k0_chk1 (shapeCast S16 ((Memref.whole cc0_scratch3 : Memref sig .scVector .vmem S2x3200 .i32).view.readAt (Elt F)
        (Rect.unit (s := S2x3200) (k0_off12 n (BitVec.ofNat 32 r.val)) S1x16.size (k0_off12_inb n r)).toLoadRect g2) shapeCasts_S1x16_S16) := by
  rw [sum_col_read1 m L d k hk g2 hg2 n r]; exact chk_colVec m hpre d _
theorem chk1_0 (hpre : PreOK m) (k : ℕ) (hk : k < 50) (g2 : Buf (Elt F) ((V d (cV L) (jV L)).loc cc0_scratch3)) (hg2 : StgI m d L k hk (g2 : IVec S2x3200 32)) (n : Fin k0_t6_loop.trips) :
    k0_chk25 (shapeCast S16 ((Memref.whole cc0_scratch3 : Memref sig .scVector .vmem S2x3200 .i32).view.readAt (Elt F)
        (Rect.unit (s := S2x3200) (k0_off12 n 0#32) S1x16.size (k0_off12_inb n 0)).toLoadRect g2) shapeCasts_S1x16_S16) :=
  chk1 m d L hpre k hk g2 hg2 n 0
theorem chk1_1 (hpre : PreOK m) (k : ℕ) (hk : k < 50) (g2 : Buf (Elt F) ((V d (cV L) (jV L)).loc cc0_scratch3)) (hg2 : StgI m d L k hk (g2 : IVec S2x3200 32)) (n : Fin k0_t6_loop.trips) :
    k0_chk26 (shapeCast S16 ((Memref.whole cc0_scratch3 : Memref sig .scVector .vmem S2x3200 .i32).view.readAt (Elt F)
        (Rect.unit (s := S2x3200) (k0_off12 n 1#32) S1x16.size (k0_off12_inb n 1)).toLoadRect g2) shapeCasts_S1x16_S16) :=
  chk1 m d L hpre k hk g2 hg2 n 1
theorem chk1_2 (hpre : PreOK m) (k : ℕ) (hk : k < 50) (g2 : Buf (Elt F) ((V d (cV L) (jV L)).loc cc0_scratch3)) (hg2 : StgI m d L k hk (g2 : IVec S2x3200 32)) (n : Fin k0_t6_loop.trips) :
    k0_chk27 (shapeCast S16 ((Memref.whole cc0_scratch3 : Memref sig .scVector .vmem S2x3200 .i32).view.readAt (Elt F)
        (Rect.unit (s := S2x3200) (k0_off12 n 2#32) S1x16.size (k0_off12_inb n 2)).toLoadRect g2) shapeCasts_S1x16_S16) :=
  chk1 m d L hpre k hk g2 hg2 n 2
theorem chk1_3 (hpre : PreOK m) (k : ℕ) (hk : k < 50) (g2 : Buf (Elt F) ((V d (cV L) (jV L)).loc cc0_scratch3)) (hg2 : StgI m d L k hk (g2 : IVec S2x3200 32)) (n : Fin k0_t6_loop.trips) :
    k0_chk28 (shapeCast S16 ((Memref.whole cc0_scratch3 : Memref sig .scVector .vmem S2x3200 .i32).view.readAt (Elt F)
        (Rect.unit (s := S2x3200) (k0_off12 n 3#32) S1x16.size (k0_off12_inb n 3)).toLoadRect g2) shapeCasts_S1x16_S16) :=
  chk1 m d L hpre k hk g2 hg2 n 3
theorem chk1_4 (hpre : PreOK m) (k : ℕ) (hk : k < 50) (g2 : Buf (Elt F) ((V d (cV L) (jV L)).loc cc0_scratch3)) (hg2 : StgI m d L k hk (g2 : IVec S2x3200 32)) (n : Fin k0_t6_loop.trips) :
    k0_chk29 (shapeCast S16 ((Memref.whole cc0_scratch3 : Memref sig .scVector .vmem S2x3200 .i32).view.readAt (Elt F)
        (Rect.unit (s := S2x3200) (k0_off12 n 4#32) S1x16.size (k0_off12_inb n 4)).toLoadRect g2) shapeCasts_S1x16_S16) :=
  chk1 m d L hpre k hk g2 hg2 n 4
theorem chk1_5 (hpre : PreOK m) (k : ℕ) (hk : k < 50) (g2 : Buf (Elt F) ((V d (cV L) (jV L)).loc cc0_scratch3)) (hg2 : StgI m d L k hk (g2 : IVec S2x3200 32)) (n : Fin k0_t6_loop.trips) :
    k0_chk30 (shapeCast S16 ((Memref.whole cc0_scratch3 : Memref sig .scVector .vmem S2x3200 .i32).view.readAt (Elt F)
        (Rect.unit (s := S2x3200) (k0_off12 n 5#32) S1x16.size (k0_off12_inb n 5)).toLoadRect g2) shapeCasts_S1x16_S16) :=
  chk1 m d L hpre k hk g2 hg2 n 5
theorem chk1_6 (hpre : PreOK m) (k : ℕ) (hk : k < 50) (g2 : Buf (Elt F) ((V d (cV L) (jV L)).loc cc0_scratch3)) (hg2 : StgI m d L k hk (g2 : IVec S2x3200 32)) (n : Fin k0_t6_loop.trips) :
    k0_chk31 (shapeCast S16 ((Memref.whole cc0_scratch3 : Memref sig .scVector .vmem S2x3200 .i32).view.readAt (Elt F)
        (Rect.unit (s := S2x3200) (k0_off12 n 6#32) S1x16.size (k0_off12_inb n 6)).toLoadRect g2) shapeCasts_S1x16_S16) :=
  chk1 m d L hpre k hk g2 hg2 n 6
theorem chk1_7 (hpre : PreOK m) (k : ℕ) (hk : k < 50) (g2 : Buf (Elt F) ((V d (cV L) (jV L)).loc cc0_scratch3)) (hg2 : StgI m d L k hk (g2 : IVec S2x3200 32)) (n : Fin k0_t6_loop.trips) :
    k0_chk32 (shapeCast S16 ((Memref.whole cc0_scratch3 : Memref sig .scVector .vmem S2x3200 .i32).view.readAt (Elt F)
        (Rect.unit (s := S2x3200) (k0_off12 n 7#32) S1x16.size (k0_off12_inb n 7)).toLoadRect g2) shapeCasts_S1x16_S16) :=
  chk1 m d L hpre k hk g2 hg2 n 7

/-- One add-store of a group read from chunk k: the sum accumulator after one more group. -/
theorem store_step (hpre : PreOK m) (f : Buf (Elt F) ((V d (cV L) (jV L)).loc cc0_scratch5)) (i : IVec S16 32) (v : Vec F S16 .f32)
    (h : ∀ a x, ((![i] : Fin S10240.rank → IVec S16 32) a x).toNat < S10240.size a) (N e0 : ℕ)
    (hf : (f : Vec F S10240 .f32) = Cert.Spec.sumsAcc (eaT m d) (eiV m d) (cL L) (jL L) N)
    (he : e0 = 160000 * (L 0).val + 16 * N)
    (hi : i = Cert.Spec.colVec (eiV m d) e0) (hv : v = Cert.Spec.eaVec (eaT m d) (jL L) e0) :
    ((B5).view.loc (V d (cV L) (jV L)) ↦{fullShare} (storeIdx (f : Vec F S10240 .f32) ![i] v (fun _ => 1#1) true h : Vec F S10240 .f32) : sProp 𝕄)
      = ((B5).view.loc (V d (cV L) (jV L)) ↦{fullShare} (Cert.Spec.sumsAcc (eaT m d) (eiV m d) (cL L) (jL L) (N + 1) : Vec F S10240 .f32)) := by
  subst hi hv he
  have hs := sum_step (F := F) (eaT m d) (eiV m d) (cL L) (jL L) N h
  rw [hf]
  exact congrArg (fun g : Vec F S10240 .f32 => ((B5).view.loc (V d (cV L) (jV L)) ↦{fullShare} g : sProp 𝕄)) hs

/-- The indexed add-store of one group read from chunk k, at the sum accumulator: the accumulator after one more group. -/
theorem wp_addStore_sum {α : Type} {Q : α → sProp 𝕄} (hpre : PreOK m)
    {i : IVec S16 32} {v : Vec F S16 .f32}
    {h : ∀ a x, ((![i] : Fin S10240.rank → IVec S16 32) a x).toNat < S10240.size a} {hs : ((B5).access (.whole S10240)).Stores Finset.univ}
    {kk : PUnit → Prog (TpuEff nD τ sig (Elt F) Λ₀ (.scVector (cV L) (jV L))) α} (N e0 : ℕ)
    (he : e0 = 160000 * (L 0).val + 16 * N)
    (hi : i = Cert.Spec.colVec (eiV m d) e0) (hv : v = Cert.Spec.eaVec (eaT m d) (jL L) e0) :
    ((B5).view.loc (V d (cV L) (jV L)) ↦{fullShare} (Cert.Spec.sumsAcc (eaT m d) (eiV m d) (cL L) (jL L) N : Vec F S10240 .f32) : sProp 𝕄)
      ⊢ iprop((((B5).view.loc (V d (cV L) (jV L)) ↦{fullShare} (Cert.Spec.sumsAcc (eaT m d) (eiV m d) (cL L) (jL L) (N + 1) : Vec F S10240 .f32))
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (SparseCore.vectorStoreIdx (B5) ![i] v (fun _ => 1#1) true h hs >>= kk) Q) := by
  have e := store_step m d L hpre (Cert.Spec.sumsAcc (eaT m d) (eiV m d) (cL L) (jL L) N : Vec F S10240 .f32) i v h N e0 rfl he hi hv
  have key := wp_addStore_B5 (F := F) (Q := Q) d L (idxs := ![i]) (v := v) (mask := fun _ => 1#1) (add := true) (h := h) (hs := hs) (k := kk)
    (Cert.Spec.sumsAcc (eaT m d) (eiV m d) (cL L) (jL L) N : Vec F S10240 .f32)
  rw [e] at key
  exact key

set_option maxHeartbeats 1000000 in
/-- One trip of the inner loop over chunk k held in its buffer pair: eight groups of sixteen edges added. -/
theorem inner_trip0 (hpre : PreOK m) (k : ℕ) (hk : k < 50) (gV : Buf (Elt F) ((V d (cV L) (jV L)).loc cc0_scratch0)) (gI : Buf (Elt F) ((V d (cV L) (jV L)).loc cc0_scratch2))
    (hgV : StgV m d L k hk (gV : Vec F S3200 .f32)) (hgI : StgI m d L k hk (gI : IVec S2x3200 32))
    (v2 c0 c1 : BitVec 32) (k4 : Fin k0_t4_loop.trips) (n : Fin k0_t5_loop.trips) (acc : Unit) :
    inv5 m d L k gV gI n.val acc
      ⊢ wp frame (wpE (defs₀ (F := F)) 𝒱₀ (V d (cV L) (jV L)) none) Set.univ
          (k0_t5_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 cc0_scoped1 cc0_scoped2 v2 c0 c1 k4 n acc)
          (inv5 m d L k gV gI (n.val + 1)) := by
  unfold inv5
  iintro ⟨H0, H2, H5⟩
  sl_exec (disch := first | sl_exact chk0_0 m d L hpre k hk gI hgI n | sl_exact chk0_1 m d L hpre k hk gI hgI n | sl_exact chk0_2 m d L hpre k hk gI hgI n | sl_exact chk0_3 m d L hpre k hk gI hgI n | sl_exact chk0_4 m d L hpre k hk gI hgI n | sl_exact chk0_5 m d L hpre k hk gI hgI n | sl_exact chk0_6 m d L hpre k hk gI hgI n | sl_exact chk0_7 m d L hpre k hk gI hgI n)
  iapply (wp_addStore_sum (F := F) m d L hpre (i := inner_trip0.sl.v67 d L gI n) (v := inner_trip0.sl.r d L gV n) (200 * k + 8 * n.val) (160000 * (L 0).val + 16 * (200 * k + 8 * n.val + 0)) (by omega)
      (sum_col_read0 m L d k hk gI hgI n 0) (sum_ea_read0 m L d k hk gV hgV n 0)) $$ [H5]
  · iexact H5
  iintro H5
  iapply (wp_addStore_sum (F := F) m d L hpre (i := inner_trip0.sl.v73 d L gI n) (v := inner_trip0.sl.r_1 d L gV n) (200 * k + 8 * n.val + 1) (160000 * (L 0).val + 16 * (200 * k + 8 * n.val + 1)) (by omega)
      (sum_col_read0 m L d k hk gI hgI n 1) (sum_ea_read0 m L d k hk gV hgV n 1)) $$ [H5]
  · iexact H5
  iintro H5
  iapply (wp_addStore_sum (F := F) m d L hpre (i := inner_trip0.sl.v79 d L gI n) (v := View.readAt (Elt F) (B0).view (Rect.unit (s := S3200) (k0_off9 n 2#32) S16.size (k0_off9_inb n 2)).toLoadRect gV) (200 * k + 8 * n.val + 1 + 1) (160000 * (L 0).val + 16 * (200 * k + 8 * n.val + 2)) (by omega)
      (sum_col_read0 m L d k hk gI hgI n 2) (sum_ea_read0 m L d k hk gV hgV n 2)) $$ [H5]
  · iexact H5
  iintro H5
  iapply (wp_addStore_sum (F := F) m d L hpre (i := inner_trip0.sl.v85 d L gI n) (v := View.readAt (Elt F) (B0).view (Rect.unit (s := S3200) (k0_off9 n 3#32) S16.size (k0_off9_inb n 3)).toLoadRect gV) (200 * k + 8 * n.val + 1 + 1 + 1) (160000 * (L 0).val + 16 * (200 * k + 8 * n.val + 3)) (by omega)
      (sum_col_read0 m L d k hk gI hgI n 3) (sum_ea_read0 m L d k hk gV hgV n 3)) $$ [H5]
  · iexact H5
  iintro H5
  iapply (wp_addStore_sum (F := F) m d L hpre (i := inner_trip0.sl.v91 d L gI n) (v := View.readAt (Elt F) (B0).view (Rect.unit (s := S3200) (k0_off9 n 4#32) S16.size (k0_off9_inb n 4)).toLoadRect gV) (200 * k + 8 * n.val + 1 + 1 + 1 + 1) (160000 * (L 0).val + 16 * (200 * k + 8 * n.val + 4)) (by omega)
      (sum_col_read0 m L d k hk gI hgI n 4) (sum_ea_read0 m L d k hk gV hgV n 4)) $$ [H5]
  · iexact H5
  iintro H5
  iapply (wp_addStore_sum (F := F) m d L hpre (i := inner_trip0.sl.v97 d L gI n) (v := View.readAt (Elt F) (B0).view (Rect.unit (s := S3200) (k0_off9 n 5#32) S16.size (k0_off9_inb n 5)).toLoadRect gV) (200 * k + 8 * n.val + 1 + 1 + 1 + 1 + 1) (160000 * (L 0).val + 16 * (200 * k + 8 * n.val + 5)) (by omega)
      (sum_col_read0 m L d k hk gI hgI n 5) (sum_ea_read0 m L d k hk gV hgV n 5)) $$ [H5]
  · iexact H5
  iintro H5
  iapply (wp_addStore_sum (F := F) m d L hpre (i := inner_trip0.sl.v103 d L gI n) (v := View.readAt (Elt F) (B0).view (Rect.unit (s := S3200) (k0_off9 n 6#32) S16.size (k0_off9_inb n 6)).toLoadRect gV) (200 * k + 8 * n.val + 1 + 1 + 1 + 1 + 1 + 1) (160000 * (L 0).val + 16 * (200 * k + 8 * n.val + 6)) (by omega)
      (sum_col_read0 m L d k hk gI hgI n 6) (sum_ea_read0 m L d k hk gV hgV n 6)) $$ [H5]
  · iexact H5
  iintro H5
  iapply (wp_addStore_sum (F := F) m d L hpre (i := inner_trip0.sl.v109 d L gI n) (v := View.readAt (Elt F) (B0).view (Rect.unit (s := S3200) (k0_off9 n 7#32) S16.size (k0_off9_inb n 7)).toLoadRect gV) (200 * k + 8 * n.val + 1 + 1 + 1 + 1 + 1 + 1 + 1) (160000 * (L 0).val + 16 * (200 * k + 8 * n.val + 7)) (by omega)
      (sum_col_read0 m L d k hk gI hgI n 7) (sum_ea_read0 m L d k hk gV hgV n 7)) $$ [H5]
  · iexact H5
  iintro H5
  rw [show 200 * k + 8 * n.val + 1 + 1 + 1 + 1 + 1 + 1 + 1 + 1 = 200 * k + 8 * (n.val + 1) from by omega]
  sl_step
  isplitl [H0]; · iexact H0
  isplitl [H2]; · iexact H2
  iexact H5

set_option maxHeartbeats 1000000 in
/-- One trip of the inner loop over chunk k held in its buffer pair: eight groups of sixteen edges added. -/
theorem inner_trip1 (hpre : PreOK m) (k : ℕ) (hk : k < 50) (gV : Buf (Elt F) ((V d (cV L) (jV L)).loc cc0_scratch1)) (gI : Buf (Elt F) ((V d (cV L) (jV L)).loc cc0_scratch3))
    (hgV : StgV m d L k hk (gV : Vec F S3200 .f32)) (hgI : StgI m d L k hk (gI : IVec S2x3200 32))
    (v2 c0 c1 : BitVec 32) (k4 : Fin k0_t4_loop.trips) (n : Fin k0_t6_loop.trips) (acc : Unit) :
    inv6 m d L k gV gI n.val acc
      ⊢ wp frame (wpE (defs₀ (F := F)) 𝒱₀ (V d (cV L) (jV L)) none) Set.univ
          (k0_t6_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 cc0_scoped1 cc0_scoped2 v2 c0 c1 k4 n acc)
          (inv6 m d L k gV gI (n.val + 1)) := by
  unfold inv6
  iintro ⟨H0, H2, H5⟩
  sl_exec (disch := first | sl_exact chk1_0 m d L hpre k hk gI hgI n | sl_exact chk1_1 m d L hpre k hk gI hgI n | sl_exact chk1_2 m d L hpre k hk gI hgI n | sl_exact chk1_3 m d L hpre k hk gI hgI n | sl_exact chk1_4 m d L hpre k hk gI hgI n | sl_exact chk1_5 m d L hpre k hk gI hgI n | sl_exact chk1_6 m d L hpre k hk gI hgI n | sl_exact chk1_7 m d L hpre k hk gI hgI n)
  iapply (wp_addStore_sum (F := F) m d L hpre (i := inner_trip1.sl.v67 d L gI n) (v := inner_trip1.sl.r d L gV n) (200 * k + 8 * n.val) (160000 * (L 0).val + 16 * (200 * k + 8 * n.val + 0)) (by omega)
      (sum_col_read1 m L d k hk gI hgI n 0) (sum_ea_read1 m L d k hk gV hgV n 0)) $$ [H5]
  · iexact H5
  iintro H5
  iapply (wp_addStore_sum (F := F) m d L hpre (i := inner_trip1.sl.v73 d L gI n) (v := inner_trip1.sl.r_1 d L gV n) (200 * k + 8 * n.val + 1) (160000 * (L 0).val + 16 * (200 * k + 8 * n.val + 1)) (by omega)
      (sum_col_read1 m L d k hk gI hgI n 1) (sum_ea_read1 m L d k hk gV hgV n 1)) $$ [H5]
  · iexact H5
  iintro H5
  iapply (wp_addStore_sum (F := F) m d L hpre (i := inner_trip1.sl.v79 d L gI n) (v := View.readAt (Elt F) (B1).view (Rect.unit (s := S3200) (k0_off13 n 2#32) S16.size (k0_off13_inb n 2)).toLoadRect gV) (200 * k + 8 * n.val + 1 + 1) (160000 * (L 0).val + 16 * (200 * k + 8 * n.val + 2)) (by omega)
      (sum_col_read1 m L d k hk gI hgI n 2) (sum_ea_read1 m L d k hk gV hgV n 2)) $$ [H5]
  · iexact H5
  iintro H5
  iapply (wp_addStore_sum (F := F) m d L hpre (i := inner_trip1.sl.v85 d L gI n) (v := View.readAt (Elt F) (B1).view (Rect.unit (s := S3200) (k0_off13 n 3#32) S16.size (k0_off13_inb n 3)).toLoadRect gV) (200 * k + 8 * n.val + 1 + 1 + 1) (160000 * (L 0).val + 16 * (200 * k + 8 * n.val + 3)) (by omega)
      (sum_col_read1 m L d k hk gI hgI n 3) (sum_ea_read1 m L d k hk gV hgV n 3)) $$ [H5]
  · iexact H5
  iintro H5
  iapply (wp_addStore_sum (F := F) m d L hpre (i := inner_trip1.sl.v91 d L gI n) (v := View.readAt (Elt F) (B1).view (Rect.unit (s := S3200) (k0_off13 n 4#32) S16.size (k0_off13_inb n 4)).toLoadRect gV) (200 * k + 8 * n.val + 1 + 1 + 1 + 1) (160000 * (L 0).val + 16 * (200 * k + 8 * n.val + 4)) (by omega)
      (sum_col_read1 m L d k hk gI hgI n 4) (sum_ea_read1 m L d k hk gV hgV n 4)) $$ [H5]
  · iexact H5
  iintro H5
  iapply (wp_addStore_sum (F := F) m d L hpre (i := inner_trip1.sl.v97 d L gI n) (v := View.readAt (Elt F) (B1).view (Rect.unit (s := S3200) (k0_off13 n 5#32) S16.size (k0_off13_inb n 5)).toLoadRect gV) (200 * k + 8 * n.val + 1 + 1 + 1 + 1 + 1) (160000 * (L 0).val + 16 * (200 * k + 8 * n.val + 5)) (by omega)
      (sum_col_read1 m L d k hk gI hgI n 5) (sum_ea_read1 m L d k hk gV hgV n 5)) $$ [H5]
  · iexact H5
  iintro H5
  iapply (wp_addStore_sum (F := F) m d L hpre (i := inner_trip1.sl.v103 d L gI n) (v := View.readAt (Elt F) (B1).view (Rect.unit (s := S3200) (k0_off13 n 6#32) S16.size (k0_off13_inb n 6)).toLoadRect gV) (200 * k + 8 * n.val + 1 + 1 + 1 + 1 + 1 + 1) (160000 * (L 0).val + 16 * (200 * k + 8 * n.val + 6)) (by omega)
      (sum_col_read1 m L d k hk gI hgI n 6) (sum_ea_read1 m L d k hk gV hgV n 6)) $$ [H5]
  · iexact H5
  iintro H5
  iapply (wp_addStore_sum (F := F) m d L hpre (i := inner_trip1.sl.v109 d L gI n) (v := View.readAt (Elt F) (B1).view (Rect.unit (s := S3200) (k0_off13 n 7#32) S16.size (k0_off13_inb n 7)).toLoadRect gV) (200 * k + 8 * n.val + 1 + 1 + 1 + 1 + 1 + 1 + 1) (160000 * (L 0).val + 16 * (200 * k + 8 * n.val + 7)) (by omega)
      (sum_col_read1 m L d k hk gI hgI n 7) (sum_ea_read1 m L d k hk gV hgV n 7)) $$ [H5]
  · iexact H5
  iintro H5
  rw [show 200 * k + 8 * n.val + 1 + 1 + 1 + 1 + 1 + 1 + 1 + 1 = 200 * k + 8 * (n.val + 1) from by omega]
  sl_step
  isplitl [H0]; · iexact H0
  isplitl [H2]; · iexact H2
  iexact H5

end Cert.KernelIdeal.Run

end
-- ==== Proof.TilePair.lean ====
/-
  The tile's main phase, one trip of its outer loop: chunks 2 t and 2 t + 1 are in flight into the two buffer pairs;
  each is waited for and its 200 groups of sixteen edges added into the sum accumulator (the inner loops), and while a
  chunk two further on exists its copies are started again into the pair just emptied — after the last trip both pairs
  are at rest.  The accumulator after 400 t groups becomes the accumulator after 400 (t + 1).
-/
import proofs.«212450_g60069412602311_cont_9to1_m_657_24_alg».proof.Proof.TileInv
import proofs.«212450_g60069412602311_cont_9to1_m_657_24_alg».proof.Proof.TilePairInner
import proofs.«212450_g60069412602311_cont_9to1_m_657_24_alg».proof.Proof.TileFold

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F] (d : Dev nD) (L : grid0.Coords)

omit [FloatOps F] in
theorem t4_lt (t : Fin k0_t4_loop.trips) : t.val < 25 := lt_of_lt_of_eq t.isLt k0_t4_trips

set_option maxHeartbeats 1600000 in
/-- One trip of the outer loop of the tile's main phase, against its invariant. -/
theorem pair_trip (hpre : PreOK m) (O : CellTallies nD τ sig (HIx 1)) (W : Waits sig (HIx 1)) (v2 : BitVec 32) (t : Fin k0_t4_loop.trips) (acc : Unit) :
    inv4 m d L O W t.val acc
      ⊢ wp frame (wpE (defs₀ (F := F)) 𝒱₀ (V d (cV L) (jV L)) none) Set.univ
          (k0_t4_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 cc0_scoped1 cc0_scoped2 v2 t acc)
          (inv4 m d L O W (t.val + 1)) := by
  by_cases hc : t.val < 24
  · have k0_h1 : k0_cond1 t = 1#1 := (k0_cond1_iff t).2 hc
    have k0_h2 : k0_cond2 t = 1#1 := (k0_cond2_iff t).2 hc
    have ht := t4_lt t
    have h0 : 2 * t.val < 50 := by omega
    have h1 : 2 * t.val + 1 < 50 := by omega
    have hopen : inv4 m d L O W t.val acc ⊢ iprop(Transfers.MayWaits (V d (cV L) (jV L)) (none : HIx 1) O
        ∗ ((B5).view.loc (V d (cV L) (jV L)) ↦{fullShare} (Cert.Spec.sumsAcc (eaT m d) (eiV m d) (cL L) (jL L) (400 * t.val) : Vec F S10240 .f32))
        ∗ (FlV0 m d L (2 * t.val) h0 ∗ FlI0 m d L (2 * t.val) h0) ∗ (FlV1 m d L (2 * t.val + 1) h1 ∗ FlI1 m d L (2 * t.val + 1) h1)
        ∗ ∃ W', ⌜∀ p ∈ W', p ∈ W ∨ p.2 = none⌝ ∗ owes (V d (cV L) (jV L)) O W') := by
      unfold inv4 Slot0 Slot1
      rw [dif_pos h0, dif_pos h1]
    refine hopen.trans ?_
    unfold FlV0 FlI0 FlV1 FlI1
    iintro ⟨Hmw, H5, ⟨⟨%gV0, %Sv0, %hV0, Hf0, Hr0⟩, ⟨%gI0, %Si0, %hI0, Hf2, Hr2⟩⟩, ⟨⟨%gV1, %Sv1, %hV1, Hf1, Hr1⟩, ⟨%gI1, %Si1, %hI1, Hf3, Hr3⟩⟩, ⟨%W', %hW', HO⟩⟩
    sl_exec
    rw [show 400 * t.val = 200 * (2 * t.val) + 8 * 0 from by omega]
    sl_for (inv5 m d L (2 * t.val) gV0 gI0) $$ [Hf0_dst Hf2_dst H5]
    case region =>
      intro n a
      exact inner_trip0 m d L hpre (2 * t.val) h0 gV0 gI0 hV0 hI0 _ _ _ _ n a
    · unfold inv5
      isplitl [Hf0_dst]; · iexact Hf0_dst
      isplitl [Hf2_dst]; · iexact Hf2_dst
      iexact H5
    iintro %_ HI
    unfold inv5
    icases HI with ⟨H0, H2, H5⟩
    rw [show Scf.trips k0_t5_loop.lb k0_t5_loop.ub k0_t5_loop.st = 25 from k0_t5_trips,
      show 200 * (2 * t.val) + 8 * 25 = 200 * (2 * t.val + 1) + 8 * 0 from by omega]
    sl_exec
    sl_for (inv6 m d L (2 * t.val + 1) gV1 gI1) $$ [Hf1_dst Hf3_dst H5]
    case region =>
      intro n a
      exact inner_trip1 m d L hpre (2 * t.val + 1) h1 gV1 gI1 hV1 hI1 _ _ _ _ n a
    · unfold inv6
      isplitl [Hf1_dst]; · iexact Hf1_dst
      isplitl [Hf3_dst]; · iexact Hf3_dst
      iexact H5
    iintro %_ HI
    unfold inv6
    icases HI with ⟨H1, H3, H5⟩
    rw [show Scf.trips k0_t6_loop.lb k0_t6_loop.ub k0_t6_loop.st = 25 from k0_t6_trips,
      show 200 * (2 * t.val + 1) + 8 * 25 = 400 * (t.val + 1) from by omega]
    sl_exec

    sl_step
    have hk0 : 2 * (t.val + 1) < 50 := by omega
    have hk1 : 2 * (t.val + 1) + 1 < 50 := by omega
    unfold inv4 Slot0 Slot1
    rw [dif_pos hk0, dif_pos hk1]
    isplitl [Hmw]; · iexact Hmw
    isplitl [H5]; · iexact H5
    isplitl [Hf0 Hr0 Hf2 Hr2]
    · isplitl [Hf0 Hr0]
      · iapply (fold_FlV0 m d L (2 * (t.val + 1)) hk0 gV0 _ rfl (k0_off10 L t) (k0_off10_inb L t k0_h1) (fun _ => rfl) ((k0_off10_chunk L t).trans (by congr 2))) $$ [Hf0 Hr0]
        isplitl [Hf0]
        · iexact Hf0
        · iexact Hr0
      · iapply (fold_FlI0 m d L (2 * (t.val + 1)) hk0 gI0 _ rfl (k0_off11 L t) (k0_off11_inb L t k0_h1) (fun _ => rfl) ((k0_off11_chunk L t).trans (by congr 2))) $$ [Hf2 Hr2]
        isplitl [Hf2]
        · iexact Hf2
        · iexact Hr2
    isplitl [Hf1 Hr1 Hf3 Hr3]
    · isplitl [Hf1 Hr1]
      · iapply (fold_FlV1 m d L (2 * (t.val + 1) + 1) hk1 gV1 _ rfl (k0_off14 L t) (k0_off14_inb L t k0_h2) (fun _ => rfl) ((k0_off14_chunk L t).trans (by congr 2))) $$ [Hf1 Hr1]
        isplitl [Hf1]
        · iexact Hf1
        · iexact Hr1
      · iapply (fold_FlI1 m d L (2 * (t.val + 1) + 1) hk1 gI1 _ rfl (k0_off15 L t) (k0_off15_inb L t k0_h2) (fun _ => rfl) ((k0_off15_chunk L t).trans (by congr 2))) $$ [Hf3 Hr3]
        isplitl [Hf3]
        · iexact Hf3
        · iexact Hr3
    iexists (insert (SemLoc.dma cc0_scratch10.sem, (default : HIx 1)) (insert (SemLoc.dma cc0_scratch8.sem, (default : HIx 1)) (insert (SemLoc.dma cc0_scratch9.sem, (default : HIx 1)) (insert (SemLoc.dma cc0_scratch7.sem, (default : HIx 1)) W'))))
    isplitr
    · ipureintro
      intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      · exact hW' p hp
    · iexact HO

  · have k0_h1 : ¬ k0_cond1 t = 1#1 := fun h => hc ((k0_cond1_iff t).1 h)
    have k0_h2 : ¬ k0_cond2 t = 1#1 := fun h => hc ((k0_cond2_iff t).1 h)
    have ht := t4_lt t
    have h0 : 2 * t.val < 50 := by omega
    have h1 : 2 * t.val + 1 < 50 := by omega
    have hopen : inv4 m d L O W t.val acc ⊢ iprop(Transfers.MayWaits (V d (cV L) (jV L)) (none : HIx 1) O
        ∗ ((B5).view.loc (V d (cV L) (jV L)) ↦{fullShare} (Cert.Spec.sumsAcc (eaT m d) (eiV m d) (cL L) (jL L) (400 * t.val) : Vec F S10240 .f32))
        ∗ (FlV0 m d L (2 * t.val) h0 ∗ FlI0 m d L (2 * t.val) h0) ∗ (FlV1 m d L (2 * t.val + 1) h1 ∗ FlI1 m d L (2 * t.val + 1) h1)
        ∗ ∃ W', ⌜∀ p ∈ W', p ∈ W ∨ p.2 = none⌝ ∗ owes (V d (cV L) (jV L)) O W') := by
      unfold inv4 Slot0 Slot1
      rw [dif_pos h0, dif_pos h1]
    refine hopen.trans ?_
    unfold FlV0 FlI0 FlV1 FlI1
    iintro ⟨Hmw, H5, ⟨⟨%gV0, %Sv0, %hV0, Hf0, Hr0⟩, ⟨%gI0, %Si0, %hI0, Hf2, Hr2⟩⟩, ⟨⟨%gV1, %Sv1, %hV1, Hf1, Hr1⟩, ⟨%gI1, %Si1, %hI1, Hf3, Hr3⟩⟩, ⟨%W', %hW', HO⟩⟩
    sl_exec
    rw [show 400 * t.val = 200 * (2 * t.val) + 8 * 0 from by omega]
    sl_for (inv5 m d L (2 * t.val) gV0 gI0) $$ [Hf0_dst Hf2_dst H5]
    case region =>
      intro n a
      exact inner_trip0 m d L hpre (2 * t.val) h0 gV0 gI0 hV0 hI0 _ _ _ _ n a
    · unfold inv5
      isplitl [Hf0_dst]; · iexact Hf0_dst
      isplitl [Hf2_dst]; · iexact Hf2_dst
      iexact H5
    iintro %_ HI
    unfold inv5
    icases HI with ⟨H0, H2, H5⟩
    rw [show Scf.trips k0_t5_loop.lb k0_t5_loop.ub k0_t5_loop.st = 25 from k0_t5_trips,
      show 200 * (2 * t.val) + 8 * 25 = 200 * (2 * t.val + 1) + 8 * 0 from by omega]
    sl_exec
    sl_for (inv6 m d L (2 * t.val + 1) gV1 gI1) $$ [Hf1_dst Hf3_dst H5]
    case region =>
      intro n a
      exact inner_trip1 m d L hpre (2 * t.val + 1) h1 gV1 gI1 hV1 hI1 _ _ _ _ n a
    · unfold inv6
      isplitl [Hf1_dst]; · iexact Hf1_dst
      isplitl [Hf3_dst]; · iexact Hf3_dst
      iexact H5
    iintro %_ HI
    unfold inv6
    icases HI with ⟨H1, H3, H5⟩
    rw [show Scf.trips k0_t6_loop.lb k0_t6_loop.ub k0_t6_loop.st = 25 from k0_t6_trips,
      show 200 * (2 * t.val + 1) + 8 * 25 = 400 * (t.val + 1) from by omega]
    sl_exec

    sl_step
    have hk0 : ¬ 2 * (t.val + 1) < 50 := by omega
    have hk1 : ¬ 2 * (t.val + 1) + 1 < 50 := by omega
    unfold inv4 Slot0 Slot1
    rw [dif_neg hk0, dif_neg hk1]
    unfold Idle0 Idle1
    isplitl [Hmw]; · iexact Hmw
    isplitl [H5]; · iexact H5
    isplitl [Hf0 Hf2 H0 H2 Hr0 Hr2]
    · isplitl [Hf0]; · iexact Hf0
      isplitl [Hf2]; · iexact Hf2
      isplitl [H0]; · iexists _; iexact H0
      isplitl [H2]; · iexists _; iexact H2
      isplitl [Hr0]; · iexact Hr0
      iexact Hr2
    isplitl [Hf1 Hf3 H1 H3 Hr1 Hr3]
    · isplitl [Hf1]; · iexact Hf1
      isplitl [Hf3]; · iexact Hf3
      isplitl [H1]; · iexists _; iexact H1
      isplitl [H3]; · iexists _; iexact H3
      isplitl [Hr1]; · iexact Hr1
      iexact Hr3
    iexists (insert (SemLoc.dma cc0_scratch10.sem, (default : HIx 1)) (insert (SemLoc.dma cc0_scratch8.sem, (default : HIx 1)) (insert (SemLoc.dma cc0_scratch9.sem, (default : HIx 1)) (insert (SemLoc.dma cc0_scratch7.sem, (default : HIx 1)) W'))))
    isplitr
    · ipureintro
      intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      · exact hW' p hp
    · iexact HO

end Cert.KernelIdeal.Run

end
-- ==== Proof.TileBody.lean ====
/-
  One tile's task, run once at a symbolic tile for any float instance.  The two accumulators are zeroed; the tile's
  counting range of the edge list is fetched and its target nodes counted into the count accumulator; the fifty chunks
  of the tile's half of the edges are fetched two at a time, each chunk's attribute added at its target nodes into the
  sum accumulator while the chunk after the next is on its way; both accumulators are copied out to the tile's entries of
  the two result arrays.  The accumulators' contents are carried in the loops' invariants as the folds of the indexed
  add-store that the specification states, so the tile hands back its entries holding exactly those folds.
-/
import proofs.«212450_g60069412602311_cont_9to1_m_657_24_alg».proof.Proof.TileInv
import proofs.«212450_g60069412602311_cont_9to1_m_657_24_alg».proof.Proof.TileEZero
import proofs.«212450_g60069412602311_cont_9to1_m_657_24_alg».proof.Proof.TileFold
import proofs.«212450_g60069412602311_cont_9to1_m_657_24_alg».proof.Proof.TileCOut
import proofs.«212450_g60069412602311_cont_9to1_m_657_24_alg».proof.Proof.TileEJoin
import proofs.«212450_g60069412602311_cont_9to1_m_657_24_alg».proof.Proof.TileTrip2
import proofs.«212450_g60069412602311_cont_9to1_m_657_24_alg».proof.Proof.TilePair

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

theorem Slot0_pos (d : Dev nD) (L : grid0.Coords) (k : ℕ) (hk : k < 50) : Slot0 m d L k = iprop(FlV0 m d L k hk ∗ FlI0 m d L k hk) := dif_pos hk
theorem Slot1_pos (d : Dev nD) (L : grid0.Coords) (k : ℕ) (hk : k < 50) : Slot1 m d L k = iprop(FlV1 m d L k hk ∗ FlI1 m d L k hk) := dif_pos hk
theorem Slot0_neg (d : Dev nD) (L : grid0.Coords) (k : ℕ) (hk : ¬ k < 50) : Slot0 m d L k = Idle0 m d L := dif_neg hk
theorem Slot1_neg (d : Dev nD) (L : grid0.Coords) (k : ℕ) (hk : ¬ k < 50) : Slot1 m d L k = Idle1 m d L := dif_neg hk

omit [FloatOps F] in
theorem tok_at0 {ℓ : Loc nD τ sig} {Sx : Finset (Idx ℓ)} {f : Buf (Elt F) ℓ} (q : PosShare TreeShare) :
    (ℓ ↦[Sx]{q} f : sProp 𝕄) ⊣⊢ iprop((ℓ ↦[Sx]{Transfers.shareDrop q 1} f) ∗ ℓ ↦[Sx]{Transfers.shareTokN q 0} f) :=
  tok_succ q 0
omit [FloatOps F] in
theorem tok_at {ℓ : Loc nD τ sig} {Sx : Finset (Idx ℓ)} {f : Buf (Elt F) ℓ} (q : PosShare TreeShare) (k k' : ℕ) (hk : k' = k + 1) :
    (ℓ ↦[Sx]{Transfers.shareDrop q k} f : sProp 𝕄) ⊣⊢ iprop((ℓ ↦[Sx]{Transfers.shareDrop q k'} f) ∗ ℓ ↦[Sx]{Transfers.shareTokN q k} f) := by
  subst hk; exact tok_succ q k

set_option maxHeartbeats 800000 in
/-- The tile's task from what the call hands it to what it hands back: the read shares returned, its entries of the two
    result arrays holding its sum and count accumulators. -/
theorem tile_body (d : Dev nD) (L : grid0.Coords) (hF : (K (F := F)).Facts) (hpre : PreOK m) (O : CellTallies nD τ sig (HIx 1)) (W : Waits sig (HIx 1)) (hO : ∀ g, O g none = 0) :
    iprop(levAts (K (F := F)).L (K (F := F)).lev ∗ emp ∗ goRes m d (cL L) (jL L) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_scatter_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 cc0_scoped1 cc0_scoped2)
          fun _ => iprop(tdRes m d (cL L) (jL L) ∗ scopedBufs (V d (cV L) (jV L)) ∗ scopedSems0 (V d (cV L) (jV L)) ∗ ∃ W', ⌜∀ p ∈ W', p ∈ W ∨ p.2 = none⌝ ∗ owes (V d (cV L) (jV L)) O W') := by
  simp only [cc0__sc_scatter_body_eq_skeleton]; unfold cc0__sc_scatter_body_skel
  rw [(K (F := F)).scopedBufs_V hF d (cV L) (jV L), SparseCore.Cfg.scopedSems0_V (Val := Elt F) d (cV L) (jV L), ownSems0_V, ownBufs_V]
  unfold goRes
  iintro ⟨#Hlv, -, ⟨He, Hi, ⟨%fs, Hs⟩, ⟨%fc, Hc⟩⟩, ⟨⟨%f0, H0⟩, ⟨%f1, H1⟩, ⟨%f2, H2⟩, ⟨%f3, H3⟩, ⟨%f4, H4⟩, ⟨%f5, H5⟩, ⟨%f6, H6⟩, Hbufs⟩,
    ⟨Hsem0, Hsem1, Hsem2, Hsem3, Hsem4, Hsem5, Hsem6, Hsems⟩, HO⟩
  ihave Hmw := ((K (F := F)).mayWaits_none (thr := (V d (cV L) (jV L))) hO) $$ Hlv
  -- the read shares as tokens, one per semaphore that reads the array
  ihave He1 := (tok_at0 (F := F) (qTile (cL L) (jL L))).1 $$ He
  icases He1 with ⟨He1, Het0⟩
  ihave He2 := (tok_at (F := F) (qTile (cL L) (jL L)) 1 2 rfl).1 $$ He1
  icases He2 with ⟨Her, Het1⟩
  ihave Hi1 := (tok_at0 (F := F) (qTile (cL L) (jL L))).1 $$ Hi
  icases Hi1 with ⟨Hi1, Hit0⟩
  ihave Hi2 := (tok_at (F := F) (qTile (cL L) (jL L)) 1 2 rfl).1 $$ Hi1
  icases Hi2 with ⟨Hi2, Hit1⟩
  ihave Hi3 := (tok_at (F := F) (qTile (cL L) (jL L)) 2 3 rfl).1 $$ Hi2
  icases Hi3 with ⟨Hi3, Hit2⟩
  ihave Hi4 := (tok_at (F := F) (qTile (cL L) (jL L)) 3 4 rfl).1 $$ Hi3
  icases Hi4 with ⟨Hi4, Hit3⟩
  ihave Hi5 := (tok_at (F := F) (qTile (cL L) (jL L)) 4 5 rfl).1 $$ Hi4
  icases Hi5 with ⟨Hir, Hit4⟩
  ihave Het0' := (Entails.of_eq (pts_e (F := F) d L _ _).symm) $$ Het0
  ihave Het1' := (Entails.of_eq (pts_e (F := F) d L _ _).symm) $$ Het1
  ihave Hit2' := (Entails.of_eq (pts_i (F := F) d L _ _).symm) $$ Hit2
  ihave Hit3' := (Entails.of_eq (pts_i (F := F) d L _ _).symm) $$ Hit3
  ihave Hit4' := (Entails.of_eq (pts_i (F := F) d L _ _).symm) $$ Hit4
  ihave H0' := (Entails.of_eq (pts_B0 (F := F) d L _).symm) $$ H0
  ihave H1' := (Entails.of_eq (pts_B1 (F := F) d L _).symm) $$ H1
  ihave H2' := (Entails.of_eq (pts_B2 (F := F) d L _).symm) $$ H2
  ihave H3' := (Entails.of_eq (pts_B3 (F := F) d L _).symm) $$ H3
  ihave H4' := (Entails.of_eq (pts_B4 (F := F) d L _).symm) $$ H4
  ihave H5' := (Entails.of_eq (pts_B5 (F := F) d L _).symm) $$ H5
  ihave H6' := (Entails.of_eq (pts_B6 (F := F) d L _).symm) $$ H6
  sl_exec
  -- the zeroing loop
  sl_for (inv1 (F := F) d L) $$ [H5' H6']
  case region =>
    intro k _
    unfold inv1
    iintro ⟨⟨%g5, %h5, H5⟩, ⟨%g6, %h6, H6⟩⟩
    sl_exec
    sl_step
    isplitl [H5]
    · iexists _; isplitr
      · ipureintro; exact zd_step5 d L k g5 h5
      · iexact H5
    · iexists _; isplitr
      · ipureintro; exact zd_step6 d L k g6 h6
      · iexact H6
  · unfold inv1
    isplitl [H5']
    · iexists f5; isplitr
      · ipureintro; intro j hj; omega
      · iexact H5'
    · iexists f6; isplitr
      · ipureintro; intro j hj; omega
      · iexact H6'
  iintro %_ HI
  unfold inv1
  icases HI with ⟨⟨%g5, %h5, H5⟩, ⟨%g6, %h6, H6⟩⟩
  obtain rfl : g5 = (Cert.Spec.zeroAcc : Vec F S10240 .f32) := zd_done (g5 : Vec F S10240 .f32) h5
  obtain rfl : g6 = (Cert.Spec.zeroAcc : Vec F S10240 .f32) := zd_done (g6 : Vec F S10240 .f32) h6
  -- the four copies of chunks 0 and 1 start; the count range is fetched and waited for
  sl_exec
  sl_unfold_run_names
  -- the count loop
  have hg4 := stg4_landed m d L f4 (k0_off4 L) (k0_off4_inb L) (fun _ => rfl) (k0_off4_eq' L)
  sl_for (inv2 m d L (View.write (Elt F) (Memref.whole cc0_scratch4).view f4 (ReadAs.same.apply (View.read (Elt F) ((Memref.whole main_arg1_scv : Memref sig .scVector .hbm S2x320000 .i32).slice (Rect.unit (s := S2x320000) (k0_off4 L) S2x10112.size (k0_off4_inb L)) (fun _ => rfl)).view (eiV m d))) Finset.univ)) $$ [H4' H6]
  case region =>
    intro t acc
    exact trip2 m d L hpre _ hg4 t acc
  · unfold inv2
    isplitl [H4']
    · iexact H4'
    · iexact H6
  iintro %_ HI
  have e2 : 8 * Scf.trips (k0_t2_loop L).lb (k0_t2_loop L).ub (k0_t2_loop L).st = Cert.Spec.cntGroups (wL L) := k0_t2_groups L
  unfold inv2
  rw [e2]
  icases HI with ⟨H4, H6⟩
  sl_for0 (k0_t3_trips L)
  -- the pair loop: chunks 0 and 1 are in flight
  ihave HV0 := (fold_FlV0 m d L (2 * 0) (by omega) f0 _ rfl (k0_off2 L 0#32) (k0_off2_inb L 0) (fun _ => rfl) (k0_off2_chunk L 0)) $$ [Hsem0 Het0']
  · isplitl [Hsem0]
    · iexact Hsem0
    · iexact Het0'
  ihave HI0 := (fold_FlI0 m d L (2 * 0) (by omega) f2 _ rfl (k0_off3 L 0#32) (k0_off3_inb L 0) (fun _ => rfl) (k0_off3_chunk L 0)) $$ [Hsem2 Hit2']
  · isplitl [Hsem2]
    · iexact Hsem2
    · iexact Hit2'
  ihave HV1 := (fold_FlV1 m d L (2 * 0 + 1) (by omega) f1 _ rfl (k0_off2 L 3200#32) (k0_off2_inb L 1) (fun _ => rfl) (k0_off2_chunk L 1)) $$ [Hsem1 Het1']
  · isplitl [Hsem1]
    · iexact Hsem1
    · iexact Het1'
  ihave HI1 := (fold_FlI1 m d L (2 * 0 + 1) (by omega) f3 _ rfl (k0_off3 L 3200#32) (k0_off3_inb L 1) (fun _ => rfl) (k0_off3_chunk L 1)) $$ [Hsem3 Hit3']
  · isplitl [Hsem3]
    · iexact Hsem3
    · iexact Hit3'
  sl_for (inv4 m d L O W) $$ [H5 HV0 HI0 HV1 HI1 HO]
  case region =>
    intro t acc
    exact pair_trip m d L hpre O W _ t acc
  · unfold inv4
    rw [Slot0_pos m d L (2 * 0) (by omega), Slot1_pos m d L (2 * 0 + 1) (by omega)]
    isplitr
    · iexact Hmw
    isplitl [H5]
    · iexact H5
    isplitl [HV0 HI0]
    · isplitl [HV0]
      · iexact HV0
      · iexact HI0
    isplitl [HV1 HI1]
    · isplitl [HV1]
      · iexact HV1
      · iexact HI1
    iexists _; isplitr; swap
    · iexact HO
    · ipureintro; intro p hp
      rcases Finset.mem_insert.mp hp with rfl | hp
      · exact .inr rfl
      · exact .inl hp
  iintro %_ HI
  have e25 : Scf.trips k0_t4_loop.lb k0_t4_loop.ub k0_t4_loop.st = 25 := k0_t4_trips
  rw [e25]
  unfold inv4
  rw [Slot0_neg m d L (2 * 25) (by omega), Slot1_neg m d L (2 * 25 + 1) (by omega), show (400 : ℕ) * 25 = 10000 from rfl]
  unfold Idle0 Idle1
  icases HI with ⟨-, H5, ⟨Hsem0, Hsem2, ⟨%g0, H0⟩, ⟨%g2, H2⟩, Het0, Hit2⟩, ⟨Hsem1, Hsem3, ⟨%g1, H1⟩, ⟨%g3, H3⟩, Het1, Hit3⟩, %W', %hW', HO⟩
  -- the two accumulators out
  ihave Hs' := (Entails.of_eq (pts_sRow (F := F) d L _).symm) $$ Hs
  ihave Hc' := (Entails.of_eq (pts_cRow (F := F) d L _).symm) $$ Hc
  sl_exec
  sl_unfold_run_names
  sl_step
  unfold tdRes
  isplitl [Her Het0 Het1 Hir Hit0 Hit1 Hit2 Hit3 Hit4' Hs' Hc']
  · isplitl [Her Het0 Het1]
    · ihave Ht0 := (Entails.of_eq (pts_e (F := F) d L _ _)) $$ Het0
      ihave Ht1 := (Entails.of_eq (pts_e (F := F) d L _ _)) $$ Het1
      iapply (toks_join2 (F := F) (qTile (cL L) (jL L)))
      isplitl [Her]
      · iexact Her
      isplitl [Ht0]
      · iexact Ht0
      iexact Ht1
    isplitl [Hir Hit0 Hit1 Hit2 Hit3 Hit4']
    · ihave Ht2 := (Entails.of_eq (pts_i (F := F) d L _ _)) $$ Hit2
      ihave Ht3 := (Entails.of_eq (pts_i (F := F) d L _ _)) $$ Hit3
      ihave Ht4 := (Entails.of_eq (pts_i (F := F) d L _ _)) $$ Hit4'
      iapply (toks_join5 (F := F) (qTile (cL L) (jL L)))
      isplitl [Hir]
      · iexact Hir
      isplitl [Hit0]
      · iexact Hit0
      isplitl [Hit1]
      · iexact Hit1
      isplitl [Ht2]
      · iexact Ht2
      isplitl [Ht3]
      · iexact Ht3
      iexact Ht4
    isplitl [Hs']
    · ihave Hs'' := (Entails.of_eq (pts_sRow (F := F) d L _)) $$ Hs'
      iexists _; isplitr; swap
      · iexact Hs''
      · ipureintro; intro n
        refine (out_reads_s d L fs _ n).trans ?_
        simp only [ReadAs.apply_same, View.read_whole, Memref.view_whole]
        rfl
    · ihave Hc'' := (Entails.of_eq (pts_cRow (F := F) d L _)) $$ Hc'
      iexists _; isplitr; swap
      · iexact Hc''
      · ipureintro; intro n
        refine (out_reads_c d L fc _ n).trans ?_
        simp only [ReadAs.apply_same, View.read_whole, Memref.view_whole]
        rfl
  isplitl [H0 H1 H2 H3 H4 H5 H6 Hbufs]
  · isplitl [H0]
    · iexists _; iexact H0
    isplitl [H1]
    · iexists _; iexact H1
    isplitl [H2]
    · iexists _; iexact H2
    isplitl [H3]
    · iexists _; iexact H3
    isplitl [H4]
    · iexists _; iexact H4
    isplitl [H5]
    · iexists _; iexact H5
    isplitl [H6]
    · iexists _; iexact H6
    iexact Hbufs
  isplitl [Hsem0 Hsem1 Hsem2 Hsem3 Hsem4 Hsem5 Hsem6 Hsems]
  · isplitl [Hsem0]
    · iexact Hsem0
    isplitl [Hsem1]
    · iexact Hsem1
    isplitl [Hsem2]
    · iexact Hsem2
    isplitl [Hsem3]
    · iexact Hsem3
    isplitl [Hsem4]
    · iexact Hsem4
    isplitl [Hsem5]
    · iexact Hsem5
    isplitl [Hsem6]
    · iexact Hsem6
    iexact Hsems
  iexists _; isplitr; swap
  · iexact HO
  · ipureintro; intro p hp
    rcases Finset.mem_insert.mp hp with rfl | hp
    · exact .inr rfl
    rcases Finset.mem_insert.mp hp with rfl | hp
    · exact .inr rfl
    · exact hW' p hp

end Cert.KernelIdeal.Run

end
-- ==== Proof.WTileMem.lean ====
import proofs.«212450_g60069412602311_cont_9to1_m_657_24_alg».proof.Proof.WTileSetup

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays and the tile's buffers as the body names them -/

abbrev eW : Memref sig .scVector .hbm S16x320000 .f32 := Memref.whole main_v0_scv
abbrev iW : Memref sig .scVector .hbm S2x320000 .i32 := Memref.whole main_arg1_scv
abbrev sW : Memref sig .scVector .hbm S2x16x10240 .f32 := Memref.whole main_v1_0_scv
abbrev cW : Memref sig .scVector .hbm S2x16x10240 .f32 := Memref.whole main_v1_1_scv
abbrev B0 : Memref sig .scVector .vmem S3200 .f32 := Memref.whole cc0_scratch0
abbrev B1 : Memref sig .scVector .vmem S3200 .f32 := Memref.whole cc0_scratch1
abbrev B2 : Memref sig .scVector .vmem S2x3200 .i32 := Memref.whole cc0_scratch2
abbrev B3 : Memref sig .scVector .vmem S2x3200 .i32 := Memref.whole cc0_scratch3
abbrev B4 : Memref sig .scVector .vmem S2x10112 .i32 := Memref.whole cc0_scratch4
abbrev B5 : Memref sig .scVector .vmem S10240 .f32 := Memref.whole cc0_scratch5
abbrev B6 : Memref sig .scVector .vmem S10240 .f32 := Memref.whole cc0_scratch6

variable (d : Dev nD) (L : grid0.Coords)

/-- Entries (L 0, L 1, :) of a result array as the body slices them. -/
abbrev rowR (L : grid0.Coords) : Rect S2x16x10240 := Rect.unit (s := S2x16x10240) (k0_off16 L) S1x1x10240.size (k0_off16_inb L)
abbrev sRow (L : grid0.Coords) : Memref sig .scVector .hbm S10240 .f32 := ((sW).slice (rowR L) (fun _ => rfl)).squeeze S10240 squeezes_S1x1x10240_S10240
abbrev cRow (L : grid0.Coords) : Memref sig .scVector .hbm S10240 .f32 := ((cW).slice (rowR L) (fun _ => rfl)).squeeze S10240 squeezes_S1x1x10240_S10240

theorem rowR_set : (rowR L).set = rowSet (cL L) (jL L) := by
  ext j
  rw [Rect.mem_set_unit, k0_off16_eq]
  unfold rowSet
  simp only [Finset.mem_filter, Finset.mem_univ, true_and]
  constructor
  · intro h
    have h0 := h 0; have h1 := h 1
    simp at h0 h1
    exact ⟨by show (j 0).val = (L 0).val; omega, by show (j 1).val = (L 1).val; omega⟩
  · rintro ⟨h0, h1⟩ a
    have h0' : (j 0).val = (L 0).val := h0
    have h1' : (j 1).val = (L 1).val := h1
    have h2 : (j 2).val < 10240 := (j 2).isLt
    match a with
    | 0 => exact (show (L 0).val ≤ (j 0).val ∧ (j 0).val < (L 0).val + 1 from by omega)
    | 1 => exact (show (L 1).val ≤ (j 1).val ∧ (j 1).val < (L 1).val + 1 from by omega)
    | 2 => exact (show 0 ≤ (j 2).val ∧ (j 2).val < 0 + 10240 from by omega)

theorem set_sRow : (sRow L).view.set = rowSet (cL L) (jL L) := by
  show (((sW).view.slice (rowR L)).reshape S10240 squeezes_S1x1x10240_S10240.numel_eq).set = _
  rw [View.set_reshape]
  exact (View.set_slice_whole _ _).trans (rowR_set L)
theorem set_cRow : (cRow L).view.set = rowSet (cL L) (jL L) := by
  show (((cW).view.slice (rowR L)).reshape S10240 squeezes_S1x1x10240_S10240.numel_eq).set = _
  rw [View.set_reshape]
  exact (View.set_slice_whole _ _).trans (rowR_set L)

/-! ## The held buffers, addressed through the memrefs the body names -/

theorem pts_e (q : PosShare TreeShare) (f : Buf (Elt F) (eLoc d)) :
    ((eW).view.loc (V d (cV L) (jV L)) ↦{q} f : sProp 𝕄) = eLoc d ↦{q} f := by
  simp only [Memref.view_whole, View.set_whole]
theorem pts_i (q : PosShare TreeShare) (f : Buf (Elt F) (iLoc d)) :
    ((iW).view.loc (V d (cV L) (jV L)) ↦{q} f : sProp 𝕄) = iLoc d ↦{q} f := by
  simp only [Memref.view_whole, View.set_whole]
theorem pts_sRow (f : Buf (Elt F) (sLoc d)) :
    ((sRow L).view.loc (V d (cV L) (jV L)) ↦[(sRow L).view.set]{fullShare} f : sProp 𝕄) = sLoc d ↦[rowSet (cL L) (jL L)]{fullShare} f := by
  rw [set_sRow]
theorem pts_cRow (f : Buf (Elt F) (cLoc d)) :
    ((cRow L).view.loc (V d (cV L) (jV L)) ↦[(cRow L).view.set]{fullShare} f : sProp 𝕄) = cLoc d ↦[rowSet (cL L) (jL L)]{fullShare} f := by
  rw [set_cRow]
theorem pts_B0 (f : Buf (Elt F) ((V d (cV L) (jV L)).loc cc0_scratch0)) :
    ((B0).view.loc (V d (cV L) (jV L)) ↦{fullShare} f : sProp 𝕄) = (V d (cV L) (jV L)).loc cc0_scratch0 ↦{fullShare} f := rfl
theorem pts_B1 (f : Buf (Elt F) ((V d (cV L) (jV L)).loc cc0_scratch1)) :
    ((B1).view.loc (V d (cV L) (jV L)) ↦{fullShare} f : sProp 𝕄) = (V d (cV L) (jV L)).loc cc0_scratch1 ↦{fullShare} f := rfl
theorem pts_B2 (f : Buf (Elt F) ((V d (cV L) (jV L)).loc cc0_scratch2)) :
    ((B2).view.loc (V d (cV L) (jV L)) ↦{fullShare} f : sProp 𝕄) = (V d (cV L) (jV L)).loc cc0_scratch2 ↦{fullShare} f := rfl
theorem pts_B3 (f : Buf (Elt F) ((V d (cV L) (jV L)).loc cc0_scratch3)) :
    ((B3).view.loc (V d (cV L) (jV L)) ↦{fullShare} f : sProp 𝕄) = (V d (cV L) (jV L)).loc cc0_scratch3 ↦{fullShare} f := rfl
theorem pts_B4 (f : Buf (Elt F) ((V d (cV L) (jV L)).loc cc0_scratch4)) :
    ((B4).view.loc (V d (cV L) (jV L)) ↦{fullShare} f : sProp 𝕄) = (V d (cV L) (jV L)).loc cc0_scratch4 ↦{fullShare} f := rfl
theorem pts_B5 (f : Buf (Elt F) ((V d (cV L) (jV L)).loc cc0_scratch5)) :
    ((B5).view.loc (V d (cV L) (jV L)) ↦{fullShare} f : sProp 𝕄) = (V d (cV L) (jV L)).loc cc0_scratch5 ↦{fullShare} f := rfl
theorem pts_B6 (f : Buf (Elt F) ((V d (cV L) (jV L)).loc cc0_scratch6)) :
    ((B6).view.loc (V d (cV L) (jV L)) ↦{fullShare} f : sProp 𝕄) = (V d (cV L) (jV L)).loc cc0_scratch6 ↦{fullShare} f := rfl

/-! ## Read tokens, one at a time -/

theorem tok_succ {ℓ : Loc nD τ sig} {Sx : Finset (Idx ℓ)} {f : Buf (Elt F) ℓ} (q : PosShare TreeShare) (k : ℕ) :
    (ℓ ↦[Sx]{Transfers.shareDrop q k} f : sProp 𝕄) ⊣⊢ iprop((ℓ ↦[Sx]{Transfers.shareDrop q (k + 1)} f) ∗ ℓ ↦[Sx]{Transfers.shareTokN q k} f) :=
  pointsTo_share (PosShare.mem_left_op_right _)

end Cert.Kernel.Run

end
-- ==== Proof.WTileOps.lean ====
import proofs.«212450_g60069412602311_cont_9to1_m_657_24_alg».proof.Proof.WTileMem

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The indexed add-store into an accumulator held whole -/

theorem wp_addStore_B5 {α : Type} {Q : α → sProp 𝕄} (d : Dev nD) (L : grid0.Coords) {dd : Fin 1 → Nat}
    {idxs : Fin S10240.rank → IVec ⟨1, dd⟩ 32} {v : Vec F ⟨1, dd⟩ .f32} {mask : IVec ⟨1, dd⟩ 1} {add : Bool}
    {h : ∀ a x, (idxs a x).toNat < S10240.size a} {hs : ((B5).access (.whole S10240)).Stores Finset.univ}
    {k : PUnit → Prog (TpuEff nD τ sig (Elt F) Λ₀ (.scVector (cV L) (jV L))) α} (f : Buf (Elt F) ((V d (cV L) (jV L)).loc cc0_scratch5)) :
    ((B5).view.loc (V d (cV L) (jV L)) ↦{fullShare} f : sProp 𝕄)
      ⊢ iprop((((B5).view.loc (V d (cV L) (jV L)) ↦{fullShare} (storeIdx (f : Vec F S10240 .f32) idxs v mask add h : Vec F S10240 .f32))
            -∗ wp frame (wpE (defs₀ (F := F)) 𝒱₀ (V d (cV L) (jV L)) none) Set.univ (k ⟨⟩) Q)
          -∗ wp frame (wpE (defs₀ (F := F)) 𝒱₀ (V d (cV L) (jV L)) none) Set.univ (SparseCore.vectorStoreIdx (B5) idxs v mask add h hs >>= k) Q) := by
  have e1 : ((B5).access (.whole S10240)).read (Elt F) f = f := Memref.read_access_whole (Elt F) cc0_scratch5 f
  have e2 : ∀ w, ((B5).access (.whole S10240)).write (Elt F) f w Finset.univ = w := fun w => Memref.write_access_whole_univ (Elt F) cc0_scratch5 f w
  have e3 : ((B5).access (.whole S10240)).set = Finset.univ := Memref.set_access_whole cc0_scratch5
  have key := SparseCore.wp_vectorStoreIdx (defs := defs₀ (F := F)) (Ix := HIx 1) (Name := ℕ) (U := UU) (Lvl := ℕ) 𝒱₀ (V d (cV L) (jV L)) none Set.univ (base := B5) (idxs := idxs) (v := v) (mask := mask)
    (add := add) (h := h) (hs := hs) (k := k) (f := f) (Q := Q)
  rw [e1, e2, e3] at key
  exact key

theorem wp_addStore_B6 {α : Type} {Q : α → sProp 𝕄} (d : Dev nD) (L : grid0.Coords) {dd : Fin 1 → Nat}
    {idxs : Fin S10240.rank → IVec ⟨1, dd⟩ 32} {v : Vec F ⟨1, dd⟩ .f32} {mask : IVec ⟨1, dd⟩ 1} {add : Bool}
    {h : ∀ a x, (idxs a x).toNat < S10240.size a} {hs : ((B6).access (.whole S10240)).Stores Finset.univ}
    {k : PUnit → Prog (TpuEff nD τ sig (Elt F) Λ₀ (.scVector (cV L) (jV L))) α} (f : Buf (Elt F) ((V d (cV L) (jV L)).loc cc0_scratch6)) :
    ((B6).view.loc (V d (cV L) (jV L)) ↦{fullShare} f : sProp 𝕄)
      ⊢ iprop((((B6).view.loc (V d (cV L) (jV L)) ↦{fullShare} (storeIdx (f : Vec F S10240 .f32) idxs v mask add h : Vec F S10240 .f32))
            -∗ wp frame (wpE (defs₀ (F := F)) 𝒱₀ (V d (cV L) (jV L)) none) Set.univ (k ⟨⟩) Q)
          -∗ wp frame (wpE (defs₀ (F := F)) 𝒱₀ (V d (cV L) (jV L)) none) Set.univ (SparseCore.vectorStoreIdx (B6) idxs v mask add h hs >>= k) Q) := by
  have e1 : ((B6).access (.whole S10240)).read (Elt F) f = f := Memref.read_access_whole (Elt F) cc0_scratch6 f
  have e2 : ∀ w, ((B6).access (.whole S10240)).write (Elt F) f w Finset.univ = w := fun w => Memref.write_access_whole_univ (Elt F) cc0_scratch6 f w
  have e3 : ((B6).access (.whole S10240)).set = Finset.univ := Memref.set_access_whole cc0_scratch6
  have key := SparseCore.wp_vectorStoreIdx (defs := defs₀ (F := F)) (Ix := HIx 1) (Name := ℕ) (U := UU) (Lvl := ℕ) 𝒱₀ (V d (cV L) (jV L)) none Set.univ (base := B6) (idxs := idxs) (v := v) (mask := mask)
    (add := add) (h := h) (hs := hs) (k := k) (f := f) (Q := Q)
  rw [e1, e2, e3] at key
  exact key

end Cert.Kernel.Run

end
-- ==== Proof.WTileDPure1.lean ====
/-
  Closed forms of the tile body's loop bounds, conditions and offsets that the printed program computes on 32-bit
  words: the count loop of tile (c, f) makes 78 trips, or 79 when its range number 2 f + c is at least 28; the loop
  printed for a remainder makes none; the prefetch of the chunk after next is issued in all trips of the pair loop but
  the last; the count range is read from the edge list at the range's first edge.
-/
import proofs.«212450_g60069412602311_cont_9to1_m_657_24_alg».proof.Proof.WTileSetup

namespace Cert.Kernel.Run

open Cert.Kernel Cert.Kernel.Gen
open Idealize.ShloMosaic Idealize.ShloMosaic.ValueIdx

/-- Tile L's range number among the 32 counting ranges. -/
abbrev wL (L : grid0.Coords) : Nat := 2 * (L 1).val + (L 0).val

theorem wL_lt (L : grid0.Coords) : wL L < 32 := by
  have h0 : (L 0).val < 2 := (L 0).isLt
  have h1 : (L 1).val < 16 := (L 1).isLt
  show 2 * (L 1).val + (L 0).val < 32
  omega

/-- The pair loop makes 25 trips. -/
theorem k0_t4_trips : k0_t4_loop.trips = 25 := by decide +kernel
/-- Each chunk's scatter loop makes 25 trips of 8 groups of 16 edges. -/
theorem k0_t5_trips : k0_t5_loop.trips = 25 := by decide +kernel
theorem k0_t6_trips : k0_t6_loop.trips = 25 := by decide +kernel
/-- The zeroing loop makes 640 trips. -/
theorem k0_t1_trips : k0_t1_loop.trips = 640 := by decide +kernel

/-- The first slot's prefetch of chunk 2 t + 2 is issued exactly in the trips t < 24. -/
theorem k0_cond1_iff : ∀ t : Fin k0_t4_loop.trips, k0_cond1 t = 1#1 ↔ t.val < 24 := by decide +kernel
/-- The second slot's prefetch of chunk 2 t + 3 is issued exactly in the trips t < 24. -/
theorem k0_cond2_iff : ∀ t : Fin k0_t4_loop.trips, k0_cond2 t = 1#1 ↔ t.val < 24 := by decide +kernel

/-- The loop printed for the count loop's remainder makes no trip. -/
theorem k0_t3_trips (L : grid0.Coords) : (k0_t3_loop L).trips = 0 := Nat.le_zero.1 (k0_t3_abs L).2.1

/-- The count loop makes 79 trips for the ranges 28 … 31 and 78 for the others. -/
theorem k0_t2_trips : ∀ L : grid0.Coords, (k0_t2_loop L).trips = if 28 ≤ 2 * (L 1).val + (L 0).val then 79 else 78 := by
  decide +kernel

/-- Eight groups of 16 edges per trip: the count loop covers the range's groups. -/
theorem k0_t2_groups (L : grid0.Coords) : 8 * (k0_t2_loop L).trips = Cert.Spec.cntGroups (wL L) := by
  rw [k0_t2_trips L]
  show _ = (if 28 ≤ 2 * (L 1).val + (L 0).val then 79 else 78) * 8
  split <;> rfl

/-- The count range is copied from the edge list at the range's first edge, both rows. -/
theorem k0_off4_eq : ∀ L : grid0.Coords, k0_off4 L = ![0, (78 * (2 * (L 1).val + (L 0).val) + ((2 * (L 1).val + (L 0).val) - 28)) * 128] := by
  decide +kernel

theorem k0_off4_eq' (L : grid0.Coords) : k0_off4 L = ![0, Cert.Spec.cntOff (wL L)] := k0_off4_eq L

/-- The count range's copy of 10112 edges stays inside the edge list. -/
theorem cntOff_add_le (L : grid0.Coords) : Cert.Spec.cntOff (wL L) + 10112 ≤ 320000 := by
  have h := k0_off4_inb L 1
  rw [k0_off4_eq' L] at h
  exact h

/-- A count group read by trip t, lane group r lies inside the range's copy and inside the edge list. -/
theorem cnt_group_lt (L : grid0.Coords) (t : Fin (k0_t2_loop L).trips) (r : Fin 8) (l : Fin 16) :
    128 * t.val + 16 * r.val + l.val < 10112 ∧ Cert.Spec.cntOff (wL L) + (128 * t.val + 16 * r.val + l.val) < 320000 := by
  have ht : t.val < 79 := Nat.lt_of_lt_of_le t.isLt (k0_t2_abs L).2.1
  have h := cntOff_add_le L
  have hr := r.isLt
  have hl := l.isLt
  omega

end Cert.Kernel.Run
-- ==== Proof.WTileDPure2.lean ====
/-
  What the tile's indexed stores and vector loads see, as pure facts.

  Under the precondition's range every 16 target nodes read off the edge list are inside the accumulators: the side
  condition of each indexed add-store.  A staged copy of a stretch of the edge list (or of a row of the transposed
  attribute table), read 16 lanes at a time at the offsets the loops compute, gives the 16 consecutive edges' target
  nodes (attributes) at the matching place of the whole list.
-/
import proofs.«212450_g60069412602311_cont_9to1_m_657_24_alg».proof.Proof.WTileDPure1
import Idealize.ShloMosaic.Lib.Pipeline.Value

noncomputable section

namespace Cert.Kernel.Run

open Cert.Kernel Cert.Kernel.Gen
open Idealize.ShloMosaic Idealize.ShloMosaic.ValueIdx
open Idealize.ShloMosaic.SparseCore (S V T)

variable {F : FTy → Type} [FloatOps F]
variable (m : (ℓ : Loc nD τ sig) → Buf (Elt F) ℓ)

/-! ## The indexed stores' side condition -/

/-- Under the range, each of 16 target nodes read off the edge list (or the zero word past its end) is below 10240. -/
theorem colVec_lt (hpre : PreOK m) (d : Dev nD) (e0 : Nat) (l : Cert.Spec.SLane.Idx) :
    (Cert.Spec.colVec (eiV m d) e0 l).toNat < 10240 := by
  unfold Cert.Spec.colVec
  split
  · exact Nat.lt_of_le_of_lt (hpre d _) (by decide)
  · decide

/-- The side condition of an indexed add-store at 16 target nodes, in the accumulator's own spelling. -/
theorem inb_colVec (hpre : PreOK m) (d : Dev nD) (e0 : Nat) :
    ∀ (a : Fin Cert.Spec.SAcc.rank) (x : Cert.Spec.SLane.Idx),
      ((![Cert.Spec.colVec (eiV m d) e0] : Fin Cert.Spec.SAcc.rank → IVec Cert.Spec.SLane 32) a x).toNat < Cert.Spec.SAcc.size a := by
  intro a x
  obtain rfl : a = 0 := Subsingleton.elim _ _
  exact colVec_lt m hpre d e0 x

/-- The same as the printed body assumes it (all its 32 checks are this one predicate). -/
theorem chk_colVec (hpre : PreOK m) (d : Dev nD) (e0 : Nat) : k0_chk1 (Cert.Spec.colVec (eiV m d) e0) :=
  inb_colVec m hpre d e0

/-! ## The count range's staged copy, read 16 lanes at a time -/

/-- A place of the count range's copy is a place of the edge list. -/
theorem cnt_col_lt (L : grid0.Coords) (j1 : Fin 10112) : Cert.Spec.cntOff (wL L) + j1.val < 320000 := by
  have h := cntOff_add_le L
  have := j1.isLt
  omega

/-- Trip t, lane group r of the count loop reads the target nodes of the 16 edges from the range's
    (8 t + r)-th group on, when the staged copy holds the edge list from the range's first edge. -/
theorem cnt_read (L : grid0.Coords) (d : Dev nD) (g : Buf (Elt F) ((V d (cV L) (jV L)).loc cc0_scratch4))
    (hg : ∀ j : S2x10112.Idx, g j = (eiV m d : IVec S2x320000 32) (ix2 (j 0) (⟨Cert.Spec.cntOff (wL L) + (j 1).val, cnt_col_lt L (j 1)⟩ : Fin 320000)))
    (t : Fin (k0_t2_loop L).trips) (r : Fin 8) :
    shapeCast S16 ((Memref.whole cc0_scratch4 : Memref sig .scVector .vmem S2x10112 .i32).view.readAt (Elt F)
        (Rect.unit (s := S2x10112) (k0_off5 L t (BitVec.ofNat 32 r.val)) S1x16.size (k0_off5_inb L t r)).toLoadRect g) shapeCasts_S1x16_S16
      = Cert.Spec.colVec (eiV m d) (Cert.Spec.cntOff (wL L) + 16 * (8 * t.val + r.val)) := by
  funext l
  obtain ⟨l0, rfl⟩ : ∃ l0 : Fin 16, l = ix1 l0 := ⟨l 0, eq_ix1 l⟩
  have hlt := cnt_group_lt L t r l0
  rw [shapeCast_apply _ shapeCasts_S1x16_S16 (ix1 l0) (ix2 (0 : Fin 1) l0)
    (by rewrite [Shape.rowMajor_val_two, Shape.rowMajor_val_one]; show 0 * 16 + l0.val = l0.val; omega)]
  have hidx : (Rect.unit (s := S2x10112) (k0_off5 L t (BitVec.ofNat 32 r.val)) S1x16.size (k0_off5_inb L t r)).toLoadRect.idx (ix2 (0 : Fin 1) l0)
      = ix2 (1 : Fin 2) (⟨128 * t.val + 16 * r.val + l0.val, hlt.1⟩ : Fin 10112) := by
    funext a
    apply Fin.ext
    have e := k0_off5_eq L t r
    match a with
    | ⟨0, _⟩ =>
      show k0_off5 L t (BitVec.ofNat 32 r.val) 0 + 1 * 0 = 1
      rw [e]; rfl
    | ⟨1, _⟩ =>
      show k0_off5 L t (BitVec.ofNat 32 r.val) 1 + 1 * l0.val = 128 * t.val + 16 * r.val + l0.val
      rw [e]; show 128 * t.val + 16 * r.val + 1 * l0.val = _; omega
  show g ((Rect.unit (s := S2x10112) (k0_off5 L t (BitVec.ofNat 32 r.val)) S1x16.size (k0_off5_inb L t r)).toLoadRect.idx (ix2 (0 : Fin 1) l0)) = _
  rw [hidx, hg]
  unfold Cert.Spec.colVec
  have hpos : Cert.Spec.cntOff (wL L) + 16 * (8 * t.val + r.val) + ((ix1 l0 : Cert.Spec.SLane.Idx) 0).val < 320000 := by
    show Cert.Spec.cntOff (wL L) + 16 * (8 * t.val + r.val) + l0.val < 320000
    have := hlt.2; omega
  rw [dif_pos hpos]
  congr 1
  funext a
  match a with
  | ⟨0, _⟩ => rfl
  | ⟨1, _⟩ => exact Fin.ext (by show Cert.Spec.cntOff (wL L) + (128 * t.val + 16 * r.val + l0.val) = Cert.Spec.cntOff (wL L) + 16 * (8 * t.val + r.val) + l0.val; omega)

/-! ## A staged stretch of the edge list or of an attribute row, read 16 lanes at a time -/

/-- A copy g of W consecutive edges of the list from edge e1 on (both rows), read at 16 lanes from place p of row 1,
    gives the target nodes of the 16 edges from e1 + p on. -/
theorem colRead_core {W : Nat} (col : IVec Cert.Spec.SCol 32) (e1 : Nat) (he1 : e1 + W ≤ 320000)
    (g : (⟨2, ![2, W]⟩ : Shape).Idx → BitVec 32)
    (hg : ∀ j : (⟨2, ![2, W]⟩ : Shape).Idx, g j = col (ix2 (j 0) (⟨e1 + (j 1).val, by have := idx2_lt1 j; omega⟩ : Fin 320000)))
    (off : Fin 2 → Nat) (inb : ∀ a, off a + S1x16.size a ≤ (⟨2, ![2, W]⟩ : Shape).size a) (p : Nat) (hoff : off = ![1, p]) :
    shapeCast S16 (fun y => g ((Rect.unit (s := ⟨2, ![2, W]⟩) off S1x16.size inb).toLoadRect.idx y)) shapeCasts_S1x16_S16
      = Cert.Spec.colVec col (e1 + p) := by
  have hp : p + 16 ≤ W := by
    have h := inb 1
    rw [hoff] at h
    exact h
  funext l
  obtain ⟨l0, rfl⟩ : ∃ l0 : Fin 16, l = ix1 l0 := ⟨l 0, eq_ix1 l⟩
  have hl := l0.isLt
  rw [shapeCast_apply _ shapeCasts_S1x16_S16 (ix1 l0) (ix2 (0 : Fin 1) l0)
    (by rewrite [Shape.rowMajor_val_two, Shape.rowMajor_val_one]; show 0 * 16 + l0.val = l0.val; omega)]
  have hidx : (Rect.unit (s := ⟨2, ![2, W]⟩) off S1x16.size inb).toLoadRect.idx (ix2 (0 : Fin 1) l0)
      = ix2 (1 : Fin 2) (⟨p + l0.val, by omega⟩ : Fin W) := by
    funext a
    apply Fin.ext
    match a with
    | ⟨0, _⟩ =>
      show off 0 + 1 * 0 = 1
      rw [hoff]; rfl
    | ⟨1, _⟩ =>
      show off 1 + 1 * l0.val = p + l0.val
      rw [hoff]; show p + 1 * l0.val = _; omega
  show g _ = _
  rw [hidx, hg]
  unfold Cert.Spec.colVec
  have hpos : e1 + p + ((ix1 l0 : Cert.Spec.SLane.Idx) 0).val < 320000 := by
    show e1 + p + l0.val < 320000
    omega
  rw [dif_pos hpos]
  congr 1
  funext a
  match a with
  | ⟨0, _⟩ => rfl
  | ⟨1, _⟩ => exact Fin.ext (by show e1 + (p + l0.val) = e1 + p + l0.val; omega)

/-- A copy g of 3200 consecutive entries of row f of the transposed attribute table from edge e1 on, read at 16 lanes
    from place p, gives attribute f of the 16 edges from e1 + p on. -/
theorem eaRead_core (eaT : Vec F Cert.Spec.SEaT .f32) (f : Fin 16) (e1 : Nat) (he1 : e1 + 3200 ≤ 320000)
    (g : S3200.Idx → Elt F .f32)
    (hg : ∀ j : S3200.Idx, g j = eaT (ix2 f (⟨e1 + (j 0).val, by have : (j 0).val < 3200 := (j 0).isLt; omega⟩ : Fin 320000)))
    (off : Fin 1 → Nat) (inb : ∀ a, off a + S16.size a ≤ S3200.size a) (p : Nat) (hoff : off = ![p]) :
    (fun y => g ((Rect.unit (s := S3200) off S16.size inb).toLoadRect.idx y)) = Cert.Spec.eaVec eaT f (e1 + p) := by
  have hp : p + 16 ≤ 3200 := by
    have h := inb 0
    rw [hoff] at h
    exact h
  funext l
  obtain ⟨l0, rfl⟩ : ∃ l0 : Fin 16, l = ix1 l0 := ⟨l 0, eq_ix1 l⟩
  have hl := l0.isLt
  have hidx : (Rect.unit (s := S3200) off S16.size inb).toLoadRect.idx (ix1 l0) = ix1 (⟨p + l0.val, by omega⟩ : Fin 3200) := by
    funext a
    apply Fin.ext
    match a with
    | ⟨0, _⟩ =>
      show off 0 + 1 * l0.val = p + l0.val
      rw [hoff]; show p + 1 * l0.val = _; omega
  show g _ = _
  rw [hidx, hg]
  unfold Cert.Spec.eaVec
  have hpos : e1 + p + ((ix1 l0 : Cert.Spec.SLane.Idx) 0).val < 320000 := by
    show e1 + p + l0.val < 320000
    omega
  rw [dif_pos hpos]
  congr 1
  funext a
  match a with
  | ⟨0, _⟩ => rfl
  | ⟨1, _⟩ => exact Fin.ext (by show e1 + (p + l0.val) = e1 + p + l0.val; omega)

/-- Chunk k of half c begins at edge 160000 c + 3200 k and ends inside the half. -/
theorem chunk_le (L : grid0.Coords) (k : Nat) (hk : k < 50) : 160000 * (L 0).val + 3200 * k + 3200 ≤ 320000 := by
  have h0 : (L 0).val < 2 := (L 0).isLt
  omega

theorem chunk_lt (L : grid0.Coords) (k : Nat) (hk : k < 50) (j : Fin 3200) : 160000 * (L 0).val + 3200 * k + j.val < 320000 := by
  have := chunk_le L k hk
  have := j.isLt
  omega

/-- Slot 0's staged edges of chunk k, read by trip t, lane group r of its scatter loop. -/
theorem sum_col_read0 (L : grid0.Coords) (d : Dev nD) (k : Nat) (hk : k < 50)
    (g : Buf (Elt F) ((V d (cV L) (jV L)).loc cc0_scratch2))
    (hg : ∀ j : S2x3200.Idx, g j = (eiV m d : IVec S2x320000 32) (ix2 (j 0) (⟨160000 * (L 0).val + 3200 * k + (j 1).val, chunk_lt L k hk (j 1)⟩ : Fin 320000)))
    (t : Fin k0_t5_loop.trips) (r : Fin 8) :
    shapeCast S16 ((Memref.whole cc0_scratch2 : Memref sig .scVector .vmem S2x3200 .i32).view.readAt (Elt F)
        (Rect.unit (s := S2x3200) (k0_off8 t (BitVec.ofNat 32 r.val)) S1x16.size (k0_off8_inb t r)).toLoadRect g) shapeCasts_S1x16_S16
      = Cert.Spec.colVec (eiV m d) (160000 * (L 0).val + 16 * (200 * k + 8 * t.val + r.val)) :=
  (colRead_core (W := 3200) (eiV m d) (160000 * (L 0).val + 3200 * k) (chunk_le L k hk) g hg _ (k0_off8_inb t r)
    (128 * t.val + 16 * r.val) (k0_off8_eq t r)).trans (congrArg _ (by omega))

/-- Slot 1's staged edges of chunk k, read by trip t, lane group r of its scatter loop. -/
theorem sum_col_read1 (L : grid0.Coords) (d : Dev nD) (k : Nat) (hk : k < 50)
    (g : Buf (Elt F) ((V d (cV L) (jV L)).loc cc0_scratch3))
    (hg : ∀ j : S2x3200.Idx, g j = (eiV m d : IVec S2x320000 32) (ix2 (j 0) (⟨160000 * (L 0).val + 3200 * k + (j 1).val, chunk_lt L k hk (j 1)⟩ : Fin 320000)))
    (t : Fin k0_t6_loop.trips) (r : Fin 8) :
    shapeCast S16 ((Memref.whole cc0_scratch3 : Memref sig .scVector .vmem S2x3200 .i32).view.readAt (Elt F)
        (Rect.unit (s := S2x3200) (k0_off12 t (BitVec.ofNat 32 r.val)) S1x16.size (k0_off12_inb t r)).toLoadRect g) shapeCasts_S1x16_S16
      = Cert.Spec.colVec (eiV m d) (160000 * (L 0).val + 16 * (200 * k + 8 * t.val + r.val)) :=
  (colRead_core (W := 3200) (eiV m d) (160000 * (L 0).val + 3200 * k) (chunk_le L k hk) g hg _ (k0_off12_inb t r)
    (128 * t.val + 16 * r.val) (k0_off12_eq t r)).trans (congrArg _ (by omega))

/-- Slot 0's staged attributes of chunk k, read by trip t, lane group r of its scatter loop. -/
theorem sum_ea_read0 (L : grid0.Coords) (d : Dev nD) (k : Nat) (hk : k < 50)
    (g : Buf (Elt F) ((V d (cV L) (jV L)).loc cc0_scratch0))
    (hg : ∀ j : S3200.Idx, g j = (eaT m d : Vec F S16x320000 .f32) (ix2 (jL L) (⟨160000 * (L 0).val + 3200 * k + (j 0).val, chunk_lt L k hk (j 0)⟩ : Fin 320000)))
    (t : Fin k0_t5_loop.trips) (r : Fin 8) :
    (Memref.whole cc0_scratch0 : Memref sig .scVector .vmem S3200 .f32).view.readAt (Elt F)
        (Rect.unit (s := S3200) (k0_off9 t (BitVec.ofNat 32 r.val)) S16.size (k0_off9_inb t r)).toLoadRect g
      = Cert.Spec.eaVec (eaT m d) (jL L) (160000 * (L 0).val + 16 * (200 * k + 8 * t.val + r.val)) :=
  (eaRead_core (eaT m d) (jL L) (160000 * (L 0).val + 3200 * k) (chunk_le L k hk) g hg _ (k0_off9_inb t r)
    (128 * t.val + 16 * r.val) (k0_off9_eq t r)).trans (congrArg _ (by omega))

/-- Slot 1's staged attributes of chunk k, read by trip t, lane group r of its scatter loop. -/
theorem sum_ea_read1 (L : grid0.Coords) (d : Dev nD) (k : Nat) (hk : k < 50)
    (g : Buf (Elt F) ((V d (cV L) (jV L)).loc cc0_scratch1))
    (hg : ∀ j : S3200.Idx, g j = (eaT m d : Vec F S16x320000 .f32) (ix2 (jL L) (⟨160000 * (L 0).val + 3200 * k + (j 0).val, chunk_lt L k hk (j 0)⟩ : Fin 320000)))
    (t : Fin k0_t6_loop.trips) (r : Fin 8) :
    (Memref.whole cc0_scratch1 : Memref sig .scVector .vmem S3200 .f32).view.readAt (Elt F)
        (Rect.unit (s := S3200) (k0_off13 t (BitVec.ofNat 32 r.val)) S16.size (k0_off13_inb t r)).toLoadRect g
      = Cert.Spec.eaVec (eaT m d) (jL L) (160000 * (L 0).val + 16 * (200 * k + 8 * t.val + r.val)) :=
  (eaRead_core (eaT m d) (jL L) (160000 * (L 0).val + 3200 * k) (chunk_le L k hk) g hg _ (k0_off13_inb t r)
    (128 * t.val + 16 * r.val) (k0_off13_eq t r)).trans (congrArg _ (by omega))

end Cert.Kernel.Run

end
-- ==== Proof.WTileDPure3.lean ====
/-
  Where a copy's source slice sits in its array, and what a whole-buffer write leaves.

  The tile's copies read a stretch of the edge list (both rows, some consecutive edges) or of one row of the transposed
  attribute table (sliced as a [1, 3200] rectangle and squeezed to [3200]).  Read through such a slice, the source's
  contents are the array's at the same place shifted by the slice's offset.
-/
import proofs.«212450_g60069412602311_cont_9to1_m_657_24_alg».proof.Proof.WTileDPure2

noncomputable section

namespace Cert.Kernel.Run

open Cert.Kernel Cert.Kernel.Gen
open Idealize.ShloMosaic Idealize.ShloMosaic.ValueIdx
open Idealize.ShloMosaic.SparseCore (S V T)

variable {F : FTy → Type} [FloatOps F]

/-- Place j of a [2, W] slice of the edge list at offsets (0, e1) is place (j 0, e1 + j 1) of the list. -/
theorem col_slice_idx {W : Nat} (off : Fin 2 → Nat) (inb : ∀ a, off a + (⟨2, ![2, W]⟩ : Shape).size a ≤ S2x320000.size a)
    (e1 : Nat) (hoff : off = ![0, e1]) (j : (⟨2, ![2, W]⟩ : Shape).Idx) (h : e1 + (j 1).val < 320000) :
    (Rect.unit (s := S2x320000) off (⟨2, ![2, W]⟩ : Shape).size inb).emb j = ix2 (j 0) (⟨e1 + (j 1).val, h⟩ : Fin 320000) := by
  funext a
  apply Fin.ext
  match a with
  | ⟨0, _⟩ =>
    show off 0 + 1 * (j 0).val = (j 0).val
    rw [hoff]; show 0 + 1 * (j 0).val = _; omega
  | ⟨1, _⟩ =>
    show off 1 + 1 * (j 1).val = e1 + (j 1).val
    rw [hoff]; show e1 + 1 * (j 1).val = _; omega

/-- Place j of a [1, 3200] slice of the transposed attribute table at offsets (f, e1) is place (f, e1 + j 1). -/
theorem ea_slice_idx (off : Fin 2 → Nat) (inb : ∀ a, off a + S1x3200.size a ≤ S16x320000.size a)
    (f : Fin 16) (e1 : Nat) (hoff : off = ![f.val, e1]) (j : S1x3200.Idx) (h : e1 + (j 1).val < 320000) :
    (Rect.unit (s := S16x320000) off S1x3200.size inb).emb j = ix2 f (⟨e1 + (j 1).val, h⟩ : Fin 320000) := by
  funext a
  apply Fin.ext
  have h0 : (j 0).val = 0 := by have : (j 0).val < 1 := (j 0).isLt; omega
  match a with
  | ⟨0, _⟩ =>
    show off 0 + 1 * (j 0).val = f.val
    rw [hoff, h0]; rfl
  | ⟨1, _⟩ =>
    show off 1 + 1 * (j 1).val = e1 + (j 1).val
    rw [hoff]; show e1 + 1 * (j 1).val = _; omega

/-- Place j of the squeezed [3200] view is place (0, j) of the [1, 3200] slice. -/
theorem squeeze_idx (j : S3200.Idx) :
    Shape.reshapeEquiv (s := S1x3200) (s' := S3200) squeezes_S1x3200_S3200.numel_eq j = ix2 (0 : Fin 1) (⟨(j 0).val, (j 0).isLt⟩ : Fin 3200) := by
  refine Shape.reshapeEquiv_eq_of_rowMajor _ ?_
  rewrite [Shape.rowMajor_val_two, Shape.rowMajor_val_one]
  show 0 * 3200 + (j 0).val = (j 0).val
  omega

/-! ## The sources read through their slices -/

/-- The edge list read through a [2, W] slice at offsets (0, e1). -/
theorem read_col_slice {W : Nat} (fs : (⟨S2x320000, .i32⟩ : BufTy).Contents (Elt F)) (off : Fin 2 → Nat)
    (inb : ∀ a, off a + (⟨2, ![2, W]⟩ : Shape).size a ≤ S2x320000.size a)
    (hs : ∀ a, (Rect.unit (s := S2x320000) off (⟨2, ![2, W]⟩ : Shape).size inb).stride a = 1)
    (e1 : Nat) (hoff : off = ![0, e1]) (j : (⟨2, ![2, W]⟩ : Shape).Idx) (h : e1 + (j 1).val < 320000) :
    ((Memref.whole main_arg1_scv : Memref sig .scVector .hbm S2x320000 .i32).slice
        (Rect.unit (s := S2x320000) off (⟨2, ![2, W]⟩ : Shape).size inb) hs).view.read (Elt F) fs j
      = fs (ix2 (j 0) (⟨e1 + (j 1).val, h⟩ : Fin 320000)) := by
  exact congrArg fs (col_slice_idx off inb e1 hoff j h)

/-- Row f of the transposed attribute table read through a [1, 3200] slice at offsets (f, e1), squeezed to [3200]. -/
theorem read_ea_slice (fs : (⟨S16x320000, .f32⟩ : BufTy).Contents (Elt F)) (off : Fin 2 → Nat)
    (inb : ∀ a, off a + S1x3200.size a ≤ S16x320000.size a)
    (hs : ∀ a, (Rect.unit (s := S16x320000) off S1x3200.size inb).stride a = 1)
    (f : Fin 16) (e1 : Nat) (hoff : off = ![f.val, e1]) (j : S3200.Idx) (h : e1 + (j 0).val < 320000) :
    (((Memref.whole main_v0_scv : Memref sig .scVector .hbm S16x320000 .f32).slice
        (Rect.unit (s := S16x320000) off S1x3200.size inb) hs).squeeze S3200 squeezes_S1x3200_S3200).view.read (Elt F) fs j
      = fs (ix2 f (⟨e1 + (j 0).val, h⟩ : Fin 320000)) := by
  show fs ((Rect.unit (s := S16x320000) off S1x3200.size inb).emb
    (Shape.reshapeEquiv (s := S1x3200) (s' := S3200) squeezes_S1x3200_S3200.numel_eq j)) = _
  rw [squeeze_idx j]
  exact congrArg fs (ea_slice_idx off inb f e1 hoff _ h)

/-! ## The offsets of the tile's copies, as chunk numbers -/

/-- The two copies issued before the loops fetch chunks 0 and 1 of the half. -/
theorem k0_off3_chunk (L : grid0.Coords) (r : Fin 2) :
    k0_off3 L (BitVec.ofNat 32 (3200 * r.val)) = ![0, 160000 * (L 0).val + 3200 * r.val] := k0_off3_eq L r
theorem k0_off2_chunk (L : grid0.Coords) (r : Fin 2) :
    k0_off2 L (BitVec.ofNat 32 (3200 * r.val)) = ![(jL L).val, 160000 * (L 0).val + 3200 * r.val] := k0_off2_eq L r
/-- Trip t of the pair loop fetches chunk 2 t + 2 into slot 0 and chunk 2 t + 3 into slot 1. -/
theorem k0_off11_chunk (L : grid0.Coords) (t : Fin k0_t4_loop.trips) :
    k0_off11 L t = ![0, 160000 * (L 0).val + 3200 * (2 * t.val + 2)] := by
  rw [k0_off11_eq, show 160000 * (L 0).val + 6400 * t.val + 6400 = 160000 * (L 0).val + 3200 * (2 * t.val + 2) by omega]
theorem k0_off10_chunk (L : grid0.Coords) (t : Fin k0_t4_loop.trips) :
    k0_off10 L t = ![(jL L).val, 160000 * (L 0).val + 3200 * (2 * t.val + 2)] := by
  rw [k0_off10_eq, show 160000 * (L 0).val + 6400 * t.val + 6400 = 160000 * (L 0).val + 3200 * (2 * t.val + 2) by omega]
  rfl
theorem k0_off15_chunk (L : grid0.Coords) (t : Fin k0_t4_loop.trips) :
    k0_off15 L t = ![0, 160000 * (L 0).val + 3200 * (2 * t.val + 3)] := by
  rw [k0_off15_eq, show 160000 * (L 0).val + 6400 * t.val + 9600 = 160000 * (L 0).val + 3200 * (2 * t.val + 3) by omega]
theorem k0_off14_chunk (L : grid0.Coords) (t : Fin k0_t4_loop.trips) :
    k0_off14 L t = ![(jL L).val, 160000 * (L 0).val + 3200 * (2 * t.val + 3)] := by
  rw [k0_off14_eq, show 160000 * (L 0).val + 6400 * t.val + 9600 = 160000 * (L 0).val + 3200 * (2 * t.val + 3) by omega]
  rfl

end Cert.Kernel.Run

end
-- ==== Proof.WTileDPure4.lean ====
/-
  The sources of the tile's copies, read through the slices the program makes, in the form the staged buffers'
  reads ask for: chunk k of the half's edges (both rows), chunk k of the tile's attribute row, and the count range.
-/
import proofs.«212450_g60069412602311_cont_9to1_m_657_24_alg».proof.Proof.WTileDPure3

noncomputable section

namespace Cert.Kernel.Run

open Cert.Kernel Cert.Kernel.Gen
open Idealize.ShloMosaic Idealize.ShloMosaic.ValueIdx
open Idealize.ShloMosaic.SparseCore (S V T)

variable {F : FTy → Type} [FloatOps F]
variable (m : (ℓ : Loc nD τ sig) → Buf (Elt F) ℓ)

/-- Chunk k of the half's edges, read through a [2, 3200] slice of the edge list at that chunk. -/
theorem src_col (L : grid0.Coords) (d : Dev nD) (k : Nat) (hk : k < 50) (off : Fin 2 → Nat)
    (inb : ∀ a, off a + S2x3200.size a ≤ S2x320000.size a)
    (hs : ∀ a, (Rect.unit (s := S2x320000) off S2x3200.size inb).stride a = 1)
    (hoff : off = ![0, 160000 * (L 0).val + 3200 * k]) (j : S2x3200.Idx) :
    ((Memref.whole main_arg1_scv : Memref sig .scVector .hbm S2x320000 .i32).slice
        (Rect.unit (s := S2x320000) off S2x3200.size inb) hs).view.read (Elt F) (eiV m d) j
      = (eiV m d : IVec S2x320000 32) (ix2 (j 0) (⟨160000 * (L 0).val + 3200 * k + (j 1).val, chunk_lt L k hk (j 1)⟩ : Fin 320000)) :=
  read_col_slice (W := 3200) (eiV m d) off inb hs _ hoff j _

/-- The count range, read through the [2, 10112] slice of the edge list at the range's first edge. -/
theorem src_cnt (L : grid0.Coords) (d : Dev nD) (off : Fin 2 → Nat)
    (inb : ∀ a, off a + S2x10112.size a ≤ S2x320000.size a)
    (hs : ∀ a, (Rect.unit (s := S2x320000) off S2x10112.size inb).stride a = 1)
    (hoff : off = ![0, Cert.Spec.cntOff (wL L)]) (j : S2x10112.Idx) :
    ((Memref.whole main_arg1_scv : Memref sig .scVector .hbm S2x320000 .i32).slice
        (Rect.unit (s := S2x320000) off S2x10112.size inb) hs).view.read (Elt F) (eiV m d) j
      = (eiV m d : IVec S2x320000 32) (ix2 (j 0) (⟨Cert.Spec.cntOff (wL L) + (j 1).val, cnt_col_lt L (j 1)⟩ : Fin 320000)) :=
  read_col_slice (W := 10112) (eiV m d) off inb hs _ hoff j _

/-- Chunk k of the tile's attribute row, read through the squeezed [1, 3200] slice of the transposed table. -/
theorem src_ea (L : grid0.Coords) (d : Dev nD) (k : Nat) (hk : k < 50) (off : Fin 2 → Nat)
    (inb : ∀ a, off a + S1x3200.size a ≤ S16x320000.size a)
    (hs : ∀ a, (Rect.unit (s := S16x320000) off S1x3200.size inb).stride a = 1)
    (hoff : off = ![(jL L).val, 160000 * (L 0).val + 3200 * k]) (j : S3200.Idx) :
    (((Memref.whole main_v0_scv : Memref sig .scVector .hbm S16x320000 .f32).slice
        (Rect.unit (s := S16x320000) off S1x3200.size inb) hs).squeeze S3200 squeezes_S1x3200_S3200).view.read (Elt F) (eaT m d) j
      = (eaT m d : Vec F S16x320000 .f32) (ix2 (jL L) (⟨160000 * (L 0).val + 3200 * k + (j 0).val, chunk_lt L k hk (j 0)⟩ : Fin 320000)) :=
  read_ea_slice (eaT m d) off inb hs (jL L) _ hoff j _

/-! The program's own spellings, as instances. -/

example (L : grid0.Coords) (d : Dev nD) (j : S2x3200.Idx) :
    ((Memref.whole main_arg1_scv : Memref sig .scVector .hbm S2x320000 .i32).slice
        (Rect.unit (s := S2x320000) (k0_off3 L 0#32) S2x3200.size (k0_off3_inb L 0)) (fun _ => rfl)).view.read (Elt F) (eiV m d) j
      = (eiV m d : IVec S2x320000 32) (ix2 (j 0) (⟨160000 * (L 0).val + 3200 * 0 + (j 1).val, chunk_lt L 0 (by omega) (j 1)⟩ : Fin 320000)) :=
  src_col m L d 0 (by omega) _ _ _ (k0_off3_chunk L 0) j

example (L : grid0.Coords) (d : Dev nD) (j : S2x3200.Idx) :
    ((Memref.whole main_arg1_scv : Memref sig .scVector .hbm S2x320000 .i32).slice
        (Rect.unit (s := S2x320000) (k0_off3 L 3200#32) S2x3200.size (k0_off3_inb L 1)) (fun _ => rfl)).view.read (Elt F) (eiV m d) j
      = (eiV m d : IVec S2x320000 32) (ix2 (j 0) (⟨160000 * (L 0).val + 3200 * 1 + (j 1).val, chunk_lt L 1 (by omega) (j 1)⟩ : Fin 320000)) :=
  src_col m L d 1 (by omega) _ _ _ (k0_off3_chunk L 1) j

example (L : grid0.Coords) (d : Dev nD) (t : Fin k0_t4_loop.trips) (h1 : k0_cond1 t = 1#1) (j : S2x3200.Idx) :
    ((Memref.whole main_arg1_scv : Memref sig .scVector .hbm S2x320000 .i32).slice
        (Rect.unit (s := S2x320000) (k0_off11 L t) S2x3200.size (k0_off11_inb L t h1)) (fun _ => rfl)).view.read (Elt F) (eiV m d) j
      = (eiV m d : IVec S2x320000 32) (ix2 (j 0) (⟨160000 * (L 0).val + 3200 * (2 * t.val + 2) + (j 1).val,
          chunk_lt L (2 * t.val + 2) (by have := (k0_cond1_iff t).1 h1; omega) (j 1)⟩ : Fin 320000)) :=
  src_col m L d (2 * t.val + 2) (by have := (k0_cond1_iff t).1 h1; omega) _ _ _ (k0_off11_chunk L t) j

example (L : grid0.Coords) (d : Dev nD) (j : S2x10112.Idx) :
    ((Memref.whole main_arg1_scv : Memref sig .scVector .hbm S2x320000 .i32).slice
        (Rect.unit (s := S2x320000) (k0_off4 L) S2x10112.size (k0_off4_inb L)) (fun _ => rfl)).view.read (Elt F) (eiV m d) j
      = (eiV m d : IVec S2x320000 32) (ix2 (j 0) (⟨Cert.Spec.cntOff (wL L) + (j 1).val, cnt_col_lt L (j 1)⟩ : Fin 320000)) :=
  src_cnt m L d _ _ _ (k0_off4_eq' L) j

example (L : grid0.Coords) (d : Dev nD) (j : S3200.Idx) :
    (((Memref.whole main_v0_scv : Memref sig .scVector .hbm S16x320000 .f32).slice
        (Rect.unit (s := S16x320000) (k0_off2 L 3200#32) S1x3200.size (k0_off2_inb L 1)) (fun _ => rfl)).squeeze S3200 squeezes_S1x3200_S3200).view.read (Elt F) (eaT m d) j
      = (eaT m d : Vec F S16x320000 .f32) (ix2 (jL L) (⟨160000 * (L 0).val + 3200 * 1 + (j 0).val, chunk_lt L 1 (by omega) (j 0)⟩ : Fin 320000)) :=
  src_ea m L d 1 (by omega) _ _ _ (k0_off2_chunk L 1) j

example (L : grid0.Coords) (d : Dev nD) (t : Fin k0_t4_loop.trips) (h2 : k0_cond2 t = 1#1) (j : S3200.Idx) :
    (((Memref.whole main_v0_scv : Memref sig .scVector .hbm S16x320000 .f32).slice
        (Rect.unit (s := S16x320000) (k0_off14 L t) S1x3200.size (k0_off14_inb L t h2)) (fun _ => rfl)).squeeze S3200 squeezes_S1x3200_S3200).view.read (Elt F) (eaT m d) j
      = (eaT m d : Vec F S16x320000 .f32) (ix2 (jL L) (⟨160000 * (L 0).val + 3200 * (2 * t.val + 3) + (j 0).val,
          chunk_lt L (2 * t.val + 3) (by have := (k0_cond2_iff t).1 h2; omega) (j 0)⟩ : Fin 320000)) :=
  src_ea m L d (2 * t.val + 3) (by have := (k0_cond2_iff t).1 h2; omega) _ _ _ (k0_off14_chunk L t) j

end Cert.Kernel.Run

end
-- ==== Proof.WTileEAcc.lean ====
/-
  The tile's accumulators, step by step, as pure facts.

  One indexed add-store of a group of 16 edges takes the accumulator after n groups to the accumulator after
  n + 1 groups, for the sums and for the counts; and an accumulator whose entries are the word 0.0 below 16 n,
  written with 16 more zeros at 16 n, is zero below 16 (n + 1), the whole accumulator being zero after 640 steps.
-/
import proofs.«212450_g60069412602311_cont_9to1_m_657_24_alg».proof.Proof.WTileMem

noncomputable section

namespace Cert.Kernel.Run

open Cert.Kernel Cert.Kernel.Gen

open Idealize.ShloMosaic Idealize.ShloMosaic.ValueIdx

variable {F : FTy → Type} [FloatOps F]

/-- The vector of sixteen ones the body adds for the counts is the specification's. -/
theorem k0_pay6_eq : (k0_pay6 (F := F) : Vec F S16 .f32) = Cert.Spec.ones16 := rfl

/-- The vector of sixteen zeros the body stores is the word 0.0 in every lane. -/
theorem k0_pay5_apply (l : S16.Idx) : (k0_pay5 (F := F) : Vec F S16 .f32) l = Scalar.ofBits .f32 0x00000000#32 := rfl

/-- (E1) One add-store of a group's sixteen ones: the count accumulator after one more group. -/
theorem cnt_step (col : IVec S2x320000 32) (w n : ℕ)
    (h : ∀ a x, ((![Cert.Spec.colVec col (Cert.Spec.cntOff w + 16 * n)] : Fin S10240.rank → IVec S16 32) a x).toNat < S10240.size a) :
    (storeIdx (Cert.Spec.cntAcc (F := F) col w n : Vec F S10240 .f32) ![Cert.Spec.colVec col (Cert.Spec.cntOff w + 16 * n)]
        (k0_pay6 (F := F)) (fun _ => 1#1) true h : Vec F S10240 .f32)
      = Cert.Spec.cntAcc col w (n + 1) :=
  (Cert.Spec.addAt_of_inb (Cert.Spec.cntAcc (F := F) col w n) (Cert.Spec.colVec col (Cert.Spec.cntOff w + 16 * n)) Cert.Spec.ones16 h).symm

/-- (E2) One add-store of a group's sixteen attributes: the sum accumulator after one more group. -/
theorem sum_step (eaT : Vec F S16x320000 .f32) (col : IVec S2x320000 32) (c : Fin 2) (f : Fin 16) (n : ℕ)
    (h : ∀ a x, ((![Cert.Spec.colVec col (160000 * c.val + 16 * n)] : Fin S10240.rank → IVec S16 32) a x).toNat < S10240.size a) :
    (storeIdx (Cert.Spec.sumsAcc eaT col c f n : Vec F S10240 .f32) ![Cert.Spec.colVec col (160000 * c.val + 16 * n)]
        (Cert.Spec.eaVec eaT f (160000 * c.val + 16 * n)) (fun _ => 1#1) true h : Vec F S10240 .f32)
      = Cert.Spec.sumsAcc eaT col c f (n + 1) :=
  (Cert.Spec.addAt_of_inb (Cert.Spec.sumsAcc eaT col c f n) (Cert.Spec.colVec col (160000 * c.val + 16 * n))
    (Cert.Spec.eaVec eaT f (160000 * c.val + 16 * n)) h).symm

/-- The first 16 n entries are the word 0.0. -/
def Zd' (n : ℕ) (f : Vec F S10240 .f32) : Prop := ∀ j : S10240.Idx, (j 0).val < 16 * n → f j = Scalar.ofBits .f32 0x00000000#32

/-- (E3) Zero on all 640 groups of 16 entries is the zero accumulator. -/
theorem zeroAcc_of_zero_below (f : Vec F S10240 .f32)
    (h : ∀ j : S10240.Idx, (j 0).val < 16 * 640 → f j = Scalar.ofBits .f32 0x00000000#32) : f = Cert.Spec.zeroAcc :=
  funext fun j => h j (by have : (j 0).val < 10240 := (j 0).isLt; omega)

theorem zeroAcc_of_Zd' (f : Vec F S10240 .f32) (h : Zd' 640 f) : f = Cert.Spec.zeroAcc := zeroAcc_of_zero_below f h

/-- (E3) Sixteen zeros written at 16 k over an accumulator zero below 16 k: zero below 16 (k + 1). -/
theorem zero_below_step (k : ℕ) (f f' : Vec F S10240 .f32)
    (hf' : ∀ j : S10240.Idx, f' j = if 16 * k ≤ (j 0).val ∧ (j 0).val < 16 * k + 16 then Scalar.ofBits .f32 0x00000000#32 else f j)
    (hz : ∀ j : S10240.Idx, (j 0).val < 16 * k → f j = Scalar.ofBits .f32 0x00000000#32) :
    ∀ j : S10240.Idx, (j 0).val < 16 * (k + 1) → f' j = Scalar.ofBits .f32 0x00000000#32 := by
  intro j hj
  rw [hf' j]
  split
  · rfl
  · rename_i hn
    exact hz j (by omega)

theorem Zd'_step (k : ℕ) (f f' : Vec F S10240 .f32)
    (hf' : ∀ j : S10240.Idx, f' j = if 16 * k ≤ (j 0).val ∧ (j 0).val < 16 * k + 16 then Scalar.ofBits .f32 0x00000000#32 else f j)
    (hz : Zd' k f) : Zd' (k + 1) f' := zero_below_step k f f' hf' hz

end Cert.Kernel.Run

end
-- ==== Proof.WTileInv.lean ====
import proofs.«212450_g60069412602311_cont_9to1_m_657_24_alg».proof.Proof.WTileOps
import proofs.«212450_g60069412602311_cont_9to1_m_657_24_alg».proof.Proof.WTileDPure4
import proofs.«212450_g60069412602311_cont_9to1_m_657_24_alg».proof.Proof.WTileEAcc

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F] (d : Dev nD) (L : grid0.Coords)

/-! ## What the staged buffers hold -/

/-- The count buffer holds columns [cntOff w, +10112) of the edge list. -/
def Stg4 (g : IVec S2x10112 32) : Prop :=
  ∀ j : S2x10112.Idx, g j = (eiV m d : IVec S2x320000 32) (ix2 (j 0) (⟨Cert.Spec.cntOff (wL L) + (j 1).val, cnt_col_lt L (j 1)⟩ : Fin 320000))
/-- An index buffer holds chunk k of the edge list: columns [160000 c + 3200 k, +3200). -/
def StgI (k : ℕ) (hk : k < 50) (g : IVec S2x3200 32) : Prop :=
  ∀ j : S2x3200.Idx, g j = (eiV m d : IVec S2x320000 32) (ix2 (j 0) (⟨160000 * (L 0).val + 3200 * k + (j 1).val, chunk_lt L k hk (j 1)⟩ : Fin 320000))
/-- A value buffer holds chunk k of row f of the transposed attribute table. -/
def StgV (k : ℕ) (hk : k < 50) (g : Vec F S3200 .f32) : Prop :=
  ∀ j : S3200.Idx, g j = (eaT m d : Vec F S16x320000 .f32) (ix2 (jL L) (⟨160000 * (L 0).val + 3200 * k + (j 0).val, chunk_lt L k hk (j 0)⟩ : Fin 320000))

/-! ## The loops' invariants -/

/-- The first 16 n entries are the word 0.0. -/
def Zd (n : ℕ) (f : Vec F S10240 .f32) : Prop := ∀ j : S10240.Idx, (j 0).val < 16 * n → f j = Scalar.ofBits .f32 0x00000000#32

/-- The zeroing loop: before trip n both accumulators are zero below 16 n. -/
def inv1 (n : ℕ) (_ : PUnit) : sProp 𝕄 :=
  iprop((∃ f : Buf (Elt F) ((V d (cV L) (jV L)).loc cc0_scratch5), ⌜Zd n (f : Vec F S10240 .f32)⌝ ∗ (B5).view.loc (V d (cV L) (jV L)) ↦{fullShare} f)
    ∗ (∃ f : Buf (Elt F) ((V d (cV L) (jV L)).loc cc0_scratch6), ⌜Zd n (f : Vec F S10240 .f32)⌝ ∗ (B6).view.loc (V d (cV L) (jV L)) ↦{fullShare} f))

/-- The count loop: the count buffer (unchanged), the count accumulator after 8 n groups. -/
def inv2 (g4 : Buf (Elt F) ((V d (cV L) (jV L)).loc cc0_scratch4)) (n : ℕ) (_ : PUnit) : sProp 𝕄 :=
  iprop(((B4).view.loc (V d (cV L) (jV L)) ↦{fullShare} g4)
    ∗ ((B6).view.loc (V d (cV L) (jV L)) ↦{fullShare} (Cert.Spec.cntAcc (F := F) (eiV m d) (wL L) (8 * n) : Vec F S10240 .f32)))

/-- The inner loop over chunk k held in buffers 0 / 2: the sum accumulator after 200 k + 8 n groups. -/
def inv5 (k : ℕ) (g0 : Buf (Elt F) ((V d (cV L) (jV L)).loc cc0_scratch0)) (g2 : Buf (Elt F) ((V d (cV L) (jV L)).loc cc0_scratch2)) (n : ℕ) (_ : PUnit) : sProp 𝕄 :=
  iprop(((B0).view.loc (V d (cV L) (jV L)) ↦{fullShare} g0) ∗ ((B2).view.loc (V d (cV L) (jV L)) ↦{fullShare} g2)
    ∗ ((B5).view.loc (V d (cV L) (jV L)) ↦{fullShare} (Cert.Spec.sumsAcc (eaT m d) (eiV m d) (cL L) (jL L) (200 * k + 8 * n) : Vec F S10240 .f32)))
/-- The same over buffers 1 / 3. -/
def inv6 (k : ℕ) (g1 : Buf (Elt F) ((V d (cV L) (jV L)).loc cc0_scratch1)) (g3 : Buf (Elt F) ((V d (cV L) (jV L)).loc cc0_scratch3)) (n : ℕ) (_ : PUnit) : sProp 𝕄 :=
  iprop(((B1).view.loc (V d (cV L) (jV L)) ↦{fullShare} g1) ∗ ((B3).view.loc (V d (cV L) (jV L)) ↦{fullShare} g3)
    ∗ ((B5).view.loc (V d (cV L) (jV L)) ↦{fullShare} (Cert.Spec.sumsAcc (eaT m d) (eiV m d) (cL L) (jL L) (200 * k + 8 * n) : Vec F S10240 .f32)))

/-- Chunk k of the attribute row in flight into buffer 0 (or landed, not yet waited for): the flight delivers the buffer at the chunk and
    the lent elements of the row's read token; the token's other elements stay here. -/
def FlV0 (k : ℕ) (hk : k < 50) : sProp 𝕄 :=
  iprop(∃ (g : Buf (Elt F) ((V d (cV L) (jV L)).loc cc0_scratch0)) (Sv : Finset (Idx ((eW).view.loc (V d (cV L) (jV L))))), ⌜StgV m d L k hk (g : Vec F S3200 .f32)⌝
    ∗ Transfers.Flight (countersEmb (U := UU)) (V d (cV L) (jV L)) (SemLoc.dma cc0_scratch7.sem) (default : HIx 1) 102400
        iprop(((B0).view.loc (V d (cV L) (jV L)) ↦{fullShare} g) ∗ ((eW).view.loc (V d (cV L) (jV L)) ↦[Sv]{Transfers.shareTokN (qTile (cL L) (jL L)) 0} eaT m d))
    ∗ ((eW).view.loc (V d (cV L) (jV L)) ↦[Finset.univ \ Sv]{Transfers.shareTokN (qTile (cL L) (jL L)) 0} eaT m d))

/-- Chunk k of the attribute row in flight into buffer 1 (or landed, not yet waited for): the flight delivers the buffer at the chunk and
    the lent elements of the row's read token; the token's other elements stay here. -/
def FlV1 (k : ℕ) (hk : k < 50) : sProp 𝕄 :=
  iprop(∃ (g : Buf (Elt F) ((V d (cV L) (jV L)).loc cc0_scratch1)) (Sv : Finset (Idx ((eW).view.loc (V d (cV L) (jV L))))), ⌜StgV m d L k hk (g : Vec F S3200 .f32)⌝
    ∗ Transfers.Flight (countersEmb (U := UU)) (V d (cV L) (jV L)) (SemLoc.dma cc0_scratch8.sem) (default : HIx 1) 102400
        iprop(((B1).view.loc (V d (cV L) (jV L)) ↦{fullShare} g) ∗ ((eW).view.loc (V d (cV L) (jV L)) ↦[Sv]{Transfers.shareTokN (qTile (cL L) (jL L)) 1} eaT m d))
    ∗ ((eW).view.loc (V d (cV L) (jV L)) ↦[Finset.univ \ Sv]{Transfers.shareTokN (qTile (cL L) (jL L)) 1} eaT m d))

def FlI0 (k : ℕ) (hk : k < 50) : sProp 𝕄 :=
  iprop(∃ (g : Buf (Elt F) ((V d (cV L) (jV L)).loc cc0_scratch2)) (Si : Finset (Idx ((iW).view.loc (V d (cV L) (jV L))))), ⌜StgI m d L k hk (g : IVec S2x3200 32)⌝
    ∗ Transfers.Flight (countersEmb (U := UU)) (V d (cV L) (jV L)) (SemLoc.dma cc0_scratch9.sem) (default : HIx 1) 204800
        iprop(((B2).view.loc (V d (cV L) (jV L)) ↦{fullShare} g) ∗ ((iW).view.loc (V d (cV L) (jV L)) ↦[Si]{Transfers.shareTokN (qTile (cL L) (jL L)) 2} eiV m d))
    ∗ ((iW).view.loc (V d (cV L) (jV L)) ↦[Finset.univ \ Si]{Transfers.shareTokN (qTile (cL L) (jL L)) 2} eiV m d))

def FlI1 (k : ℕ) (hk : k < 50) : sProp 𝕄 :=
  iprop(∃ (g : Buf (Elt F) ((V d (cV L) (jV L)).loc cc0_scratch3)) (Si : Finset (Idx ((iW).view.loc (V d (cV L) (jV L))))), ⌜StgI m d L k hk (g : IVec S2x3200 32)⌝
    ∗ Transfers.Flight (countersEmb (U := UU)) (V d (cV L) (jV L)) (SemLoc.dma cc0_scratch10.sem) (default : HIx 1) 204800
        iprop(((B3).view.loc (V d (cV L) (jV L)) ↦{fullShare} g) ∗ ((iW).view.loc (V d (cV L) (jV L)) ↦[Si]{Transfers.shareTokN (qTile (cL L) (jL L)) 3} eiV m d))
    ∗ ((iW).view.loc (V d (cV L) (jV L)) ↦[Finset.univ \ Si]{Transfers.shareTokN (qTile (cL L) (jL L)) 3} eiV m d))

/-- Buffer pair 0 at rest: its two semaphores at zero, the buffers at anything, the two read tokens whole. -/
def Idle0 : sProp 𝕄 :=
  iprop(semVal ((V d (cV L) (jV L)), SemLoc.dma cc0_scratch7.sem) 0 ∗ semVal ((V d (cV L) (jV L)), SemLoc.dma cc0_scratch9.sem) 0
    ∗ (∃ g, (B0).view.loc (V d (cV L) (jV L)) ↦{fullShare} g) ∗ (∃ g, (B2).view.loc (V d (cV L) (jV L)) ↦{fullShare} g)
    ∗ ((eW).view.loc (V d (cV L) (jV L)) ↦{Transfers.shareTokN (qTile (cL L) (jL L)) 0} eaT m d) ∗ ((iW).view.loc (V d (cV L) (jV L)) ↦{Transfers.shareTokN (qTile (cL L) (jL L)) 2} eiV m d))

/-- Buffer pair 0 before the chunk k it is to hold is waited for: both copies in flight while there is such a chunk, at rest after the last. -/
def Slot0 (k : ℕ) : sProp 𝕄 := if hk : k < 50 then iprop(FlV0 m d L k hk ∗ FlI0 m d L k hk) else Idle0 m d L

/-- Buffer pair 1 at rest: its two semaphores at zero, the buffers at anything, the two read tokens whole. -/
def Idle1 : sProp 𝕄 :=
  iprop(semVal ((V d (cV L) (jV L)), SemLoc.dma cc0_scratch8.sem) 0 ∗ semVal ((V d (cV L) (jV L)), SemLoc.dma cc0_scratch10.sem) 0
    ∗ (∃ g, (B1).view.loc (V d (cV L) (jV L)) ↦{fullShare} g) ∗ (∃ g, (B3).view.loc (V d (cV L) (jV L)) ↦{fullShare} g)
    ∗ ((eW).view.loc (V d (cV L) (jV L)) ↦{Transfers.shareTokN (qTile (cL L) (jL L)) 1} eaT m d) ∗ ((iW).view.loc (V d (cV L) (jV L)) ↦{Transfers.shareTokN (qTile (cL L) (jL L)) 3} eiV m d))

/-- Buffer pair 1 before the chunk k it is to hold is waited for: both copies in flight while there is such a chunk, at rest after the last. -/
def Slot1 (k : ℕ) : sProp 𝕄 := if hk : k < 50 then iprop(FlV1 m d L k hk ∗ FlI1 m d L k hk) else Idle1 m d L

/-- The pair loop: before trip t the sum accumulator holds 400 t groups; chunks 2 t and 2 t + 1 are in flight into the two buffer pairs;
    the thread's waits so far are at index none. -/
def inv4 (O : CellTallies nD τ sig (HIx 1)) (W : Waits sig (HIx 1)) (t : ℕ) (_ : PUnit) : sProp 𝕄 :=
  iprop(Transfers.MayWaits (V d (cV L) (jV L)) (none : HIx 1) O
    ∗ ((B5).view.loc (V d (cV L) (jV L)) ↦{fullShare} (Cert.Spec.sumsAcc (eaT m d) (eiV m d) (cL L) (jL L) (400 * t) : Vec F S10240 .f32))
    ∗ Slot0 m d L (2 * t) ∗ Slot1 m d L (2 * t + 1)
    ∗ ∃ W', ⌜∀ p ∈ W', p ∈ W ∨ p.2 = none⌝ ∗ owes (V d (cV L) (jV L)) O W')

end Cert.Kernel.Run

end
-- ==== Proof.WTileEZero.lean ====
/-
  The zeroing loop, step by step.

  Trip k stores sixteen zeros at entries 16 k … 16 k + 15 of an accumulator.  If the accumulator was zero below
  16 k it is then zero below 16 (k + 1): an entry the store covers now holds a lane of the stored vector, every
  lane of which is the word 0.0, and an entry it does not cover is as before.  After all 640 trips the accumulator
  is the zero accumulator.
-/
import proofs.«212450_g60069412602311_cont_9to1_m_657_24_alg».proof.Proof.WTileInv

noncomputable section

namespace Cert.Kernel.Run

open Cert.Kernel Cert.Kernel.Gen

open Idealize.ShloMosaic Idealize.ShloMosaic.ValueIdx
open Idealize.ShloMosaic.SparseCore (S V T)

variable {F : FTy → Type} [FloatOps F]

/-- (Z1) The zeroing store into the sum accumulator. -/
theorem zd_step5 (d : Dev nD) (L : grid0.Coords) (k : Fin k0_t1_loop.trips)
    (g5 : Buf (Elt F) ((V d (cV L) (jV L)).loc cc0_scratch5)) (h : Zd k.val (g5 : Vec F S10240 .f32)) :
    Zd (k.val + 1) ((B5).view.writes (Elt F) g5
      [⟨Rect.unit (s := S10240) (k0_off1 k) S16.size (k0_off1_inb k), k0_pay5 (F := F)⟩] : Vec F S10240 .f32) := by
  intro j hj
  rw [View.writes_singleton]
  by_cases hj' : j ∈ ((B5).view.slice (Rect.unit (s := S10240) (k0_off1 k) S16.size (k0_off1_inb k))).setOn Finset.univ
  · obtain ⟨x, hx, rfl⟩ := Finset.mem_map.mp hj'
    exact (View.write_emb_of_mem _ _ hx).trans rfl
  · refine (View.write_of_not_mem _ _ _ hj').trans (h j ?_)
    by_contra hge
    apply hj'
    rw [View.setOn_univ]
    show j ∈ ((View.whole cc0_scratch5).slice (Rect.unit (s := S10240) (k0_off1 k) S16.size (k0_off1_inb k))).set
    rw [View.set_slice_whole, Rect.mem_set_unit]
    intro a
    match a with
    | ⟨0, _⟩ =>
      show k0_off1 k 0 ≤ (j 0).val ∧ (j 0).val < k0_off1 k 0 + S16.size 0
      rw [k0_off1_eq]
      show 16 * k.val ≤ (j 0).val ∧ (j 0).val < 16 * k.val + 16
      omega

/-- (Z1) The zeroing store into the count accumulator. -/
theorem zd_step6 (d : Dev nD) (L : grid0.Coords) (k : Fin k0_t1_loop.trips)
    (g6 : Buf (Elt F) ((V d (cV L) (jV L)).loc cc0_scratch6)) (h : Zd k.val (g6 : Vec F S10240 .f32)) :
    Zd (k.val + 1) ((B6).view.writes (Elt F) g6
      [⟨Rect.unit (s := S10240) (k0_off1 k) S16.size (k0_off1_inb k), k0_pay5 (F := F)⟩] : Vec F S10240 .f32) := by
  intro j hj
  rw [View.writes_singleton]
  by_cases hj' : j ∈ ((B6).view.slice (Rect.unit (s := S10240) (k0_off1 k) S16.size (k0_off1_inb k))).setOn Finset.univ
  · obtain ⟨x, hx, rfl⟩ := Finset.mem_map.mp hj'
    exact (View.write_emb_of_mem _ _ hx).trans rfl
  · refine (View.write_of_not_mem _ _ _ hj').trans (h j ?_)
    by_contra hge
    apply hj'
    rw [View.setOn_univ]
    show j ∈ ((View.whole cc0_scratch6).slice (Rect.unit (s := S10240) (k0_off1 k) S16.size (k0_off1_inb k))).set
    rw [View.set_slice_whole, Rect.mem_set_unit]
    intro a
    match a with
    | ⟨0, _⟩ =>
      show k0_off1 k 0 ≤ (j 0).val ∧ (j 0).val < k0_off1 k 0 + S16.size 0
      rw [k0_off1_eq]
      show 16 * k.val ≤ (j 0).val ∧ (j 0).val < 16 * k.val + 16
      omega

/-- (Z2) Zero below all 640 groups of 16 entries: the zero accumulator. -/
theorem zd_done (g : Vec F S10240 .f32) (h : Zd (Scf.trips k0_t1_loop.lb k0_t1_loop.ub k0_t1_loop.st) g) : g = Cert.Spec.zeroAcc := by
  have e : Scf.trips k0_t1_loop.lb k0_t1_loop.ub k0_t1_loop.st = 640 := k0_t1_trips
  rw [e] at h
  exact zeroAcc_of_zero_below g h

end Cert.Kernel.Run

end
-- ==== Proof.WTileFold.lean ====
import proofs.«212450_g60069412602311_cont_9to1_m_657_24_alg».proof.Proof.WTileInv

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F] (d : Dev nD) (L : grid0.Coords)

/-! ## What a landed copy leaves, in the invariants' words -/

theorem stg4_landed (f4 : Buf (Elt F) ((V d (cV L) (jV L)).loc cc0_scratch4)) (off : Fin 2 → Nat) (inb) (hs) (hoff : off = ![0, Cert.Spec.cntOff (wL L)]) :
    Stg4 m d L (View.write (Elt F) (Memref.whole cc0_scratch4).view f4
      (ReadAs.same.apply (View.read (Elt F) ((Memref.whole main_arg1_scv : Memref sig .scVector .hbm S2x320000 .i32).slice (Rect.unit (s := S2x320000) off S2x10112.size inb) hs).view (eiV m d)))
      Finset.univ : IVec S2x10112 32) := by
  intro j
  rw [View.write_whole_univ]
  exact src_cnt m L d off inb hs hoff j

theorem fold_FlV0 (k : ℕ) (hk : k < 50) (f : Buf (Elt F) ((V d (cV L) (jV L)).loc cc0_scratch0)) (sm : DmaSem sig) (hsm : sm = cc0_scratch7.sem)
    (off : Fin 2 → Nat) (inb) (hs) (hoff : off = ![(jL L).val, 160000 * (L 0).val + 3200 * k]) :
    iprop(Transfers.Flight (countersEmb (U := UU)) (V d (cV L) (jV L)) (SemLoc.dma sm) (default : HIx 1) 102400
        iprop(((B0).view.loc (V d (cV L) (jV L)) ↦{fullShare} View.write (Elt F) (Memref.whole cc0_scratch0).view f
              (ReadAs.same.apply (View.read (Elt F) (((Memref.whole main_v0_scv : Memref sig .scVector .hbm S16x320000 .f32).slice (Rect.unit (s := S16x320000) off S1x3200.size inb) hs).squeeze S3200 squeezes_S1x3200_S3200).view (eaT m d))) Finset.univ)
          ∗ ((eW).view.loc (V d (cV L) (jV L)) ↦[(((Memref.whole main_v0_scv : Memref sig .scVector .hbm S16x320000 .f32).slice (Rect.unit (s := S16x320000) off S1x3200.size inb) hs).squeeze S3200 squeezes_S1x3200_S3200).view.set]{Transfers.shareTokN (qTile (cL L) (jL L)) 0} eaT m d))
      ∗ ((eW).view.loc (V d (cV L) (jV L)) ↦[Finset.univ \ (((Memref.whole main_v0_scv : Memref sig .scVector .hbm S16x320000 .f32).slice (Rect.unit (s := S16x320000) off S1x3200.size inb) hs).squeeze S3200 squeezes_S1x3200_S3200).view.set]{Transfers.shareTokN (qTile (cL L) (jL L)) 0} eaT m d))
      ⊢ (FlV0 m d L k hk : sProp 𝕄) := by
  subst hsm
  unfold FlV0
  iintro ⟨Hf, Hr⟩
  iexists (View.write (Elt F) (Memref.whole cc0_scratch0).view f (ReadAs.same.apply (View.read (Elt F) (((Memref.whole main_v0_scv : Memref sig .scVector .hbm S16x320000 .f32).slice (Rect.unit (s := S16x320000) off S1x3200.size inb) hs).squeeze S3200 squeezes_S1x3200_S3200).view (eaT m d))) Finset.univ)
  iexists (((Memref.whole main_v0_scv : Memref sig .scVector .hbm S16x320000 .f32).slice (Rect.unit (s := S16x320000) off S1x3200.size inb) hs).squeeze S3200 squeezes_S1x3200_S3200).view.set
  isplitr
  · ipureintro
    intro j
    rw [View.write_whole_univ]
    exact src_ea m L d k hk off inb hs hoff j
  isplitl [Hf]
  · iexact Hf
  · iexact Hr

theorem fold_FlV1 (k : ℕ) (hk : k < 50) (f : Buf (Elt F) ((V d (cV L) (jV L)).loc cc0_scratch1)) (sm : DmaSem sig) (hsm : sm = cc0_scratch8.sem)
    (off : Fin 2 → Nat) (inb) (hs) (hoff : off = ![(jL L).val, 160000 * (L 0).val + 3200 * k]) :
    iprop(Transfers.Flight (countersEmb (U := UU)) (V d (cV L) (jV L)) (SemLoc.dma sm) (default : HIx 1) 102400
        iprop(((B1).view.loc (V d (cV L) (jV L)) ↦{fullShare} View.write (Elt F) (Memref.whole cc0_scratch1).view f
              (ReadAs.same.apply (View.read (Elt F) (((Memref.whole main_v0_scv : Memref sig .scVector .hbm S16x320000 .f32).slice (Rect.unit (s := S16x320000) off S1x3200.size inb) hs).squeeze S3200 squeezes_S1x3200_S3200).view (eaT m d))) Finset.univ)
          ∗ ((eW).view.loc (V d (cV L) (jV L)) ↦[(((Memref.whole main_v0_scv : Memref sig .scVector .hbm S16x320000 .f32).slice (Rect.unit (s := S16x320000) off S1x3200.size inb) hs).squeeze S3200 squeezes_S1x3200_S3200).view.set]{Transfers.shareTokN (qTile (cL L) (jL L)) 1} eaT m d))
      ∗ ((eW).view.loc (V d (cV L) (jV L)) ↦[Finset.univ \ (((Memref.whole main_v0_scv : Memref sig .scVector .hbm S16x320000 .f32).slice (Rect.unit (s := S16x320000) off S1x3200.size inb) hs).squeeze S3200 squeezes_S1x3200_S3200).view.set]{Transfers.shareTokN (qTile (cL L) (jL L)) 1} eaT m d))
      ⊢ (FlV1 m d L k hk : sProp 𝕄) := by
  subst hsm
  unfold FlV1
  iintro ⟨Hf, Hr⟩
  iexists (View.write (Elt F) (Memref.whole cc0_scratch1).view f (ReadAs.same.apply (View.read (Elt F) (((Memref.whole main_v0_scv : Memref sig .scVector .hbm S16x320000 .f32).slice (Rect.unit (s := S16x320000) off S1x3200.size inb) hs).squeeze S3200 squeezes_S1x3200_S3200).view (eaT m d))) Finset.univ)
  iexists (((Memref.whole main_v0_scv : Memref sig .scVector .hbm S16x320000 .f32).slice (Rect.unit (s := S16x320000) off S1x3200.size inb) hs).squeeze S3200 squeezes_S1x3200_S3200).view.set
  isplitr
  · ipureintro
    intro j
    rw [View.write_whole_univ]
    exact src_ea m L d k hk off inb hs hoff j
  isplitl [Hf]
  · iexact Hf
  · iexact Hr

theorem fold_FlI0 (k : ℕ) (hk : k < 50) (f : Buf (Elt F) ((V d (cV L) (jV L)).loc cc0_scratch2)) (sm : DmaSem sig) (hsm : sm = cc0_scratch9.sem)
    (off : Fin 2 → Nat) (inb) (hs) (hoff : off = ![0, 160000 * (L 0).val + 3200 * k]) :
    iprop(Transfers.Flight (countersEmb (U := UU)) (V d (cV L) (jV L)) (SemLoc.dma sm) (default : HIx 1) 204800
        iprop(((B2).view.loc (V d (cV L) (jV L)) ↦{fullShare} View.write (Elt F) (Memref.whole cc0_scratch2).view f
              (ReadAs.same.apply (View.read (Elt F) ((Memref.whole main_arg1_scv : Memref sig .scVector .hbm S2x320000 .i32).slice (Rect.unit (s := S2x320000) off S2x3200.size inb) hs).view (eiV m d))) Finset.univ)
          ∗ ((iW).view.loc (V d (cV L) (jV L)) ↦[((Memref.whole main_arg1_scv : Memref sig .scVector .hbm S2x320000 .i32).slice (Rect.unit (s := S2x320000) off S2x3200.size inb) hs).view.set]{Transfers.shareTokN (qTile (cL L) (jL L)) 2} eiV m d))
      ∗ ((iW).view.loc (V d (cV L) (jV L)) ↦[Finset.univ \ ((Memref.whole main_arg1_scv : Memref sig .scVector .hbm S2x320000 .i32).slice (Rect.unit (s := S2x320000) off S2x3200.size inb) hs).view.set]{Transfers.shareTokN (qTile (cL L) (jL L)) 2} eiV m d))
      ⊢ (FlI0 m d L k hk : sProp 𝕄) := by
  subst hsm
  unfold FlI0
  iintro ⟨Hf, Hr⟩
  iexists (View.write (Elt F) (Memref.whole cc0_scratch2).view f (ReadAs.same.apply (View.read (Elt F) ((Memref.whole main_arg1_scv : Memref sig .scVector .hbm S2x320000 .i32).slice (Rect.unit (s := S2x320000) off S2x3200.size inb) hs).view (eiV m d))) Finset.univ)
  iexists ((Memref.whole main_arg1_scv : Memref sig .scVector .hbm S2x320000 .i32).slice (Rect.unit (s := S2x320000) off S2x3200.size inb) hs).view.set
  isplitr
  · ipureintro
    intro j
    rw [View.write_whole_univ]
    exact src_col m L d k hk off inb hs hoff j
  isplitl [Hf]
  · iexact Hf
  · iexact Hr

theorem fold_FlI1 (k : ℕ) (hk : k < 50) (f : Buf (Elt F) ((V d (cV L) (jV L)).loc cc0_scratch3)) (sm : DmaSem sig) (hsm : sm = cc0_scratch10.sem)
    (off : Fin 2 → Nat) (inb) (hs) (hoff : off = ![0, 160000 * (L 0).val + 3200 * k]) :
    iprop(Transfers.Flight (countersEmb (U := UU)) (V d (cV L) (jV L)) (SemLoc.dma sm) (default : HIx 1) 204800
        iprop(((B3).view.loc (V d (cV L) (jV L)) ↦{fullShare} View.write (Elt F) (Memref.whole cc0_scratch3).view f
              (ReadAs.same.apply (View.read (Elt F) ((Memref.whole main_arg1_scv : Memref sig .scVector .hbm S2x320000 .i32).slice (Rect.unit (s := S2x320000) off S2x3200.size inb) hs).view (eiV m d))) Finset.univ)
          ∗ ((iW).view.loc (V d (cV L) (jV L)) ↦[((Memref.whole main_arg1_scv : Memref sig .scVector .hbm S2x320000 .i32).slice (Rect.unit (s := S2x320000) off S2x3200.size inb) hs).view.set]{Transfers.shareTokN (qTile (cL L) (jL L)) 3} eiV m d))
      ∗ ((iW).view.loc (V d (cV L) (jV L)) ↦[Finset.univ \ ((Memref.whole main_arg1_scv : Memref sig .scVector .hbm S2x320000 .i32).slice (Rect.unit (s := S2x320000) off S2x3200.size inb) hs).view.set]{Transfers.shareTokN (qTile (cL L) (jL L)) 3} eiV m d))
      ⊢ (FlI1 m d L k hk : sProp 𝕄) := by
  subst hsm
  unfold FlI1
  iintro ⟨Hf, Hr⟩
  iexists (View.write (Elt F) (Memref.whole cc0_scratch3).view f (ReadAs.same.apply (View.read (Elt F) ((Memref.whole main_arg1_scv : Memref sig .scVector .hbm S2x320000 .i32).slice (Rect.unit (s := S2x320000) off S2x3200.size inb) hs).view (eiV m d))) Finset.univ)
  iexists ((Memref.whole main_arg1_scv : Memref sig .scVector .hbm S2x320000 .i32).slice (Rect.unit (s := S2x320000) off S2x3200.size inb) hs).view.set
  isplitr
  · ipureintro
    intro j
    rw [View.write_whole_univ]
    exact src_col m L d k hk off inb hs hoff j
  isplitl [Hf]
  · iexact Hf
  · iexact Hr

end Cert.Kernel.Run

end
-- ==== Proof.WTileCOut.lean ====
/-
  The tile's two results read back: entry n of the accumulator copied into entries (c, f, :) of a [2, 16, 10240] array
  is entry (c, f, n) of the array afterwards.
-/
import proofs.«212450_g60069412602311_cont_9to1_m_657_24_alg».proof.Proof.WTileMem

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Place n of the squeezed [10240] view is place (0, 0, n) of the [1, 1, 10240] slice. -/
theorem squeeze_idx3 (j : S10240.Idx) :
    Shape.reshapeEquiv (s := S1x1x10240) (s' := S10240) squeezes_S1x1x10240_S10240.numel_eq j
      = ix3 (0 : Fin 1) (0 : Fin 1) (⟨(j 0).val, (j 0).isLt⟩ : Fin 10240) := by
  refine Shape.reshapeEquiv_eq_of_rowMajor _ ?_
  rewrite [Shape.rowMajor_val_three, Shape.rowMajor_val_one]
  show (0 * 1 + 0) * 10240 + (j 0).val = (j 0).val
  omega

/-- Place (0, 0, n) of the slice at entries (L 0, L 1, :) is place (L 0, L 1, n) of the array. -/
theorem row_slice_idx (L : grid0.Coords) (n : Fin 10240) :
    (rowR L).emb (ix3 (0 : Fin 1) (0 : Fin 1) n) = ix3 (cL L) (jL L) n := by
  have hoff := k0_off16_eq L
  funext a
  apply Fin.ext
  rw [Rect.emb_apply]
  match a with
  | ⟨0, _⟩ => show k0_off16 L 0 + 1 * 0 = (L 0).val; rw [hoff]; show (L 0).val + 1 * 0 = _; omega
  | ⟨1, _⟩ => show k0_off16 L 1 + 1 * 0 = (L 1).val; rw [hoff]; show (L 1).val + 1 * 0 = _; omega
  | ⟨2, _⟩ => show k0_off16 L 2 + 1 * n.val = n.val; rw [hoff]; show 0 + 1 * n.val = _; omega

/-- Place n of the row view of the sums array is place (L 0, L 1, n) of the array, -/
theorem sRow_emb (L : grid0.Coords) (n : Fin 10240) : (sRow L).view.emb (ix1 n) = ix3 (cL L) (jL L) n := by
  show (rowR L).emb (Shape.reshapeEquiv (s := S1x1x10240) (s' := S10240) squeezes_S1x1x10240_S10240.numel_eq (ix1 n)) = _
  rw [squeeze_idx3]
  exact row_slice_idx L n
/-- and of the counts array likewise. -/
theorem cRow_emb (L : grid0.Coords) (n : Fin 10240) : (cRow L).view.emb (ix1 n) = ix3 (cL L) (jL L) n := by
  show (rowR L).emb (Shape.reshapeEquiv (s := S1x1x10240) (s' := S10240) squeezes_S1x1x10240_S10240.numel_eq (ix1 n)) = _
  rw [squeeze_idx3]
  exact row_slice_idx L n

variable (d : Dev nD)

/-- The sums array after p is written through its row view, read at an entry of the row: p's entry. -/
theorem out_read_s (L : grid0.Coords) (fs : Buf (Elt F) (sLoc d)) (p : Vec F S10240 .f32) (n : Fin 10240) :
    (((sRow L).view.write (Elt F) fs p Finset.univ : Buf (Elt F) (sLoc d)) : Vec F S2x16x10240 .f32) (ix3 (cL L) (jL L) n) = p (ix1 n) := by
  rw [← sRow_emb L n]
  exact View.write_emb_of_mem (v := (sRow L).view) fs p (Finset.mem_univ (ix1 n))

/-- The counts array likewise. -/
theorem out_read_c (L : grid0.Coords) (fc : Buf (Elt F) (cLoc d)) (p : Vec F S10240 .f32) (n : Fin 10240) :
    (((cRow L).view.write (Elt F) fc p Finset.univ : Buf (Elt F) (cLoc d)) : Vec F S2x16x10240 .f32) (ix3 (cL L) (jL L) n) = p (ix1 n) := by
  rw [← cRow_emb L n]
  exact View.write_emb_of_mem (v := (cRow L).view) fc p (Finset.mem_univ (ix1 n))

/-- The same when the copy is recorded as the one-piece list of writes over the whole row view. -/
theorem out_reads_s (L : grid0.Coords) (fs : Buf (Elt F) (sLoc d)) (p : Vec F S10240 .f32) (n : Fin 10240) :
    (((sRow L).view.writes (Elt F) fs [(⟨Rect.whole S10240, p⟩ : View.Piece (Elt F) S10240 .f32)] : Buf (Elt F) (sLoc d)) : Vec F S2x16x10240 .f32)
        (ix3 (cL L) (jL L) n) = p (ix1 n) := by
  rw [View.writes_singleton, ← sRow_emb L n]
  have e : (sRow L).view.emb (ix1 n) = ((sRow L).view.slice (Rect.whole S10240)).emb (ix1 n) := by
    show _ = (sRow L).view.emb ((Rect.whole S10240).emb (ix1 n)); rw [Rect.emb_whole_apply]
  rw [e]
  exact View.write_emb_of_mem (v := (sRow L).view.slice (Rect.whole S10240)) fs p (Finset.mem_univ (ix1 n))

theorem out_reads_c (L : grid0.Coords) (fc : Buf (Elt F) (cLoc d)) (p : Vec F S10240 .f32) (n : Fin 10240) :
    (((cRow L).view.writes (Elt F) fc [(⟨Rect.whole S10240, p⟩ : View.Piece (Elt F) S10240 .f32)] : Buf (Elt F) (cLoc d)) : Vec F S2x16x10240 .f32)
        (ix3 (cL L) (jL L) n) = p (ix1 n) := by
  rw [View.writes_singleton, ← cRow_emb L n]
  have e : (cRow L).view.emb (ix1 n) = ((cRow L).view.slice (Rect.whole S10240)).emb (ix1 n) := by
    show _ = (cRow L).view.emb ((Rect.whole S10240).emb (ix1 n)); rw [Rect.emb_whole_apply]
  rw [e]
  exact View.write_emb_of_mem (v := (cRow L).view.slice (Rect.whole S10240)) fc p (Finset.mem_univ (ix1 n))

end Cert.Kernel.Run

end
-- ==== Proof.WTileEJoin.lean ====
/-
  Read tokens of a share, taken off one at a time and put back.

  A share q with k tokens taken off splits into the share with k + 1 taken off and the k-th token; so the share with
  n tokens taken off together with tokens 0 … n − 1 is the share q again, and conversely.
-/
import proofs.«212450_g60069412602311_cont_9to1_m_657_24_alg».proof.Proof.WTileMem

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The share itself is the share with one token taken off and token 0. -/
theorem tokStep0 {ℓ : Loc nD τ sig} {Sx : Finset (Idx ℓ)} {f : Buf (Elt F) ℓ} (q : PosShare TreeShare) :
    (ℓ ↦[Sx]{q} f : sProp 𝕄) ⊣⊢ iprop((ℓ ↦[Sx]{Transfers.shareDrop q 1} f) ∗ ℓ ↦[Sx]{Transfers.shareTokN q 0} f) :=
  tok_succ q 0

/-- The share with k tokens taken off is the share with k' = k + 1 taken off and token k. -/
theorem tokStep {ℓ : Loc nD τ sig} {Sx : Finset (Idx ℓ)} {f : Buf (Elt F) ℓ} (q : PosShare TreeShare) (k k' : ℕ) (hk : k' = k + 1) :
    (ℓ ↦[Sx]{Transfers.shareDrop q k} f : sProp 𝕄) ⊣⊢ iprop((ℓ ↦[Sx]{Transfers.shareDrop q k'} f) ∗ ℓ ↦[Sx]{Transfers.shareTokN q k} f) := by
  subst hk; exact tok_succ q k

theorem toks_join2 {ℓ : Loc nD τ sig} {Sx : Finset (Idx ℓ)} {f : Buf (Elt F) ℓ} (q : PosShare TreeShare) :
    iprop((ℓ ↦[Sx]{Transfers.shareDrop q 2} f) ∗ (ℓ ↦[Sx]{Transfers.shareTokN q 0} f) ∗ (ℓ ↦[Sx]{Transfers.shareTokN q 1} f))
      ⊢ (ℓ ↦[Sx]{q} f : sProp 𝕄) := by
  iintro ⟨HD, H0, H1⟩
  ihave HD1 := (tokStep (F := F) q 1 2 rfl).2 $$ [HD H1]
  · isplitl [HD] <;> iassumption
  ihave HD0 := (tokStep0 (F := F) q).2 $$ [HD1 H0]
  · isplitl [HD1] <;> iassumption
  iexact HD0

theorem toks_split2 {ℓ : Loc nD τ sig} {Sx : Finset (Idx ℓ)} {f : Buf (Elt F) ℓ} (q : PosShare TreeShare) :
    (ℓ ↦[Sx]{q} f : sProp 𝕄)
      ⊢ iprop((ℓ ↦[Sx]{Transfers.shareDrop q 2} f) ∗ (ℓ ↦[Sx]{Transfers.shareTokN q 0} f) ∗ (ℓ ↦[Sx]{Transfers.shareTokN q 1} f)) := by
  iintro H
  ihave H1 := (tokStep0 (F := F) q).1 $$ H
  icases H1 with ⟨HD1, H0⟩
  ihave H2 := (tokStep (F := F) q 1 2 rfl).1 $$ HD1
  icases H2 with ⟨HD2, H1⟩
  isplitl [HD2]; · iexact HD2
  isplitl [H0]; · iexact H0
  iexact H1

theorem toks_join5 {ℓ : Loc nD τ sig} {Sx : Finset (Idx ℓ)} {f : Buf (Elt F) ℓ} (q : PosShare TreeShare) :
    iprop((ℓ ↦[Sx]{Transfers.shareDrop q 5} f) ∗ (ℓ ↦[Sx]{Transfers.shareTokN q 0} f) ∗ (ℓ ↦[Sx]{Transfers.shareTokN q 1} f)
        ∗ (ℓ ↦[Sx]{Transfers.shareTokN q 2} f) ∗ (ℓ ↦[Sx]{Transfers.shareTokN q 3} f) ∗ (ℓ ↦[Sx]{Transfers.shareTokN q 4} f))
      ⊢ (ℓ ↦[Sx]{q} f : sProp 𝕄) := by
  iintro ⟨HD, H0, H1, H2, H3, H4⟩
  ihave HD4 := (tokStep (F := F) q 4 5 rfl).2 $$ [HD H4]
  · isplitl [HD] <;> iassumption
  ihave HD3 := (tokStep (F := F) q 3 4 rfl).2 $$ [HD4 H3]
  · isplitl [HD4] <;> iassumption
  ihave HD2 := (tokStep (F := F) q 2 3 rfl).2 $$ [HD3 H2]
  · isplitl [HD3] <;> iassumption
  ihave HD1 := (tokStep (F := F) q 1 2 rfl).2 $$ [HD2 H1]
  · isplitl [HD2] <;> iassumption
  ihave HD0 := (tokStep0 (F := F) q).2 $$ [HD1 H0]
  · isplitl [HD1] <;> iassumption
  iexact HD0

theorem toks_split5 {ℓ : Loc nD τ sig} {Sx : Finset (Idx ℓ)} {f : Buf (Elt F) ℓ} (q : PosShare TreeShare) :
    (ℓ ↦[Sx]{q} f : sProp 𝕄)
      ⊢ iprop((ℓ ↦[Sx]{Transfers.shareDrop q 5} f) ∗ (ℓ ↦[Sx]{Transfers.shareTokN q 0} f) ∗ (ℓ ↦[Sx]{Transfers.shareTokN q 1} f)
        ∗ (ℓ ↦[Sx]{Transfers.shareTokN q 2} f) ∗ (ℓ ↦[Sx]{Transfers.shareTokN q 3} f) ∗ (ℓ ↦[Sx]{Transfers.shareTokN q 4} f)) := by
  iintro H
  ihave G1 := (tokStep0 (F := F) q).1 $$ H
  icases G1 with ⟨HD1, H0⟩
  ihave G2 := (tokStep (F := F) q 1 2 rfl).1 $$ HD1
  icases G2 with ⟨HD2, H1⟩
  ihave G3 := (tokStep (F := F) q 2 3 rfl).1 $$ HD2
  icases G3 with ⟨HD3, H2⟩
  ihave G4 := (tokStep (F := F) q 3 4 rfl).1 $$ HD3
  icases G4 with ⟨HD4, H3⟩
  ihave G5 := (tokStep (F := F) q 4 5 rfl).1 $$ HD4
  icases G5 with ⟨HD5, H4⟩
  isplitl [HD5]; · iexact HD5
  isplitl [H0]; · iexact H0
  isplitl [H1]; · iexact H1
  isplitl [H2]; · iexact H2
  isplitl [H3]; · iexact H3
  iexact H4

end Cert.Kernel.Run

end
-- ==== Proof.WTileTrip2.lean ====
/-
  One trip of the count loop: eight groups of 16 target nodes are read off the staged count range and eight indexed
  add-stores of sixteen ones take the count accumulator from 8 t groups to 8 (t + 1).
-/
import proofs.«212450_g60069412602311_cont_9to1_m_657_24_alg».proof.Proof.WTileInv

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

/-- Each group of 16 target nodes the count loop reads is inside the accumulator. -/
theorem chk_rd (d : Dev nD) (L : grid0.Coords) (hpre : PreOK m) (g4 : Buf (Elt F) ((V d (cV L) (jV L)).loc cc0_scratch4))
    (hg4 : Stg4 m d L (g4 : IVec S2x10112 32)) (t : Fin (k0_t2_loop L).trips) (r : Fin 8) :
    k0_chk1 (shapeCast S16 ((B4).view.readAt (Elt F)
        (Rect.unit (s := S2x10112) (k0_off5 L t (BitVec.ofNat 32 r.val)) S1x16.size (k0_off5_inb L t r)).toLoadRect g4) shapeCasts_S1x16_S16) := by
  rw [cnt_read m L d g4 hg4 t r]
  exact chk_colVec m hpre d _

/-- One add-store of sixteen ones at a group's 16 target nodes, however the group's vector is spelt. -/
theorem cnt_step_v (col : IVec S2x320000 32) (w n : ℕ) (v : IVec S16 32) (hv : v = Cert.Spec.colVec col (Cert.Spec.cntOff w + 16 * n))
    (h : ∀ a x, ((![v] : Fin S10240.rank → IVec S16 32) a x).toNat < S10240.size a) :
    (storeIdx (Cert.Spec.cntAcc (F := F) col w n : Vec F S10240 .f32) ![v] (k0_pay6 (F := F)) (fun _ => 1#1) true h : Vec F S10240 .f32)
      = Cert.Spec.cntAcc col w (n + 1) := by
  subst hv
  exact cnt_step col w n h

/-- The indexed add-store of a group's ones into the count accumulator after n groups leaves it after n + 1. -/
theorem wp_cnt_store {α : Type} {Q : α → sProp 𝕄} (d : Dev nD) (L : grid0.Coords) (n : ℕ) (v : IVec S16 32)
    (hv : v = Cert.Spec.colVec (eiV m d) (Cert.Spec.cntOff (wL L) + 16 * n))
    {h : ∀ a x, ((![v] : Fin S10240.rank → IVec S16 32) a x).toNat < S10240.size a} {hs : ((B6).access (.whole S10240)).Stores Finset.univ}
    {k : PUnit → Prog (TpuEff nD τ sig (Elt F) Λ₀ (.scVector (cV L) (jV L))) α} :
    ((B6).view.loc (V d (cV L) (jV L)) ↦{fullShare} (Cert.Spec.cntAcc (F := F) (eiV m d) (wL L) n : Vec F S10240 .f32) : sProp 𝕄)
      ⊢ iprop((((B6).view.loc (V d (cV L) (jV L)) ↦{fullShare} (Cert.Spec.cntAcc (F := F) (eiV m d) (wL L) (n + 1) : Vec F S10240 .f32))
            -∗ wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.vectorStoreIdx (B6) ![v] (k0_pay6 (F := F)) (fun _ => 1#1) true h hs >>= k) Q) := by
  have key := wp_addStore_B6 (F := F) (Q := Q) d L (idxs := ![v]) (v := k0_pay6 (F := F)) (mask := fun _ => 1#1) (add := true)
    (h := h) (hs := hs) (k := k) (Cert.Spec.cntAcc (F := F) (eiV m d) (wL L) n : Vec F S10240 .f32)
  rw [cnt_step_v (eiV m d) (wL L) n v hv h] at key
  exact key

set_option maxHeartbeats 800000 in
theorem trip2 (d : Dev nD) (L : grid0.Coords) (hpre : PreOK m) (g4 : Buf (Elt F) ((V d (cV L) (jV L)).loc cc0_scratch4))
    (hg4 : Stg4 m d L (g4 : IVec S2x10112 32)) (t : Fin (k0_t2_loop L).trips) (acc : PUnit) :
    inv2 m d L g4 t.val acc ⊢ wp frame (wpE (defs₀ (F := F)) 𝒱₀ (V d (cV L) (jV L)) none) Set.univ
      (k0_t2_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 cc0_scoped1 cc0_scoped2 (k0_pay6 (F := F)) t acc) (inv2 m d L g4 (t.val + 1)) := by
  unfold inv2 k0_t2_body
  iintro ⟨H4, H6⟩
  sl_exec (disch := (sl_unfold_run_names; first
    | sl_exact (chk_rd m d L hpre g4 hg4 t 0)
    | sl_exact (chk_rd m d L hpre g4 hg4 t 1)
    | sl_exact (chk_rd m d L hpre g4 hg4 t 2)
    | sl_exact (chk_rd m d L hpre g4 hg4 t 3)
    | sl_exact (chk_rd m d L hpre g4 hg4 t 4)
    | sl_exact (chk_rd m d L hpre g4 hg4 t 5)
    | sl_exact (chk_rd m d L hpre g4 hg4 t 6)
    | sl_exact (chk_rd m d L hpre g4 hg4 t 7)))
  iapply (wp_cnt_store m d L (8 * t.val) _ (cnt_read m L d g4 hg4 t 0)) $$ H6; iintro H6
  iapply (wp_cnt_store m d L (8 * t.val + 1) _ (cnt_read m L d g4 hg4 t 1)) $$ H6; iintro H6
  iapply (wp_cnt_store m d L (8 * t.val + 1 + 1) _ (cnt_read m L d g4 hg4 t 2)) $$ H6; iintro H6
  iapply (wp_cnt_store m d L (8 * t.val + 1 + 1 + 1) _ (cnt_read m L d g4 hg4 t 3)) $$ H6; iintro H6
  iapply (wp_cnt_store m d L (8 * t.val + 1 + 1 + 1 + 1) _ (cnt_read m L d g4 hg4 t 4)) $$ H6; iintro H6
  iapply (wp_cnt_store m d L (8 * t.val + 1 + 1 + 1 + 1 + 1) _ (cnt_read m L d g4 hg4 t 5)) $$ H6; iintro H6
  iapply (wp_cnt_store m d L (8 * t.val + 1 + 1 + 1 + 1 + 1 + 1) _ (cnt_read m L d g4 hg4 t 6)) $$ H6; iintro H6
  iapply (wp_cnt_store m d L (8 * t.val + 1 + 1 + 1 + 1 + 1 + 1 + 1) _ (cnt_read m L d g4 hg4 t 7)) $$ H6; iintro H6
  sl_step
  rw [show 8 * t.val + 1 + 1 + 1 + 1 + 1 + 1 + 1 + 1 = 8 * (t.val + 1) by omega]
  isplitl [H4]
  · iexact H4
  · iexact H6

end Cert.Kernel.Run

end
-- ==== Proof.WTilePairInner.lean ====
/-
  The inner loops of the tile's main phase, one trip: from chunk k held in a buffer pair (its sixteen-edge groups read
  through the staged-contents facts), eight groups are added into the sum accumulator by the indexed add-store; the
  accumulator after 200 k + 8 n groups becomes the accumulator after 200 k + 8 (n + 1).
-/
import proofs.«212450_g60069412602311_cont_9to1_m_657_24_alg».proof.Proof.WTileInv

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F] (d : Dev nD) (L : grid0.Coords)

/-- A group of sixteen targets loaded from chunk k in its index buffer passes the range check. -/
theorem chk0 (hpre : PreOK m) (k : ℕ) (hk : k < 50) (g2 : Buf (Elt F) ((V d (cV L) (jV L)).loc cc0_scratch2)) (hg2 : StgI m d L k hk (g2 : IVec S2x3200 32))
    (n : Fin k0_t5_loop.trips) (r : Fin 8) :
    k0_chk1 (shapeCast S16 ((Memref.whole cc0_scratch2 : Memref sig .scVector .vmem S2x3200 .i32).view.readAt (Elt F)
        (Rect.unit (s := S2x3200) (k0_off8 n (BitVec.ofNat 32 r.val)) S1x16.size (k0_off8_inb n r)).toLoadRect g2) shapeCasts_S1x16_S16) := by
  rw [sum_col_read0 m L d k hk g2 hg2 n r]; exact chk_colVec m hpre d _
theorem chk0_0 (hpre : PreOK m) (k : ℕ) (hk : k < 50) (g2 : Buf (Elt F) ((V d (cV L) (jV L)).loc cc0_scratch2)) (hg2 : StgI m d L k hk (g2 : IVec S2x3200 32)) (n : Fin k0_t5_loop.trips) :
    k0_chk17 (shapeCast S16 ((Memref.whole cc0_scratch2 : Memref sig .scVector .vmem S2x3200 .i32).view.readAt (Elt F)
        (Rect.unit (s := S2x3200) (k0_off8 n 0#32) S1x16.size (k0_off8_inb n 0)).toLoadRect g2) shapeCasts_S1x16_S16) :=
  chk0 m d L hpre k hk g2 hg2 n 0
theorem chk0_1 (hpre : PreOK m) (k : ℕ) (hk : k < 50) (g2 : Buf (Elt F) ((V d (cV L) (jV L)).loc cc0_scratch2)) (hg2 : StgI m d L k hk (g2 : IVec S2x3200 32)) (n : Fin k0_t5_loop.trips) :
    k0_chk18 (shapeCast S16 ((Memref.whole cc0_scratch2 : Memref sig .scVector .vmem S2x3200 .i32).view.readAt (Elt F)
        (Rect.unit (s := S2x3200) (k0_off8 n 1#32) S1x16.size (k0_off8_inb n 1)).toLoadRect g2) shapeCasts_S1x16_S16) :=
  chk0 m d L hpre k hk g2 hg2 n 1
theorem chk0_2 (hpre : PreOK m) (k : ℕ) (hk : k < 50) (g2 : Buf (Elt F) ((V d (cV L) (jV L)).loc cc0_scratch2)) (hg2 : StgI m d L k hk (g2 : IVec S2x3200 32)) (n : Fin k0_t5_loop.trips) :
    k0_chk19 (shapeCast S16 ((Memref.whole cc0_scratch2 : Memref sig .scVector .vmem S2x3200 .i32).view.readAt (Elt F)
        (Rect.unit (s := S2x3200) (k0_off8 n 2#32) S1x16.size (k0_off8_inb n 2)).toLoadRect g2) shapeCasts_S1x16_S16) :=
  chk0 m d L hpre k hk g2 hg2 n 2
theorem chk0_3 (hpre : PreOK m) (k : ℕ) (hk : k < 50) (g2 : Buf (Elt F) ((V d (cV L) (jV L)).loc cc0_scratch2)) (hg2 : StgI m d L k hk (g2 : IVec S2x3200 32)) (n : Fin k0_t5_loop.trips) :
    k0_chk20 (shapeCast S16 ((Memref.whole cc0_scratch2 : Memref sig .scVector .vmem S2x3200 .i32).view.readAt (Elt F)
        (Rect.unit (s := S2x3200) (k0_off8 n 3#32) S1x16.size (k0_off8_inb n 3)).toLoadRect g2) shapeCasts_S1x16_S16) :=
  chk0 m d L hpre k hk g2 hg2 n 3
theorem chk0_4 (hpre : PreOK m) (k : ℕ) (hk : k < 50) (g2 : Buf (Elt F) ((V d (cV L) (jV L)).loc cc0_scratch2)) (hg2 : StgI m d L k hk (g2 : IVec S2x3200 32)) (n : Fin k0_t5_loop.trips) :
    k0_chk21 (shapeCast S16 ((Memref.whole cc0_scratch2 : Memref sig .scVector .vmem S2x3200 .i32).view.readAt (Elt F)
        (Rect.unit (s := S2x3200) (k0_off8 n 4#32) S1x16.size (k0_off8_inb n 4)).toLoadRect g2) shapeCasts_S1x16_S16) :=
  chk0 m d L hpre k hk g2 hg2 n 4
theorem chk0_5 (hpre : PreOK m) (k : ℕ) (hk : k < 50) (g2 : Buf (Elt F) ((V d (cV L) (jV L)).loc cc0_scratch2)) (hg2 : StgI m d L k hk (g2 : IVec S2x3200 32)) (n : Fin k0_t5_loop.trips) :
    k0_chk22 (shapeCast S16 ((Memref.whole cc0_scratch2 : Memref sig .scVector .vmem S2x3200 .i32).view.readAt (Elt F)
        (Rect.unit (s := S2x3200) (k0_off8 n 5#32) S1x16.size (k0_off8_inb n 5)).toLoadRect g2) shapeCasts_S1x16_S16) :=
  chk0 m d L hpre k hk g2 hg2 n 5
theorem chk0_6 (hpre : PreOK m) (k : ℕ) (hk : k < 50) (g2 : Buf (Elt F) ((V d (cV L) (jV L)).loc cc0_scratch2)) (hg2 : StgI m d L k hk (g2 : IVec S2x3200 32)) (n : Fin k0_t5_loop.trips) :
    k0_chk23 (shapeCast S16 ((Memref.whole cc0_scratch2 : Memref sig .scVector .vmem S2x3200 .i32).view.readAt (Elt F)
        (Rect.unit (s := S2x3200) (k0_off8 n 6#32) S1x16.size (k0_off8_inb n 6)).toLoadRect g2) shapeCasts_S1x16_S16) :=
  chk0 m d L hpre k hk g2 hg2 n 6
theorem chk0_7 (hpre : PreOK m) (k : ℕ) (hk : k < 50) (g2 : Buf (Elt F) ((V d (cV L) (jV L)).loc cc0_scratch2)) (hg2 : StgI m d L k hk (g2 : IVec S2x3200 32)) (n : Fin k0_t5_loop.trips) :
    k0_chk24 (shapeCast S16 ((Memref.whole cc0_scratch2 : Memref sig .scVector .vmem S2x3200 .i32).view.readAt (Elt F)
        (Rect.unit (s := S2x3200) (k0_off8 n 7#32) S1x16.size (k0_off8_inb n 7)).toLoadRect g2) shapeCasts_S1x16_S16) :=
  chk0 m d L hpre k hk g2 hg2 n 7

/-- A group of sixteen targets loaded from chunk k in its index buffer passes the range check. -/
theorem chk1 (hpre : PreOK m) (k : ℕ) (hk : k < 50) (g2 : Buf (Elt F) ((V d (cV L) (jV L)).loc cc0_scratch3)) (hg2 : StgI m d L k hk (g2 : IVec S2x3200 32))
    (n : Fin k0_t6_loop.trips) (r : Fin 8) :
    k0_chk1 (shapeCast S16 ((Memref.whole cc0_scratch3 : Memref sig .scVector .vmem S2x3200 .i32).view.readAt (Elt F)
        (Rect.unit (s := S2x3200) (k0_off12 n (BitVec.ofNat 32 r.val)) S1x16.size (k0_off12_inb n r)).toLoadRect g2) shapeCasts_S1x16_S16) := by
  rw [sum_col_read1 m L d k hk g2 hg2 n r]; exact chk_colVec m hpre d _
theorem chk1_0 (hpre : PreOK m) (k : ℕ) (hk : k < 50) (g2 : Buf (Elt F) ((V d (cV L) (jV L)).loc cc0_scratch3)) (hg2 : StgI m d L k hk (g2 : IVec S2x3200 32)) (n : Fin k0_t6_loop.trips) :
    k0_chk25 (shapeCast S16 ((Memref.whole cc0_scratch3 : Memref sig .scVector .vmem S2x3200 .i32).view.readAt (Elt F)
        (Rect.unit (s := S2x3200) (k0_off12 n 0#32) S1x16.size (k0_off12_inb n 0)).toLoadRect g2) shapeCasts_S1x16_S16) :=
  chk1 m d L hpre k hk g2 hg2 n 0
theorem chk1_1 (hpre : PreOK m) (k : ℕ) (hk : k < 50) (g2 : Buf (Elt F) ((V d (cV L) (jV L)).loc cc0_scratch3)) (hg2 : StgI m d L k hk (g2 : IVec S2x3200 32)) (n : Fin k0_t6_loop.trips) :
    k0_chk26 (shapeCast S16 ((Memref.whole cc0_scratch3 : Memref sig .scVector .vmem S2x3200 .i32).view.readAt (Elt F)
        (Rect.unit (s := S2x3200) (k0_off12 n 1#32) S1x16.size (k0_off12_inb n 1)).toLoadRect g2) shapeCasts_S1x16_S16) :=
  chk1 m d L hpre k hk g2 hg2 n 1
theorem chk1_2 (hpre : PreOK m) (k : ℕ) (hk : k < 50) (g2 : Buf (Elt F) ((V d (cV L) (jV L)).loc cc0_scratch3)) (hg2 : StgI m d L k hk (g2 : IVec S2x3200 32)) (n : Fin k0_t6_loop.trips) :
    k0_chk27 (shapeCast S16 ((Memref.whole cc0_scratch3 : Memref sig .scVector .vmem S2x3200 .i32).view.readAt (Elt F)
        (Rect.unit (s := S2x3200) (k0_off12 n 2#32) S1x16.size (k0_off12_inb n 2)).toLoadRect g2) shapeCasts_S1x16_S16) :=
  chk1 m d L hpre k hk g2 hg2 n 2
theorem chk1_3 (hpre : PreOK m) (k : ℕ) (hk : k < 50) (g2 : Buf (Elt F) ((V d (cV L) (jV L)).loc cc0_scratch3)) (hg2 : StgI m d L k hk (g2 : IVec S2x3200 32)) (n : Fin k0_t6_loop.trips) :
    k0_chk28 (shapeCast S16 ((Memref.whole cc0_scratch3 : Memref sig .scVector .vmem S2x3200 .i32).view.readAt (Elt F)
        (Rect.unit (s := S2x3200) (k0_off12 n 3#32) S1x16.size (k0_off12_inb n 3)).toLoadRect g2) shapeCasts_S1x16_S16) :=
  chk1 m d L hpre k hk g2 hg2 n 3
theorem chk1_4 (hpre : PreOK m) (k : ℕ) (hk : k < 50) (g2 : Buf (Elt F) ((V d (cV L) (jV L)).loc cc0_scratch3)) (hg2 : StgI m d L k hk (g2 : IVec S2x3200 32)) (n : Fin k0_t6_loop.trips) :
    k0_chk29 (shapeCast S16 ((Memref.whole cc0_scratch3 : Memref sig .scVector .vmem S2x3200 .i32).view.readAt (Elt F)
        (Rect.unit (s := S2x3200) (k0_off12 n 4#32) S1x16.size (k0_off12_inb n 4)).toLoadRect g2) shapeCasts_S1x16_S16) :=
  chk1 m d L hpre k hk g2 hg2 n 4
theorem chk1_5 (hpre : PreOK m) (k : ℕ) (hk : k < 50) (g2 : Buf (Elt F) ((V d (cV L) (jV L)).loc cc0_scratch3)) (hg2 : StgI m d L k hk (g2 : IVec S2x3200 32)) (n : Fin k0_t6_loop.trips) :
    k0_chk30 (shapeCast S16 ((Memref.whole cc0_scratch3 : Memref sig .scVector .vmem S2x3200 .i32).view.readAt (Elt F)
        (Rect.unit (s := S2x3200) (k0_off12 n 5#32) S1x16.size (k0_off12_inb n 5)).toLoadRect g2) shapeCasts_S1x16_S16) :=
  chk1 m d L hpre k hk g2 hg2 n 5
theorem chk1_6 (hpre : PreOK m) (k : ℕ) (hk : k < 50) (g2 : Buf (Elt F) ((V d (cV L) (jV L)).loc cc0_scratch3)) (hg2 : StgI m d L k hk (g2 : IVec S2x3200 32)) (n : Fin k0_t6_loop.trips) :
    k0_chk31 (shapeCast S16 ((Memref.whole cc0_scratch3 : Memref sig .scVector .vmem S2x3200 .i32).view.readAt (Elt F)
        (Rect.unit (s := S2x3200) (k0_off12 n 6#32) S1x16.size (k0_off12_inb n 6)).toLoadRect g2) shapeCasts_S1x16_S16) :=
  chk1 m d L hpre k hk g2 hg2 n 6
theorem chk1_7 (hpre : PreOK m) (k : ℕ) (hk : k < 50) (g2 : Buf (Elt F) ((V d (cV L) (jV L)).loc cc0_scratch3)) (hg2 : StgI m d L k hk (g2 : IVec S2x3200 32)) (n : Fin k0_t6_loop.trips) :
    k0_chk32 (shapeCast S16 ((Memref.whole cc0_scratch3 : Memref sig .scVector .vmem S2x3200 .i32).view.readAt (Elt F)
        (Rect.unit (s := S2x3200) (k0_off12 n 7#32) S1x16.size (k0_off12_inb n 7)).toLoadRect g2) shapeCasts_S1x16_S16) :=
  chk1 m d L hpre k hk g2 hg2 n 7

/-- One add-store of a group read from chunk k: the sum accumulator after one more group. -/
theorem store_step (hpre : PreOK m) (f : Buf (Elt F) ((V d (cV L) (jV L)).loc cc0_scratch5)) (i : IVec S16 32) (v : Vec F S16 .f32)
    (h : ∀ a x, ((![i] : Fin S10240.rank → IVec S16 32) a x).toNat < S10240.size a) (N e0 : ℕ)
    (hf : (f : Vec F S10240 .f32) = Cert.Spec.sumsAcc (eaT m d) (eiV m d) (cL L) (jL L) N)
    (he : e0 = 160000 * (L 0).val + 16 * N)
    (hi : i = Cert.Spec.colVec (eiV m d) e0) (hv : v = Cert.Spec.eaVec (eaT m d) (jL L) e0) :
    ((B5).view.loc (V d (cV L) (jV L)) ↦{fullShare} (storeIdx (f : Vec F S10240 .f32) ![i] v (fun _ => 1#1) true h : Vec F S10240 .f32) : sProp 𝕄)
      = ((B5).view.loc (V d (cV L) (jV L)) ↦{fullShare} (Cert.Spec.sumsAcc (eaT m d) (eiV m d) (cL L) (jL L) (N + 1) : Vec F S10240 .f32)) := by
  subst hi hv he
  have hs := sum_step (F := F) (eaT m d) (eiV m d) (cL L) (jL L) N h
  rw [hf]
  exact congrArg (fun g : Vec F S10240 .f32 => ((B5).view.loc (V d (cV L) (jV L)) ↦{fullShare} g : sProp 𝕄)) hs

/-- The indexed add-store of one group read from chunk k, at the sum accumulator: the accumulator after one more group. -/
theorem wp_addStore_sum {α : Type} {Q : α → sProp 𝕄} (hpre : PreOK m)
    {i : IVec S16 32} {v : Vec F S16 .f32}
    {h : ∀ a x, ((![i] : Fin S10240.rank → IVec S16 32) a x).toNat < S10240.size a} {hs : ((B5).access (.whole S10240)).Stores Finset.univ}
    {kk : PUnit → Prog (TpuEff nD τ sig (Elt F) Λ₀ (.scVector (cV L) (jV L))) α} (N e0 : ℕ)
    (he : e0 = 160000 * (L 0).val + 16 * N)
    (hi : i = Cert.Spec.colVec (eiV m d) e0) (hv : v = Cert.Spec.eaVec (eaT m d) (jL L) e0) :
    ((B5).view.loc (V d (cV L) (jV L)) ↦{fullShare} (Cert.Spec.sumsAcc (eaT m d) (eiV m d) (cL L) (jL L) N : Vec F S10240 .f32) : sProp 𝕄)
      ⊢ iprop((((B5).view.loc (V d (cV L) (jV L)) ↦{fullShare} (Cert.Spec.sumsAcc (eaT m d) (eiV m d) (cL L) (jL L) (N + 1) : Vec F S10240 .f32))
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (SparseCore.vectorStoreIdx (B5) ![i] v (fun _ => 1#1) true h hs >>= kk) Q) := by
  have e := store_step m d L hpre (Cert.Spec.sumsAcc (eaT m d) (eiV m d) (cL L) (jL L) N : Vec F S10240 .f32) i v h N e0 rfl he hi hv
  have key := wp_addStore_B5 (F := F) (Q := Q) d L (idxs := ![i]) (v := v) (mask := fun _ => 1#1) (add := true) (h := h) (hs := hs) (k := kk)
    (Cert.Spec.sumsAcc (eaT m d) (eiV m d) (cL L) (jL L) N : Vec F S10240 .f32)
  rw [e] at key
  exact key

set_option maxHeartbeats 1000000 in
/-- One trip of the inner loop over chunk k held in its buffer pair: eight groups of sixteen edges added. -/
theorem inner_trip0 (hpre : PreOK m) (k : ℕ) (hk : k < 50) (gV : Buf (Elt F) ((V d (cV L) (jV L)).loc cc0_scratch0)) (gI : Buf (Elt F) ((V d (cV L) (jV L)).loc cc0_scratch2))
    (hgV : StgV m d L k hk (gV : Vec F S3200 .f32)) (hgI : StgI m d L k hk (gI : IVec S2x3200 32))
    (v2 c0 c1 : BitVec 32) (k4 : Fin k0_t4_loop.trips) (n : Fin k0_t5_loop.trips) (acc : Unit) :
    inv5 m d L k gV gI n.val acc
      ⊢ wp frame (wpE (defs₀ (F := F)) 𝒱₀ (V d (cV L) (jV L)) none) Set.univ
          (k0_t5_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 cc0_scoped1 cc0_scoped2 v2 c0 c1 k4 n acc)
          (inv5 m d L k gV gI (n.val + 1)) := by
  unfold inv5
  iintro ⟨H0, H2, H5⟩
  sl_exec (disch := first | sl_exact chk0_0 m d L hpre k hk gI hgI n | sl_exact chk0_1 m d L hpre k hk gI hgI n | sl_exact chk0_2 m d L hpre k hk gI hgI n | sl_exact chk0_3 m d L hpre k hk gI hgI n | sl_exact chk0_4 m d L hpre k hk gI hgI n | sl_exact chk0_5 m d L hpre k hk gI hgI n | sl_exact chk0_6 m d L hpre k hk gI hgI n | sl_exact chk0_7 m d L hpre k hk gI hgI n)
  iapply (wp_addStore_sum (F := F) m d L hpre (i := inner_trip0.sl.v67 d L gI n) (v := inner_trip0.sl.r d L gV n) (200 * k + 8 * n.val) (160000 * (L 0).val + 16 * (200 * k + 8 * n.val + 0)) (by omega)
      (sum_col_read0 m L d k hk gI hgI n 0) (sum_ea_read0 m L d k hk gV hgV n 0)) $$ [H5]
  · iexact H5
  iintro H5
  iapply (wp_addStore_sum (F := F) m d L hpre (i := inner_trip0.sl.v73 d L gI n) (v := inner_trip0.sl.r_1 d L gV n) (200 * k + 8 * n.val + 1) (160000 * (L 0).val + 16 * (200 * k + 8 * n.val + 1)) (by omega)
      (sum_col_read0 m L d k hk gI hgI n 1) (sum_ea_read0 m L d k hk gV hgV n 1)) $$ [H5]
  · iexact H5
  iintro H5
  iapply (wp_addStore_sum (F := F) m d L hpre (i := inner_trip0.sl.v79 d L gI n) (v := View.readAt (Elt F) (B0).view (Rect.unit (s := S3200) (k0_off9 n 2#32) S16.size (k0_off9_inb n 2)).toLoadRect gV) (200 * k + 8 * n.val + 1 + 1) (160000 * (L 0).val + 16 * (200 * k + 8 * n.val + 2)) (by omega)
      (sum_col_read0 m L d k hk gI hgI n 2) (sum_ea_read0 m L d k hk gV hgV n 2)) $$ [H5]
  · iexact H5
  iintro H5
  iapply (wp_addStore_sum (F := F) m d L hpre (i := inner_trip0.sl.v85 d L gI n) (v := View.readAt (Elt F) (B0).view (Rect.unit (s := S3200) (k0_off9 n 3#32) S16.size (k0_off9_inb n 3)).toLoadRect gV) (200 * k + 8 * n.val + 1 + 1 + 1) (160000 * (L 0).val + 16 * (200 * k + 8 * n.val + 3)) (by omega)
      (sum_col_read0 m L d k hk gI hgI n 3) (sum_ea_read0 m L d k hk gV hgV n 3)) $$ [H5]
  · iexact H5
  iintro H5
  iapply (wp_addStore_sum (F := F) m d L hpre (i := inner_trip0.sl.v91 d L gI n) (v := View.readAt (Elt F) (B0).view (Rect.unit (s := S3200) (k0_off9 n 4#32) S16.size (k0_off9_inb n 4)).toLoadRect gV) (200 * k + 8 * n.val + 1 + 1 + 1 + 1) (160000 * (L 0).val + 16 * (200 * k + 8 * n.val + 4)) (by omega)
      (sum_col_read0 m L d k hk gI hgI n 4) (sum_ea_read0 m L d k hk gV hgV n 4)) $$ [H5]
  · iexact H5
  iintro H5
  iapply (wp_addStore_sum (F := F) m d L hpre (i := inner_trip0.sl.v97 d L gI n) (v := View.readAt (Elt F) (B0).view (Rect.unit (s := S3200) (k0_off9 n 5#32) S16.size (k0_off9_inb n 5)).toLoadRect gV) (200 * k + 8 * n.val + 1 + 1 + 1 + 1 + 1) (160000 * (L 0).val + 16 * (200 * k + 8 * n.val + 5)) (by omega)
      (sum_col_read0 m L d k hk gI hgI n 5) (sum_ea_read0 m L d k hk gV hgV n 5)) $$ [H5]
  · iexact H5
  iintro H5
  iapply (wp_addStore_sum (F := F) m d L hpre (i := inner_trip0.sl.v103 d L gI n) (v := View.readAt (Elt F) (B0).view (Rect.unit (s := S3200) (k0_off9 n 6#32) S16.size (k0_off9_inb n 6)).toLoadRect gV) (200 * k + 8 * n.val + 1 + 1 + 1 + 1 + 1 + 1) (160000 * (L 0).val + 16 * (200 * k + 8 * n.val + 6)) (by omega)
      (sum_col_read0 m L d k hk gI hgI n 6) (sum_ea_read0 m L d k hk gV hgV n 6)) $$ [H5]
  · iexact H5
  iintro H5
  iapply (wp_addStore_sum (F := F) m d L hpre (i := inner_trip0.sl.v109 d L gI n) (v := View.readAt (Elt F) (B0).view (Rect.unit (s := S3200) (k0_off9 n 7#32) S16.size (k0_off9_inb n 7)).toLoadRect gV) (200 * k + 8 * n.val + 1 + 1 + 1 + 1 + 1 + 1 + 1) (160000 * (L 0).val + 16 * (200 * k + 8 * n.val + 7)) (by omega)
      (sum_col_read0 m L d k hk gI hgI n 7) (sum_ea_read0 m L d k hk gV hgV n 7)) $$ [H5]
  · iexact H5
  iintro H5
  rw [show 200 * k + 8 * n.val + 1 + 1 + 1 + 1 + 1 + 1 + 1 + 1 = 200 * k + 8 * (n.val + 1) from by omega]
  sl_step
  isplitl [H0]; · iexact H0
  isplitl [H2]; · iexact H2
  iexact H5

set_option maxHeartbeats 1000000 in
/-- One trip of the inner loop over chunk k held in its buffer pair: eight groups of sixteen edges added. -/
theorem inner_trip1 (hpre : PreOK m) (k : ℕ) (hk : k < 50) (gV : Buf (Elt F) ((V d (cV L) (jV L)).loc cc0_scratch1)) (gI : Buf (Elt F) ((V d (cV L) (jV L)).loc cc0_scratch3))
    (hgV : StgV m d L k hk (gV : Vec F S3200 .f32)) (hgI : StgI m d L k hk (gI : IVec S2x3200 32))
    (v2 c0 c1 : BitVec 32) (k4 : Fin k0_t4_loop.trips) (n : Fin k0_t6_loop.trips) (acc : Unit) :
    inv6 m d L k gV gI n.val acc
      ⊢ wp frame (wpE (defs₀ (F := F)) 𝒱₀ (V d (cV L) (jV L)) none) Set.univ
          (k0_t6_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 cc0_scoped1 cc0_scoped2 v2 c0 c1 k4 n acc)
          (inv6 m d L k gV gI (n.val + 1)) := by
  unfold inv6
  iintro ⟨H0, H2, H5⟩
  sl_exec (disch := first | sl_exact chk1_0 m d L hpre k hk gI hgI n | sl_exact chk1_1 m d L hpre k hk gI hgI n | sl_exact chk1_2 m d L hpre k hk gI hgI n | sl_exact chk1_3 m d L hpre k hk gI hgI n | sl_exact chk1_4 m d L hpre k hk gI hgI n | sl_exact chk1_5 m d L hpre k hk gI hgI n | sl_exact chk1_6 m d L hpre k hk gI hgI n | sl_exact chk1_7 m d L hpre k hk gI hgI n)
  iapply (wp_addStore_sum (F := F) m d L hpre (i := inner_trip1.sl.v67 d L gI n) (v := inner_trip1.sl.r d L gV n) (200 * k + 8 * n.val) (160000 * (L 0).val + 16 * (200 * k + 8 * n.val + 0)) (by omega)
      (sum_col_read1 m L d k hk gI hgI n 0) (sum_ea_read1 m L d k hk gV hgV n 0)) $$ [H5]
  · iexact H5
  iintro H5
  iapply (wp_addStore_sum (F := F) m d L hpre (i := inner_trip1.sl.v73 d L gI n) (v := inner_trip1.sl.r_1 d L gV n) (200 * k + 8 * n.val + 1) (160000 * (L 0).val + 16 * (200 * k + 8 * n.val + 1)) (by omega)
      (sum_col_read1 m L d k hk gI hgI n 1) (sum_ea_read1 m L d k hk gV hgV n 1)) $$ [H5]
  · iexact H5
  iintro H5
  iapply (wp_addStore_sum (F := F) m d L hpre (i := inner_trip1.sl.v79 d L gI n) (v := View.readAt (Elt F) (B1).view (Rect.unit (s := S3200) (k0_off13 n 2#32) S16.size (k0_off13_inb n 2)).toLoadRect gV) (200 * k + 8 * n.val + 1 + 1) (160000 * (L 0).val + 16 * (200 * k + 8 * n.val + 2)) (by omega)
      (sum_col_read1 m L d k hk gI hgI n 2) (sum_ea_read1 m L d k hk gV hgV n 2)) $$ [H5]
  · iexact H5
  iintro H5
  iapply (wp_addStore_sum (F := F) m d L hpre (i := inner_trip1.sl.v85 d L gI n) (v := View.readAt (Elt F) (B1).view (Rect.unit (s := S3200) (k0_off13 n 3#32) S16.size (k0_off13_inb n 3)).toLoadRect gV) (200 * k + 8 * n.val + 1 + 1 + 1) (160000 * (L 0).val + 16 * (200 * k + 8 * n.val + 3)) (by omega)
      (sum_col_read1 m L d k hk gI hgI n 3) (sum_ea_read1 m L d k hk gV hgV n 3)) $$ [H5]
  · iexact H5
  iintro H5
  iapply (wp_addStore_sum (F := F) m d L hpre (i := inner_trip1.sl.v91 d L gI n) (v := View.readAt (Elt F) (B1).view (Rect.unit (s := S3200) (k0_off13 n 4#32) S16.size (k0_off13_inb n 4)).toLoadRect gV) (200 * k + 8 * n.val + 1 + 1 + 1 + 1) (160000 * (L 0).val + 16 * (200 * k + 8 * n.val + 4)) (by omega)
      (sum_col_read1 m L d k hk gI hgI n 4) (sum_ea_read1 m L d k hk gV hgV n 4)) $$ [H5]
  · iexact H5
  iintro H5
  iapply (wp_addStore_sum (F := F) m d L hpre (i := inner_trip1.sl.v97 d L gI n) (v := View.readAt (Elt F) (B1).view (Rect.unit (s := S3200) (k0_off13 n 5#32) S16.size (k0_off13_inb n 5)).toLoadRect gV) (200 * k + 8 * n.val + 1 + 1 + 1 + 1 + 1) (160000 * (L 0).val + 16 * (200 * k + 8 * n.val + 5)) (by omega)
      (sum_col_read1 m L d k hk gI hgI n 5) (sum_ea_read1 m L d k hk gV hgV n 5)) $$ [H5]
  · iexact H5
  iintro H5
  iapply (wp_addStore_sum (F := F) m d L hpre (i := inner_trip1.sl.v103 d L gI n) (v := View.readAt (Elt F) (B1).view (Rect.unit (s := S3200) (k0_off13 n 6#32) S16.size (k0_off13_inb n 6)).toLoadRect gV) (200 * k + 8 * n.val + 1 + 1 + 1 + 1 + 1 + 1) (160000 * (L 0).val + 16 * (200 * k + 8 * n.val + 6)) (by omega)
      (sum_col_read1 m L d k hk gI hgI n 6) (sum_ea_read1 m L d k hk gV hgV n 6)) $$ [H5]
  · iexact H5
  iintro H5
  iapply (wp_addStore_sum (F := F) m d L hpre (i := inner_trip1.sl.v109 d L gI n) (v := View.readAt (Elt F) (B1).view (Rect.unit (s := S3200) (k0_off13 n 7#32) S16.size (k0_off13_inb n 7)).toLoadRect gV) (200 * k + 8 * n.val + 1 + 1 + 1 + 1 + 1 + 1 + 1) (160000 * (L 0).val + 16 * (200 * k + 8 * n.val + 7)) (by omega)
      (sum_col_read1 m L d k hk gI hgI n 7) (sum_ea_read1 m L d k hk gV hgV n 7)) $$ [H5]
  · iexact H5
  iintro H5
  rw [show 200 * k + 8 * n.val + 1 + 1 + 1 + 1 + 1 + 1 + 1 + 1 = 200 * k + 8 * (n.val + 1) from by omega]
  sl_step
  isplitl [H0]; · iexact H0
  isplitl [H2]; · iexact H2
  iexact H5

end Cert.Kernel.Run

end
-- ==== Proof.WTilePair.lean ====
/-
  The tile's main phase, one trip of its outer loop: chunks 2 t and 2 t + 1 are in flight into the two buffer pairs;
  each is waited for and its 200 groups of sixteen edges added into the sum accumulator (the inner loops), and while a
  chunk two further on exists its copies are started again into the pair just emptied — after the last trip both pairs
  are at rest.  The accumulator after 400 t groups becomes the accumulator after 400 (t + 1).
-/
import proofs.«212450_g60069412602311_cont_9to1_m_657_24_alg».proof.Proof.WTileInv
import proofs.«212450_g60069412602311_cont_9to1_m_657_24_alg».proof.Proof.WTilePairInner
import proofs.«212450_g60069412602311_cont_9to1_m_657_24_alg».proof.Proof.WTileFold

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F] (d : Dev nD) (L : grid0.Coords)

omit [FloatOps F] in
theorem t4_lt (t : Fin k0_t4_loop.trips) : t.val < 25 := lt_of_lt_of_eq t.isLt k0_t4_trips

set_option maxHeartbeats 1600000 in
/-- One trip of the outer loop of the tile's main phase, against its invariant. -/
theorem pair_trip (hpre : PreOK m) (O : CellTallies nD τ sig (HIx 1)) (W : Waits sig (HIx 1)) (v2 : BitVec 32) (t : Fin k0_t4_loop.trips) (acc : Unit) :
    inv4 m d L O W t.val acc
      ⊢ wp frame (wpE (defs₀ (F := F)) 𝒱₀ (V d (cV L) (jV L)) none) Set.univ
          (k0_t4_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 cc0_scoped1 cc0_scoped2 v2 t acc)
          (inv4 m d L O W (t.val + 1)) := by
  by_cases hc : t.val < 24
  · have k0_h1 : k0_cond1 t = 1#1 := (k0_cond1_iff t).2 hc
    have k0_h2 : k0_cond2 t = 1#1 := (k0_cond2_iff t).2 hc
    have ht := t4_lt t
    have h0 : 2 * t.val < 50 := by omega
    have h1 : 2 * t.val + 1 < 50 := by omega
    have hopen : inv4 m d L O W t.val acc ⊢ iprop(Transfers.MayWaits (V d (cV L) (jV L)) (none : HIx 1) O
        ∗ ((B5).view.loc (V d (cV L) (jV L)) ↦{fullShare} (Cert.Spec.sumsAcc (eaT m d) (eiV m d) (cL L) (jL L) (400 * t.val) : Vec F S10240 .f32))
        ∗ (FlV0 m d L (2 * t.val) h0 ∗ FlI0 m d L (2 * t.val) h0) ∗ (FlV1 m d L (2 * t.val + 1) h1 ∗ FlI1 m d L (2 * t.val + 1) h1)
        ∗ ∃ W', ⌜∀ p ∈ W', p ∈ W ∨ p.2 = none⌝ ∗ owes (V d (cV L) (jV L)) O W') := by
      unfold inv4 Slot0 Slot1
      rw [dif_pos h0, dif_pos h1]
    refine hopen.trans ?_
    unfold FlV0 FlI0 FlV1 FlI1
    iintro ⟨Hmw, H5, ⟨⟨%gV0, %Sv0, %hV0, Hf0, Hr0⟩, ⟨%gI0, %Si0, %hI0, Hf2, Hr2⟩⟩, ⟨⟨%gV1, %Sv1, %hV1, Hf1, Hr1⟩, ⟨%gI1, %Si1, %hI1, Hf3, Hr3⟩⟩, ⟨%W', %hW', HO⟩⟩
    sl_exec
    rw [show 400 * t.val = 200 * (2 * t.val) + 8 * 0 from by omega]
    sl_for (inv5 m d L (2 * t.val) gV0 gI0) $$ [Hf0_dst Hf2_dst H5]
    case region =>
      intro n a
      exact inner_trip0 m d L hpre (2 * t.val) h0 gV0 gI0 hV0 hI0 _ _ _ _ n a
    · unfold inv5
      isplitl [Hf0_dst]; · iexact Hf0_dst
      isplitl [Hf2_dst]; · iexact Hf2_dst
      iexact H5
    iintro %_ HI
    unfold inv5
    icases HI with ⟨H0, H2, H5⟩
    rw [show Scf.trips k0_t5_loop.lb k0_t5_loop.ub k0_t5_loop.st = 25 from k0_t5_trips,
      show 200 * (2 * t.val) + 8 * 25 = 200 * (2 * t.val + 1) + 8 * 0 from by omega]
    sl_exec
    sl_for (inv6 m d L (2 * t.val + 1) gV1 gI1) $$ [Hf1_dst Hf3_dst H5]
    case region =>
      intro n a
      exact inner_trip1 m d L hpre (2 * t.val + 1) h1 gV1 gI1 hV1 hI1 _ _ _ _ n a
    · unfold inv6
      isplitl [Hf1_dst]; · iexact Hf1_dst
      isplitl [Hf3_dst]; · iexact Hf3_dst
      iexact H5
    iintro %_ HI
    unfold inv6
    icases HI with ⟨H1, H3, H5⟩
    rw [show Scf.trips k0_t6_loop.lb k0_t6_loop.ub k0_t6_loop.st = 25 from k0_t6_trips,
      show 200 * (2 * t.val + 1) + 8 * 25 = 400 * (t.val + 1) from by omega]
    sl_exec

    sl_step
    have hk0 : 2 * (t.val + 1) < 50 := by omega
    have hk1 : 2 * (t.val + 1) + 1 < 50 := by omega
    unfold inv4 Slot0 Slot1
    rw [dif_pos hk0, dif_pos hk1]
    isplitl [Hmw]; · iexact Hmw
    isplitl [H5]; · iexact H5
    isplitl [Hf0 Hr0 Hf2 Hr2]
    · isplitl [Hf0 Hr0]
      · iapply (fold_FlV0 m d L (2 * (t.val + 1)) hk0 gV0 _ rfl (k0_off10 L t) (k0_off10_inb L t k0_h1) (fun _ => rfl) ((k0_off10_chunk L t).trans (by congr 2))) $$ [Hf0 Hr0]
        isplitl [Hf0]
        · iexact Hf0
        · iexact Hr0
      · iapply (fold_FlI0 m d L (2 * (t.val + 1)) hk0 gI0 _ rfl (k0_off11 L t) (k0_off11_inb L t k0_h1) (fun _ => rfl) ((k0_off11_chunk L t).trans (by congr 2))) $$ [Hf2 Hr2]
        isplitl [Hf2]
        · iexact Hf2
        · iexact Hr2
    isplitl [Hf1 Hr1 Hf3 Hr3]
    · isplitl [Hf1 Hr1]
      · iapply (fold_FlV1 m d L (2 * (t.val + 1) + 1) hk1 gV1 _ rfl (k0_off14 L t) (k0_off14_inb L t k0_h2) (fun _ => rfl) ((k0_off14_chunk L t).trans (by congr 2))) $$ [Hf1 Hr1]
        isplitl [Hf1]
        · iexact Hf1
        · iexact Hr1
      · iapply (fold_FlI1 m d L (2 * (t.val + 1) + 1) hk1 gI1 _ rfl (k0_off15 L t) (k0_off15_inb L t k0_h2) (fun _ => rfl) ((k0_off15_chunk L t).trans (by congr 2))) $$ [Hf3 Hr3]
        isplitl [Hf3]
        · iexact Hf3
        · iexact Hr3
    iexists (insert (SemLoc.dma cc0_scratch10.sem, (default : HIx 1)) (insert (SemLoc.dma cc0_scratch8.sem, (default : HIx 1)) (insert (SemLoc.dma cc0_scratch9.sem, (default : HIx 1)) (insert (SemLoc.dma cc0_scratch7.sem, (default : HIx 1)) W'))))
    isplitr
    · ipureintro
      intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      · exact hW' p hp
    · iexact HO

  · have k0_h1 : ¬ k0_cond1 t = 1#1 := fun h => hc ((k0_cond1_iff t).1 h)
    have k0_h2 : ¬ k0_cond2 t = 1#1 := fun h => hc ((k0_cond2_iff t).1 h)
    have ht := t4_lt t
    have h0 : 2 * t.val < 50 := by omega
    have h1 : 2 * t.val + 1 < 50 := by omega
    have hopen : inv4 m d L O W t.val acc ⊢ iprop(Transfers.MayWaits (V d (cV L) (jV L)) (none : HIx 1) O
        ∗ ((B5).view.loc (V d (cV L) (jV L)) ↦{fullShare} (Cert.Spec.sumsAcc (eaT m d) (eiV m d) (cL L) (jL L) (400 * t.val) : Vec F S10240 .f32))
        ∗ (FlV0 m d L (2 * t.val) h0 ∗ FlI0 m d L (2 * t.val) h0) ∗ (FlV1 m d L (2 * t.val + 1) h1 ∗ FlI1 m d L (2 * t.val + 1) h1)
        ∗ ∃ W', ⌜∀ p ∈ W', p ∈ W ∨ p.2 = none⌝ ∗ owes (V d (cV L) (jV L)) O W') := by
      unfold inv4 Slot0 Slot1
      rw [dif_pos h0, dif_pos h1]
    refine hopen.trans ?_
    unfold FlV0 FlI0 FlV1 FlI1
    iintro ⟨Hmw, H5, ⟨⟨%gV0, %Sv0, %hV0, Hf0, Hr0⟩, ⟨%gI0, %Si0, %hI0, Hf2, Hr2⟩⟩, ⟨⟨%gV1, %Sv1, %hV1, Hf1, Hr1⟩, ⟨%gI1, %Si1, %hI1, Hf3, Hr3⟩⟩, ⟨%W', %hW', HO⟩⟩
    sl_exec
    rw [show 400 * t.val = 200 * (2 * t.val) + 8 * 0 from by omega]
    sl_for (inv5 m d L (2 * t.val) gV0 gI0) $$ [Hf0_dst Hf2_dst H5]
    case region =>
      intro n a
      exact inner_trip0 m d L hpre (2 * t.val) h0 gV0 gI0 hV0 hI0 _ _ _ _ n a
    · unfold inv5
      isplitl [Hf0_dst]; · iexact Hf0_dst
      isplitl [Hf2_dst]; · iexact Hf2_dst
      iexact H5
    iintro %_ HI
    unfold inv5
    icases HI with ⟨H0, H2, H5⟩
    rw [show Scf.trips k0_t5_loop.lb k0_t5_loop.ub k0_t5_loop.st = 25 from k0_t5_trips,
      show 200 * (2 * t.val) + 8 * 25 = 200 * (2 * t.val + 1) + 8 * 0 from by omega]
    sl_exec
    sl_for (inv6 m d L (2 * t.val + 1) gV1 gI1) $$ [Hf1_dst Hf3_dst H5]
    case region =>
      intro n a
      exact inner_trip1 m d L hpre (2 * t.val + 1) h1 gV1 gI1 hV1 hI1 _ _ _ _ n a
    · unfold inv6
      isplitl [Hf1_dst]; · iexact Hf1_dst
      isplitl [Hf3_dst]; · iexact Hf3_dst
      iexact H5
    iintro %_ HI
    unfold inv6
    icases HI with ⟨H1, H3, H5⟩
    rw [show Scf.trips k0_t6_loop.lb k0_t6_loop.ub k0_t6_loop.st = 25 from k0_t6_trips,
      show 200 * (2 * t.val + 1) + 8 * 25 = 400 * (t.val + 1) from by omega]
    sl_exec

    sl_step
    have hk0 : ¬ 2 * (t.val + 1) < 50 := by omega
    have hk1 : ¬ 2 * (t.val + 1) + 1 < 50 := by omega
    unfold inv4 Slot0 Slot1
    rw [dif_neg hk0, dif_neg hk1]
    unfold Idle0 Idle1
    isplitl [Hmw]; · iexact Hmw
    isplitl [H5]; · iexact H5
    isplitl [Hf0 Hf2 H0 H2 Hr0 Hr2]
    · isplitl [Hf0]; · iexact Hf0
      isplitl [Hf2]; · iexact Hf2
      isplitl [H0]; · iexists _; iexact H0
      isplitl [H2]; · iexists _; iexact H2
      isplitl [Hr0]; · iexact Hr0
      iexact Hr2
    isplitl [Hf1 Hf3 H1 H3 Hr1 Hr3]
    · isplitl [Hf1]; · iexact Hf1
      isplitl [Hf3]; · iexact Hf3
      isplitl [H1]; · iexists _; iexact H1
      isplitl [H3]; · iexists _; iexact H3
      isplitl [Hr1]; · iexact Hr1
      iexact Hr3
    iexists (insert (SemLoc.dma cc0_scratch10.sem, (default : HIx 1)) (insert (SemLoc.dma cc0_scratch8.sem, (default : HIx 1)) (insert (SemLoc.dma cc0_scratch9.sem, (default : HIx 1)) (insert (SemLoc.dma cc0_scratch7.sem, (default : HIx 1)) W'))))
    isplitr
    · ipureintro
      intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      · exact hW' p hp
    · iexact HO

end Cert.Kernel.Run

end
-- ==== Proof.WTileBody.lean ====
/-
  One tile's task, run once at a symbolic tile for any float instance.  The two accumulators are zeroed; the tile's
  counting range of the edge list is fetched and its target nodes counted into the count accumulator; the fifty chunks
  of the tile's half of the edges are fetched two at a time, each chunk's attribute added at its target nodes into the
  sum accumulator while the chunk after the next is on its way; both accumulators are copied out to the tile's entries of
  the two result arrays.  The accumulators' contents are carried in the loops' invariants as the folds of the indexed
  add-store that the specification states, so the tile hands back its entries holding exactly those folds.
-/
import proofs.«212450_g60069412602311_cont_9to1_m_657_24_alg».proof.Proof.WTileInv
import proofs.«212450_g60069412602311_cont_9to1_m_657_24_alg».proof.Proof.WTileEZero
import proofs.«212450_g60069412602311_cont_9to1_m_657_24_alg».proof.Proof.WTileFold
import proofs.«212450_g60069412602311_cont_9to1_m_657_24_alg».proof.Proof.WTileCOut
import proofs.«212450_g60069412602311_cont_9to1_m_657_24_alg».proof.Proof.WTileEJoin
import proofs.«212450_g60069412602311_cont_9to1_m_657_24_alg».proof.Proof.WTileTrip2
import proofs.«212450_g60069412602311_cont_9to1_m_657_24_alg».proof.Proof.WTilePair

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

theorem Slot0_pos (d : Dev nD) (L : grid0.Coords) (k : ℕ) (hk : k < 50) : Slot0 m d L k = iprop(FlV0 m d L k hk ∗ FlI0 m d L k hk) := dif_pos hk
theorem Slot1_pos (d : Dev nD) (L : grid0.Coords) (k : ℕ) (hk : k < 50) : Slot1 m d L k = iprop(FlV1 m d L k hk ∗ FlI1 m d L k hk) := dif_pos hk
theorem Slot0_neg (d : Dev nD) (L : grid0.Coords) (k : ℕ) (hk : ¬ k < 50) : Slot0 m d L k = Idle0 m d L := dif_neg hk
theorem Slot1_neg (d : Dev nD) (L : grid0.Coords) (k : ℕ) (hk : ¬ k < 50) : Slot1 m d L k = Idle1 m d L := dif_neg hk

omit [FloatOps F] in
theorem tok_at0 {ℓ : Loc nD τ sig} {Sx : Finset (Idx ℓ)} {f : Buf (Elt F) ℓ} (q : PosShare TreeShare) :
    (ℓ ↦[Sx]{q} f : sProp 𝕄) ⊣⊢ iprop((ℓ ↦[Sx]{Transfers.shareDrop q 1} f) ∗ ℓ ↦[Sx]{Transfers.shareTokN q 0} f) :=
  tok_succ q 0
omit [FloatOps F] in
theorem tok_at {ℓ : Loc nD τ sig} {Sx : Finset (Idx ℓ)} {f : Buf (Elt F) ℓ} (q : PosShare TreeShare) (k k' : ℕ) (hk : k' = k + 1) :
    (ℓ ↦[Sx]{Transfers.shareDrop q k} f : sProp 𝕄) ⊣⊢ iprop((ℓ ↦[Sx]{Transfers.shareDrop q k'} f) ∗ ℓ ↦[Sx]{Transfers.shareTokN q k} f) := by
  subst hk; exact tok_succ q k

set_option maxHeartbeats 800000 in
/-- The tile's task from what the call hands it to what it hands back: the read shares returned, its entries of the two
    result arrays holding its sum and count accumulators. -/
theorem tile_body (d : Dev nD) (L : grid0.Coords) (hF : (K (F := F)).Facts) (hpre : PreOK m) (O : CellTallies nD τ sig (HIx 1)) (W : Waits sig (HIx 1)) (hO : ∀ g, O g none = 0) :
    iprop(levAts (K (F := F)).L (K (F := F)).lev ∗ emp ∗ goRes m d (cL L) (jL L) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_scatter_body L (Memref.whole main_v0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 cc0_scoped1 cc0_scoped2)
          fun _ => iprop(tdRes m d (cL L) (jL L) ∗ scopedBufs (V d (cV L) (jV L)) ∗ scopedSems0 (V d (cV L) (jV L)) ∗ ∃ W', ⌜∀ p ∈ W', p ∈ W ∨ p.2 = none⌝ ∗ owes (V d (cV L) (jV L)) O W') := by
  simp only [cc0__sc_scatter_body_eq_skeleton]; unfold cc0__sc_scatter_body_skel
  rw [(K (F := F)).scopedBufs_V hF d (cV L) (jV L), SparseCore.Cfg.scopedSems0_V (Val := Elt F) d (cV L) (jV L), ownSems0_V, ownBufs_V]
  unfold goRes
  iintro ⟨#Hlv, -, ⟨He, Hi, ⟨%fs, Hs⟩, ⟨%fc, Hc⟩⟩, ⟨⟨%f0, H0⟩, ⟨%f1, H1⟩, ⟨%f2, H2⟩, ⟨%f3, H3⟩, ⟨%f4, H4⟩, ⟨%f5, H5⟩, ⟨%f6, H6⟩, Hbufs⟩,
    ⟨Hsem0, Hsem1, Hsem2, Hsem3, Hsem4, Hsem5, Hsem6, Hsems⟩, HO⟩
  ihave Hmw := ((K (F := F)).mayWaits_none (thr := (V d (cV L) (jV L))) hO) $$ Hlv
  -- the read shares as tokens, one per semaphore that reads the array
  ihave He1 := (tok_at0 (F := F) (qTile (cL L) (jL L))).1 $$ He
  icases He1 with ⟨He1, Het0⟩
  ihave He2 := (tok_at (F := F) (qTile (cL L) (jL L)) 1 2 rfl).1 $$ He1
  icases He2 with ⟨Her, Het1⟩
  ihave Hi1 := (tok_at0 (F := F) (qTile (cL L) (jL L))).1 $$ Hi
  icases Hi1 with ⟨Hi1, Hit0⟩
  ihave Hi2 := (tok_at (F := F) (qTile (cL L) (jL L)) 1 2 rfl).1 $$ Hi1
  icases Hi2 with ⟨Hi2, Hit1⟩
  ihave Hi3 := (tok_at (F := F) (qTile (cL L) (jL L)) 2 3 rfl).1 $$ Hi2
  icases Hi3 with ⟨Hi3, Hit2⟩
  ihave Hi4 := (tok_at (F := F) (qTile (cL L) (jL L)) 3 4 rfl).1 $$ Hi3
  icases Hi4 with ⟨Hi4, Hit3⟩
  ihave Hi5 := (tok_at (F := F) (qTile (cL L) (jL L)) 4 5 rfl).1 $$ Hi4
  icases Hi5 with ⟨Hir, Hit4⟩
  ihave Het0' := (Entails.of_eq (pts_e (F := F) d L _ _).symm) $$ Het0
  ihave Het1' := (Entails.of_eq (pts_e (F := F) d L _ _).symm) $$ Het1
  ihave Hit2' := (Entails.of_eq (pts_i (F := F) d L _ _).symm) $$ Hit2
  ihave Hit3' := (Entails.of_eq (pts_i (F := F) d L _ _).symm) $$ Hit3
  ihave Hit4' := (Entails.of_eq (pts_i (F := F) d L _ _).symm) $$ Hit4
  ihave H0' := (Entails.of_eq (pts_B0 (F := F) d L _).symm) $$ H0
  ihave H1' := (Entails.of_eq (pts_B1 (F := F) d L _).symm) $$ H1
  ihave H2' := (Entails.of_eq (pts_B2 (F := F) d L _).symm) $$ H2
  ihave H3' := (Entails.of_eq (pts_B3 (F := F) d L _).symm) $$ H3
  ihave H4' := (Entails.of_eq (pts_B4 (F := F) d L _).symm) $$ H4
  ihave H5' := (Entails.of_eq (pts_B5 (F := F) d L _).symm) $$ H5
  ihave H6' := (Entails.of_eq (pts_B6 (F := F) d L _).symm) $$ H6
  sl_exec
  -- the zeroing loop
  sl_for (inv1 (F := F) d L) $$ [H5' H6']
  case region =>
    intro k _
    unfold inv1
    iintro ⟨⟨%g5, %h5, H5⟩, ⟨%g6, %h6, H6⟩⟩
    sl_exec
    sl_step
    isplitl [H5]
    · iexists _; isplitr
      · ipureintro; exact zd_step5 d L k g5 h5
      · iexact H5
    · iexists _; isplitr
      · ipureintro; exact zd_step6 d L k g6 h6
      · iexact H6
  · unfold inv1
    isplitl [H5']
    · iexists f5; isplitr
      · ipureintro; intro j hj; omega
      · iexact H5'
    · iexists f6; isplitr
      · ipureintro; intro j hj; omega
      · iexact H6'
  iintro %_ HI
  unfold inv1
  icases HI with ⟨⟨%g5, %h5, H5⟩, ⟨%g6, %h6, H6⟩⟩
  obtain rfl : g5 = (Cert.Spec.zeroAcc : Vec F S10240 .f32) := zd_done (g5 : Vec F S10240 .f32) h5
  obtain rfl : g6 = (Cert.Spec.zeroAcc : Vec F S10240 .f32) := zd_done (g6 : Vec F S10240 .f32) h6
  -- the four copies of chunks 0 and 1 start; the count range is fetched and waited for
  sl_exec
  sl_unfold_run_names
  -- the count loop
  have hg4 := stg4_landed m d L f4 (k0_off4 L) (k0_off4_inb L) (fun _ => rfl) (k0_off4_eq' L)
  sl_for (inv2 m d L (View.write (Elt F) (Memref.whole cc0_scratch4).view f4 (ReadAs.same.apply (View.read (Elt F) ((Memref.whole main_arg1_scv : Memref sig .scVector .hbm S2x320000 .i32).slice (Rect.unit (s := S2x320000) (k0_off4 L) S2x10112.size (k0_off4_inb L)) (fun _ => rfl)).view (eiV m d))) Finset.univ)) $$ [H4' H6]
  case region =>
    intro t acc
    exact trip2 m d L hpre _ hg4 t acc
  · unfold inv2
    isplitl [H4']
    · iexact H4'
    · iexact H6
  iintro %_ HI
  have e2 : 8 * Scf.trips (k0_t2_loop L).lb (k0_t2_loop L).ub (k0_t2_loop L).st = Cert.Spec.cntGroups (wL L) := k0_t2_groups L
  unfold inv2
  rw [e2]
  icases HI with ⟨H4, H6⟩
  sl_for0 (k0_t3_trips L)
  -- the pair loop: chunks 0 and 1 are in flight
  ihave HV0 := (fold_FlV0 m d L (2 * 0) (by omega) f0 _ rfl (k0_off2 L 0#32) (k0_off2_inb L 0) (fun _ => rfl) (k0_off2_chunk L 0)) $$ [Hsem0 Het0']
  · isplitl [Hsem0]
    · iexact Hsem0
    · iexact Het0'
  ihave HI0 := (fold_FlI0 m d L (2 * 0) (by omega) f2 _ rfl (k0_off3 L 0#32) (k0_off3_inb L 0) (fun _ => rfl) (k0_off3_chunk L 0)) $$ [Hsem2 Hit2']
  · isplitl [Hsem2]
    · iexact Hsem2
    · iexact Hit2'
  ihave HV1 := (fold_FlV1 m d L (2 * 0 + 1) (by omega) f1 _ rfl (k0_off2 L 3200#32) (k0_off2_inb L 1) (fun _ => rfl) (k0_off2_chunk L 1)) $$ [Hsem1 Het1']
  · isplitl [Hsem1]
    · iexact Hsem1
    · iexact Het1'
  ihave HI1 := (fold_FlI1 m d L (2 * 0 + 1) (by omega) f3 _ rfl (k0_off3 L 3200#32) (k0_off3_inb L 1) (fun _ => rfl) (k0_off3_chunk L 1)) $$ [Hsem3 Hit3']
  · isplitl [Hsem3]
    · iexact Hsem3
    · iexact Hit3'
  sl_for (inv4 m d L O W) $$ [H5 HV0 HI0 HV1 HI1 HO]
  case region =>
    intro t acc
    exact pair_trip m d L hpre O W _ t acc
  · unfold inv4
    rw [Slot0_pos m d L (2 * 0) (by omega), Slot1_pos m d L (2 * 0 + 1) (by omega)]
    isplitr
    · iexact Hmw
    isplitl [H5]
    · iexact H5
    isplitl [HV0 HI0]
    · isplitl [HV0]
      · iexact HV0
      · iexact HI0
    isplitl [HV1 HI1]
    · isplitl [HV1]
      · iexact HV1
      · iexact HI1
    iexists _; isplitr; swap
    · iexact HO
    · ipureintro; intro p hp
      rcases Finset.mem_insert.mp hp with rfl | hp
      · exact .inr rfl
      · exact .inl hp
  iintro %_ HI
  have e25 : Scf.trips k0_t4_loop.lb k0_t4_loop.ub k0_t4_loop.st = 25 := k0_t4_trips
  rw [e25]
  unfold inv4
  rw [Slot0_neg m d L (2 * 25) (by omega), Slot1_neg m d L (2 * 25 + 1) (by omega), show (400 : ℕ) * 25 = 10000 from rfl]
  unfold Idle0 Idle1
  icases HI with ⟨-, H5, ⟨Hsem0, Hsem2, ⟨%g0, H0⟩, ⟨%g2, H2⟩, Het0, Hit2⟩, ⟨Hsem1, Hsem3, ⟨%g1, H1⟩, ⟨%g3, H3⟩, Het1, Hit3⟩, %W', %hW', HO⟩
  -- the two accumulators out
  ihave Hs' := (Entails.of_eq (pts_sRow (F := F) d L _).symm) $$ Hs
  ihave Hc' := (Entails.of_eq (pts_cRow (F := F) d L _).symm) $$ Hc
  sl_exec
  sl_unfold_run_names
  sl_step
  unfold tdRes
  isplitl [Her Het0 Het1 Hir Hit0 Hit1 Hit2 Hit3 Hit4' Hs' Hc']
  · isplitl [Her Het0 Het1]
    · ihave Ht0 := (Entails.of_eq (pts_e (F := F) d L _ _)) $$ Het0
      ihave Ht1 := (Entails.of_eq (pts_e (F := F) d L _ _)) $$ Het1
      iapply (toks_join2 (F := F) (qTile (cL L) (jL L)))
      isplitl [Her]
      · iexact Her
      isplitl [Ht0]
      · iexact Ht0
      iexact Ht1
    isplitl [Hir Hit0 Hit1 Hit2 Hit3 Hit4']
    · ihave Ht2 := (Entails.of_eq (pts_i (F := F) d L _ _)) $$ Hit2
      ihave Ht3 := (Entails.of_eq (pts_i (F := F) d L _ _)) $$ Hit3
      ihave Ht4 := (Entails.of_eq (pts_i (F := F) d L _ _)) $$ Hit4'
      iapply (toks_join5 (F := F) (qTile (cL L) (jL L)))
      isplitl [Hir]
      · iexact Hir
      isplitl [Hit0]
      · iexact Hit0
      isplitl [Hit1]
      · iexact Hit1
      isplitl [Ht2]
      · iexact Ht2
      isplitl [Ht3]
      · iexact Ht3
      iexact Ht4
    isplitl [Hs']
    · ihave Hs'' := (Entails.of_eq (pts_sRow (F := F) d L _)) $$ Hs'
      iexists _; isplitr; swap
      · iexact Hs''
      · ipureintro; intro n
        refine (out_reads_s d L fs _ n).trans ?_
        simp only [ReadAs.apply_same, View.read_whole, Memref.view_whole]
        rfl
    · ihave Hc'' := (Entails.of_eq (pts_cRow (F := F) d L _)) $$ Hc'
      iexists _; isplitr; swap
      · iexact Hc''
      · ipureintro; intro n
        refine (out_reads_c d L fc _ n).trans ?_
        simp only [ReadAs.apply_same, View.read_whole, Memref.view_whole]
        rfl
  isplitl [H0 H1 H2 H3 H4 H5 H6 Hbufs]
  · isplitl [H0]
    · iexists _; iexact H0
    isplitl [H1]
    · iexists _; iexact H1
    isplitl [H2]
    · iexists _; iexact H2
    isplitl [H3]
    · iexists _; iexact H3
    isplitl [H4]
    · iexists _; iexact H4
    isplitl [H5]
    · iexists _; iexact H5
    isplitl [H6]
    · iexists _; iexact H6
    iexact Hbufs
  isplitl [Hsem0 Hsem1 Hsem2 Hsem3 Hsem4 Hsem5 Hsem6 Hsems]
  · isplitl [Hsem0]
    · iexact Hsem0
    isplitl [Hsem1]
    · iexact Hsem1
    isplitl [Hsem2]
    · iexact Hsem2
    isplitl [Hsem3]
    · iexact Hsem3
    isplitl [Hsem4]
    · iexact Hsem4
    isplitl [Hsem5]
    · iexact Hsem5
    isplitl [Hsem6]
    · iexact Hsem6
    iexact Hsems
  iexists _; isplitr; swap
  · iexact HO
  · ipureintro; intro p hp
    rcases Finset.mem_insert.mp hp with rfl | hp
    · exact .inr rfl
    rcases Finset.mem_insert.mp hp with rfl | hp
    · exact .inr rfl
    · exact hW' p hp

end Cert.Kernel.Run

end
-- ==== Proof.RegionData.lean ====
/-
  The dense stage's proof data: what each window's array holds at entry, how the body changes each staging buffer,
  and what the body then finds in each buffer at each point.
-/
import proofs.«212450_g60069412602311_cont_9to1_m_657_24_alg».proof.Proof.RegionIface
import proofs.«212450_g60069412602311_cont_9to1_m_657_24_alg».proof.Proof.Gen.KernelIdeal.Points
import Idealize.ShloMosaic.Lib.Pipeline.Regions

noncomputable section

namespace Cert.KernelIdeal.Run

open Cert.KernelIdeal Cert.KernelIdeal.Gen

open Idealize.ShloMosaic Idealize.ShloMosaic.ValueIdx
open Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (RDat Cfg Window cellOf kernel pipe)

variable {F : FTy → Type}

local notation "𝕄" => MT nD τ sig (SparseCore.Cfg.HIx 1) (Elt F) ℕ UU ℕ

variable [FloatOps F]

/-- Point t of the grid as one of the five blocks. -/
abbrev tt (t : Fin cfg1.N) : Fin 5 := Fin.cast N_1 t

/-- A staged x block agrees with x on the rows of block t that lie inside the array. -/
def XbOK (x : Vec F S10000x128 .f32) (t : Fin 5) (xb : Vec F S2048x128 .f32) : Prop :=
  ∀ (p : Fin 2048) (q : Fin 128) (h : 2048 * t.val + p.val < 10000), xb (ix2 p q) = x (ix2 (⟨2048 * t.val + p.val, h⟩ : Fin 10000) q)

/-- The TensorCore's unscoped arrays at a valuation, by reference. -/
abbrev VR (Vv : Valuation τ sig (Elt F)) (c : Dev nD) : (b : Ref sig .tc) → Buf (Elt F) ((c.tc : Thread nD τ).loc b) := fun b => Vv b

/-- The proof data of the pipeline on device c's TensorCore, from the valuation the stage is entered at: the arrays at
    the valuation; every input buffer left as found; the result's buffer left at the body's block of SOME x block that
    agrees with x inside the array, the other seven blocks the arrays' own; no invariant; nothing owed, the recorded waits all at
    levels the first call's round bounds. -/
def rdats (Vv : Valuation τ sig (Elt F)) (_ : Fin 1) (c : Dev nD) :
    RDat τ (Elt F) (SparseCore.Cfg.HIx 1) ℕ UU ℕ cfg1 c where
  A w := VR Vv c (Pipeline.arrRef spec1 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => ∃ xb : Vec F S2048x128 .f32, XbOK (Vv rX) (tt t) xb ∧
        X = Cert.KernelIdeal.Blk.blockOut xb (Cert.KernelIdeal.Blk.blk3 (Vv rS) (tt t)) (Cert.KernelIdeal.Blk.blk3 (Vv rC) (tt t))
              (Vv rW1x) (Vv rW1a) (Vv rB1) (Vv rW2) (Vv rB2)
  Φ _ := iprop(emp)
  q _ := fullShare
  owed _ := 0
  recorded _ := {p | (K (F := F)).lev ((c.tc : Thread nD τ), p.1) p.2 ≤ 8}

end Cert.KernelIdeal.Run

end
-- ==== Proof.RegionFinds.lean ====
/-
  The dense stage: what the body finds in each input's staging buffer at each point.

  The x block agrees with x on its rows inside the array; the blocks of the two [2, 16, 10240] arrays are their
  columns 2048 t … 2048 t + 2047; the five small arrays, fetched once and left as found, are whole.
-/
import proofs.«212450_g60069412602311_cont_9to1_m_657_24_alg».proof.Proof.RegionData

noncomputable section

namespace Cert.KernelIdeal.Run

open Cert.KernelIdeal Cert.KernelIdeal.Gen

open Idealize.ShloMosaic Idealize.ShloMosaic.ValueIdx
open Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (RDat Cfg Window cellOf kernel pipe)

variable {F : FTy → Type}

local notation "𝕄" => MT nD τ sig (SparseCore.Cfg.HIx 1) (Elt F) ℕ UU ℕ

variable [FloatOps F]
variable (Vv : Valuation τ sig (Elt F)) (c : Dev nD)

theorem idx_facts0 : ∀ t : Fin cfg1.N, (cfg1.win 0).index t 0 = t.val ∧ (cfg1.win 0).index t 1 = 0
    ∧ (cfg1.win 0).xsize (cfg1.grid.coords t) 0 = min 2048 (10000 - 2048 * t.val) ∧ (cfg1.win 0).xsize (cfg1.grid.coords t) 1 = 128 :=
  (by decide +kernel : ∀ t : Fin grid1.N, win1_0.index t 0 = t.val ∧ win1_0.index t 1 = 0
    ∧ win1_0.xsize (grid1.coords t) 0 = min 2048 (10000 - 2048 * t.val) ∧ win1_0.xsize (grid1.coords t) 1 = 128)

theorem fetched0_apply (t : Fin cfg1.N) (d : S2048x128.Idx → Elt F .f32) (p : Fin 2048) (q : Fin 128) (h : 2048 * t.val + p.val < 10000) :
    (rdats Vv 0 c).fetched (0 : Fin 9) t d (ix2 p q) = (Vv rX : Vec F S10000x128 .f32) (ix2 (⟨2048 * t.val + p.val, h⟩ : Fin 10000) q) := by
  obtain ⟨h0, h1, hx0, hx1⟩ := idx_facts0 t
  unfold RDat.fetched RDat.blockOf Window.fill
  have hm : (cfg1.win 0).moved (cfg1.grid.coords t) (ix2 p q) = true := by
    rw [Window.moved_iff]
    intro a
    match a with
    | ⟨0, _⟩ => show p.val < (cfg1.win 0).xsize (cfg1.grid.coords t) 0; rw [hx0]; have := p.isLt; omega
    | ⟨1, _⟩ => show q.val < (cfg1.win 0).xsize (cfg1.grid.coords t) 1; rw [hx1]; exact q.isLt
  rw [dif_pos hm]
  rw [View.read_apply]
  show (Vv rX : Vec F S10000x128 .f32) (((cfg1.win 0).rect t).emb fun a => ⟨(ix2 p q a).val, _⟩) = _
  congr 1
  funext a
  apply Fin.ext
  rw [Rect.emb_apply]
  match a with
  | ⟨0, _⟩ => show (cfg1.win 0).index t 0 * 2048 + 1 * p.val = 2048 * t.val + p.val; rw [h0]; omega
  | ⟨1, _⟩ => show (cfg1.win 0).index t 1 * 128 + 1 * q.val = q.val; rw [h1]; omega

theorem finds0 (t : Fin cfg1.N) (Y : S2048x128.Idx → Elt F .f32) (h : (rdats Vv 0 c).Finds (0 : Fin 9) t Y) : XbOK (Vv rX) (tt t) Y := by
  rw [(rdats Vv 0 c).finds_of_fetch (fetch1_0 t)] at h
  obtain ⟨d, rfl⟩ := h
  intro p q hh
  exact fetched0_apply Vv c t d p q hh

theorem idx_facts1 : ∀ t : Fin cfg1.N, (cfg1.win 1).index t 0 = 0 ∧ (cfg1.win 1).index t 1 = 0 ∧ (cfg1.win 1).index t 2 = t.val :=
  (by decide +kernel : ∀ t : Fin grid1.N, win1_1.index t 0 = 0 ∧ win1_1.index t 1 = 0 ∧ win1_1.index t 2 = t.val)
theorem idx_facts2 : ∀ t : Fin cfg1.N, (cfg1.win 2).index t 0 = 0 ∧ (cfg1.win 2).index t 1 = 0 ∧ (cfg1.win 2).index t 2 = t.val :=
  (by decide +kernel : ∀ t : Fin grid1.N, win1_2.index t 0 = 0 ∧ win1_2.index t 1 = 0 ∧ win1_2.index t 2 = t.val)

theorem finds1 (t : Fin cfg1.N) (Y : S2x16x2048.Idx → Elt F .f32) (h : (rdats Vv 0 c).Finds (1 : Fin 9) t Y) :
    Y = Cert.KernelIdeal.Blk.blk3 (Vv rS) (tt t) := by
  rw [(rdats Vv 0 c).finds_of_fetch (fetch1_1 t)] at h
  obtain ⟨d, rfl⟩ := h
  obtain ⟨h0, h1, h2⟩ := idx_facts1 t
  funext y
  show (Vv rS : Vec F S2x16x10240 .f32) (((cfg1.win 1).rect t).emb y) = _
  unfold Cert.KernelIdeal.Blk.blk3
  congr 1
  funext a
  apply Fin.ext
  rw [Rect.emb_apply]
  match a with
  | ⟨0, _⟩ => show (cfg1.win 1).index t 0 * 2 + 1 * (y 0).val = (y 0).val; rw [h0]; omega
  | ⟨1, _⟩ => show (cfg1.win 1).index t 1 * 16 + 1 * (y 1).val = (y 1).val; rw [h1]; omega
  | ⟨2, _⟩ => show (cfg1.win 1).index t 2 * 2048 + 1 * (y 2).val = 2048 * t.val + (y 2).val; rw [h2]; omega

theorem finds2 (t : Fin cfg1.N) (Y : S2x16x2048.Idx → Elt F .f32) (h : (rdats Vv 0 c).Finds (2 : Fin 9) t Y) :
    Y = Cert.KernelIdeal.Blk.blk3 (Vv rC) (tt t) := by
  rw [(rdats Vv 0 c).finds_of_fetch (fetch1_2 t)] at h
  obtain ⟨d, rfl⟩ := h
  obtain ⟨h0, h1, h2⟩ := idx_facts2 t
  funext y
  show (Vv rC : Vec F S2x16x10240 .f32) (((cfg1.win 2).rect t).emb y) = _
  unfold Cert.KernelIdeal.Blk.blk3
  congr 1
  funext a
  apply Fin.ext
  rw [Rect.emb_apply]
  match a with
  | ⟨0, _⟩ => show (cfg1.win 2).index t 0 * 2 + 1 * (y 0).val = (y 0).val; rw [h0]; omega
  | ⟨1, _⟩ => show (cfg1.win 2).index t 1 * 16 + 1 * (y 1).val = (y 1).val; rw [h1]; omega
  | ⟨2, _⟩ => show (cfg1.win 2).index t 2 * 2048 + 1 * (y 2).val = 2048 * t.val + (y 2).val; rw [h2]; omega

/-- An input fetched at the first point only and left as found holds at every point what that fetch brought. -/
theorem finds_const (w : Fin 9) (hfetch : ∀ t : Fin cfg1.N, (cfg1.win w).fetch t = true ↔ t.val % 5 = 0) (hout : (cfg1.win w).isOut = false)
    (hafter : ∀ t Y X, (rdats Vv 0 c).after w t Y X → X = Y) (Z : (cfg1.win w).block.Idx → Elt F (cfg1.win w).elt)
    (h0 : ∀ (t : Fin cfg1.N) d, t.val = 0 → (rdats Vv 0 c).fetched w t d = Z) :
    ∀ (n : Nat) (t : Fin cfg1.N), t.val = n → ∀ Y, (rdats Vv 0 c).Finds w t Y → Y = Z
  | 0, t, ht, Y, h => by
    rw [(rdats Vv 0 c).finds_of_fetch ((hfetch t).mpr (by rw [ht]))] at h
    obtain ⟨d, rfl⟩ := h
    exact h0 t d ht
  | n + 1, t, ht, Y, h => by
    have hlt : t.val < 5 := N_1 ▸ t.isLt
    have hf : (cfg1.win w).fetch t = false := by
      rcases hb : (cfg1.win w).fetch t with _ | _
      · rfl
      · have := (hfetch t).mp hb; omega
    rw [(rdats Vv 0 c).finds_of_pos hf (by omega)] at h
    rcases h with h | ⟨Y', hY', ha⟩
    · exfalso; simp [Window.flush] at h; exact Bool.false_ne_true (hout.symm.trans h.1)
    · rw [hafter _ _ _ ha]
      exact finds_const w hfetch hout hafter Z h0 n _ (by simp only [ht]; omega) Y' hY'

theorem idx_facts3 : ∀ t : Fin cfg1.N, (cfg1.win 3).index t 0 = 0 ∧ (cfg1.win 3).index t 1 = 0 :=
  (by decide +kernel : ∀ t : Fin grid1.N, win1_3.index t 0 = 0 ∧ win1_3.index t 1 = 0)

theorem finds3 (t : Fin cfg1.N) (Y : S128x64.Idx → Elt F .f32) (h : (rdats Vv 0 c).Finds (3 : Fin 9) t Y) : Y = Vv rW1x := by
  refine finds_const Vv c (3 : Fin 9) fetch1_3 rfl (fun _ _ _ h => h) (Vv rW1x) (fun t d _ => ?_) t.val t rfl Y h
  obtain ⟨h0, h1⟩ := idx_facts3 t
  funext y
  show (Vv rW1x : Vec F S128x64 .f32) (((cfg1.win 3).rect t).emb y) = _
  congr 1
  funext a
  apply Fin.ext
  rw [Rect.emb_apply]
  match a with
  | ⟨0, _⟩ => show (cfg1.win 3).index t 0 * 128 + 1 * (y 0).val = (y 0).val; rw [h0]; omega
  | ⟨1, _⟩ => show (cfg1.win 3).index t 1 * 64 + 1 * (y 1).val = (y 1).val; rw [h1]; omega

theorem idx_facts4 : ∀ t : Fin cfg1.N, (cfg1.win 4).index t 0 = 0 ∧ (cfg1.win 4).index t 1 = 0 :=
  (by decide +kernel : ∀ t : Fin grid1.N, win1_4.index t 0 = 0 ∧ win1_4.index t 1 = 0)

theorem finds4 (t : Fin cfg1.N) (Y : S16x64.Idx → Elt F .f32) (h : (rdats Vv 0 c).Finds (4 : Fin 9) t Y) : Y = Vv rW1a := by
  refine finds_const Vv c (4 : Fin 9) fetch1_4 rfl (fun _ _ _ h => h) (Vv rW1a) (fun t d _ => ?_) t.val t rfl Y h
  obtain ⟨h0, h1⟩ := idx_facts4 t
  funext y
  show (Vv rW1a : Vec F S16x64 .f32) (((cfg1.win 4).rect t).emb y) = _
  congr 1
  funext a
  apply Fin.ext
  rw [Rect.emb_apply]
  match a with
  | ⟨0, _⟩ => show (cfg1.win 4).index t 0 * 16 + 1 * (y 0).val = (y 0).val; rw [h0]; omega
  | ⟨1, _⟩ => show (cfg1.win 4).index t 1 * 64 + 1 * (y 1).val = (y 1).val; rw [h1]; omega

theorem idx_facts5 : ∀ t : Fin cfg1.N, (cfg1.win 5).index t 0 = 0 ∧ (cfg1.win 5).index t 1 = 0 :=
  (by decide +kernel : ∀ t : Fin grid1.N, win1_5.index t 0 = 0 ∧ win1_5.index t 1 = 0)

theorem finds5 (t : Fin cfg1.N) (Y : S1x64.Idx → Elt F .f32) (h : (rdats Vv 0 c).Finds (5 : Fin 9) t Y) : Y = Vv rB1 := by
  refine finds_const Vv c (5 : Fin 9) fetch1_5 rfl (fun _ _ _ h => h) (Vv rB1) (fun t d _ => ?_) t.val t rfl Y h
  obtain ⟨h0, h1⟩ := idx_facts5 t
  funext y
  show (Vv rB1 : Vec F S1x64 .f32) (((cfg1.win 5).rect t).emb y) = _
  congr 1
  funext a
  apply Fin.ext
  rw [Rect.emb_apply]
  match a with
  | ⟨0, _⟩ => show (cfg1.win 5).index t 0 * 1 + 1 * (y 0).val = (y 0).val; rw [h0]; omega
  | ⟨1, _⟩ => show (cfg1.win 5).index t 1 * 64 + 1 * (y 1).val = (y 1).val; rw [h1]; omega

theorem idx_facts6 : ∀ t : Fin cfg1.N, (cfg1.win 6).index t 0 = 0 ∧ (cfg1.win 6).index t 1 = 0 :=
  (by decide +kernel : ∀ t : Fin grid1.N, win1_6.index t 0 = 0 ∧ win1_6.index t 1 = 0)

theorem finds6 (t : Fin cfg1.N) (Y : S64x128.Idx → Elt F .f32) (h : (rdats Vv 0 c).Finds (6 : Fin 9) t Y) : Y = Vv rW2 := by
  refine finds_const Vv c (6 : Fin 9) fetch1_6 rfl (fun _ _ _ h => h) (Vv rW2) (fun t d _ => ?_) t.val t rfl Y h
  obtain ⟨h0, h1⟩ := idx_facts6 t
  funext y
  show (Vv rW2 : Vec F S64x128 .f32) (((cfg1.win 6).rect t).emb y) = _
  congr 1
  funext a
  apply Fin.ext
  rw [Rect.emb_apply]
  match a with
  | ⟨0, _⟩ => show (cfg1.win 6).index t 0 * 64 + 1 * (y 0).val = (y 0).val; rw [h0]; omega
  | ⟨1, _⟩ => show (cfg1.win 6).index t 1 * 128 + 1 * (y 1).val = (y 1).val; rw [h1]; omega

theorem idx_facts7 : ∀ t : Fin cfg1.N, (cfg1.win 7).index t 0 = 0 ∧ (cfg1.win 7).index t 1 = 0 :=
  (by decide +kernel : ∀ t : Fin grid1.N, win1_7.index t 0 = 0 ∧ win1_7.index t 1 = 0)

theorem finds7 (t : Fin cfg1.N) (Y : S1x128.Idx → Elt F .f32) (h : (rdats Vv 0 c).Finds (7 : Fin 9) t Y) : Y = Vv rB2 := by
  refine finds_const Vv c (7 : Fin 9) fetch1_7 rfl (fun _ _ _ h => h) (Vv rB2) (fun t d _ => ?_) t.val t rfl Y h
  obtain ⟨h0, h1⟩ := idx_facts7 t
  funext y
  show (Vv rB2 : Vec F S1x128 .f32) (((cfg1.win 7).rect t).emb y) = _
  congr 1
  funext a
  apply Fin.ext
  rw [Rect.emb_apply]
  match a with
  | ⟨0, _⟩ => show (cfg1.win 7).index t 0 * 1 + 1 * (y 0).val = (y 0).val; rw [h0]; omega
  | ⟨1, _⟩ => show (cfg1.win 7).index t 1 * 128 + 1 * (y 1).val = (y 1).val; rw [h1]; omega

end Cert.KernelIdeal.Run

end
-- ==== Proof.RegionBody.lean ====
/-
  The dense stage: the body at one grid point.

  On whole staging buffers the body loads the eight input blocks, computes, and stores the result block once: the result's
  buffer ends holding the block the body computes from the other eight, those unchanged. With what the body finds in
  each buffer, this is the pipeline's body obligation.
-/
import proofs.«212450_g60069412602311_cont_9to1_m_657_24_alg».proof.Proof.RegionFinds
import proofs.«212450_g60069412602311_cont_9to1_m_657_24_alg».proof.Proof.Gen.KernelIdeal.Skeleton
import Idealize.ShloMosaic.Lib.Pipeline.FrameBody
import Idealize.ShloMosaic.Lib.Pipeline.Value
import Idealize.ShloMosaic.Lib.Tactic

noncomputable section

namespace Cert.KernelIdeal.Run

open Cert.KernelIdeal Cert.KernelIdeal.Gen

open Idealize.ShloMosaic Idealize.ShloMosaic.ValueIdx
open Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (RDat Cfg Window cellOf kernel pipe)

variable {F : FTy → Type}

local notation "𝕄" => MT nD τ sig (SparseCore.Cfg.HIx 1) (Elt F) ℕ UU ℕ

variable [FloatOps F]

set_option maxRecDepth 16384

theorem ld_half0 (X : Vec F S2x16x2048 .f32) :
    View.ld X (Rect.unit (s := S2x16x2048) ![0, 0, 0] S1x16x2048.size inb_S2x16x2048_S1x16x2048_0_0_0) = Cert.KernelIdeal.Blk.half 0 X := by
  funext y
  show X ((Rect.unit (s := S2x16x2048) ![0, 0, 0] S1x16x2048.size inb_S2x16x2048_S1x16x2048_0_0_0).emb y) = X (ix3 0 (y 1) (y 2))
  congr 1; funext a; apply Fin.ext; rw [Rect.emb_apply]
  match a with
  | ⟨0, _⟩ => show 0 + 1 * (y 0).val = 0; have h1 : (y 0).val < 1 := (y 0).isLt; omega
  | ⟨1, _⟩ => show 0 + 1 * (y 1).val = (y 1).val; omega
  | ⟨2, _⟩ => show 0 + 1 * (y 2).val = (y 2).val; omega

theorem ld_half1 (X : Vec F S2x16x2048 .f32) :
    View.ld X (Rect.unit (s := S2x16x2048) ![1, 0, 0] S1x16x2048.size inb_S2x16x2048_S1x16x2048_1_0_0) = Cert.KernelIdeal.Blk.half 1 X := by
  funext y
  show X ((Rect.unit (s := S2x16x2048) ![1, 0, 0] S1x16x2048.size inb_S2x16x2048_S1x16x2048_1_0_0).emb y) = X (ix3 1 (y 1) (y 2))
  congr 1; funext a; apply Fin.ext; rw [Rect.emb_apply]
  match a with
  | ⟨0, _⟩ => show 1 + 1 * (y 0).val = 1; have h1 : (y 0).val < 1 := (y 0).isLt; omega
  | ⟨1, _⟩ => show 0 + 1 * (y 1).val = (y 1).val; omega
  | ⟨2, _⟩ => show 0 + 1 * (y 2).val = (y 2).val; omega

set_option maxHeartbeats 2000000 in
theorem sound_kernel (c : Dev nD) (E : Set ℕ) (i : grid1.Coords)
    (arg1 : Memref sig .tc .vmem S2048x128 .f32) (harg1 : arg1.IsWhole) (arg2 : Memref sig .tc .vmem S2x16x2048 .f32) (harg2 : arg2.IsWhole)
    (arg3 : Memref sig .tc .vmem S2x16x2048 .f32) (harg3 : arg3.IsWhole) (arg4 : Memref sig .tc .vmem S128x64 .f32) (harg4 : arg4.IsWhole)
    (arg5 : Memref sig .tc .vmem S16x64 .f32) (harg5 : arg5.IsWhole) (arg6 : Memref sig .tc .vmem S1x64 .f32) (harg6 : arg6.IsWhole)
    (arg7 : Memref sig .tc .vmem S64x128 .f32) (harg7 : arg7.IsWhole) (arg8 : Memref sig .tc .vmem S1x128 .f32) (harg8 : arg8.IsWhole)
    (arg9 : Memref sig .tc .vmem S2048x128 .f32) (harg9 : arg9.IsWhole)
    (x0 : Vec F S2048x128 .f32) (x1 x2 : Vec F S2x16x2048 .f32) (x3 : Vec F S128x64 .f32) (x4 : Vec F S16x64 .f32) (x5 : Vec F S1x64 .f32)
    (x6 : Vec F S64x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (Cert.KernelIdeal.Blk.blockOut x0 x1 x2 x3 x4 x5 x6 x7)) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9) K := by
  simp only [cc1__mlp_body_eq_skeleton]; unfold cc1__mlp_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  have hz2 : (![0, 0] : Fin 2 → Nat) = fun _ => 0 := funext fun a => by fin_cases a <;> rfl
  rw [View.read_writes_eq_canon _ _ _ (fun y => View.cover_of_tiled [⟨_, _⟩] S2048x128.size (by rfl) y)]
  rw [View.canon_unit_zero (S := S2048x128) hz2]
  simp only [View.readAt_eq_ld]
  rw [View.ld_unit_zero (S := S2048x128) hz2, View.ld_unit_zero (S := S128x64) hz2, View.ld_unit_zero (S := S16x64) hz2,
    View.ld_unit_zero (S := S1x64) hz2, View.ld_unit_zero (S := S64x128) hz2, View.ld_unit_zero (S := S1x128) hz2]
  rw [ld_half0, ld_half1, ld_half0, ld_half1]
  sl_unfold_words
  rfl

variable (Vv : Valuation τ sig (Elt F)) (c : Dev nD)

/-- The pipeline's body obligation: at every point, from buffers holding what the body may find there, the body runs and
    leaves every input's buffer as found and the result's at its block of the staged x block, which agrees with x inside
    the array. -/
theorem body_obligation : (rdats Vv 0 c).BodyObligation (defs₀ (F := F)) 𝒱₀ none Set.univ := fun t Y hY => by
  have h0 := finds0 Vv c t (Y 0) (hY 0)
  have h1 := finds1 Vv c t (Y 1) (hY 1)
  have h2 := finds2 Vv c t (Y 2) (hY 2)
  have h3 := finds3 Vv c t (Y 3) (hY 3)
  have h4 := finds4 Vv c t (Y 4) (hY 4)
  have h5 := finds5 Vv c t (Y 5) (hY 5)
  have h6 := finds6 Vv c t (Y 6) (hY 6)
  have h7 := finds7 Vv c t (Y 7) (hY 7)
  rw [bigSep_W1, bigSep_W1]
  rw [show (rdats Vv 0 c).Φ t.succ = (rdats Vv 0 c).Φ t.castSucc from rfl,
    show (rdats Vv 0 c).owesAt none t.succ = (rdats Vv 0 c).owesAt none t.castSucc from rfl]
  show _ ⊢ wp frame (wpE (defs₀ (F := F)) Variants.none c none) Set.univ (bodyAt1 t) _
  iintro ⟨HΦ, Ho, H0, H1, H2, H3, H4, H5, H6, H7, H8⟩
  iapply (sound_kernel (F := F) c Set.univ (grid1.coords t) _ _ _ _ _ _ _ _ _ _ _ _ _ _ _ _ _ _ (Y 0) (Y 1) (Y 2) (Y 3) (Y 4) (Y 5) (Y 6) (Y 7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexists (Y 0); isplitr; · ipureintro; exact rfl
                  iexact H0
  isplitl [H1]; · iexists (Y 1); isplitr; · ipureintro; exact rfl
                  iexact H1
  isplitl [H2]; · iexists (Y 2); isplitr; · ipureintro; exact rfl
                  iexact H2
  isplitl [H3]; · iexists (Y 3); isplitr; · ipureintro; exact rfl
                  iexact H3
  isplitl [H4]; · iexists (Y 4); isplitr; · ipureintro; exact rfl
                  iexact H4
  isplitl [H5]; · iexists (Y 5); isplitr; · ipureintro; exact rfl
                  iexact H5
  isplitl [H6]; · iexists (Y 6); isplitr; · ipureintro; exact rfl
                  iexact H6
  isplitl [H7]; · iexists (Y 7); isplitr; · ipureintro; exact rfl
                  iexact H7
  iexists _; isplitr
  swap; · iexact H8
  ipureintro
  refine ⟨Y 0, h0, ?_⟩
  rw [← h1, ← h2, ← h3, ← h4, ← h5, ← h6, ← h7]

end Cert.KernelIdeal.Run

end
-- ==== Proof.RegionValue.lean ====
/-
  The value of the dense stage, read off what the result array may hold after its five write-backs.

  Each write-back overwrites the rows of its block that lie inside the array (2048 rows, the last block 1808) with
  the leading rows of what the body left in the staging buffer: the body's block of some x block agreeing with x
  inside the array.  A write-back leaves every row outside its block as it was.  So after the write-backs of the
  points below n, every row of the blocks below n is its block's row; after all five, every row of the array.
-/
import proofs.«212450_g60069412602311_cont_9to1_m_657_24_alg».proof.Proof.RegionData

noncomputable section

namespace Cert.KernelIdeal.Run

open Cert.KernelIdeal Cert.KernelIdeal.Gen

open Idealize.ShloMosaic Idealize.ShloMosaic.ValueIdx
open Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (RDat Cfg Window cellOf kernel pipe)

variable {F : FTy → Type}

local notation "𝕄" => MT nD τ sig (SparseCore.Cfg.HIx 1) (Elt F) ℕ UU ℕ

variable [FloatOps F]

/-- Where the result's block at point t lies: block row t, column block 0, cut at the array's end. -/
theorem idx_facts8 : ∀ t : Fin cfg1.N, (cfg1.win 8).index t 0 = t.val ∧ (cfg1.win 8).index t 1 = 0
    ∧ (cfg1.win 8).xsize (cfg1.grid.coords t) 0 = min 2048 (10000 - 2048 * t.val) ∧ (cfg1.win 8).xsize (cfg1.grid.coords t) 1 = 128 :=
  (by decide +kernel : ∀ t : Fin grid1.N, win1_8.index t 0 = t.val ∧ win1_8.index t 1 = 0
    ∧ win1_8.xsize (grid1.coords t) 0 = min 2048 (10000 - 2048 * t.val) ∧ win1_8.xsize (grid1.coords t) 1 = 128)

/-- The write-back of point u, read at a row of block u inside the array: the staging buffer's row. -/
theorem written_apply (c : Dev nD) (u : Fin cfg1.N) (G₀ : Buf (Elt F) ((cfg1.win (8 : Fin 9)).arr.view.loc (c.tc : Thread nD τ)))
    (X : S2048x128.Idx → Elt F .f32) (p : Fin 2048) (q : Fin 128) (h : 2048 * u.val + p.val < 10000) :
    (((cfg1.win (8 : Fin 9)).blk u).view.write (Elt F) G₀ ((cfg1.win (8 : Fin 9)).cut (cfg1.grid.coords u) X) Finset.univ : Vec F S10000x128 .f32)
        (ix2 (⟨2048 * u.val + p.val, h⟩ : Fin 10000) q) = X (ix2 p q) := by
  obtain ⟨h0, h1, hx0, hx1⟩ := idx_facts8 u
  let j : ((cfg1.win (8 : Fin 9)).xblock (cfg1.grid.coords u)).Idx := fun a =>
    match a with
    | ⟨0, _⟩ => ⟨p.val, by show p.val < (cfg1.win 8).xsize (cfg1.grid.coords u) 0; rw [hx0]; have := p.isLt; omega⟩
    | ⟨1, _⟩ => ⟨q.val, by show q.val < (cfg1.win 8).xsize (cfg1.grid.coords u) 1; rw [hx1]; exact q.isLt⟩
  have hj : (ix2 (⟨2048 * u.val + p.val, h⟩ : Fin 10000) q : S10000x128.Idx) = ((cfg1.win (8 : Fin 9)).blk u).view.emb j := by
    show _ = ((cfg1.win (8 : Fin 9)).rect u).emb j
    funext a
    apply Fin.ext
    rw [Rect.emb_apply]
    match a with
    | ⟨0, _⟩ => show 2048 * u.val + p.val = (cfg1.win 8).index u 0 * 2048 + 1 * p.val; rw [h0]; omega
    | ⟨1, _⟩ => show q.val = (cfg1.win 8).index u 1 * 128 + 1 * q.val; rw [h1]; omega
  rw [hj]
  refine (View.write_emb_of_mem _ _ (Finset.mem_univ j)).trans ?_
  show X ((cfg1.win (8 : Fin 9)).xinj (cfg1.grid.coords u) j) = X (ix2 p q)
  congr 1
  funext a
  match a with
  | ⟨0, _⟩ => rfl
  | ⟨1, _⟩ => rfl

/-- The write-back of point u, read at a row of another block: the array as it was. -/
theorem unwritten_apply (c : Dev nD) (u : Fin cfg1.N) (G₀ : Buf (Elt F) ((cfg1.win (8 : Fin 9)).arr.view.loc (c.tc : Thread nD τ)))
    (X : S2048x128.Idx → Elt F .f32) (t : Fin 5) (htu : t.val ≠ u.val) (p : Fin 2048) (q : Fin 128) (h : 2048 * t.val + p.val < 10000) :
    (((cfg1.win (8 : Fin 9)).blk u).view.write (Elt F) G₀ ((cfg1.win (8 : Fin 9)).cut (cfg1.grid.coords u) X) Finset.univ : Vec F S10000x128 .f32)
        (ix2 (⟨2048 * t.val + p.val, h⟩ : Fin 10000) q) = (G₀ : Vec F S10000x128 .f32) (ix2 (⟨2048 * t.val + p.val, h⟩ : Fin 10000) q) := by
  obtain ⟨h0, h1, hx0, hx1⟩ := idx_facts8 u
  refine View.write_of_not_mem _ _ _ ?_
  rw [View.setOn_univ]
  show (ix2 (⟨2048 * t.val + p.val, h⟩ : Fin 10000) q : S10000x128.Idx) ∉ ((View.whole main_v6).slice ((cfg1.win (8 : Fin 9)).rect u)).set
  rw [View.set_slice_whole, Rect.mem_set_unit]
  intro hm
  have hm0 := hm (0 : Fin 2)
  have e : (cfg1.win 8).index u 0 * 2048 ≤ 2048 * t.val + p.val
      ∧ 2048 * t.val + p.val < (cfg1.win 8).index u 0 * 2048 + (cfg1.win 8).xsize (cfg1.grid.coords u) 0 := hm0
  rw [h0, hx0] at e
  have := p.isLt
  omega

/-- After the write-backs of the points below n: every row of the blocks below n is its block's row, of an x block
    that agrees with x inside the array. -/
def RowsBelow (Vv : Valuation τ sig (Elt F)) (n : ℕ) (G : Vec F S10000x128 .f32) : Prop :=
  ∃ xb : Fin 5 → Vec F S2048x128 .f32,
    (∀ t : Fin 5, t.val < n → XbOK (Vv rX) t (xb t)) ∧
    ∀ (t : Fin 5) (p : Fin 2048) (q : Fin 128) (h : 2048 * t.val + p.val < 10000), t.val < n →
      G (ix2 (⟨2048 * t.val + p.val, h⟩ : Fin 10000) q)
        = Cert.KernelIdeal.Blk.blockOut (xb t) (Cert.KernelIdeal.Blk.blk3 (Vv rS) t) (Cert.KernelIdeal.Blk.blk3 (Vv rC) t)
            (Vv rW1x) (Vv rW1a) (Vv rB1) (Vv rW2) (Vv rB2) (ix2 p q)

theorem rowsBelow_of_arrAt (Vv : Valuation τ sig (Elt F)) (c : Dev nD) :
    ∀ (n : ℕ) (_ : n ≤ cfg1.N) (G : Buf (Elt F) ((cfg1.win (8 : Fin 9)).arr.view.loc (c.tc : Thread nD τ))),
      (rdats Vv 0 c).ArrAt (8 : Fin 9) n G → RowsBelow Vv n (G : Vec F S10000x128 .f32) := by
  intro n
  induction n with
  | zero =>
    intro _ G _
    exact ⟨fun _ _ => Scalar.ofBits .f32 0x00000000#32, fun t ht => absurd ht (Nat.not_lt_zero _),
      fun t p q h ht => absurd ht (Nat.not_lt_zero _)⟩
  | succ n ih =>
    intro hn G hG
    have hn' : n < cfg1.N := hn
    have hs : (rdats Vv 0 c).ArrAt (8 : Fin 9) (n + 1)
        = (rdats Vv 0 c).ArrStep (8 : Fin 9) ⟨n, hn'⟩ ((rdats Vv 0 c).ArrAt (8 : Fin 9) n) := by
      have := (rdats Vv 0 c).ArrAt_succ (8 : Fin 9) ⟨n, hn'⟩
      rw [if_pos (flush1_8 _)] at this
      exact this
    rw [hs] at hG
    obtain ⟨G₀, X, hG₀, ⟨Y, -, hYX⟩, rfl⟩ := hG
    obtain ⟨xbu, hxbu, rfl⟩ : ∃ xb : Vec F S2048x128 .f32, XbOK (Vv rX) (tt ⟨n, hn'⟩) xb ∧
        X = Cert.KernelIdeal.Blk.blockOut xb (Cert.KernelIdeal.Blk.blk3 (Vv rS) (tt ⟨n, hn'⟩)) (Cert.KernelIdeal.Blk.blk3 (Vv rC) (tt ⟨n, hn'⟩))
              (Vv rW1x) (Vv rW1a) (Vv rB1) (Vv rW2) (Vv rB2) := hYX
    obtain ⟨xb₀, hxb₀, hval₀⟩ := ih (Nat.le_of_lt hn') G₀ hG₀
    refine ⟨Function.update xb₀ (tt ⟨n, hn'⟩) xbu, ?_, ?_⟩
    · intro t ht
      by_cases htu : t = tt ⟨n, hn'⟩
      · subst htu; rw [Function.update_self]; exact hxbu
      · rw [Function.update_of_ne htu]
        refine hxb₀ t ?_
        have : t.val ≠ n := fun e => htu (Fin.ext e)
        omega
    · intro t p q h ht
      by_cases htu : t = tt ⟨n, hn'⟩
      · subst htu
        rw [Function.update_self]
        exact written_apply c ⟨n, hn'⟩ G₀ _ p q h
      · have hne : t.val ≠ n := fun e => htu (Fin.ext e)
        rw [Function.update_of_ne htu]
        refine (unwritten_apply c ⟨n, hn'⟩ G₀ _ t hne p q h).trans ?_
        exact hval₀ t p q h (by omega)

/-- What the result array may hold after the five write-backs is what the stage is claimed to leave there. -/
theorem regionPost_of_arrAt (Vv : Valuation τ sig (Elt F)) (c : Dev nD) (o : Buf (Elt F) ((cfg1.win (8 : Fin 9)).arr.view.loc (c.tc : Thread nD τ)))
    (h : (rdats Vv 0 c).ArrAt (8 : Fin 9) cfg1.N o) :
    Cert.KernelIdeal.Blk.RegionPost (F := F) (Vv rX) (Vv rS) (Vv rC) (Vv rW1x) (Vv rW1a) (Vv rB1) (Vv rW2) (Vv rB2) (o : Vec F S10000x128 .f32) := by
  obtain ⟨xb, h1, h2⟩ := rowsBelow_of_arrAt Vv c cfg1.N (Nat.le_refl _) o h
  have hN : ∀ t : Fin 5, t.val < cfg1.N := fun t => by
    have : cfg1.N = 5 := N_1
    rw [this]; exact t.isLt
  exact ⟨xb, fun t p q hh => h1 t (hN t) p q hh, fun t p q hh => h2 t p q hh (hN t)⟩

end Cert.KernelIdeal.Run

end
-- ==== Proof.RegionExit.lean ====
/-
  The arrays at the dense stage's exit, reassembled.

  After the last point each input array is as at entry and the result array holds something the five write-backs
  may have left: an array every row of which is its block's row.  Together with the arrays the stage never names,
  they are again all of the TensorCore's arrays, at the entry contents with the result replaced.
-/
import proofs.«212450_g60069412602311_cont_9to1_m_657_24_alg».proof.Proof.RegionValue

noncomputable section

namespace Cert.KernelIdeal.Run

open Cert.KernelIdeal Cert.KernelIdeal.Gen

open Idealize.ShloMosaic Idealize.ShloMosaic.ValueIdx
open Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (RDat Cfg Window cellOf kernel pipe)
open Idealize.ShloMosaic.Pipeline (unscopedRest)

variable {F : FTy → Type}

local notation "𝕄" => MT nD τ sig (SparseCore.Cfg.HIx 1) (Elt F) ℕ UU ℕ

variable [FloatOps F]

/-- The arrays at the stage's exit: the TensorCore's arrays at the entry contents, the result replaced by an array the
    stage is claimed to leave. -/
theorem exit_arrays (Vv : Valuation τ sig (Elt F)) (d : Dev nD) :
    iprop((rdats Vv 0 d).arraysAt cfg1.N ∗ Pipeline.unscopedRest spec1 d (VR Vv d))
      ⊢ iprop(∃ o : Vec F S10000x128 .f32,
          ⌜Cert.KernelIdeal.Blk.RegionPost (F := F) (Vv rX) (Vv rS) (Vv rC) (Vv rW1x) (Vv rW1a) (Vv rB1) (Vv rW2) (Vv rB2) o⌝
          ∗ unscopedBufs d (VR (Function.update Vv rO o) d)) := by
  unfold RDat.arraysAt
  iintro ⟨Ha, Hrest⟩
  ihave Ha' := (BI.bigSep_exists_pi Finset.univ (fun (w : Fin cfg1.W) (Fw : Buf (Elt F) ((cfg1.win w).arr.view.loc (d.tc : Thread nD τ))) =>
      iprop(⌜(rdats Vv 0 d).ArrAt w cfg1.N Fw⌝
        ∗ (cfg1.win w).arr.view.loc (d.tc : Thread nD τ) ↦[(cfg1.win w).arr.view.set]{(rdats Vv 0 d).share w} Fw))) $$ Ha
  icases Ha' with ⟨%Fs, Ha⟩
  ihave Ha2 := (BI.bigSep_pure_sep Finset.univ (fun w => (rdats Vv 0 d).ArrAt w cfg1.N (Fs w))
      (fun w => (cfg1.win w).arr.view.loc (d.tc : Thread nD τ) ↦[(cfg1.win w).arr.view.set]{(rdats Vv 0 d).share w} Fs w)) $$ Ha
  icases Ha2 with ⟨%hFs, Ha⟩
  have hin : ∀ (w : Fin cfg1.W), (cfg1.win w).isOut = false → Fs w = (rdats Vv 0 d).A w := fun w hw => by
    have := hFs w (Finset.mem_univ w)
    rw [(rdats Vv 0 d).ArrAt_in w hw] at this
    exact this
  have hF : ∀ w : Fin cfg1.W, Fs w = VR (Function.update Vv rO (Fs (8 : Fin 9) : Vec F S10000x128 .f32)) d (Pipeline.arrRef spec1 w) := by
    intro w
    match w with
    | ⟨0, _⟩ =>
      rw [hin _ rfl]
      show Vv rX = Function.update Vv rO (Fs (8 : Fin 9) : Vec F S10000x128 .f32) rX
      exact (Function.update_of_ne (show (rX : DevRef τ sig) ≠ rO by decide) _ _).symm
    | ⟨1, _⟩ =>
      rw [hin _ rfl]
      show Vv rS = Function.update Vv rO (Fs (8 : Fin 9) : Vec F S10000x128 .f32) rS
      exact (Function.update_of_ne (show (rS : DevRef τ sig) ≠ rO by decide) _ _).symm
    | ⟨2, _⟩ =>
      rw [hin _ rfl]
      show Vv rC = Function.update Vv rO (Fs (8 : Fin 9) : Vec F S10000x128 .f32) rC
      exact (Function.update_of_ne (show (rC : DevRef τ sig) ≠ rO by decide) _ _).symm
    | ⟨3, _⟩ =>
      rw [hin _ rfl]
      show Vv rW1x = Function.update Vv rO (Fs (8 : Fin 9) : Vec F S10000x128 .f32) rW1x
      exact (Function.update_of_ne (show (rW1x : DevRef τ sig) ≠ rO by decide) _ _).symm
    | ⟨4, _⟩ =>
      rw [hin _ rfl]
      show Vv rW1a = Function.update Vv rO (Fs (8 : Fin 9) : Vec F S10000x128 .f32) rW1a
      exact (Function.update_of_ne (show (rW1a : DevRef τ sig) ≠ rO by decide) _ _).symm
    | ⟨5, _⟩ =>
      rw [hin _ rfl]
      show Vv rB1 = Function.update Vv rO (Fs (8 : Fin 9) : Vec F S10000x128 .f32) rB1
      exact (Function.update_of_ne (show (rB1 : DevRef τ sig) ≠ rO by decide) _ _).symm
    | ⟨6, _⟩ =>
      rw [hin _ rfl]
      show Vv rW2 = Function.update Vv rO (Fs (8 : Fin 9) : Vec F S10000x128 .f32) rW2
      exact (Function.update_of_ne (show (rW2 : DevRef τ sig) ≠ rO by decide) _ _).symm
    | ⟨7, _⟩ =>
      rw [hin _ rfl]
      show Vv rB2 = Function.update Vv rO (Fs (8 : Fin 9) : Vec F S10000x128 .f32) rB2
      exact (Function.update_of_ne (show (rB2 : DevRef τ sig) ≠ rO by decide) _ _).symm
    | ⟨8, _⟩ =>
      show (Fs (8 : Fin 9) : Vec F S10000x128 .f32) = Function.update Vv rO (Fs (8 : Fin 9) : Vec F S10000x128 .f32) rO
      exact (Function.update_self rO (Fs (8 : Fin 9) : Vec F S10000x128 .f32) Vv).symm
  iexists (Fs (8 : Fin 9) : Vec F S10000x128 .f32)
  isplitr
  · ipureintro
    exact regionPost_of_arrAt Vv d (Fs (8 : Fin 9)) (hFs (8 : Fin 9) (Finset.mem_univ _))
  have hsplit : (unscopedBufs d (VR (Function.update Vv rO (Fs (8 : Fin 9) : Vec F S10000x128 .f32)) d) : sProp 𝕄)
      = iprop((bigSep Finset.univ fun w : Fin (cfgs 0).W =>
          ((d.tc : Thread nD τ).loc (Pipeline.arrRef (cfgs 0).spec w) ↦{fullShare}
            VR (Function.update Vv rO (Fs (8 : Fin 9) : Vec F S10000x128 .f32)) d (Pipeline.arrRef (cfgs 0).spec w) : sProp 𝕄))
        ∗ Pipeline.unscopedRest (cfgs 0).spec d (VR (Function.update Vv rO (Fs (8 : Fin 9) : Vec F S10000x128 .f32)) d)) :=
    Pipeline.unscopedBufs_split cfgs 0 launch1.win.arr_unscoped launch1.win.arr_inj d _
  rw [hsplit]
  isplitl [Ha]
  · have hcong : (bigSep Finset.univ fun w : Fin cfg1.W =>
          ((cfg1.win w).arr.view.loc (d.tc : Thread nD τ) ↦[(cfg1.win w).arr.view.set]{(rdats Vv 0 d).share w} Fs w : sProp 𝕄))
        = bigSep Finset.univ fun w : Fin (cfgs 0).W =>
          ((d.tc : Thread nD τ).loc (Pipeline.arrRef (cfgs 0).spec w) ↦{fullShare}
            VR (Function.update Vv rO (Fs (8 : Fin 9) : Vec F S10000x128 .f32)) d (Pipeline.arrRef (cfgs 0).spec w) : sProp 𝕄) :=
      bigSep_congr fun w _ => by
        rw [(launch1.arr_whole w).set_eq_univ, (rdats Vv 0 d).share_full (fun _ => rfl) w, hF w]
    iapply (Entails.of_eq hcong)
    iexact Ha
  · have e1 : VR (Function.update Vv rO (Fs (8 : Fin 9) : Vec F S10000x128 .f32)) d main_arg1 = VR Vv d main_arg1 :=
      Function.update_of_ne (show (Proc.devRef .tc (main_arg1 : Ref sig .tc) : DevRef τ sig) ≠ rO by decide) _ _
    have e2 : VR (Function.update Vv rO (Fs (8 : Fin 9) : Vec F S10000x128 .f32)) d main_arg2 = VR Vv d main_arg2 :=
      Function.update_of_ne (show (Proc.devRef .tc (main_arg2 : Ref sig .tc) : DevRef τ sig) ≠ rO by decide) _ _
    have e3 : VR (Function.update Vv rO (Fs (8 : Fin 9) : Vec F S10000x128 .f32)) d main_arg3 = VR Vv d main_arg3 :=
      Function.update_of_ne (show (Proc.devRef .tc (main_arg3 : Ref sig .tc) : DevRef τ sig) ≠ rO by decide) _ _
    have e4 : VR (Function.update Vv rO (Fs (8 : Fin 9) : Vec F S10000x128 .f32)) d main_arg4 = VR Vv d main_arg4 :=
      Function.update_of_ne (show (Proc.devRef .tc (main_arg4 : Ref sig .tc) : DevRef τ sig) ≠ rO by decide) _ _
    have e5 : VR (Function.update Vv rO (Fs (8 : Fin 9) : Vec F S10000x128 .f32)) d main_arg5 = VR Vv d main_arg5 :=
      Function.update_of_ne (show (Proc.devRef .tc (main_arg5 : Ref sig .tc) : DevRef τ sig) ≠ rO by decide) _ _
    have e6 : VR (Function.update Vv rO (Fs (8 : Fin 9) : Vec F S10000x128 .f32)) d main_arg6 = VR Vv d main_arg6 :=
      Function.update_of_ne (show (Proc.devRef .tc (main_arg6 : Ref sig .tc) : DevRef τ sig) ≠ rO by decide) _ _
    have e7 : VR (Function.update Vv rO (Fs (8 : Fin 9) : Vec F S10000x128 .f32)) d main_arg8 = VR Vv d main_arg8 :=
      Function.update_of_ne (show (Proc.devRef .tc (main_arg8 : Ref sig .tc) : DevRef τ sig) ≠ rO by decide) _ _
    have e8 : VR (Function.update Vv rO (Fs (8 : Fin 9) : Vec F S10000x128 .f32)) d main_v0 = VR Vv d main_v0 :=
      Function.update_of_ne (show (Proc.devRef .tc (main_v0 : Ref sig .tc) : DevRef τ sig) ≠ rO by decide) _ _
    have hrest : (Pipeline.unscopedRest spec1 d (VR Vv d) : sProp 𝕄)
        = Pipeline.unscopedRest (cfgs 0).spec d (VR (Function.update Vv rO (Fs (8 : Fin 9) : Vec F S10000x128 .f32)) d) := by
      show (Pipeline.unscopedRest spec1 d (VR Vv d) : sProp 𝕄)
        = Pipeline.unscopedRest spec1 d (VR (Function.update Vv rO (Fs (8 : Fin 9) : Vec F S10000x128 .f32)) d)
      rw [unscopedRest1_eq, unscopedRest1_eq, e1, e2, e3, e4, e5, e6, e7, e8]
    iapply (Entails.of_eq hrest)
    iexact Hrest

end Cert.KernelIdeal.Run

end
-- ==== Proof.Region.lean ====
/-
  The dense stage's run: the pipeline entered from the TensorCore's holdings after the call and the host operations,
  run by the pipeline rule on the relational proof data, and left with the result array written.
-/
import proofs.«212450_g60069412602311_cont_9to1_m_657_24_alg».proof.Proof.RegionBody
import proofs.«212450_g60069412602311_cont_9to1_m_657_24_alg».proof.Proof.RegionExit

noncomputable section

namespace Cert.KernelIdeal.Run

open Cert.KernelIdeal Cert.KernelIdeal.Gen

open Idealize.ShloMosaic Idealize.ShloMosaic.ValueIdx
open Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (RDat Cfg Window cellOf kernel pipe)

variable {F : FTy → Type}

local notation "𝕄" => MT nD τ sig (SparseCore.Cfg.HIx 1) (Elt F) ℕ UU ℕ

open Idealize.ShloMosaic.Pipeline (unscopedRest)

omit F in
/-- The two spellings of an entailment agree. -/
theorem ent' {M : Type} [URA M] {P R : sProp M} (h : Idealize.SL.BI.Entails P R) : P ⊢ R := h

/-! ## The staging cells' ghost state -/

/-- The staging cells' launch element deals every device its cells' ghost state and its transfers' duty tokens. -/
theorem fund_region : FundRegion (F := F) := by
  unfold FundRegion Gd
  refine (Pipeline.fund_ghost cfgs (ER (F := F)) cellOf_inj).trans ?_
  iintro H
  imod H with ⟨Hg, Ht⟩
  imodintro
  rw [bigSep_sep']
  isplitl [Hg]
  · iapply (ent' (bigSep_mono (s := Finset.univ) fun d _ => BI.bigSep_elim (Φ := fun p : Fin 1 => Pipeline.cellsGhost cfgs (ER (F := F)) p d) (Finset.mem_univ (0 : Fin 1)))); iexact Hg
  · iapply (ent' (bigSep_mono (s := Finset.univ) fun d _ => BI.bigSep_elim (Φ := fun p : Fin 1 => (Pipeline.toksInit cfgs (ER (F := F)) p d : sProp 𝕄)) (Finset.mem_univ (0 : Fin 1)))); iexact Ht

variable [FloatOps F]

/-! ## The region's record -/

/-- The pipeline's tables: none. -/
abbrev adm : (p : Fin 1) → (pcfgs (F := F) p).Adm := fun p => (cfgs p).toPCfg_adm

/-- What the TensorCore owes around the stage: nothing, its recorded waits at levels the first call's round bounds. -/
abbrev Rr (d : Dev nD) : sProp 𝕄 :=
  iprop(∃ W, ⌜(K (F := F)).WBelow (T d) W 8⌝ ∗ owes (T d) (0 : CellTallies nD τ sig (SparseCore.Cfg.HIx 1)) W)

/-- The TensorCore's state after the stage: its unscoped arrays at the valuation with the result replaced, as the stage
    is claimed to leave it. -/
abbrev Tpost (Vv : Valuation τ sig (Elt F)) (d : Dev nD) : sProp 𝕄 :=
  iprop(∃ o : Vec F S10000x128 .f32,
    ⌜Cert.KernelIdeal.Blk.RegionPost (F := F) (Vv rX) (Vv rS) (Vv rC) (Vv rW1x) (Vv rW1a) (Vv rB1) (Vv rW2) (Vv rB2) o⌝
    ∗ unscopedBufs d (VR (Function.update Vv rO o) d))

set_option backward.isDefEq.respectTransparency.types false in
/-- The region as the pipeline rule takes it: the decided layout, no semaphore of the body's own, the body obligation; entered
    from the unscoped arrays at the valuation and what the TensorCore owes — the nine staged arrays into the pipeline, the
    others bypassing —, left with the result array as the stage is claimed to leave it. -/
def reg (Vv : Valuation τ sig (Elt F)) :
    Pipeline.RDat.RegionSeg (pcfgs (F := F)) adm (rdats Vv) (none : SparseCore.Cfg.HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := body_obligation Vv c
  hwaits := Pipeline.RDat.hwaits_of_owed_zero _ _ _ _ _ _ 0 fun _ _ => rfl
  pre d := iprop(unscopedBufs d (VR Vv d) ∗ Rr d)
  post d := iprop(Tpost Vv d ∗ Rr d)
  X _ := iprop(emp)
  Y _ := iprop(emp)
  Z d := unscopedRest spec1 d (VR Vv d)
  hentry d := by
    beta_reduce
    have hsplit := Pipeline.RDat.arrays_of_unscopedBufs (pcfgs (F := F)) adm (rdats Vv) launch1.win launch1.arr_whole d
      ((rdats Vv 0 d).share_full fun _ => rfl) (VR Vv d) fun _ => rfl
    rw [Pipeline.ownSems0_none]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr
      · ipureintro; exact fun p hp => Or.inl (hW p hp)
      iexact HO
    isplitr; · iempintro
    iexact Hr
  hin d := by
    beta_reduce
    show _ ⊢ (iprop(emp) : sProp 𝕄)
    iintro -; iempintro
  hout d := by
    beta_reduce
    rw [Pipeline.ownSems0_none, scopedRest1_eq]
    iintro -; isplitr; · iempintro
    isplitr <;> iempintro
  hexit d := by
    beta_reduce
    iintro ⟨Ha, HO, -, HZ⟩
    imodintro
    isplitr [HO]
    · iapply (exit_arrays Vv d); isplitl [Ha] <;> iassumption
    · unfold Pipeline.RDat.owesAt Pipeline.owesWithin
      icases HO with ⟨%W, %hW, HO⟩; iexists W; isplitr
      · ipureintro
        intro p hp
        rcases hW hp with h | ⟨w, s, rfl⟩
        · exact h
        · exact Nat.zero_le _
      iexact HO

/-! ## The run -/

variable (m : (ℓ : Loc nD τ sig) → Buf (Elt F) ℓ)

set_option backward.isDefEq.respectTransparency.types false in
/-- The stage's run: the region's entry label, lifted to the whole program's body table, is the pipeline's region; the
    TensorCore owes nothing after the one call, so its staging cells' waits need no level evidence. -/
theorem region_run : RegionRun m := by
  intro κ d Vv Φ
  unfold RegionOut SparseCore.Cfg.tcSt
  rw [(K (F := F)).Otc_end d (le_refl 1)]
  iintro ⟨#Hctx, ⟨HO, Hrest⟩, HG, Hb, Hheld, Hk⟩
  ihave Hlev := (SparseCore.Cfg.ctx_levAts κ) $$ Hctx
  iapply ((K (F := F)).wp_liftProg (D (F := F)) 𝒱 (T d) Set.univ none (.op (.customCall (Pipeline.entry 0) ()) fun x => .ret x) Φ)
  have hwp := Pipeline.RDat.RegionSeg.wp (pcfgs (F := F)) adm (rdats Vv) (none : SparseCore.Cfg.HIx 1) cellOf_inj (ER (F := F)) defs₀ 𝒱₀
      (K (F := F)).L (K (F := F)).lev (reg Vv) d none (fun u h => nomatch h) (fun x => .ret x) Φ
  rw [show (reg Vv).post d = iprop(Tpost Vv d ∗ Rr d) from rfl, show (reg Vv).pre d = iprop(unscopedBufs d (VR Vv d) ∗ Rr d) from rfl] at hwp
  iapply hwp
  isplitl [Hk Hrest]
  · iintro ⟨Hb, ⟨%o, %ho, Hub⟩, HO⟩
    rw [wp_ret]
    imodintro
    iapply Hk
    isplitl [HO Hrest]
    · isplitl [HO]; · iexact HO
      iexact Hrest
    isplitl [Hb]; · iexact Hb
    iexists o
    isplitr; · ipureintro; exact ho
    iapply (Entails.of_eq (Pipeline.unscopedBufs_held d (Function.update Vv rO o)))
    iexact Hub
  isplitl [Hb]; · iexact Hb
  isplitl [Hheld HO]
  · isplitl [Hheld]
    · iapply (Entails.of_eq (Pipeline.unscopedBufs_held d Vv).symm); iexact Hheld
    · iexact HO
  isplitl [Hlev]; · iexact Hlev
  unfold Gd
  iexact HG

end Cert.KernelIdeal.Run

end
-- ==== Proof.WRegionData.lean ====
/-
  The dense stage's proof data: what each window's array holds at entry, how the body changes each staging buffer,
  and what the body then finds in each buffer at each point.
-/
import proofs.«212450_g60069412602311_cont_9to1_m_657_24_alg».proof.Proof.WRegionIface
import proofs.«212450_g60069412602311_cont_9to1_m_657_24_alg».proof.Proof.Gen.Kernel.Points
import Idealize.ShloMosaic.Lib.Pipeline.Regions

noncomputable section

namespace Cert.Kernel.Run

open Cert.Kernel Cert.Kernel.Gen

open Idealize.ShloMosaic Idealize.ShloMosaic.ValueIdx
open Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (RDat Cfg Window cellOf kernel pipe)

variable {F : FTy → Type}

local notation "𝕄" => MT nD τ sig (SparseCore.Cfg.HIx 1) (Elt F) ℕ UU ℕ

variable [FloatOps F]

/-- Point t of the grid as one of the five blocks. -/
abbrev tt (t : Fin cfg1.N) : Fin 5 := Fin.cast N_1 t

/-- A staged x block agrees with x on the rows of block t that lie inside the array. -/
def XbOK (x : Vec F S10000x128 .f32) (t : Fin 5) (xb : Vec F S2048x128 .f32) : Prop :=
  ∀ (p : Fin 2048) (q : Fin 128) (h : 2048 * t.val + p.val < 10000), xb (ix2 p q) = x (ix2 (⟨2048 * t.val + p.val, h⟩ : Fin 10000) q)

/-- The TensorCore's unscoped arrays at a valuation, by reference. -/
abbrev VR (Vv : Valuation τ sig (Elt F)) (c : Dev nD) : (b : Ref sig .tc) → Buf (Elt F) ((c.tc : Thread nD τ).loc b) := fun b => Vv b

/-- The proof data of the pipeline on device c's TensorCore, from the valuation the stage is entered at: the arrays at
    the valuation; every input buffer left as found; the result's buffer left at the body's block of SOME x block that
    agrees with x inside the array, the other seven blocks the arrays' own; no invariant; nothing owed, the recorded waits all at
    levels the first call's round bounds. -/
def rdats (Vv : Valuation τ sig (Elt F)) (_ : Fin 1) (c : Dev nD) :
    RDat τ (Elt F) (SparseCore.Cfg.HIx 1) ℕ UU ℕ cfg1 c where
  A w := VR Vv c (Pipeline.arrRef spec1 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => ∃ xb : Vec F S2048x128 .f32, XbOK (Vv rX) (tt t) xb ∧
        X = Cert.Kernel.Blk.blockOut xb (Cert.Kernel.Blk.blk3 (Vv rS) (tt t)) (Cert.Kernel.Blk.blk3 (Vv rC) (tt t))
              (Vv rW1x) (Vv rW1a) (Vv rB1) (Vv rW2) (Vv rB2)
  Φ _ := iprop(emp)
  q _ := fullShare
  owed _ := 0
  recorded _ := {p | (K (F := F)).lev ((c.tc : Thread nD τ), p.1) p.2 ≤ 8}

end Cert.Kernel.Run

end
-- ==== Proof.WRegionFinds.lean ====
/-
  The dense stage: what the body finds in each input's staging buffer at each point.

  The x block agrees with x on its rows inside the array; the blocks of the two [2, 16, 10240] arrays are their
  columns 2048 t … 2048 t + 2047; the five small arrays, fetched once and left as found, are whole.
-/
import proofs.«212450_g60069412602311_cont_9to1_m_657_24_alg».proof.Proof.WRegionData

noncomputable section

namespace Cert.Kernel.Run

open Cert.Kernel Cert.Kernel.Gen

open Idealize.ShloMosaic Idealize.ShloMosaic.ValueIdx
open Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (RDat Cfg Window cellOf kernel pipe)

variable {F : FTy → Type}

local notation "𝕄" => MT nD τ sig (SparseCore.Cfg.HIx 1) (Elt F) ℕ UU ℕ

variable [FloatOps F]
variable (Vv : Valuation τ sig (Elt F)) (c : Dev nD)

theorem idx_facts0 : ∀ t : Fin cfg1.N, (cfg1.win 0).index t 0 = t.val ∧ (cfg1.win 0).index t 1 = 0
    ∧ (cfg1.win 0).xsize (cfg1.grid.coords t) 0 = min 2048 (10000 - 2048 * t.val) ∧ (cfg1.win 0).xsize (cfg1.grid.coords t) 1 = 128 :=
  (by decide +kernel : ∀ t : Fin grid1.N, win1_0.index t 0 = t.val ∧ win1_0.index t 1 = 0
    ∧ win1_0.xsize (grid1.coords t) 0 = min 2048 (10000 - 2048 * t.val) ∧ win1_0.xsize (grid1.coords t) 1 = 128)

theorem fetched0_apply (t : Fin cfg1.N) (d : S2048x128.Idx → Elt F .f32) (p : Fin 2048) (q : Fin 128) (h : 2048 * t.val + p.val < 10000) :
    (rdats Vv 0 c).fetched (0 : Fin 9) t d (ix2 p q) = (Vv rX : Vec F S10000x128 .f32) (ix2 (⟨2048 * t.val + p.val, h⟩ : Fin 10000) q) := by
  obtain ⟨h0, h1, hx0, hx1⟩ := idx_facts0 t
  unfold RDat.fetched RDat.blockOf Window.fill
  have hm : (cfg1.win 0).moved (cfg1.grid.coords t) (ix2 p q) = true := by
    rw [Window.moved_iff]
    intro a
    match a with
    | ⟨0, _⟩ => show p.val < (cfg1.win 0).xsize (cfg1.grid.coords t) 0; rw [hx0]; have := p.isLt; omega
    | ⟨1, _⟩ => show q.val < (cfg1.win 0).xsize (cfg1.grid.coords t) 1; rw [hx1]; exact q.isLt
  rw [dif_pos hm]
  rw [View.read_apply]
  show (Vv rX : Vec F S10000x128 .f32) (((cfg1.win 0).rect t).emb fun a => ⟨(ix2 p q a).val, _⟩) = _
  congr 1
  funext a
  apply Fin.ext
  rw [Rect.emb_apply]
  match a with
  | ⟨0, _⟩ => show (cfg1.win 0).index t 0 * 2048 + 1 * p.val = 2048 * t.val + p.val; rw [h0]; omega
  | ⟨1, _⟩ => show (cfg1.win 0).index t 1 * 128 + 1 * q.val = q.val; rw [h1]; omega

theorem finds0 (t : Fin cfg1.N) (Y : S2048x128.Idx → Elt F .f32) (h : (rdats Vv 0 c).Finds (0 : Fin 9) t Y) : XbOK (Vv rX) (tt t) Y := by
  rw [(rdats Vv 0 c).finds_of_fetch (fetch1_0 t)] at h
  obtain ⟨d, rfl⟩ := h
  intro p q hh
  exact fetched0_apply Vv c t d p q hh

theorem idx_facts1 : ∀ t : Fin cfg1.N, (cfg1.win 1).index t 0 = 0 ∧ (cfg1.win 1).index t 1 = 0 ∧ (cfg1.win 1).index t 2 = t.val :=
  (by decide +kernel : ∀ t : Fin grid1.N, win1_1.index t 0 = 0 ∧ win1_1.index t 1 = 0 ∧ win1_1.index t 2 = t.val)
theorem idx_facts2 : ∀ t : Fin cfg1.N, (cfg1.win 2).index t 0 = 0 ∧ (cfg1.win 2).index t 1 = 0 ∧ (cfg1.win 2).index t 2 = t.val :=
  (by decide +kernel : ∀ t : Fin grid1.N, win1_2.index t 0 = 0 ∧ win1_2.index t 1 = 0 ∧ win1_2.index t 2 = t.val)

theorem finds1 (t : Fin cfg1.N) (Y : S2x16x2048.Idx → Elt F .f32) (h : (rdats Vv 0 c).Finds (1 : Fin 9) t Y) :
    Y = Cert.Kernel.Blk.blk3 (Vv rS) (tt t) := by
  rw [(rdats Vv 0 c).finds_of_fetch (fetch1_1 t)] at h
  obtain ⟨d, rfl⟩ := h
  obtain ⟨h0, h1, h2⟩ := idx_facts1 t
  funext y
  show (Vv rS : Vec F S2x16x10240 .f32) (((cfg1.win 1).rect t).emb y) = _
  unfold Cert.Kernel.Blk.blk3
  congr 1
  funext a
  apply Fin.ext
  rw [Rect.emb_apply]
  match a with
  | ⟨0, _⟩ => show (cfg1.win 1).index t 0 * 2 + 1 * (y 0).val = (y 0).val; rw [h0]; omega
  | ⟨1, _⟩ => show (cfg1.win 1).index t 1 * 16 + 1 * (y 1).val = (y 1).val; rw [h1]; omega
  | ⟨2, _⟩ => show (cfg1.win 1).index t 2 * 2048 + 1 * (y 2).val = 2048 * t.val + (y 2).val; rw [h2]; omega

theorem finds2 (t : Fin cfg1.N) (Y : S2x16x2048.Idx → Elt F .f32) (h : (rdats Vv 0 c).Finds (2 : Fin 9) t Y) :
    Y = Cert.Kernel.Blk.blk3 (Vv rC) (tt t) := by
  rw [(rdats Vv 0 c).finds_of_fetch (fetch1_2 t)] at h
  obtain ⟨d, rfl⟩ := h
  obtain ⟨h0, h1, h2⟩ := idx_facts2 t
  funext y
  show (Vv rC : Vec F S2x16x10240 .f32) (((cfg1.win 2).rect t).emb y) = _
  unfold Cert.Kernel.Blk.blk3
  congr 1
  funext a
  apply Fin.ext
  rw [Rect.emb_apply]
  match a with
  | ⟨0, _⟩ => show (cfg1.win 2).index t 0 * 2 + 1 * (y 0).val = (y 0).val; rw [h0]; omega
  | ⟨1, _⟩ => show (cfg1.win 2).index t 1 * 16 + 1 * (y 1).val = (y 1).val; rw [h1]; omega
  | ⟨2, _⟩ => show (cfg1.win 2).index t 2 * 2048 + 1 * (y 2).val = 2048 * t.val + (y 2).val; rw [h2]; omega

/-- An input fetched at the first point only and left as found holds at every point what that fetch brought. -/
theorem finds_const (w : Fin 9) (hfetch : ∀ t : Fin cfg1.N, (cfg1.win w).fetch t = true ↔ t.val % 5 = 0) (hout : (cfg1.win w).isOut = false)
    (hafter : ∀ t Y X, (rdats Vv 0 c).after w t Y X → X = Y) (Z : (cfg1.win w).block.Idx → Elt F (cfg1.win w).elt)
    (h0 : ∀ (t : Fin cfg1.N) d, t.val = 0 → (rdats Vv 0 c).fetched w t d = Z) :
    ∀ (n : Nat) (t : Fin cfg1.N), t.val = n → ∀ Y, (rdats Vv 0 c).Finds w t Y → Y = Z
  | 0, t, ht, Y, h => by
    rw [(rdats Vv 0 c).finds_of_fetch ((hfetch t).mpr (by rw [ht]))] at h
    obtain ⟨d, rfl⟩ := h
    exact h0 t d ht
  | n + 1, t, ht, Y, h => by
    have hlt : t.val < 5 := N_1 ▸ t.isLt
    have hf : (cfg1.win w).fetch t = false := by
      rcases hb : (cfg1.win w).fetch t with _ | _
      · rfl
      · have := (hfetch t).mp hb; omega
    rw [(rdats Vv 0 c).finds_of_pos hf (by omega)] at h
    rcases h with h | ⟨Y', hY', ha⟩
    · exfalso; simp [Window.flush] at h; exact Bool.false_ne_true (hout.symm.trans h.1)
    · rw [hafter _ _ _ ha]
      exact finds_const w hfetch hout hafter Z h0 n _ (by simp only [ht]; omega) Y' hY'

theorem idx_facts3 : ∀ t : Fin cfg1.N, (cfg1.win 3).index t 0 = 0 ∧ (cfg1.win 3).index t 1 = 0 :=
  (by decide +kernel : ∀ t : Fin grid1.N, win1_3.index t 0 = 0 ∧ win1_3.index t 1 = 0)

theorem finds3 (t : Fin cfg1.N) (Y : S128x64.Idx → Elt F .f32) (h : (rdats Vv 0 c).Finds (3 : Fin 9) t Y) : Y = Vv rW1x := by
  refine finds_const Vv c (3 : Fin 9) fetch1_3 rfl (fun _ _ _ h => h) (Vv rW1x) (fun t d _ => ?_) t.val t rfl Y h
  obtain ⟨h0, h1⟩ := idx_facts3 t
  funext y
  show (Vv rW1x : Vec F S128x64 .f32) (((cfg1.win 3).rect t).emb y) = _
  congr 1
  funext a
  apply Fin.ext
  rw [Rect.emb_apply]
  match a with
  | ⟨0, _⟩ => show (cfg1.win 3).index t 0 * 128 + 1 * (y 0).val = (y 0).val; rw [h0]; omega
  | ⟨1, _⟩ => show (cfg1.win 3).index t 1 * 64 + 1 * (y 1).val = (y 1).val; rw [h1]; omega

theorem idx_facts4 : ∀ t : Fin cfg1.N, (cfg1.win 4).index t 0 = 0 ∧ (cfg1.win 4).index t 1 = 0 :=
  (by decide +kernel : ∀ t : Fin grid1.N, win1_4.index t 0 = 0 ∧ win1_4.index t 1 = 0)

theorem finds4 (t : Fin cfg1.N) (Y : S16x64.Idx → Elt F .f32) (h : (rdats Vv 0 c).Finds (4 : Fin 9) t Y) : Y = Vv rW1a := by
  refine finds_const Vv c (4 : Fin 9) fetch1_4 rfl (fun _ _ _ h => h) (Vv rW1a) (fun t d _ => ?_) t.val t rfl Y h
  obtain ⟨h0, h1⟩ := idx_facts4 t
  funext y
  show (Vv rW1a : Vec F S16x64 .f32) (((cfg1.win 4).rect t).emb y) = _
  congr 1
  funext a
  apply Fin.ext
  rw [Rect.emb_apply]
  match a with
  | ⟨0, _⟩ => show (cfg1.win 4).index t 0 * 16 + 1 * (y 0).val = (y 0).val; rw [h0]; omega
  | ⟨1, _⟩ => show (cfg1.win 4).index t 1 * 64 + 1 * (y 1).val = (y 1).val; rw [h1]; omega

theorem idx_facts5 : ∀ t : Fin cfg1.N, (cfg1.win 5).index t 0 = 0 ∧ (cfg1.win 5).index t 1 = 0 :=
  (by decide +kernel : ∀ t : Fin grid1.N, win1_5.index t 0 = 0 ∧ win1_5.index t 1 = 0)

theorem finds5 (t : Fin cfg1.N) (Y : S1x64.Idx → Elt F .f32) (h : (rdats Vv 0 c).Finds (5 : Fin 9) t Y) : Y = Vv rB1 := by
  refine finds_const Vv c (5 : Fin 9) fetch1_5 rfl (fun _ _ _ h => h) (Vv rB1) (fun t d _ => ?_) t.val t rfl Y h
  obtain ⟨h0, h1⟩ := idx_facts5 t
  funext y
  show (Vv rB1 : Vec F S1x64 .f32) (((cfg1.win 5).rect t).emb y) = _
  congr 1
  funext a
  apply Fin.ext
  rw [Rect.emb_apply]
  match a with
  | ⟨0, _⟩ => show (cfg1.win 5).index t 0 * 1 + 1 * (y 0).val = (y 0).val; rw [h0]; omega
  | ⟨1, _⟩ => show (cfg1.win 5).index t 1 * 64 + 1 * (y 1).val = (y 1).val; rw [h1]; omega

theorem idx_facts6 : ∀ t : Fin cfg1.N, (cfg1.win 6).index t 0 = 0 ∧ (cfg1.win 6).index t 1 = 0 :=
  (by decide +kernel : ∀ t : Fin grid1.N, win1_6.index t 0 = 0 ∧ win1_6.index t 1 = 0)

theorem finds6 (t : Fin cfg1.N) (Y : S64x128.Idx → Elt F .f32) (h : (rdats Vv 0 c).Finds (6 : Fin 9) t Y) : Y = Vv rW2 := by
  refine finds_const Vv c (6 : Fin 9) fetch1_6 rfl (fun _ _ _ h => h) (Vv rW2) (fun t d _ => ?_) t.val t rfl Y h
  obtain ⟨h0, h1⟩ := idx_facts6 t
  funext y
  show (Vv rW2 : Vec F S64x128 .f32) (((cfg1.win 6).rect t).emb y) = _
  congr 1
  funext a
  apply Fin.ext
  rw [Rect.emb_apply]
  match a with
  | ⟨0, _⟩ => show (cfg1.win 6).index t 0 * 64 + 1 * (y 0).val = (y 0).val; rw [h0]; omega
  | ⟨1, _⟩ => show (cfg1.win 6).index t 1 * 128 + 1 * (y 1).val = (y 1).val; rw [h1]; omega

theorem idx_facts7 : ∀ t : Fin cfg1.N, (cfg1.win 7).index t 0 = 0 ∧ (cfg1.win 7).index t 1 = 0 :=
  (by decide +kernel : ∀ t : Fin grid1.N, win1_7.index t 0 = 0 ∧ win1_7.index t 1 = 0)

theorem finds7 (t : Fin cfg1.N) (Y : S1x128.Idx → Elt F .f32) (h : (rdats Vv 0 c).Finds (7 : Fin 9) t Y) : Y = Vv rB2 := by
  refine finds_const Vv c (7 : Fin 9) fetch1_7 rfl (fun _ _ _ h => h) (Vv rB2) (fun t d _ => ?_) t.val t rfl Y h
  obtain ⟨h0, h1⟩ := idx_facts7 t
  funext y
  show (Vv rB2 : Vec F S1x128 .f32) (((cfg1.win 7).rect t).emb y) = _
  congr 1
  funext a
  apply Fin.ext
  rw [Rect.emb_apply]
  match a with
  | ⟨0, _⟩ => show (cfg1.win 7).index t 0 * 1 + 1 * (y 0).val = (y 0).val; rw [h0]; omega
  | ⟨1, _⟩ => show (cfg1.win 7).index t 1 * 128 + 1 * (y 1).val = (y 1).val; rw [h1]; omega

end Cert.Kernel.Run

end
-- ==== Proof.WRegionBody.lean ====
/-
  The dense stage: the body at one grid point.

  On whole staging buffers the body loads the eight input blocks, computes, and stores the result block once: the result's
  buffer ends holding the block the body computes from the other eight, those unchanged. With what the body finds in
  each buffer, this is the pipeline's body obligation.
-/
import proofs.«212450_g60069412602311_cont_9to1_m_657_24_alg».proof.Proof.WRegionFinds
import proofs.«212450_g60069412602311_cont_9to1_m_657_24_alg».proof.Proof.Gen.Kernel.Skeleton
import Idealize.ShloMosaic.Lib.Pipeline.FrameBody
import Idealize.ShloMosaic.Lib.Pipeline.Value
import Idealize.ShloMosaic.Lib.Tactic

noncomputable section

namespace Cert.Kernel.Run

open Cert.Kernel Cert.Kernel.Gen

open Idealize.ShloMosaic Idealize.ShloMosaic.ValueIdx
open Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (RDat Cfg Window cellOf kernel pipe)

variable {F : FTy → Type}

local notation "𝕄" => MT nD τ sig (SparseCore.Cfg.HIx 1) (Elt F) ℕ UU ℕ

variable [FloatOps F]

set_option maxRecDepth 16384

theorem ld_half0 (X : Vec F S2x16x2048 .f32) :
    View.ld X (Rect.unit (s := S2x16x2048) ![0, 0, 0] S1x16x2048.size inb_S2x16x2048_S1x16x2048_0_0_0) = Cert.Kernel.Blk.half 0 X := by
  funext y
  show X ((Rect.unit (s := S2x16x2048) ![0, 0, 0] S1x16x2048.size inb_S2x16x2048_S1x16x2048_0_0_0).emb y) = X (ix3 0 (y 1) (y 2))
  congr 1; funext a; apply Fin.ext; rw [Rect.emb_apply]
  match a with
  | ⟨0, _⟩ => show 0 + 1 * (y 0).val = 0; have h1 : (y 0).val < 1 := (y 0).isLt; omega
  | ⟨1, _⟩ => show 0 + 1 * (y 1).val = (y 1).val; omega
  | ⟨2, _⟩ => show 0 + 1 * (y 2).val = (y 2).val; omega

theorem ld_half1 (X : Vec F S2x16x2048 .f32) :
    View.ld X (Rect.unit (s := S2x16x2048) ![1, 0, 0] S1x16x2048.size inb_S2x16x2048_S1x16x2048_1_0_0) = Cert.Kernel.Blk.half 1 X := by
  funext y
  show X ((Rect.unit (s := S2x16x2048) ![1, 0, 0] S1x16x2048.size inb_S2x16x2048_S1x16x2048_1_0_0).emb y) = X (ix3 1 (y 1) (y 2))
  congr 1; funext a; apply Fin.ext; rw [Rect.emb_apply]
  match a with
  | ⟨0, _⟩ => show 1 + 1 * (y 0).val = 1; have h1 : (y 0).val < 1 := (y 0).isLt; omega
  | ⟨1, _⟩ => show 0 + 1 * (y 1).val = (y 1).val; omega
  | ⟨2, _⟩ => show 0 + 1 * (y 2).val = (y 2).val; omega

set_option maxHeartbeats 2000000 in
theorem sound_kernel (c : Dev nD) (E : Set ℕ) (i : grid1.Coords)
    (arg1 : Memref sig .tc .vmem S2048x128 .f32) (harg1 : arg1.IsWhole) (arg2 : Memref sig .tc .vmem S2x16x2048 .f32) (harg2 : arg2.IsWhole)
    (arg3 : Memref sig .tc .vmem S2x16x2048 .f32) (harg3 : arg3.IsWhole) (arg4 : Memref sig .tc .vmem S128x64 .f32) (harg4 : arg4.IsWhole)
    (arg5 : Memref sig .tc .vmem S16x64 .f32) (harg5 : arg5.IsWhole) (arg6 : Memref sig .tc .vmem S1x64 .f32) (harg6 : arg6.IsWhole)
    (arg7 : Memref sig .tc .vmem S64x128 .f32) (harg7 : arg7.IsWhole) (arg8 : Memref sig .tc .vmem S1x128 .f32) (harg8 : arg8.IsWhole)
    (arg9 : Memref sig .tc .vmem S2048x128 .f32) (harg9 : arg9.IsWhole)
    (x0 : Vec F S2048x128 .f32) (x1 x2 : Vec F S2x16x2048 .f32) (x3 : Vec F S128x64 .f32) (x4 : Vec F S16x64 .f32) (x5 : Vec F S1x64 .f32)
    (x6 : Vec F S64x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (Cert.Kernel.Blk.blockOut x0 x1 x2 x3 x4 x5 x6 x7)) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9) K := by
  simp only [cc1__mlp_body_eq_skeleton]; unfold cc1__mlp_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  have hz2 : (![0, 0] : Fin 2 → Nat) = fun _ => 0 := funext fun a => by fin_cases a <;> rfl
  rw [View.read_writes_eq_canon _ _ _ (fun y => View.cover_of_tiled [⟨_, _⟩] S2048x128.size (by rfl) y)]
  rw [View.canon_unit_zero (S := S2048x128) hz2]
  simp only [View.readAt_eq_ld]
  rw [View.ld_unit_zero (S := S2048x128) hz2, View.ld_unit_zero (S := S128x64) hz2, View.ld_unit_zero (S := S16x64) hz2,
    View.ld_unit_zero (S := S1x64) hz2, View.ld_unit_zero (S := S64x128) hz2, View.ld_unit_zero (S := S1x128) hz2]
  rw [ld_half0, ld_half1, ld_half0, ld_half1]
  sl_unfold_words
  rfl

variable (Vv : Valuation τ sig (Elt F)) (c : Dev nD)

/-- The pipeline's body obligation: at every point, from buffers holding what the body may find there, the body runs and
    leaves every input's buffer as found and the result's at its block of the staged x block, which agrees with x inside
    the array. -/
theorem body_obligation : (rdats Vv 0 c).BodyObligation (defs₀ (F := F)) 𝒱₀ none Set.univ := fun t Y hY => by
  have h0 := finds0 Vv c t (Y 0) (hY 0)
  have h1 := finds1 Vv c t (Y 1) (hY 1)
  have h2 := finds2 Vv c t (Y 2) (hY 2)
  have h3 := finds3 Vv c t (Y 3) (hY 3)
  have h4 := finds4 Vv c t (Y 4) (hY 4)
  have h5 := finds5 Vv c t (Y 5) (hY 5)
  have h6 := finds6 Vv c t (Y 6) (hY 6)
  have h7 := finds7 Vv c t (Y 7) (hY 7)
  rw [bigSep_W1, bigSep_W1]
  rw [show (rdats Vv 0 c).Φ t.succ = (rdats Vv 0 c).Φ t.castSucc from rfl,
    show (rdats Vv 0 c).owesAt none t.succ = (rdats Vv 0 c).owesAt none t.castSucc from rfl]
  show _ ⊢ wp frame (wpE (defs₀ (F := F)) Variants.none c none) Set.univ (bodyAt1 t) _
  iintro ⟨HΦ, Ho, H0, H1, H2, H3, H4, H5, H6, H7, H8⟩
  iapply (sound_kernel (F := F) c Set.univ (grid1.coords t) _ _ _ _ _ _ _ _ _ _ _ _ _ _ _ _ _ _ (Y 0) (Y 1) (Y 2) (Y 3) (Y 4) (Y 5) (Y 6) (Y 7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexists (Y 0); isplitr; · ipureintro; exact rfl
                  iexact H0
  isplitl [H1]; · iexists (Y 1); isplitr; · ipureintro; exact rfl
                  iexact H1
  isplitl [H2]; · iexists (Y 2); isplitr; · ipureintro; exact rfl
                  iexact H2
  isplitl [H3]; · iexists (Y 3); isplitr; · ipureintro; exact rfl
                  iexact H3
  isplitl [H4]; · iexists (Y 4); isplitr; · ipureintro; exact rfl
                  iexact H4
  isplitl [H5]; · iexists (Y 5); isplitr; · ipureintro; exact rfl
                  iexact H5
  isplitl [H6]; · iexists (Y 6); isplitr; · ipureintro; exact rfl
                  iexact H6
  isplitl [H7]; · iexists (Y 7); isplitr; · ipureintro; exact rfl
                  iexact H7
  iexists _; isplitr
  swap; · iexact H8
  ipureintro
  refine ⟨Y 0, h0, ?_⟩
  rw [← h1, ← h2, ← h3, ← h4, ← h5, ← h6, ← h7]

end Cert.Kernel.Run

end
-- ==== Proof.WRegionValue.lean ====
/-
  The value of the dense stage, read off what the result array may hold after its five write-backs.

  Each write-back overwrites the rows of its block that lie inside the array (2048 rows, the last block 1808) with
  the leading rows of what the body left in the staging buffer: the body's block of some x block agreeing with x
  inside the array.  A write-back leaves every row outside its block as it was.  So after the write-backs of the
  points below n, every row of the blocks below n is its block's row; after all five, every row of the array.
-/
import proofs.«212450_g60069412602311_cont_9to1_m_657_24_alg».proof.Proof.WRegionData

noncomputable section

namespace Cert.Kernel.Run

open Cert.Kernel Cert.Kernel.Gen

open Idealize.ShloMosaic Idealize.ShloMosaic.ValueIdx
open Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (RDat Cfg Window cellOf kernel pipe)

variable {F : FTy → Type}

local notation "𝕄" => MT nD τ sig (SparseCore.Cfg.HIx 1) (Elt F) ℕ UU ℕ

variable [FloatOps F]

/-- Where the result's block at point t lies: block row t, column block 0, cut at the array's end. -/
theorem idx_facts8 : ∀ t : Fin cfg1.N, (cfg1.win 8).index t 0 = t.val ∧ (cfg1.win 8).index t 1 = 0
    ∧ (cfg1.win 8).xsize (cfg1.grid.coords t) 0 = min 2048 (10000 - 2048 * t.val) ∧ (cfg1.win 8).xsize (cfg1.grid.coords t) 1 = 128 :=
  (by decide +kernel : ∀ t : Fin grid1.N, win1_8.index t 0 = t.val ∧ win1_8.index t 1 = 0
    ∧ win1_8.xsize (grid1.coords t) 0 = min 2048 (10000 - 2048 * t.val) ∧ win1_8.xsize (grid1.coords t) 1 = 128)

/-- The write-back of point u, read at a row of block u inside the array: the staging buffer's row. -/
theorem written_apply (c : Dev nD) (u : Fin cfg1.N) (G₀ : Buf (Elt F) ((cfg1.win (8 : Fin 9)).arr.view.loc (c.tc : Thread nD τ)))
    (X : S2048x128.Idx → Elt F .f32) (p : Fin 2048) (q : Fin 128) (h : 2048 * u.val + p.val < 10000) :
    (((cfg1.win (8 : Fin 9)).blk u).view.write (Elt F) G₀ ((cfg1.win (8 : Fin 9)).cut (cfg1.grid.coords u) X) Finset.univ : Vec F S10000x128 .f32)
        (ix2 (⟨2048 * u.val + p.val, h⟩ : Fin 10000) q) = X (ix2 p q) := by
  obtain ⟨h0, h1, hx0, hx1⟩ := idx_facts8 u
  let j : ((cfg1.win (8 : Fin 9)).xblock (cfg1.grid.coords u)).Idx := fun a =>
    match a with
    | ⟨0, _⟩ => ⟨p.val, by show p.val < (cfg1.win 8).xsize (cfg1.grid.coords u) 0; rw [hx0]; have := p.isLt; omega⟩
    | ⟨1, _⟩ => ⟨q.val, by show q.val < (cfg1.win 8).xsize (cfg1.grid.coords u) 1; rw [hx1]; exact q.isLt⟩
  have hj : (ix2 (⟨2048 * u.val + p.val, h⟩ : Fin 10000) q : S10000x128.Idx) = ((cfg1.win (8 : Fin 9)).blk u).view.emb j := by
    show _ = ((cfg1.win (8 : Fin 9)).rect u).emb j
    funext a
    apply Fin.ext
    rw [Rect.emb_apply]
    match a with
    | ⟨0, _⟩ => show 2048 * u.val + p.val = (cfg1.win 8).index u 0 * 2048 + 1 * p.val; rw [h0]; omega
    | ⟨1, _⟩ => show q.val = (cfg1.win 8).index u 1 * 128 + 1 * q.val; rw [h1]; omega
  rw [hj]
  refine (View.write_emb_of_mem _ _ (Finset.mem_univ j)).trans ?_
  show X ((cfg1.win (8 : Fin 9)).xinj (cfg1.grid.coords u) j) = X (ix2 p q)
  congr 1
  funext a
  match a with
  | ⟨0, _⟩ => rfl
  | ⟨1, _⟩ => rfl

/-- The write-back of point u, read at a row of another block: the array as it was. -/
theorem unwritten_apply (c : Dev nD) (u : Fin cfg1.N) (G₀ : Buf (Elt F) ((cfg1.win (8 : Fin 9)).arr.view.loc (c.tc : Thread nD τ)))
    (X : S2048x128.Idx → Elt F .f32) (t : Fin 5) (htu : t.val ≠ u.val) (p : Fin 2048) (q : Fin 128) (h : 2048 * t.val + p.val < 10000) :
    (((cfg1.win (8 : Fin 9)).blk u).view.write (Elt F) G₀ ((cfg1.win (8 : Fin 9)).cut (cfg1.grid.coords u) X) Finset.univ : Vec F S10000x128 .f32)
        (ix2 (⟨2048 * t.val + p.val, h⟩ : Fin 10000) q) = (G₀ : Vec F S10000x128 .f32) (ix2 (⟨2048 * t.val + p.val, h⟩ : Fin 10000) q) := by
  obtain ⟨h0, h1, hx0, hx1⟩ := idx_facts8 u
  refine View.write_of_not_mem _ _ _ ?_
  rw [View.setOn_univ]
  show (ix2 (⟨2048 * t.val + p.val, h⟩ : Fin 10000) q : S10000x128.Idx) ∉ ((View.whole main_v6).slice ((cfg1.win (8 : Fin 9)).rect u)).set
  rw [View.set_slice_whole, Rect.mem_set_unit]
  intro hm
  have hm0 := hm (0 : Fin 2)
  have e : (cfg1.win 8).index u 0 * 2048 ≤ 2048 * t.val + p.val
      ∧ 2048 * t.val + p.val < (cfg1.win 8).index u 0 * 2048 + (cfg1.win 8).xsize (cfg1.grid.coords u) 0 := hm0
  rw [h0, hx0] at e
  have := p.isLt
  omega

/-- After the write-backs of the points below n: every row of the blocks below n is its block's row, of an x block
    that agrees with x inside the array. -/
def RowsBelow (Vv : Valuation τ sig (Elt F)) (n : ℕ) (G : Vec F S10000x128 .f32) : Prop :=
  ∃ xb : Fin 5 → Vec F S2048x128 .f32,
    (∀ t : Fin 5, t.val < n → XbOK (Vv rX) t (xb t)) ∧
    ∀ (t : Fin 5) (p : Fin 2048) (q : Fin 128) (h : 2048 * t.val + p.val < 10000), t.val < n →
      G (ix2 (⟨2048 * t.val + p.val, h⟩ : Fin 10000) q)
        = Cert.Kernel.Blk.blockOut (xb t) (Cert.Kernel.Blk.blk3 (Vv rS) t) (Cert.Kernel.Blk.blk3 (Vv rC) t)
            (Vv rW1x) (Vv rW1a) (Vv rB1) (Vv rW2) (Vv rB2) (ix2 p q)

theorem rowsBelow_of_arrAt (Vv : Valuation τ sig (Elt F)) (c : Dev nD) :
    ∀ (n : ℕ) (_ : n ≤ cfg1.N) (G : Buf (Elt F) ((cfg1.win (8 : Fin 9)).arr.view.loc (c.tc : Thread nD τ))),
      (rdats Vv 0 c).ArrAt (8 : Fin 9) n G → RowsBelow Vv n (G : Vec F S10000x128 .f32) := by
  intro n
  induction n with
  | zero =>
    intro _ G _
    exact ⟨fun _ _ => Scalar.ofBits .f32 0x00000000#32, fun t ht => absurd ht (Nat.not_lt_zero _),
      fun t p q h ht => absurd ht (Nat.not_lt_zero _)⟩
  | succ n ih =>
    intro hn G hG
    have hn' : n < cfg1.N := hn
    have hs : (rdats Vv 0 c).ArrAt (8 : Fin 9) (n + 1)
        = (rdats Vv 0 c).ArrStep (8 : Fin 9) ⟨n, hn'⟩ ((rdats Vv 0 c).ArrAt (8 : Fin 9) n) := by
      have := (rdats Vv 0 c).ArrAt_succ (8 : Fin 9) ⟨n, hn'⟩
      rw [if_pos (flush1_8 _)] at this
      exact this
    rw [hs] at hG
    obtain ⟨G₀, X, hG₀, ⟨Y, -, hYX⟩, rfl⟩ := hG
    obtain ⟨xbu, hxbu, rfl⟩ : ∃ xb : Vec F S2048x128 .f32, XbOK (Vv rX) (tt ⟨n, hn'⟩) xb ∧
        X = Cert.Kernel.Blk.blockOut xb (Cert.Kernel.Blk.blk3 (Vv rS) (tt ⟨n, hn'⟩)) (Cert.Kernel.Blk.blk3 (Vv rC) (tt ⟨n, hn'⟩))
              (Vv rW1x) (Vv rW1a) (Vv rB1) (Vv rW2) (Vv rB2) := hYX
    obtain ⟨xb₀, hxb₀, hval₀⟩ := ih (Nat.le_of_lt hn') G₀ hG₀
    refine ⟨Function.update xb₀ (tt ⟨n, hn'⟩) xbu, ?_, ?_⟩
    · intro t ht
      by_cases htu : t = tt ⟨n, hn'⟩
      · subst htu; rw [Function.update_self]; exact hxbu
      · rw [Function.update_of_ne htu]
        refine hxb₀ t ?_
        have : t.val ≠ n := fun e => htu (Fin.ext e)
        omega
    · intro t p q h ht
      by_cases htu : t = tt ⟨n, hn'⟩
      · subst htu
        rw [Function.update_self]
        exact written_apply c ⟨n, hn'⟩ G₀ _ p q h
      · have hne : t.val ≠ n := fun e => htu (Fin.ext e)
        rw [Function.update_of_ne htu]
        refine (unwritten_apply c ⟨n, hn'⟩ G₀ _ t hne p q h).trans ?_
        exact hval₀ t p q h (by omega)

/-- What the result array may hold after the five write-backs is what the stage is claimed to leave there. -/
theorem regionPost_of_arrAt (Vv : Valuation τ sig (Elt F)) (c : Dev nD) (o : Buf (Elt F) ((cfg1.win (8 : Fin 9)).arr.view.loc (c.tc : Thread nD τ)))
    (h : (rdats Vv 0 c).ArrAt (8 : Fin 9) cfg1.N o) :
    Cert.Kernel.Blk.RegionPost (F := F) (Vv rX) (Vv rS) (Vv rC) (Vv rW1x) (Vv rW1a) (Vv rB1) (Vv rW2) (Vv rB2) (o : Vec F S10000x128 .f32) := by
  obtain ⟨xb, h1, h2⟩ := rowsBelow_of_arrAt Vv c cfg1.N (Nat.le_refl _) o h
  have hN : ∀ t : Fin 5, t.val < cfg1.N := fun t => by
    have : cfg1.N = 5 := N_1
    rw [this]; exact t.isLt
  exact ⟨xb, fun t p q hh => h1 t (hN t) p q hh, fun t p q hh => h2 t p q hh (hN t)⟩

end Cert.Kernel.Run

end
-- ==== Proof.WRegionExit.lean ====
/-
  The arrays at the dense stage's exit, reassembled.

  After the last point each input array is as at entry and the result array holds something the five write-backs
  may have left: an array every row of which is its block's row.  Together with the arrays the stage never names,
  they are again all of the TensorCore's arrays, at the entry contents with the result replaced.
-/
import proofs.«212450_g60069412602311_cont_9to1_m_657_24_alg».proof.Proof.WRegionValue

noncomputable section

namespace Cert.Kernel.Run

open Cert.Kernel Cert.Kernel.Gen

open Idealize.ShloMosaic Idealize.ShloMosaic.ValueIdx
open Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (RDat Cfg Window cellOf kernel pipe)
open Idealize.ShloMosaic.Pipeline (unscopedRest)

variable {F : FTy → Type}

local notation "𝕄" => MT nD τ sig (SparseCore.Cfg.HIx 1) (Elt F) ℕ UU ℕ

variable [FloatOps F]

/-- The arrays at the stage's exit: the TensorCore's arrays at the entry contents, the result replaced by an array the
    stage is claimed to leave. -/
theorem exit_arrays (Vv : Valuation τ sig (Elt F)) (d : Dev nD) :
    iprop((rdats Vv 0 d).arraysAt cfg1.N ∗ Pipeline.unscopedRest spec1 d (VR Vv d))
      ⊢ iprop(∃ o : Vec F S10000x128 .f32,
          ⌜Cert.Kernel.Blk.RegionPost (F := F) (Vv rX) (Vv rS) (Vv rC) (Vv rW1x) (Vv rW1a) (Vv rB1) (Vv rW2) (Vv rB2) o⌝
          ∗ unscopedBufs d (VR (Function.update Vv rO o) d)) := by
  unfold RDat.arraysAt
  iintro ⟨Ha, Hrest⟩
  ihave Ha' := (BI.bigSep_exists_pi Finset.univ (fun (w : Fin cfg1.W) (Fw : Buf (Elt F) ((cfg1.win w).arr.view.loc (d.tc : Thread nD τ))) =>
      iprop(⌜(rdats Vv 0 d).ArrAt w cfg1.N Fw⌝
        ∗ (cfg1.win w).arr.view.loc (d.tc : Thread nD τ) ↦[(cfg1.win w).arr.view.set]{(rdats Vv 0 d).share w} Fw))) $$ Ha
  icases Ha' with ⟨%Fs, Ha⟩
  ihave Ha2 := (BI.bigSep_pure_sep Finset.univ (fun w => (rdats Vv 0 d).ArrAt w cfg1.N (Fs w))
      (fun w => (cfg1.win w).arr.view.loc (d.tc : Thread nD τ) ↦[(cfg1.win w).arr.view.set]{(rdats Vv 0 d).share w} Fs w)) $$ Ha
  icases Ha2 with ⟨%hFs, Ha⟩
  have hin : ∀ (w : Fin cfg1.W), (cfg1.win w).isOut = false → Fs w = (rdats Vv 0 d).A w := fun w hw => by
    have := hFs w (Finset.mem_univ w)
    rw [(rdats Vv 0 d).ArrAt_in w hw] at this
    exact this
  have hF : ∀ w : Fin cfg1.W, Fs w = VR (Function.update Vv rO (Fs (8 : Fin 9) : Vec F S10000x128 .f32)) d (Pipeline.arrRef spec1 w) := by
    intro w
    match w with
    | ⟨0, _⟩ =>
      rw [hin _ rfl]
      show Vv rX = Function.update Vv rO (Fs (8 : Fin 9) : Vec F S10000x128 .f32) rX
      exact (Function.update_of_ne (show (rX : DevRef τ sig) ≠ rO by decide) _ _).symm
    | ⟨1, _⟩ =>
      rw [hin _ rfl]
      show Vv rS = Function.update Vv rO (Fs (8 : Fin 9) : Vec F S10000x128 .f32) rS
      exact (Function.update_of_ne (show (rS : DevRef τ sig) ≠ rO by decide) _ _).symm
    | ⟨2, _⟩ =>
      rw [hin _ rfl]
      show Vv rC = Function.update Vv rO (Fs (8 : Fin 9) : Vec F S10000x128 .f32) rC
      exact (Function.update_of_ne (show (rC : DevRef τ sig) ≠ rO by decide) _ _).symm
    | ⟨3, _⟩ =>
      rw [hin _ rfl]
      show Vv rW1x = Function.update Vv rO (Fs (8 : Fin 9) : Vec F S10000x128 .f32) rW1x
      exact (Function.update_of_ne (show (rW1x : DevRef τ sig) ≠ rO by decide) _ _).symm
    | ⟨4, _⟩ =>
      rw [hin _ rfl]
      show Vv rW1a = Function.update Vv rO (Fs (8 : Fin 9) : Vec F S10000x128 .f32) rW1a
      exact (Function.update_of_ne (show (rW1a : DevRef τ sig) ≠ rO by decide) _ _).symm
    | ⟨5, _⟩ =>
      rw [hin _ rfl]
      show Vv rB1 = Function.update Vv rO (Fs (8 : Fin 9) : Vec F S10000x128 .f32) rB1
      exact (Function.update_of_ne (show (rB1 : DevRef τ sig) ≠ rO by decide) _ _).symm
    | ⟨6, _⟩ =>
      rw [hin _ rfl]
      show Vv rW2 = Function.update Vv rO (Fs (8 : Fin 9) : Vec F S10000x128 .f32) rW2
      exact (Function.update_of_ne (show (rW2 : DevRef τ sig) ≠ rO by decide) _ _).symm
    | ⟨7, _⟩ =>
      rw [hin _ rfl]
      show Vv rB2 = Function.update Vv rO (Fs (8 : Fin 9) : Vec F S10000x128 .f32) rB2
      exact (Function.update_of_ne (show (rB2 : DevRef τ sig) ≠ rO by decide) _ _).symm
    | ⟨8, _⟩ =>
      show (Fs (8 : Fin 9) : Vec F S10000x128 .f32) = Function.update Vv rO (Fs (8 : Fin 9) : Vec F S10000x128 .f32) rO
      exact (Function.update_self rO (Fs (8 : Fin 9) : Vec F S10000x128 .f32) Vv).symm
  iexists (Fs (8 : Fin 9) : Vec F S10000x128 .f32)
  isplitr
  · ipureintro
    exact regionPost_of_arrAt Vv d (Fs (8 : Fin 9)) (hFs (8 : Fin 9) (Finset.mem_univ _))
  have hsplit : (unscopedBufs d (VR (Function.update Vv rO (Fs (8 : Fin 9) : Vec F S10000x128 .f32)) d) : sProp 𝕄)
      = iprop((bigSep Finset.univ fun w : Fin (cfgs 0).W =>
          ((d.tc : Thread nD τ).loc (Pipeline.arrRef (cfgs 0).spec w) ↦{fullShare}
            VR (Function.update Vv rO (Fs (8 : Fin 9) : Vec F S10000x128 .f32)) d (Pipeline.arrRef (cfgs 0).spec w) : sProp 𝕄))
        ∗ Pipeline.unscopedRest (cfgs 0).spec d (VR (Function.update Vv rO (Fs (8 : Fin 9) : Vec F S10000x128 .f32)) d)) :=
    Pipeline.unscopedBufs_split cfgs 0 launch1.win.arr_unscoped launch1.win.arr_inj d _
  rw [hsplit]
  isplitl [Ha]
  · have hcong : (bigSep Finset.univ fun w : Fin cfg1.W =>
          ((cfg1.win w).arr.view.loc (d.tc : Thread nD τ) ↦[(cfg1.win w).arr.view.set]{(rdats Vv 0 d).share w} Fs w : sProp 𝕄))
        = bigSep Finset.univ fun w : Fin (cfgs 0).W =>
          ((d.tc : Thread nD τ).loc (Pipeline.arrRef (cfgs 0).spec w) ↦{fullShare}
            VR (Function.update Vv rO (Fs (8 : Fin 9) : Vec F S10000x128 .f32)) d (Pipeline.arrRef (cfgs 0).spec w) : sProp 𝕄) :=
      bigSep_congr fun w _ => by
        rw [(launch1.arr_whole w).set_eq_univ, (rdats Vv 0 d).share_full (fun _ => rfl) w, hF w]
    iapply (Entails.of_eq hcong)
    iexact Ha
  · have e1 : VR (Function.update Vv rO (Fs (8 : Fin 9) : Vec F S10000x128 .f32)) d main_arg1 = VR Vv d main_arg1 :=
      Function.update_of_ne (show (Proc.devRef .tc (main_arg1 : Ref sig .tc) : DevRef τ sig) ≠ rO by decide) _ _
    have e2 : VR (Function.update Vv rO (Fs (8 : Fin 9) : Vec F S10000x128 .f32)) d main_arg2 = VR Vv d main_arg2 :=
      Function.update_of_ne (show (Proc.devRef .tc (main_arg2 : Ref sig .tc) : DevRef τ sig) ≠ rO by decide) _ _
    have e3 : VR (Function.update Vv rO (Fs (8 : Fin 9) : Vec F S10000x128 .f32)) d main_arg3 = VR Vv d main_arg3 :=
      Function.update_of_ne (show (Proc.devRef .tc (main_arg3 : Ref sig .tc) : DevRef τ sig) ≠ rO by decide) _ _
    have e4 : VR (Function.update Vv rO (Fs (8 : Fin 9) : Vec F S10000x128 .f32)) d main_arg4 = VR Vv d main_arg4 :=
      Function.update_of_ne (show (Proc.devRef .tc (main_arg4 : Ref sig .tc) : DevRef τ sig) ≠ rO by decide) _ _
    have e5 : VR (Function.update Vv rO (Fs (8 : Fin 9) : Vec F S10000x128 .f32)) d main_arg5 = VR Vv d main_arg5 :=
      Function.update_of_ne (show (Proc.devRef .tc (main_arg5 : Ref sig .tc) : DevRef τ sig) ≠ rO by decide) _ _
    have e6 : VR (Function.update Vv rO (Fs (8 : Fin 9) : Vec F S10000x128 .f32)) d main_arg6 = VR Vv d main_arg6 :=
      Function.update_of_ne (show (Proc.devRef .tc (main_arg6 : Ref sig .tc) : DevRef τ sig) ≠ rO by decide) _ _
    have e7 : VR (Function.update Vv rO (Fs (8 : Fin 9) : Vec F S10000x128 .f32)) d main_arg8 = VR Vv d main_arg8 :=
      Function.update_of_ne (show (Proc.devRef .tc (main_arg8 : Ref sig .tc) : DevRef τ sig) ≠ rO by decide) _ _
    have e8 : VR (Function.update Vv rO (Fs (8 : Fin 9) : Vec F S10000x128 .f32)) d main_v0 = VR Vv d main_v0 :=
      Function.update_of_ne (show (Proc.devRef .tc (main_v0 : Ref sig .tc) : DevRef τ sig) ≠ rO by decide) _ _
    have hrest : (Pipeline.unscopedRest spec1 d (VR Vv d) : sProp 𝕄)
        = Pipeline.unscopedRest (cfgs 0).spec d (VR (Function.update Vv rO (Fs (8 : Fin 9) : Vec F S10000x128 .f32)) d) := by
      show (Pipeline.unscopedRest spec1 d (VR Vv d) : sProp 𝕄)
        = Pipeline.unscopedRest spec1 d (VR (Function.update Vv rO (Fs (8 : Fin 9) : Vec F S10000x128 .f32)) d)
      rw [unscopedRest1_eq, unscopedRest1_eq, e1, e2, e3, e4, e5, e6, e7, e8]
    iapply (Entails.of_eq hrest)
    iexact Hrest

end Cert.Kernel.Run

end
-- ==== Proof.WRegion.lean ====
/-
  The dense stage's run: the pipeline entered from the TensorCore's holdings after the call and the host operations,
  run by the pipeline rule on the relational proof data, and left with the result array written.
-/
import proofs.«212450_g60069412602311_cont_9to1_m_657_24_alg».proof.Proof.WRegionBody
import proofs.«212450_g60069412602311_cont_9to1_m_657_24_alg».proof.Proof.WRegionExit

noncomputable section

namespace Cert.Kernel.Run

open Cert.Kernel Cert.Kernel.Gen

open Idealize.ShloMosaic Idealize.ShloMosaic.ValueIdx
open Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (RDat Cfg Window cellOf kernel pipe)

variable {F : FTy → Type}

local notation "𝕄" => MT nD τ sig (SparseCore.Cfg.HIx 1) (Elt F) ℕ UU ℕ

open Idealize.ShloMosaic.Pipeline (unscopedRest)

omit F in
/-- The two spellings of an entailment agree. -/
theorem ent' {M : Type} [URA M] {P R : sProp M} (h : Idealize.SL.BI.Entails P R) : P ⊢ R := h

/-! ## The staging cells' ghost state -/

/-- The staging cells' launch element deals every device its cells' ghost state and its transfers' duty tokens. -/
theorem fund_region : FundRegion (F := F) := by
  unfold FundRegion Gd
  refine (Pipeline.fund_ghost cfgs (ER (F := F)) cellOf_inj).trans ?_
  iintro H
  imod H with ⟨Hg, Ht⟩
  imodintro
  rw [bigSep_sep']
  isplitl [Hg]
  · iapply (ent' (bigSep_mono (s := Finset.univ) fun d _ => BI.bigSep_elim (Φ := fun p : Fin 1 => Pipeline.cellsGhost cfgs (ER (F := F)) p d) (Finset.mem_univ (0 : Fin 1)))); iexact Hg
  · iapply (ent' (bigSep_mono (s := Finset.univ) fun d _ => BI.bigSep_elim (Φ := fun p : Fin 1 => (Pipeline.toksInit cfgs (ER (F := F)) p d : sProp 𝕄)) (Finset.mem_univ (0 : Fin 1)))); iexact Ht

variable [FloatOps F]

/-! ## The region's record -/

/-- The pipeline's tables: none. -/
abbrev adm : (p : Fin 1) → (pcfgs (F := F) p).Adm := fun p => (cfgs p).toPCfg_adm

/-- What the TensorCore owes around the stage: nothing, its recorded waits at levels the first call's round bounds. -/
abbrev Rr (d : Dev nD) : sProp 𝕄 :=
  iprop(∃ W, ⌜(K (F := F)).WBelow (T d) W 8⌝ ∗ owes (T d) (0 : CellTallies nD τ sig (SparseCore.Cfg.HIx 1)) W)

/-- The TensorCore's state after the stage: its unscoped arrays at the valuation with the result replaced, as the stage
    is claimed to leave it. -/
abbrev Tpost (Vv : Valuation τ sig (Elt F)) (d : Dev nD) : sProp 𝕄 :=
  iprop(∃ o : Vec F S10000x128 .f32,
    ⌜Cert.Kernel.Blk.RegionPost (F := F) (Vv rX) (Vv rS) (Vv rC) (Vv rW1x) (Vv rW1a) (Vv rB1) (Vv rW2) (Vv rB2) o⌝
    ∗ unscopedBufs d (VR (Function.update Vv rO o) d))

set_option backward.isDefEq.respectTransparency.types false in
/-- The region as the pipeline rule takes it: the decided layout, no semaphore of the body's own, the body obligation; entered
    from the unscoped arrays at the valuation and what the TensorCore owes — the nine staged arrays into the pipeline, the
    others bypassing —, left with the result array as the stage is claimed to leave it. -/
def reg (Vv : Valuation τ sig (Elt F)) :
    Pipeline.RDat.RegionSeg (pcfgs (F := F)) adm (rdats Vv) (none : SparseCore.Cfg.HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := body_obligation Vv c
  hwaits := Pipeline.RDat.hwaits_of_owed_zero _ _ _ _ _ _ 0 fun _ _ => rfl
  pre d := iprop(unscopedBufs d (VR Vv d) ∗ Rr d)
  post d := iprop(Tpost Vv d ∗ Rr d)
  X _ := iprop(emp)
  Y _ := iprop(emp)
  Z d := unscopedRest spec1 d (VR Vv d)
  hentry d := by
    beta_reduce
    have hsplit := Pipeline.RDat.arrays_of_unscopedBufs (pcfgs (F := F)) adm (rdats Vv) launch1.win launch1.arr_whole d
      ((rdats Vv 0 d).share_full fun _ => rfl) (VR Vv d) fun _ => rfl
    rw [Pipeline.ownSems0_none]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr
      · ipureintro; exact fun p hp => Or.inl (hW p hp)
      iexact HO
    isplitr; · iempintro
    iexact Hr
  hin d := by
    beta_reduce
    show _ ⊢ (iprop(emp) : sProp 𝕄)
    iintro -; iempintro
  hout d := by
    beta_reduce
    rw [Pipeline.ownSems0_none, scopedRest1_eq]
    iintro -; isplitr; · iempintro
    isplitr <;> iempintro
  hexit d := by
    beta_reduce
    iintro ⟨Ha, HO, -, HZ⟩
    imodintro
    isplitr [HO]
    · iapply (exit_arrays Vv d); isplitl [Ha] <;> iassumption
    · unfold Pipeline.RDat.owesAt Pipeline.owesWithin
      icases HO with ⟨%W, %hW, HO⟩; iexists W; isplitr
      · ipureintro
        intro p hp
        rcases hW hp with h | ⟨w, s, rfl⟩
        · exact h
        · exact Nat.zero_le _
      iexact HO

/-! ## The run -/

variable (m : (ℓ : Loc nD τ sig) → Buf (Elt F) ℓ)

set_option backward.isDefEq.respectTransparency.types false in
/-- The stage's run: the region's entry label, lifted to the whole program's body table, is the pipeline's region; the
    TensorCore owes nothing after the one call, so its staging cells' waits need no level evidence. -/
theorem region_run : RegionRun m := by
  intro κ d Vv Φ
  unfold RegionOut SparseCore.Cfg.tcSt
  rw [(K (F := F)).Otc_end d (le_refl 1)]
  iintro ⟨#Hctx, ⟨HO, Hrest⟩, HG, Hb, Hheld, Hk⟩
  ihave Hlev := (SparseCore.Cfg.ctx_levAts κ) $$ Hctx
  iapply ((K (F := F)).wp_liftProg (D (F := F)) 𝒱 (T d) Set.univ none (.op (.customCall (Pipeline.entry 0) ()) fun x => .ret x) Φ)
  have hwp := Pipeline.RDat.RegionSeg.wp (pcfgs (F := F)) adm (rdats Vv) (none : SparseCore.Cfg.HIx 1) cellOf_inj (ER (F := F)) defs₀ 𝒱₀
      (K (F := F)).L (K (F := F)).lev (reg Vv) d none (fun u h => nomatch h) (fun x => .ret x) Φ
  rw [show (reg Vv).post d = iprop(Tpost Vv d ∗ Rr d) from rfl, show (reg Vv).pre d = iprop(unscopedBufs d (VR Vv d) ∗ Rr d) from rfl] at hwp
  iapply hwp
  isplitl [Hk Hrest]
  · iintro ⟨Hb, ⟨%o, %ho, Hub⟩, HO⟩
    rw [wp_ret]
    imodintro
    iapply Hk
    isplitl [HO Hrest]
    · isplitl [HO]; · iexact HO
      iexact Hrest
    isplitl [Hb]; · iexact Hb
    iexists o
    isplitr; · ipureintro; exact ho
    iapply (Entails.of_eq (Pipeline.unscopedBufs_held d (Function.update Vv rO o)))
    iexact Hub
  isplitl [Hb]; · iexact Hb
  isplitl [Hheld HO]
  · isplitl [Hheld]
    · iapply (Entails.of_eq (Pipeline.unscopedBufs_held d Vv).symm); iexact Hheld
    · iexact HO
  isplitl [Hlev]; · iexact Hlev
  unfold Gd
  iexact HG

end Cert.Kernel.Run

end
-- ==== Proof.lean ====
/-
  The certificate's claim: a message-passing layer computed in two stages against its one-line reference.

  For node r the reference forms the mean of the attributes of the edges pointing at r (their sum over
  max (count, 1)) and returns x r + relu ([x r, mean r] · W1 + b1) · W2 + b2.  The kernel forms the sums and the counts
  on 32 tiles — tile (c, f) adds attribute f of the edges of half c into an accumulator, sixteen edges at a time, and
  counts the edges of the (2 f + c)-th of 32 consecutive ranges — and a dense stage, block by block of 2048 nodes, adds
  the halves' sums and all the tiles' counts, divides, and applies the two products.  At the exact instance both are
  one function of the arguments: a sum over all edges is the sum of its halves' sums, the count of all edges the sum
  of the ranges' counts, a product against [x r, mean r] the sum of the products against its two pieces, and
  (a + b) + c = a + (b + c); none of these needs the inputs finite.

  The three frames: the reference's from its run; the kernel's, at the word-level instance and at the exact one, from
  ONE run proved for any float instance — the tile's body at a symbolic tile, the dense stage's pipeline entered after
  the call, the call's four arrays dealt to the tiles and gathered back — read at each instance.
-/
import proofs.«212450_g60069412602311_cont_9to1_m_657_24_alg».proof.Proof.Gen.Kernel
import proofs.«212450_g60069412602311_cont_9to1_m_657_24_alg».proof.Defs
import proofs.«212450_g60069412602311_cont_9to1_m_657_24_alg».proof.Proof.Gen.KernelIdeal
import proofs.«212450_g60069412602311_cont_9to1_m_657_24_alg».proof.Proof.Gen.ReferenceIdeal
import proofs.«212450_g60069412602311_cont_9to1_m_657_24_alg».proof.Proof.Gen.Pre_input_domain
import proofs.«212450_g60069412602311_cont_9to1_m_657_24_alg».proof.Proof.ClaimsIdeal
import proofs.«212450_g60069412602311_cont_9to1_m_657_24_alg».proof.Proof.ClaimsWord
import proofs.«212450_g60069412602311_cont_9to1_m_657_24_alg».proof.Proof.RefValue
import proofs.«212450_g60069412602311_cont_9to1_m_657_24_alg».proof.Proof.TileBody
import proofs.«212450_g60069412602311_cont_9to1_m_657_24_alg».proof.Proof.WTileBody
import proofs.«212450_g60069412602311_cont_9to1_m_657_24_alg».proof.Proof.Region
import proofs.«212450_g60069412602311_cont_9to1_m_657_24_alg».proof.Proof.WRegion
import Idealize.ShloMosaic.Adequacy
import Idealize.ShloMosaic.Init

noncomputable section

namespace Cert.Proof

open Idealize.ShloMosaic Idealize.SL.Sem

/-- The idealized kernel's run rests on the tile's body, the dense stage's run and the staging cells' funding. -/
theorem partsIdeal [Cert.Pre_input_domain.Facts] : ClaimsIdeal.Parts :=
  ⟨fun m hpre d L O W hO => Cert.KernelIdeal.Run.tile_body m d L Cert.KernelIdeal.Run.facts hpre O W hO,
    fun m => Cert.KernelIdeal.Run.region_run m, Cert.KernelIdeal.Run.fund_region⟩

/-- The word-level kernel's run rests on the same three, read at the word-level instance. -/
theorem partsWord [Cert.Pre_input_domain.Facts] : ClaimsWord.Parts :=
  ⟨fun m hpre d L O W hO => Cert.Kernel.Run.tile_body m d L Cert.Kernel.Run.facts hpre O W hO,
    fun m => Cert.Kernel.Run.region_run m, Cert.Kernel.Run.fund_region⟩

theorem claim : Cert.Claim :=
  ⟨Cert.Kernel.Gen.facts, Cert.KernelIdeal.Gen.facts, Cert.ReferenceIdeal.Gen.facts, Cert.Pre_input_domain.Gen.facts,
    ClaimsWord.frame_k partsWord, ClaimsIdeal.frame_ki partsIdeal, RefValue.ref_frame, trivial, ClaimsIdeal.algebraic partsIdeal⟩

end Cert.Proof

end
